-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_v33 : IVec S_ 1) : IVec S_ 1 :=
  let main_v34 : IVec S1x800000 32 := (extractStridedSlice S1x800000 ![0, 0] · slices_S2x800000_S1x800000_0_0) main_arg1
  let main_v35 : IVec S800000 32 := shapeCast S800000 main_v34 shapeCasts_S1x800000_S800000
  let main_c_12 : IVec S_ 32 := constantI S_ 32 0#32
  let main_v36 : IVec S800000 32 := broadcastInDim S800000 ![] bcast_S_S800000 main_c_12
  let main_v37 : IVec S800000 1 := cmpi .sge main_v35 main_v36
  let main_v38 : IVec S1x800000 32 := (extractStridedSlice S1x800000 ![0, 0] · slices_S2x800000_S1x800000_0_0) main_arg1
  let main_v39 : IVec S800000 32 := shapeCast S800000 main_v38 shapeCasts_S1x800000_S800000
  let main_c_13 : IVec S_ 32 := constantI S_ 32 50000#32
  let main_v40 : IVec S800000 32 := broadcastInDim S800000 ![] bcast_S_S800000 main_c_13
  let main_v41 : IVec S800000 1 := cmpi .slt main_v39 main_v40
  let main_v42 : IVec S800000 1 := andi main_v37 main_v41
  let main_c_14 : IVec S_ 1 := constantI S_ 1 1#1
  let main_v43 : IVec S_ 1 := (fun x v => Host.reduce IntOp.andi x v reducesTo_S800000_S_d0 h_S_) main_v42 main_c_14
  let main_v44 : IVec S_ 1 := andi main_v33 main_v43
  main_v44

def fn_part1 {F : FTy → Type} [FloatOps F] (main_arg1 : IVec S2x800000 32) (main_arg6 : FVec F S128 .f32) (main_arg7 : FVec F S128x10 .f32) (main_arg8 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg7
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg1 main_v33

def fn {F : FTy → Type} [FloatOps F] (main_arg0 : FVec F S50000x64 .f32) (main_arg1 : IVec S2x800000 32) (main_arg2 : IVec S50000 32) (main_arg3 : FVec F S64x128 .f32) (main_arg4 : FVec F S128 .f32) (main_arg5 : FVec F S128x128 .f32) (main_arg6 : FVec F S128 .f32) (main_arg7 : FVec F S128x10 .f32) (main_arg8 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S944 : Shape := ⟨1, ![944]⟩
abbrev S850944 : Shape := ⟨1, ![850944]⟩
abbrev S850944x1 : Shape := ⟨2, ![850944, 1]⟩
abbrev S1x850944 : Shape := ⟨2, ![1, 850944]⟩
abbrev S50000x128 : Shape := ⟨2, ![50000, 128]⟩
abbrev S176x128 : Shape := ⟨2, ![176, 128]⟩
abbrev S50176x128 : Shape := ⟨2, ![50176, 128]⟩
abbrev S850944x128 : Shape := ⟨2, ![850944, 128]⟩
abbrev S1024x1 : Shape := ⟨2, ![1024, 1]⟩
abbrev S1024x128 : Shape := ⟨2, ![1024, 128]⟩
abbrev S1024x1024 : Shape := ⟨2, ![1024, 1024]⟩
abbrev S1x128 : Shape := ⟨2, ![1, 128]⟩
abbrev S1x1024 : Shape := ⟨2, ![1, 1024]⟩
abbrev S50000x1 : Shape := ⟨2, ![50000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 102
  | .vmem => 34
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x10, .f32⟩
  | .hbm, ⟨8, _⟩ => ⟨S10, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S_, .i32⟩
  | .hbm, ⟨53, _⟩ => ⟨S944, .i32⟩
  | .hbm, ⟨54, _⟩ => ⟨S850944, .i32⟩
  | .hbm, ⟨55, _⟩ => ⟨S_, .i32⟩
  | .hbm, ⟨56, _⟩ => ⟨S944, .i32⟩
  | .hbm, ⟨57, _⟩ => ⟨S850944, .i32⟩
  | .hbm, ⟨58, _⟩ => ⟨S_, .f32⟩
  | .hbm, ⟨59, _⟩ => ⟨S944, .f32⟩
  | .hbm, ⟨60, _⟩ => ⟨S850944, .f32⟩
  | .hbm, ⟨61, _⟩ => ⟨S850944x1, .i32⟩
  | .hbm, ⟨62, _⟩ => ⟨S850944x1, .f32⟩
  | .hbm, ⟨63, _⟩ => ⟨S1x850944, .i32⟩
  | .hbm, ⟨64, _⟩ => ⟨S50000x128, .f32⟩
  | .hbm, ⟨65, _⟩ => ⟨S_, .f32⟩
  | .hbm, ⟨66, _⟩ => ⟨S176x128, .f32⟩
  | .hbm, ⟨67, _⟩ => ⟨S50176x128, .f32⟩
  | .hbm, ⟨68, _⟩ => ⟨S50176x128, .bf16⟩
  | .hbm, ⟨69, _⟩ => ⟨S850944x128, .bf16⟩
  | .hbm, ⟨70, _⟩ => ⟨S1x128, .f32⟩
  | .hbm, ⟨71, _⟩ => ⟨S50176x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S176x128, .f32⟩
  | .hbm, ⟨76, _⟩ => ⟨S50176x128, .f32⟩
  | .hbm, ⟨77, _⟩ => ⟨S50176x128, .bf16⟩
  | .hbm, ⟨78, _⟩ => ⟨S850944x128, .bf16⟩
  | .hbm, ⟨79, _⟩ => ⟨S1x128, .f32⟩
  | .hbm, ⟨80, _⟩ => ⟨S50176x128, .f32⟩
  | .hbm, ⟨81, _⟩ => ⟨S50000x128, .f32⟩
  | .hbm, ⟨82, _⟩ => ⟨S_, .f32⟩
  | .hbm, ⟨83, _⟩ => ⟨S64x128, .f32⟩
  | .hbm, ⟨84, _⟩ => ⟨S50000x1, .i32⟩
  | .hbm, ⟨85, _⟩ => ⟨S64x128, .f32⟩
  | .hbm, ⟨86, _⟩ => ⟨S_, .f32⟩
  | .hbm, ⟨87, _⟩ => ⟨S50000, .f32⟩
  | .hbm, ⟨88, _⟩ => ⟨S_, .f32⟩
  | .hbm, ⟨89, _⟩ => ⟨S64, .f32⟩
  | .hbm, ⟨90, _⟩ => ⟨S50000x1, .i32⟩
  | .hbm, ⟨91, _⟩ => ⟨S64, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S64x1, .f32⟩
  | .hbm, ⟨96, _⟩ => ⟨S64x128, .f32⟩
  | .hbm, ⟨97, _⟩ => ⟨S64x128, .f32⟩
  | .hbm, ⟨98, _⟩ => ⟨S64x10, .f32⟩
  | .hbm, ⟨99, _⟩ => ⟨S1x10, .f32⟩
  | .hbm, ⟨100, _⟩ => ⟨S64x10, .f32⟩
  | .hbm, ⟨101, _⟩ => ⟨S64x10, .f32⟩
  | .local _ .vmem, ⟨0, _⟩ => ⟨S1024x1, .i32⟩
  | .local _ .vmem, ⟨1, _⟩ => ⟨S1024x1, .i32⟩
  | .local _ .vmem, ⟨2, _⟩ => ⟨S1024x1, .f32⟩
  | .local _ .vmem, ⟨3, _⟩ => ⟨S1024x1, .f32⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1x1024, .i32⟩
  | .local _ .vmem, ⟨10, _⟩ => ⟨S1x1024, .i32⟩
  | .local _ .vmem, ⟨11, _⟩ => ⟨S1024x128, .bf16⟩
  | .local _ .vmem, ⟨12, _⟩ => ⟨S1024x128, .bf16⟩
  | .local _ .vmem, ⟨13, _⟩ => ⟨S1x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x1, .i32⟩
  | .local _ .vmem, ⟨18, _⟩ => ⟨S1024x1, .i32⟩
  | .local _ .vmem, ⟨19, _⟩ => ⟨S1024x1, .f32⟩
  | .local _ .vmem, ⟨20, _⟩ => ⟨S1024x1, .f32⟩
  | .local _ .vmem, ⟨21, _⟩ => ⟨S1024x128, .bf16⟩
  | .local _ .vmem, ⟨22, _⟩ => ⟨S1024x128, .bf16⟩
  | .local _ .vmem, ⟨23, _⟩ => ⟨S1024x128, .bf16⟩
  | .local _ .vmem, ⟨24, _⟩ => ⟨S1024x128, .bf16⟩
  | .local _ .vmem, ⟨25, _⟩ => ⟨S1024x128, .f32⟩
  | .local _ .vmem, ⟨26, _⟩ => ⟨S1x1024, .i32⟩
  | .local _ .vmem, ⟨27, _⟩ => ⟨S1x1024, .i32⟩
  | .local _ .vmem, ⟨28, _⟩ => ⟨S1024x128, .bf16⟩
  | .local _ .vmem, ⟨29, _⟩ => ⟨S1024x128, .bf16⟩
  | .local _ .vmem, ⟨30, _⟩ => ⟨S1x128, .f32⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_cst_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_15 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_scratch0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc3_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨2, ![831, 49], ![false, false]⟩

def k0_cond2 (i : grid0.Coords) : BitVec 1 :=
  let arg1 : BitVec 32 := BitVec.ofNat 32 (i 1).val
  let c48_i32 : BitVec 32 := 48#32
  let v27 : BitVec 1 := Scalar.cmpi .eq arg1 c48_i32
  let v28 : BitVec 32 := Scalar.extui v27
  let c0_i32_10 : BitVec 32 := 0#32
  let v29 : BitVec 1 := Scalar.cmpi .ne v28 c0_i32_10
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![49, 831], ![false, false]⟩

def k1_cond2 (i : grid1.Coords) : BitVec 1 :=
  let arg1 : BitVec 32 := BitVec.ofNat 32 (i 1).val
  let c830_i32 : BitVec 32 := 830#32
  let v22 : BitVec 1 := Scalar.cmpi .eq arg1 c830_i32
  let v23 : BitVec 32 := Scalar.extui v22
  let c0_i32_8 : BitVec 32 := 0#32
  let v24 : BitVec 1 := Scalar.cmpi .ne v23 c0_i32_8
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![831, 49], ![false, false]⟩

def k2_cond2 (i : grid2.Coords) : BitVec 1 :=
  let arg1 : BitVec 32 := BitVec.ofNat 32 (i 1).val
  let c48_i32 : BitVec 32 := 48#32
  let v27 : BitVec 1 := Scalar.cmpi .eq arg1 c48_i32
  let v28 : BitVec 32 := Scalar.extui v27
  let c0_i32_10 : BitVec 32 := 0#32
  let v29 : BitVec 1 := Scalar.cmpi .ne v28 c0_i32_10
  v29

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![49, 831], ![false, false]⟩

def k3_cond2 (i : grid3.Coords) : BitVec 1 :=
  let arg1 : BitVec 32 := BitVec.ofNat 32 (i 1).val
  let c830_i32 : BitVec 32 := 830#32
  let v22 : BitVec 1 := Scalar.cmpi .eq arg1 c830_i32
  let v23 : BitVec 32 := Scalar.extui v22
  let c0_i32_8 : BitVec 32 := 0#32
  let v24 : BitVec 1 := Scalar.cmpi .ne v23 c0_i32_8
  v24

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x1024 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S944 : S_.BroadcastsInDim S944 (![] : Fin 0 → Fin S944.rank)
  concatenates_S850000_S944_S850944_d0 : Shape.Concatenates [S850000, S944] S850944 0
  shapeCasts_S850944_S850944x1 : S850944.ShapeCasts S850944x1
  shapeCasts_S850944_S1x850944 : S850944.ShapeCasts S1x850944
  bcast_S_S176x128 : S_.BroadcastsInDim S176x128 (![] : Fin 0 → Fin S176x128.rank)
  concatenates_S50000x128_S176x128_S50176x128_d0 : Shape.Concatenates [S50000x128, S176x128] S50176x128 0
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S1024x1024_d1_w32 : S1024x1024.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  natLt_1_32 : 1 < 32
  packedbf16_S1024x128_S1024x128_0_0 : (Rect.unit (s := S1024x128) ![0, 0] S1024x128.size inb_S1024x128_S1024x128_0_0).PackedRows (EltTy.packing .bf16)
  shapeCasts_S128_S1x128 : S128.ShapeCasts S1x128
  iota_S1024x1024_d0_w32 : S1024x1024.Iotas .tc 32 [0]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S50176x128_S50000x128_0_0 : S50176x128.Slices ![0, 0] S50000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x128_S50000x128_1_0_0_1_n_n_wf : DotDims.WF S50000x64 S64x128 S50000x128 [1] [0] [0] [1] [] []
  dot_S1024x1024_S1024x128_S1024x128_1_0_0_1_n_n_wf : DotDims.WF S1024x1024 S1024x128 S1024x128 [1] [0] [0] [1] [] []
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S850944x1.size a
  hwx0_0 : ∀ i : grid0.Coords, EltTy.bits .i32 = 32 ∨ (Rect.block (s := S850944x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S850944x1.size a
  hwx0_1 : ∀ i : grid0.Coords, EltTy.bits .f32 = 32 ∨ (Rect.block (s := S850944x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S50176x128.size a
  hwx0_2 : ∀ i : grid0.Coords, EltTy.bits .bf16 = 32 ∨ (Rect.block (s := S50176x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S850944x128.size a
  hwx0_3 : ∀ i : grid0.Coords, EltTy.bits .bf16 = 32 ∨ (Rect.block (s := S850944x128) S1024x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x850944.size a
  hwx1_0 : ∀ i : grid1.Coords, EltTy.bits .i32 = 32 ∨ (Rect.block (s := S1x850944) S1x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S850944x128.size a
  hwx1_1 : ∀ i : grid1.Coords, EltTy.bits .bf16 = 32 ∨ (Rect.block (s := S850944x128) S1024x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S50176x128.size a
  hwx1_3 : ∀ i : grid1.Coords, EltTy.bits .f32 = 32 ∨ (Rect.block (s := S50176x128) S1024x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1.size a ≤ S850944x1.size a
  hwx2_0 : ∀ i : grid2.Coords, EltTy.bits .i32 = 32 ∨ (Rect.block (s := S850944x1) S1024x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S850944x1.size a
  hwx2_1 : ∀ i : grid2.Coords, EltTy.bits .f32 = 32 ∨ (Rect.block (s := S850944x1) S1024x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S50176x128.size a
  hwx2_2 : ∀ i : grid2.Coords, EltTy.bits .bf16 = 32 ∨ (Rect.block (s := S50176x128) S1024x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S850944x128.size a
  hwx2_3 : ∀ i : grid2.Coords, EltTy.bits .bf16 = 32 ∨ (Rect.block (s := S850944x128) S1024x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024.size a ≤ S1x850944.size a
  hwx3_0 : ∀ i : grid3.Coords, EltTy.bits .i32 = 32 ∨ (Rect.block (s := S1x850944) S1x1024.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S850944x128.size a
  hwx3_1 : ∀ i : grid3.Coords, EltTy.bits .bf16 = 32 ∨ (Rect.block (s := S850944x128) S1024x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x128.size a ≤ S50176x128.size a
  hwx3_3 : ∀ i : grid3.Coords, EltTy.bits .f32 = 32 ∨ (Rect.block (s := S50176x128) S1024x128.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v38) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v40) S1x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v38) S1024x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1024x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v40) S1x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1024x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x1 : Shape := ⟨2, ![50000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 137
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x128, .f32⟩
  | 4 => ⟨S128, .f32⟩
  | 5 => ⟨S128x128, .f32⟩
  | 6 => ⟨S128, .f32⟩
  | 7 => ⟨S128x10, .f32⟩
  | 8 => ⟨S10, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S50000x128, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000, .f32⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S850000, .f32⟩
  | 94 => ⟨S850000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000x128, .f32⟩
  | 104 => ⟨S850000x1, .f32⟩
  | 105 => ⟨S850000x128, .f32⟩
  | 106 => ⟨S850000x128, .f32⟩
  | 107 => ⟨S_, .f32⟩
  | 108 => ⟨S50000x128, .f32⟩
  | 109 => ⟨S850000x1, .i32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S_, .f32⟩
  | 118 => ⟨S64x128, .f32⟩
  | 119 => ⟨S50000x1, .i32⟩
  | 120 => ⟨S64x128, .f32⟩
  | 121 => ⟨S_, .f32⟩
  | 122 => ⟨S50000, .f32⟩
  | 123 => ⟨S_, .f32⟩
  | 124 => ⟨S64, .f32⟩
  | 125 => ⟨S50000x1, .i32⟩
  | 126 => ⟨S64, .f32⟩
  | 127 => ⟨S_, .f32⟩
  | _ => ⟨S50000x64, .f32⟩

abbrev hbmTy0_1 (i : Nat) : BufTy := match i % 128 with
  | 0 => ⟨S64, .f32⟩
  | 1 => ⟨S64, .f32⟩
  | 2 => ⟨S64x1, .f32⟩
  | 3 => ⟨S64x128, .f32⟩
  | 4 => ⟨S64x128, .f32⟩
  | 5 => ⟨S64x10, .f32⟩
  | 6 => ⟨S1x10, .f32⟩
  | 7 => ⟨S64x10, .f32⟩
  | 8 => ⟨S64x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_call2_cst : Ref sig .tc := ⟨.hbm, 114, rfl⟩
abbrev main_call2_v0 : Ref sig .tc := ⟨.hbm, 115, rfl⟩
abbrev main_v82 : Ref sig .tc := ⟨.hbm, 116, rfl⟩
abbrev main_cst_17 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_18 : Ref sig .tc := ⟨.hbm, 121, rfl⟩
abbrev main_v86 : Ref sig .tc := ⟨.hbm, 122, rfl⟩
abbrev main_cst_19 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_20 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S850000x1_S850000_n_0_0_1_wf : ScatterDims.WF S50000 S850000x1 S850000 [] [0] [0] 1
  dot_S50000x64_S64x128_S50000x128_1_0_0_1_n_n_wf : DotDims.WF S50000x64 S64x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KB.R0Base.lean ====
/-
  The gather call (pipeline 0), what its three control cases share. A point is "first" when its node-block
  coordinate (the grid's second axis) is 0 — the accumulator is zeroed before the one-hot product is added —
  and "last" when it is 48 — the accumulator is written to the output block. Point `t` has that
  coordinate equal to `t mod 49`.
-/
import proofs.«179232_j88021059764774_1_alg».proof.Proof.Gen.Kernel.Launch
import proofs.«179232_j88021059764774_1_alg».proof.Proof.Gen.Kernel.Skeleton
import Idealize.ShloMosaic.Lib.Pipeline.Kit
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point's coordinates: the second is `t mod 49`, the first `t / 49` (the second axis runs fastest). -/
theorem coord0_1 (t : Fin cfg0.N) : ((grid0.coords t) 1).val = t.val % 49 := by
  show t.val / grid0.stride 1 % 49 = _
  rw [show grid0.stride 1 = 1 from by decide, Nat.div_one]
theorem coord0_0 (t : Fin cfg0.N) : ((grid0.coords t) 0).val = t.val / 49 % 831 := by
  show t.val / grid0.stride 0 % 831 = _
  rw [show grid0.stride 0 = 49 from by decide]

/-- "The second coordinate is 0": the accumulator is zeroed first. -/
abbrev cond0_0 (i : grid0.Coords) : Prop := (Scalar.cmpi .ne (Scalar.extui (Scalar.cmpi .eq (BitVec.ofNat 32 (i 1).val) 0#32)) 0#32) = 1#1
theorem key0_0 : ∀ x : Fin 49, ((Scalar.cmpi .ne (Scalar.extui (Scalar.cmpi .eq (BitVec.ofNat 32 x.val) 0#32)) 0#32) = 1#1) ↔ x.val = 0 := by decide +kernel
theorem hcond0_0 (t : Fin cfg0.N) : cond0_0 (grid0.coords t) ↔ t.val % 49 = 0 :=
  (key0_0 ((grid0.coords t) 1)).trans (by rw [coord0_1 t])

/-- "The second coordinate is 48": the accumulator goes to the output block. -/
abbrev cond0_1 (i : grid0.Coords) : Prop := k0_cond2 i = 1#1
theorem key0_1 : ∀ x : Fin 49, ((Scalar.cmpi .ne (Scalar.extui (Scalar.cmpi .eq (BitVec.ofNat 32 x.val) 48#32)) 0#32) = 1#1) ↔ x.val = 48 := by decide +kernel
theorem hcond0_1 (t : Fin cfg0.N) : cond0_1 (grid0.coords t) ↔ t.val % 49 = 48 :=
  (key0_1 ((grid0.coords t) 1)).trans (by rw [coord0_1 t])

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Away from the last block of a row nothing is stored into the output block: idle by the configuration's table, -/
theorem idleAt0_3 (t : Fin cfg0.N) (h : ¬cond0_1 (grid0.coords t)) : cfg0.idle 3 (grid0.coords t) = true := by
  show (!(k0_cond2 (grid0.coords t) == 1#1)) = true
  simpa using h
/-- and the block is not written back there; -/
theorem noFlush0_3 (t : Fin cfg0.N) (hc : ¬cond0_1 (grid0.coords t)) : (cfg0.win 3).flush t = false := by
  have h : ¬ t.val % 49 = 48 := fun e => hc ((hcond0_1 t).mpr e)
  have hN : t.val < 40719 := lt_of_lt_of_eq t.isLt (show cfg0.N = 40719 from N_0)
  have h1 : t.val + 1 < grid0.N := by rw [N_0]; omega
  show (win0_3.isOut && (decide (t.val + 1 = grid0.N) || decide (∃ h : t.val + 1 < grid0.N, win0_3.index ⟨t.val + 1, h⟩ ≠ win0_3.index t))) = false
  have e : win0_3.index ⟨t.val + 1, h1⟩ = win0_3.index t := by
    show cc0_transform_3 (grid0.coords ⟨t.val + 1, h1⟩) = cc0_transform_3 (grid0.coords t)
    unfold cc0_transform_3
    have : ((grid0.coords ⟨t.val + 1, h1⟩) 0).val = ((grid0.coords t) 0).val := by
      rw [coord0_0, coord0_0]; show (t.val + 1) / 49 % 831 = t.val / 49 % 831; omega
    simp only [this]
  have hne : ¬ (t.val + 1 = grid0.N) := by rw [N_0]; omega
  simp only [hne, decide_false, Bool.false_or, Bool.and_eq_false_imp, decide_eq_false_iff_not]
  intro _ ⟨h', hh⟩
  exact hh e
/-- at the last block it is stored. -/
theorem liveAt0_3 (t : Fin cfg0.N) (h : cond0_1 (grid0.coords t)) : cfg0.idle 3 (grid0.coords t) = false := by
  show (!(k0_cond2 (grid0.coords t) == 1#1)) = false
  simpa using h

/-- The body as the pipeline calls it at point `t`: on the windows' current buffers and the accumulator. -/
abbrev bodyAtR0 (t : Fin cfg0.N) : Prog (TpuEff nD τ sig (Elt F) Λ₀ .tc) PUnit :=
  cc0__gather_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)

abbrev VO0_3 : View sig .tc .vmem S1024x128 .bf16 := (Memref.whole cc0_stg3_0 : Memref sig .tc .vmem S1024x128 .bf16).view
abbrev ms0_0 (t : Fin cfg0.N) : Memref sig .tc .vmem S1024x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
/-- The accumulator: a whole scoped buffer of the call's own. -/
abbrev scM0_0 : Memref sig .tc .vmem S1024x128 .f32 := Memref.whole cc0_scratch0
abbrev VS0_0 : View sig .tc .vmem S1024x128 .f32 := scM0_0.view

end Cert.Kernel.Gen

end
-- ==== Proof.KB.R0RunA.lean ====
/-
  The gather body at the first block of a row (coordinate 0, not 48): the accumulator, found at anything, is zeroed and then receives the one-hot product of this block; the output block's buffer is not touched.
-/
import proofs.«179232_j88021059764774_1_alg».proof.Proof.KB.R0Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (hc0 : cond0_0 i) (hc1 : ¬cond0_1 i)
    (x0 : Vec F S1024x1 .i32) (x1 : Vec F S1024x1 .f32) (x2 : Vec F S1024x128 .bf16) :
    Σ' (L3 : List (View.Piece (Elt F) S1024x128 .bf16)), { LS0 : List (View.Piece (Elt F) S1024x128 .f32) //
      ∀ (xi3 : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨[], ?_, fun xi3 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KB.R0RunB.lean ====
/-
  The gather body away from both ends of a row of blocks (coordinate neither 0 nor 48): the accumulator, found at what the point before left, receives the one-hot product of this block; the output block's buffer is not touched.
-/
import proofs.«179232_j88021059764774_1_alg».proof.Proof.KB.R0RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (hc0 : ¬cond0_0 i) (hc1 : ¬cond0_1 i)
    (x0 : Vec F S1024x1 .i32) (x1 : Vec F S1024x1 .f32) (x2 : Vec F S1024x128 .bf16) (xs0 : Vec F S1024x128 .f32) :
    Σ' (L3 : List (View.Piece (Elt F) S1024x128 .bf16)), { LS0 : List (View.Piece (Elt F) S1024x128 .f32) //
      ∀ (xi3 : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨[], ?_, fun xi3 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KB.R0RunC.lean ====
/-
  The gather body at the last block of a row (coordinate 48, not 0): the accumulator receives the last one-hot product and is then written, in the output's format, over the whole output block.
-/
import proofs.«179232_j88021059764774_1_alg».proof.Proof.KB.R0RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (hc0 : ¬cond0_0 i) (hc1 : cond0_1 i)
    (x0 : Vec F S1024x1 .i32) (x1 : Vec F S1024x1 .f32) (x2 : Vec F S1024x128 .bf16) (xs0 : Vec F S1024x128 .f32) :
    Σ' (L3 : List (View.Piece (Elt F) S1024x128 .bf16)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.Kernel.Gen

end
-- ==== Proof.KB.R0Dat.lean ====
/-
  The gather call's proof data. After point `t` the accumulator holds the sum, over the blocks of the current
  row met so far, of the one-hot products (the run of the point's case, started from zero at the first block of
  the row and from what the point before left otherwise); the output block's buffer holds the finished row
  after the last block of a row and is not touched elsewhere. Both are defined by recursion on the point,
  through the pieces each case's run found.
-/
import proofs.«179232_j88021059764774_1_alg».proof.Proof.KB.R0RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev runA0 (c : Dev nD) (t : Fin cfg0.N) (h0 : cond0_0 (grid0.coords t)) (h1 : ¬cond0_1 (grid0.coords t)) :=
  kernelRun0_A (F := F) c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t)
abbrev runB0 (c : Dev nD) (t : Fin cfg0.N) (h0 : ¬cond0_0 (grid0.coords t)) (h1 : ¬cond0_1 (grid0.coords t)) (xs0 : Vec F S1024x128 .f32) :=
  kernelRun0_B (F := F) c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) xs0
abbrev runC0 (c : Dev nD) (t : Fin cfg0.N) (h0 : ¬cond0_0 (grid0.coords t)) (h1 : cond0_1 (grid0.coords t)) (xs0 : Vec F S1024x128 .f32) :=
  kernelRun0_C (F := F) c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) xs0

/-- What a list of pieces leaves in the accumulator, read back. -/
abbrev sRead0 (L : List (View.Piece (Elt F) S1024x128 .f32)) : Vec F S1024x128 .f32 :=
  VS0_0.read (Elt F) (VS0_0.writes (Elt F) VS0_0.junk L)
/-- What a list of pieces leaves in the output block's buffer, read back. -/
abbrev oRead0 (L : List (View.Piece (Elt F) S1024x128 .bf16)) : Vec F S1024x128 .bf16 :=
  VO0_3.read (Elt F) (VO0_3.writes (Elt F) VO0_3.junk L)

/-- Each case's pieces for the accumulator tile it. -/
theorem scover0_A (c : Dev nD) (t : Fin cfg0.N) (h0 h1) (y : S1024x128.Idx) : ∃ pc ∈ (runA0 V c t h0 h1).2.1, y ∈ pc.1.set :=
  View.cover_of_tiledL (runA0 V c t h0 h1).2.1 S1024x128.size (by sl_kernel_rfl) y
theorem scover0_B (c : Dev nD) (t : Fin cfg0.N) (h0 h1) (xs0) (y : S1024x128.Idx) : ∃ pc ∈ (runB0 V c t h0 h1 xs0).2.1, y ∈ pc.1.set :=
  View.cover_of_tiledL (runB0 V c t h0 h1 xs0).2.1 S1024x128.size (by sl_kernel_rfl) y
theorem scover0_C (c : Dev nD) (t : Fin cfg0.N) (h0 h1) (xs0) (y : S1024x128.Idx) : ∃ pc ∈ (runC0 V c t h0 h1 xs0).2.1, y ∈ pc.1.set :=
  View.cover_of_tiledL (runC0 V c t h0 h1 xs0).2.1 S1024x128.size (by sl_kernel_rfl) y
/-- The last case's pieces for the output block tile it. -/
theorem cover0_C (c : Dev nD) (t : Fin cfg0.N) (h0 h1) (xs0) (y : S1024x128.Idx) : ∃ pc ∈ (runC0 V c t h0 h1 xs0).1, y ∈ pc.1.set :=
  View.cover_of_tiledL (runC0 V c t h0 h1 xs0).1 S1024x128.size (by sl_kernel_rfl) y

/-- After the body at position `n`: (the output block's buffer, the accumulator). Where the output is idle the
    first component is a placeholder nothing reads. -/
def outsAt0 (c : Dev nD) : (n : ℕ) → n < cfg0.N → Vec F S1024x128 .bf16 × Vec F S1024x128 .f32
  | 0, hn =>
    have h0 : cond0_0 (grid0.coords ⟨0, hn⟩) := (hcond0_0 ⟨0, hn⟩).mpr (Nat.zero_mod _)
    have h1 : ¬cond0_1 (grid0.coords ⟨0, hn⟩) := fun h => absurd ((hcond0_1 ⟨0, hn⟩).mp h) (by show ¬ (0 % 49 = 48); decide)
    (oRead0 (runA0 V c ⟨0, hn⟩ h0 h1).1, sRead0 (runA0 V c ⟨0, hn⟩ h0 h1).2.1)
  | n + 1, hn =>
    if h0 : (n + 1) % 49 = 0 then
      if h1 : (n + 1) % 49 = 48 then False.elim (by omega)
      else
        (oRead0 (runA0 V c ⟨n + 1, hn⟩ ((hcond0_0 ⟨n + 1, hn⟩).mpr h0) (fun h => h1 ((hcond0_1 ⟨n + 1, hn⟩).mp h))).1,
         sRead0 (runA0 V c ⟨n + 1, hn⟩ ((hcond0_0 ⟨n + 1, hn⟩).mpr h0) (fun h => h1 ((hcond0_1 ⟨n + 1, hn⟩).mp h))).2.1)
    else
      if h1 : (n + 1) % 49 = 48 then
        (oRead0 (runC0 V c ⟨n + 1, hn⟩ (fun h => h0 ((hcond0_0 ⟨n + 1, hn⟩).mp h)) ((hcond0_1 ⟨n + 1, hn⟩).mpr h1) (outsAt0 c n (Nat.lt_of_succ_lt hn)).2).1,
         sRead0 (runC0 V c ⟨n + 1, hn⟩ (fun h => h0 ((hcond0_0 ⟨n + 1, hn⟩).mp h)) ((hcond0_1 ⟨n + 1, hn⟩).mpr h1) (outsAt0 c n (Nat.lt_of_succ_lt hn)).2).2.1)
      else
        (oRead0 (runB0 V c ⟨n + 1, hn⟩ (fun h => h0 ((hcond0_0 ⟨n + 1, hn⟩).mp h)) (fun h => h1 ((hcond0_1 ⟨n + 1, hn⟩).mp h)) (outsAt0 c n (Nat.lt_of_succ_lt hn)).2).1,
         sRead0 (runB0 V c ⟨n + 1, hn⟩ (fun h => h0 ((hcond0_0 ⟨n + 1, hn⟩).mp h)) (fun h => h1 ((hcond0_1 ⟨n + 1, hn⟩).mp h)) (outsAt0 c n (Nat.lt_of_succ_lt hn)).2).2.1)

/-- The accumulator a point that is not the first of its row starts from. -/
abbrev prevAcc0 (c : Dev nD) (t : Fin cfg0.N) : Vec F S1024x128 .f32 :=
  (outsAt0 V c (t.val - 1) (Nat.lt_of_le_of_lt (Nat.sub_le _ _) t.isLt)).2

theorem outsAt0_A (c : Dev nD) (t : Fin cfg0.N) (h0 : t.val % 49 = 0) (h1 : ¬t.val % 49 = 48) :
    outsAt0 V c t.val t.isLt = (oRead0 (runA0 V c t ((hcond0_0 t).mpr h0) (fun h => h1 ((hcond0_1 t).mp h))).1,
      sRead0 (runA0 V c t ((hcond0_0 t).mpr h0) (fun h => h1 ((hcond0_1 t).mp h))).2.1) := by
  obtain ⟨n, hn⟩ := t
  cases n with
  | zero => exact rfl
  | succ n => exact (dif_pos h0).trans ((dif_neg h1).trans rfl)

theorem outsAt0_B (c : Dev nD) (t : Fin cfg0.N) (h0 : ¬t.val % 49 = 0) (h1 : ¬t.val % 49 = 48) :
    outsAt0 V c t.val t.isLt = (oRead0 (runB0 V c t (fun h => h0 ((hcond0_0 t).mp h)) (fun h => h1 ((hcond0_1 t).mp h)) (prevAcc0 V c t)).1,
      sRead0 (runB0 V c t (fun h => h0 ((hcond0_0 t).mp h)) (fun h => h1 ((hcond0_1 t).mp h)) (prevAcc0 V c t)).2.1) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 49 = 0) (h1 : t.val % 49 = 48) :
    outsAt0 V c t.val t.isLt = (oRead0 (runC0 V c t (fun h => h0 ((hcond0_0 t).mp h)) ((hcond0_1 t).mpr h1) (prevAcc0 V c t)).1,
      sRead0 (runC0 V c t (fun h => h0 ((hcond0_0 t).mp h)) ((hcond0_1 t).mpr h1) (prevAcc0 V c t)).2.1) := by
  obtain ⟨n, hn⟩ := t
  cases n with
  | zero => exact absurd (Nat.zero_mod _) h0
  | succ n => exact (dif_neg h0).trans ((dif_pos h1).trans rfl)

/-- Every scoped buffer but the accumulator, untouched by the call. -/
abbrev restBut0 (c : Dev nD) : sProp 𝕄 :=
  Pipeline.scopedRestBut (Ix := Unit) (Name := ℕ) (U := UR sig nD τ) (Lvl := ℕ) (Val := Elt F) spec0 c [cc0_scratch0]

/-- Before position `n`: the accumulator at anything before the first point, afterwards at what the point before
    left in it; beside it the other scoped buffers. -/
def PhiS0 (c : Dev nD) : (n : ℕ) → n ≤ cfg0.N → sProp 𝕄
  | 0, _ => iprop((∃ d, owns (c : Thread nD τ) scM0_0 fullShare d) ∗ restBut0 (F := F) c)
  | n + 1, hn => iprop(owns (c : Thread nD τ) scM0_0 fullShare ((outsAt0 V c n hn).2) ∗ restBut0 (F := F) c)

theorem PhiS0_zero (c : Dev nD) (n : ℕ) (h : n ≤ cfg0.N) (hz : n = 0) :
    PhiS0 V c n h = iprop((∃ d, owns (c : Thread nD τ) scM0_0 fullShare d) ∗ restBut0 (F := F) c) := by
  subst hz; rfl
theorem PhiS0_succ (c : Dev nD) (n : ℕ) (hn : n < cfg0.N) :
    PhiS0 V c (n + 1) hn = iprop(owns (c : Thread nD τ) scM0_0 fullShare ((outsAt0 V c n hn).2) ∗ restBut0 (F := F) c) := rfl
theorem PhiS0_pos (c : Dev nD) (n : ℕ) (h : n ≤ cfg0.N) (hz : n ≠ 0) :
    PhiS0 V c n h = iprop(owns (c : Thread nD τ) scM0_0 fullShare ((outsAt0 V c (n - 1) (by omega)).2) ∗ restBut0 (F := F) c) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.Gen

end
-- ==== Proof.KB.R0Body.lean ====
/-
  The gather call's body obligation: at every point the body, called with the windows' current buffers and the
  accumulator, runs from the invariant before the point to the invariant after it. The point's case is decided
  by its second grid coordinate (`t mod 49`); the case's run does the rest.
-/
import proofs.«179232_j88021059764774_1_alg».proof.Proof.KB.R0Dat

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAtR0 t) (fun _ => bodyPost0 V c t) := by
  unfold bodyPre0 bodyPost0 bodyAtR0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 40719 := lt_of_lt_of_eq t.isLt (show cfg0.N = 40719 from N_0)
  by_cases h0 : t.val % 49 = 0
  · by_cases h1 : t.val % 49 = 48
    · exfalso; omega
    · rw [Dat.leavesExact_idle (dat0 V c) 3 t (idleAt0_3 t (fun h => h1 ((hcond0_1 t).mp h))) (noFlush0_3 t (fun h => h1 ((hcond0_1 t).mp h)))]
      rw [outsAt0_A V c t h0 h1]
      (try dsimp only)
      have hpre : (dat0 V c).Φ t.castSucc ⊢ iprop((∃ d, owns (c : Thread nD τ) scM0_0 fullShare d) ∗ restBut0 (F := F) c) := by
        rw [PhiS0_castSucc V c t]
        by_cases hz : t.val = 0
        · rw [PhiS0_zero V c _ _ hz]
        · rw [PhiS0_pos V c _ _ hz]
          iintro ⟨HS0, Hr⟩
          isplitl [HS0]; · iexists _; iexact HS0
          iexact Hr
      iintro ⟨HΦ, Ho, ⟨%d0, H0⟩, ⟨%d1, H1⟩, ⟨%d2, H2⟩, ⟨%d3, H3⟩⟩
      ihave HΦ' := hpre $$ HΦ
      icases HΦ' with ⟨HS0, Hr⟩
      iapply ((runA0 V c t ((hcond0_0 t).mpr h0) (fun h => h1 ((hcond0_1 t).mp h))).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover0_A V c t _ _)
        iexact Hr
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 49 = 48
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      (try dsimp only)
      rw [PhiS0_castSucc V c t, PhiS0_pos V c _ _ hz]
      iintro ⟨⟨HS0, Hr⟩, Ho, ⟨%d0, H0⟩, ⟨%d1, H1⟩, ⟨%d2, H2⟩, ⟨%d3, H3⟩⟩
      iapply ((runC0 V c t (fun h => h0 ((hcond0_0 t).mp h)) ((hcond0_1 t).mpr h1) (prevAcc0 V c t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr]
      · isplitl [HS0]
        · unfold owns; iexists _; isplitr
          swap; · iexact HS0
          ipureintro; exact View.read_writes_of_cover _ _ _ _ _ (scover0_C V c t _ _ _)
        iexact Hr
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C V c t _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      (try dsimp only)
      rw [PhiS0_castSucc V c t, PhiS0_pos V c _ _ hz]
      iintro ⟨⟨HS0, Hr⟩, Ho, ⟨%d0, H0⟩, ⟨%d1, H1⟩, ⟨%d2, H2⟩, ⟨%d3, H3⟩⟩
      iapply ((runB0 V c t (fun h => h0 ((hcond0_0 t).mp h)) (fun h => h1 ((hcond0_1 t).mp h)) (prevAcc0 V c t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover0_B V c t _ _ _)
        iexact Hr
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the call (the scoped buffers no window stages) is the invariant before the first point. -/
theorem hin0 (c : Dev nD) :
    (Pipeline.scopedRest (Ix := Unit) (Name := ℕ) (U := UR sig nD τ) (Lvl := ℕ) (Val := Elt F) spec0 c : sProp 𝕄) ⊢ (dat0 V c).Φ 0 := by
  rw [show (dat0 V c).Φ 0 = PhiS0 V c 0 (Nat.zero_le _) from rfl, PhiS0_zero V c 0 _ rfl, scopedRest0_split]
  simp only [scM0_0, owns_whole]
  exact Idealize.SL.BI.Entails.refl _

/-- After the last point the invariant gives those buffers back, the accumulator's contents forgotten. -/
theorem hout0 (c : Dev nD) :
    (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 40719 := N_0; omega), scopedRest0_split]
  iintro ⟨HS0, Hr⟩
  isplitl [HS0]
  · simp only [scM0_0, owns_whole]; iexists _; iexact HS0
  iexact Hr

end Cert.Kernel.Gen

end
-- ==== Proof.KB.R1Base.lean ====
/-
  The scatter call (pipeline 1), what its three control cases share. A point is "first" when its edge-block
  coordinate (the grid's second axis) is 0 — the accumulator is zeroed before the one-hot product is added —
  and "last" when it is 830 — the accumulator is written to the output block. Point `t` has that
  coordinate equal to `t mod 831`.
-/
import proofs.«179232_j88021059764774_1_alg».proof.Proof.Gen.Kernel.Launch
import proofs.«179232_j88021059764774_1_alg».proof.Proof.Gen.Kernel.Skeleton
import Idealize.ShloMosaic.Lib.Pipeline.Kit
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point's coordinates: the second is `t mod 831`, the first `t / 831` (the second axis runs fastest). -/
theorem coord1_1 (t : Fin cfg1.N) : ((grid1.coords t) 1).val = t.val % 831 := by
  show t.val / grid1.stride 1 % 831 = _
  rw [show grid1.stride 1 = 1 from by decide, Nat.div_one]
theorem coord1_0 (t : Fin cfg1.N) : ((grid1.coords t) 0).val = t.val / 831 % 49 := by
  show t.val / grid1.stride 0 % 49 = _
  rw [show grid1.stride 0 = 831 from by decide]

/-- "The second coordinate is 0": the accumulator is zeroed first. -/
abbrev cond1_0 (i : grid1.Coords) : Prop := (Scalar.cmpi .ne (Scalar.extui (Scalar.cmpi .eq (BitVec.ofNat 32 (i 1).val) 0#32)) 0#32) = 1#1
theorem key1_0 : ∀ x : Fin 831, ((Scalar.cmpi .ne (Scalar.extui (Scalar.cmpi .eq (BitVec.ofNat 32 x.val) 0#32)) 0#32) = 1#1) ↔ x.val = 0 := by decide +kernel
theorem hcond1_0 (t : Fin cfg1.N) : cond1_0 (grid1.coords t) ↔ t.val % 831 = 0 :=
  (key1_0 ((grid1.coords t) 1)).trans (by rw [coord1_1 t])

/-- "The second coordinate is 830": the accumulator goes to the output block. -/
abbrev cond1_1 (i : grid1.Coords) : Prop := k1_cond2 i = 1#1
theorem key1_1 : ∀ x : Fin 831, ((Scalar.cmpi .ne (Scalar.extui (Scalar.cmpi .eq (BitVec.ofNat 32 x.val) 830#32)) 0#32) = 1#1) ↔ x.val = 830 := by decide +kernel
theorem hcond1_1 (t : Fin cfg1.N) : cond1_1 (grid1.coords t) ↔ t.val % 831 = 830 :=
  (key1_1 ((grid1.coords t) 1)).trans (by rw [coord1_1 t])

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Away from the last block of a row nothing is stored into the output block: idle by the configuration's table, -/
theorem idleAt1_3 (t : Fin cfg1.N) (h : ¬cond1_1 (grid1.coords t)) : cfg1.idle 3 (grid1.coords t) = true := by
  show (!(k1_cond2 (grid1.coords t) == 1#1)) = true
  simpa using h
/-- and the block is not written back there; -/
theorem noFlush1_3 (t : Fin cfg1.N) (hc : ¬cond1_1 (grid1.coords t)) : (cfg1.win 3).flush t = false := by
  have h : ¬ t.val % 831 = 830 := fun e => hc ((hcond1_1 t).mpr e)
  have hN : t.val < 40719 := lt_of_lt_of_eq t.isLt (show cfg1.N = 40719 from N_1)
  have h1 : t.val + 1 < grid1.N := by rw [N_1]; omega
  show (win1_3.isOut && (decide (t.val + 1 = grid1.N) || decide (∃ h : t.val + 1 < grid1.N, win1_3.index ⟨t.val + 1, h⟩ ≠ win1_3.index t))) = false
  have e : win1_3.index ⟨t.val + 1, h1⟩ = win1_3.index t := by
    show cc1_transform_3 (grid1.coords ⟨t.val + 1, h1⟩) = cc1_transform_3 (grid1.coords t)
    unfold cc1_transform_3
    have : ((grid1.coords ⟨t.val + 1, h1⟩) 0).val = ((grid1.coords t) 0).val := by
      rw [coord1_0, coord1_0]; show (t.val + 1) / 831 % 49 = t.val / 831 % 49; omega
    simp only [this]
  have hne : ¬ (t.val + 1 = grid1.N) := by rw [N_1]; omega
  simp only [hne, decide_false, Bool.false_or, Bool.and_eq_false_imp, decide_eq_false_iff_not]
  intro _ ⟨h', hh⟩
  exact hh e
/-- at the last block it is stored. -/
theorem liveAt1_3 (t : Fin cfg1.N) (h : cond1_1 (grid1.coords t)) : cfg1.idle 3 (grid1.coords t) = false := by
  show (!(k1_cond2 (grid1.coords t) == 1#1)) = false
  simpa using h

/-- The body as the pipeline calls it at point `t`: on the windows' current buffers and the accumulator. -/
abbrev bodyAtR1 (t : Fin cfg1.N) : Prog (TpuEff nD τ sig (Elt F) Λ₀ .tc) PUnit :=
  cc1__scatter_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)

abbrev VO1_3 : View sig .tc .vmem S1024x128 .f32 := (Memref.whole cc1_stg3_0 : Memref sig .tc .vmem S1024x128 .f32).view
abbrev ms1_0 (t : Fin cfg1.N) : Memref sig .tc .vmem S1x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The accumulator: a whole scoped buffer of the call's own. -/
abbrev scM1_0 : Memref sig .tc .vmem S1024x128 .f32 := Memref.whole cc1_scratch0
abbrev VS1_0 : View sig .tc .vmem S1024x128 .f32 := scM1_0.view

end Cert.Kernel.Gen

end
-- ==== Proof.KB.R1RunA.lean ====
/-
  The scatter body at the first block of a row (coordinate 0, not 830): the accumulator, found at anything, is zeroed and then receives the one-hot product of this block; the output block's buffer is not touched.
-/
import proofs.«179232_j88021059764774_1_alg».proof.Proof.KB.R1Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1x1024 .i32) (x1 : Vec F S1024x128 .bf16) (x2 : Vec F S1x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KB.R1RunB.lean ====
/-
  The scatter body away from both ends of a row of blocks (coordinate neither 0 nor 830): the accumulator, found at what the point before left, receives the one-hot product of this block; the output block's buffer is not touched.
-/
import proofs.«179232_j88021059764774_1_alg».proof.Proof.KB.R1RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1x1024 .i32) (x1 : Vec F S1024x128 .bf16) (x2 : Vec F S1x128 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KB.R1RunC.lean ====
/-
  The scatter body at the last block of a row (coordinate 830, not 0): the accumulator receives the last one-hot product and is then written, with the bias added and negative entries replaced by zero, over the whole output block.
-/
import proofs.«179232_j88021059764774_1_alg».proof.Proof.KB.R1RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1x1024 .i32) (x1 : Vec F S1024x128 .bf16) (x2 : Vec F S1x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.Kernel.Gen

end
-- ==== Proof.KB.R1Dat.lean ====
/-
  The scatter call's proof data. After point `t` the accumulator holds the sum, over the blocks of the current
  row met so far, of the one-hot products (the run of the point's case, started from zero at the first block of
  the row and from what the point before left otherwise); the output block's buffer holds the finished row
  after the last block of a row and is not touched elsewhere. Both are defined by recursion on the point,
  through the pieces each case's run found.
-/
import proofs.«179232_j88021059764774_1_alg».proof.Proof.KB.R1RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev runA1 (c : Dev nD) (t : Fin cfg1.N) (h0 : cond1_0 (grid1.coords t)) (h1 : ¬cond1_1 (grid1.coords t)) :=
  kernelRun1_A (F := F) c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t)
abbrev runB1 (c : Dev nD) (t : Fin cfg1.N) (h0 : ¬cond1_0 (grid1.coords t)) (h1 : ¬cond1_1 (grid1.coords t)) (xs0 : Vec F S1024x128 .f32) :=
  kernelRun1_B (F := F) c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) xs0
abbrev runC1 (c : Dev nD) (t : Fin cfg1.N) (h0 : ¬cond1_0 (grid1.coords t)) (h1 : cond1_1 (grid1.coords t)) (xs0 : Vec F S1024x128 .f32) :=
  kernelRun1_C (F := F) c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) xs0

/-- What a list of pieces leaves in the accumulator, read back. -/
abbrev sRead1 (L : List (View.Piece (Elt F) S1024x128 .f32)) : Vec F S1024x128 .f32 :=
  VS1_0.read (Elt F) (VS1_0.writes (Elt F) VS1_0.junk L)
/-- What a list of pieces leaves in the output block's buffer, read back. -/
abbrev oRead1 (L : List (View.Piece (Elt F) S1024x128 .f32)) : Vec F S1024x128 .f32 :=
  VO1_3.read (Elt F) (VO1_3.writes (Elt F) VO1_3.junk L)

/-- Each case's pieces for the accumulator tile it. -/
theorem scover1_A (c : Dev nD) (t : Fin cfg1.N) (h0 h1) (y : S1024x128.Idx) : ∃ pc ∈ (runA1 V c t h0 h1).2.1, y ∈ pc.1.set :=
  View.cover_of_tiledL (runA1 V c t h0 h1).2.1 S1024x128.size (by sl_kernel_rfl) y
theorem scover1_B (c : Dev nD) (t : Fin cfg1.N) (h0 h1) (xs0) (y : S1024x128.Idx) : ∃ pc ∈ (runB1 V c t h0 h1 xs0).2.1, y ∈ pc.1.set :=
  View.cover_of_tiledL (runB1 V c t h0 h1 xs0).2.1 S1024x128.size (by sl_kernel_rfl) y
theorem scover1_C (c : Dev nD) (t : Fin cfg1.N) (h0 h1) (xs0) (y : S1024x128.Idx) : ∃ pc ∈ (runC1 V c t h0 h1 xs0).2.1, y ∈ pc.1.set :=
  View.cover_of_tiledL (runC1 V c t h0 h1 xs0).2.1 S1024x128.size (by sl_kernel_rfl) y
/-- The last case's pieces for the output block tile it. -/
theorem cover1_C (c : Dev nD) (t : Fin cfg1.N) (h0 h1) (xs0) (y : S1024x128.Idx) : ∃ pc ∈ (runC1 V c t h0 h1 xs0).1, y ∈ pc.1.set :=
  View.cover_of_tiledL (runC1 V c t h0 h1 xs0).1 S1024x128.size (by sl_kernel_rfl) y

/-- After the body at position `n`: (the output block's buffer, the accumulator). Where the output is idle the
    first component is a placeholder nothing reads. -/
def outsAt1 (c : Dev nD) : (n : ℕ) → n < cfg1.N → Vec F S1024x128 .f32 × Vec F S1024x128 .f32
  | 0, hn =>
    have h0 : cond1_0 (grid1.coords ⟨0, hn⟩) := (hcond1_0 ⟨0, hn⟩).mpr (Nat.zero_mod _)
    have h1 : ¬cond1_1 (grid1.coords ⟨0, hn⟩) := fun h => absurd ((hcond1_1 ⟨0, hn⟩).mp h) (by show ¬ (0 % 831 = 830); decide)
    (oRead1 (runA1 V c ⟨0, hn⟩ h0 h1).1, sRead1 (runA1 V c ⟨0, hn⟩ h0 h1).2.1)
  | n + 1, hn =>
    if h0 : (n + 1) % 831 = 0 then
      if h1 : (n + 1) % 831 = 830 then False.elim (by omega)
      else
        (oRead1 (runA1 V c ⟨n + 1, hn⟩ ((hcond1_0 ⟨n + 1, hn⟩).mpr h0) (fun h => h1 ((hcond1_1 ⟨n + 1, hn⟩).mp h))).1,
         sRead1 (runA1 V c ⟨n + 1, hn⟩ ((hcond1_0 ⟨n + 1, hn⟩).mpr h0) (fun h => h1 ((hcond1_1 ⟨n + 1, hn⟩).mp h))).2.1)
    else
      if h1 : (n + 1) % 831 = 830 then
        (oRead1 (runC1 V c ⟨n + 1, hn⟩ (fun h => h0 ((hcond1_0 ⟨n + 1, hn⟩).mp h)) ((hcond1_1 ⟨n + 1, hn⟩).mpr h1) (outsAt1 c n (Nat.lt_of_succ_lt hn)).2).1,
         sRead1 (runC1 V c ⟨n + 1, hn⟩ (fun h => h0 ((hcond1_0 ⟨n + 1, hn⟩).mp h)) ((hcond1_1 ⟨n + 1, hn⟩).mpr h1) (outsAt1 c n (Nat.lt_of_succ_lt hn)).2).2.1)
      else
        (oRead1 (runB1 V c ⟨n + 1, hn⟩ (fun h => h0 ((hcond1_0 ⟨n + 1, hn⟩).mp h)) (fun h => h1 ((hcond1_1 ⟨n + 1, hn⟩).mp h)) (outsAt1 c n (Nat.lt_of_succ_lt hn)).2).1,
         sRead1 (runB1 V c ⟨n + 1, hn⟩ (fun h => h0 ((hcond1_0 ⟨n + 1, hn⟩).mp h)) (fun h => h1 ((hcond1_1 ⟨n + 1, hn⟩).mp h)) (outsAt1 c n (Nat.lt_of_succ_lt hn)).2).2.1)

/-- The accumulator a point that is not the first of its row starts from. -/
abbrev prevAcc1 (c : Dev nD) (t : Fin cfg1.N) : Vec F S1024x128 .f32 :=
  (outsAt1 V c (t.val - 1) (Nat.lt_of_le_of_lt (Nat.sub_le _ _) t.isLt)).2

theorem outsAt1_A (c : Dev nD) (t : Fin cfg1.N) (h0 : t.val % 831 = 0) (h1 : ¬t.val % 831 = 830) :
    outsAt1 V c t.val t.isLt = (oRead1 (runA1 V c t ((hcond1_0 t).mpr h0) (fun h => h1 ((hcond1_1 t).mp h))).1,
      sRead1 (runA1 V c t ((hcond1_0 t).mpr h0) (fun h => h1 ((hcond1_1 t).mp h))).2.1) := by
  obtain ⟨n, hn⟩ := t
  cases n with
  | zero => exact rfl
  | succ n => exact (dif_pos h0).trans ((dif_neg h1).trans rfl)

theorem outsAt1_B (c : Dev nD) (t : Fin cfg1.N) (h0 : ¬t.val % 831 = 0) (h1 : ¬t.val % 831 = 830) :
    outsAt1 V c t.val t.isLt = (oRead1 (runB1 V c t (fun h => h0 ((hcond1_0 t).mp h)) (fun h => h1 ((hcond1_1 t).mp h)) (prevAcc1 V c t)).1,
      sRead1 (runB1 V c t (fun h => h0 ((hcond1_0 t).mp h)) (fun h => h1 ((hcond1_1 t).mp h)) (prevAcc1 V c t)).2.1) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 831 = 0) (h1 : t.val % 831 = 830) :
    outsAt1 V c t.val t.isLt = (oRead1 (runC1 V c t (fun h => h0 ((hcond1_0 t).mp h)) ((hcond1_1 t).mpr h1) (prevAcc1 V c t)).1,
      sRead1 (runC1 V c t (fun h => h0 ((hcond1_0 t).mp h)) ((hcond1_1 t).mpr h1) (prevAcc1 V c t)).2.1) := by
  obtain ⟨n, hn⟩ := t
  cases n with
  | zero => exact absurd (Nat.zero_mod _) h0
  | succ n => exact (dif_neg h0).trans ((dif_pos h1).trans rfl)

/-- Every scoped buffer but the accumulator, untouched by the call. -/
abbrev restBut1 (c : Dev nD) : sProp 𝕄 :=
  Pipeline.scopedRestBut (Ix := Unit) (Name := ℕ) (U := UR sig nD τ) (Lvl := ℕ) (Val := Elt F) spec1 c [cc1_scratch0]

/-- Before position `n`: the accumulator at anything before the first point, afterwards at what the point before
    left in it; beside it the other scoped buffers. -/
def PhiS1 (c : Dev nD) : (n : ℕ) → n ≤ cfg1.N → sProp 𝕄
  | 0, _ => iprop((∃ d, owns (c : Thread nD τ) scM1_0 fullShare d) ∗ restBut1 (F := F) c)
  | n + 1, hn => iprop(owns (c : Thread nD τ) scM1_0 fullShare ((outsAt1 V c n hn).2) ∗ restBut1 (F := F) c)

theorem PhiS1_zero (c : Dev nD) (n : ℕ) (h : n ≤ cfg1.N) (hz : n = 0) :
    PhiS1 V c n h = iprop((∃ d, owns (c : Thread nD τ) scM1_0 fullShare d) ∗ restBut1 (F := F) c) := by
  subst hz; rfl
theorem PhiS1_succ (c : Dev nD) (n : ℕ) (hn : n < cfg1.N) :
    PhiS1 V c (n + 1) hn = iprop(owns (c : Thread nD τ) scM1_0 fullShare ((outsAt1 V c n hn).2) ∗ restBut1 (F := F) c) := rfl
theorem PhiS1_pos (c : Dev nD) (n : ℕ) (h : n ≤ cfg1.N) (hz : n ≠ 0) :
    PhiS1 V c n h = iprop(owns (c : Thread nD τ) scM1_0 fullShare ((outsAt1 V c (n - 1) (by omega)).2) ∗ restBut1 (F := F) c) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Gen

end
-- ==== Proof.KB.R1Body.lean ====
/-
  The scatter call's body obligation: at every point the body, called with the windows' current buffers and the
  accumulator, runs from the invariant before the point to the invariant after it. The point's case is decided
  by its second grid coordinate (`t mod 831`); the case's run does the rest.
-/
import proofs.«179232_j88021059764774_1_alg».proof.Proof.KB.R1Dat

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAtR1 t) (fun _ => bodyPost1 V c t) := by
  unfold bodyPre1 bodyPost1 bodyAtR1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 40719 := lt_of_lt_of_eq t.isLt (show cfg1.N = 40719 from N_1)
  by_cases h0 : t.val % 831 = 0
  · by_cases h1 : t.val % 831 = 830
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      (try dsimp only)
      have hpre : (dat1 V c).Φ t.castSucc ⊢ iprop((∃ d, owns (c : Thread nD τ) scM1_0 fullShare d) ∗ restBut1 (F := F) c) := by
        rw [PhiS1_castSucc V c t]
        by_cases hz : t.val = 0
        · rw [PhiS1_zero V c _ _ hz]
        · rw [PhiS1_pos V c _ _ hz]
          iintro ⟨HS0, Hr⟩
          isplitl [HS0]; · iexists _; iexact HS0
          iexact Hr
      iintro ⟨HΦ, Ho, ⟨%d0, H0⟩, ⟨%d1, H1⟩, ⟨%d2, H2⟩, ⟨%d3, H3⟩⟩
      ihave HΦ' := hpre $$ HΦ
      icases HΦ' with ⟨HS0, Hr⟩
      iapply ((runA1 V c t ((hcond1_0 t).mpr h0) (fun h => h1 ((hcond1_1 t).mp h))).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover1_A V c t _ _)
        iexact Hr
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 831 = 830
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      (try dsimp only)
      rw [PhiS1_castSucc V c t, PhiS1_pos V c _ _ hz]
      iintro ⟨⟨HS0, Hr⟩, Ho, ⟨%d0, H0⟩, ⟨%d1, H1⟩, ⟨%d2, H2⟩, ⟨%d3, H3⟩⟩
      iapply ((runC1 V c t (fun h => h0 ((hcond1_0 t).mp h)) ((hcond1_1 t).mpr h1) (prevAcc1 V c t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr]
      · isplitl [HS0]
        · unfold owns; iexists _; isplitr
          swap; · iexact HS0
          ipureintro; exact View.read_writes_of_cover _ _ _ _ _ (scover1_C V c t _ _ _)
        iexact Hr
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C V c t _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      (try dsimp only)
      rw [PhiS1_castSucc V c t, PhiS1_pos V c _ _ hz]
      iintro ⟨⟨HS0, Hr⟩, Ho, ⟨%d0, H0⟩, ⟨%d1, H1⟩, ⟨%d2, H2⟩, ⟨%d3, H3⟩⟩
      iapply ((runB1 V c t (fun h => h0 ((hcond1_0 t).mp h)) (fun h => h1 ((hcond1_1 t).mp h)) (prevAcc1 V c t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover1_B V c t _ _ _)
        iexact Hr
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the call (the scoped buffers no window stages) is the invariant before the first point. -/
theorem hin1 (c : Dev nD) :
    (Pipeline.scopedRest (Ix := Unit) (Name := ℕ) (U := UR sig nD τ) (Lvl := ℕ) (Val := Elt F) spec1 c : sProp 𝕄) ⊢ (dat1 V c).Φ 0 := by
  rw [show (dat1 V c).Φ 0 = PhiS1 V c 0 (Nat.zero_le _) from rfl, PhiS1_zero V c 0 _ rfl, scopedRest1_split]
  simp only [scM1_0, owns_whole]
  exact Idealize.SL.BI.Entails.refl _

/-- After the last point the invariant gives those buffers back, the accumulator's contents forgotten. -/
theorem hout1 (c : Dev nD) :
    (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 40719 := N_1; omega), scopedRest1_split]
  iintro ⟨HS0, Hr⟩
  isplitl [HS0]
  · simp only [scM1_0, owns_whole]; iexists _; iexact HS0
  iexact Hr

end Cert.Kernel.Gen

end
-- ==== Proof.KB.R2Base.lean ====
/-
  The gather call (pipeline 2), what its three control cases share. A point is "first" when its node-block
  coordinate (the grid's second axis) is 0 — the accumulator is zeroed before the one-hot product is added —
  and "last" when it is 48 — the accumulator is written to the output block. Point `t` has that
  coordinate equal to `t mod 49`.
-/
import proofs.«179232_j88021059764774_1_alg».proof.Proof.Gen.Kernel.Launch
import proofs.«179232_j88021059764774_1_alg».proof.Proof.Gen.Kernel.Skeleton
import Idealize.ShloMosaic.Lib.Pipeline.Kit
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point's coordinates: the second is `t mod 49`, the first `t / 49` (the second axis runs fastest). -/
theorem coord2_1 (t : Fin cfg2.N) : ((grid2.coords t) 1).val = t.val % 49 := by
  show t.val / grid2.stride 1 % 49 = _
  rw [show grid2.stride 1 = 1 from by decide, Nat.div_one]
theorem coord2_0 (t : Fin cfg2.N) : ((grid2.coords t) 0).val = t.val / 49 % 831 := by
  show t.val / grid2.stride 0 % 831 = _
  rw [show grid2.stride 0 = 49 from by decide]

/-- "The second coordinate is 0": the accumulator is zeroed first. -/
abbrev cond2_0 (i : grid2.Coords) : Prop := (Scalar.cmpi .ne (Scalar.extui (Scalar.cmpi .eq (BitVec.ofNat 32 (i 1).val) 0#32)) 0#32) = 1#1
theorem key2_0 : ∀ x : Fin 49, ((Scalar.cmpi .ne (Scalar.extui (Scalar.cmpi .eq (BitVec.ofNat 32 x.val) 0#32)) 0#32) = 1#1) ↔ x.val = 0 := by decide +kernel
theorem hcond2_0 (t : Fin cfg2.N) : cond2_0 (grid2.coords t) ↔ t.val % 49 = 0 :=
  (key2_0 ((grid2.coords t) 1)).trans (by rw [coord2_1 t])

/-- "The second coordinate is 48": the accumulator goes to the output block. -/
abbrev cond2_1 (i : grid2.Coords) : Prop := k2_cond2 i = 1#1
theorem key2_1 : ∀ x : Fin 49, ((Scalar.cmpi .ne (Scalar.extui (Scalar.cmpi .eq (BitVec.ofNat 32 x.val) 48#32)) 0#32) = 1#1) ↔ x.val = 48 := by decide +kernel
theorem hcond2_1 (t : Fin cfg2.N) : cond2_1 (grid2.coords t) ↔ t.val % 49 = 48 :=
  (key2_1 ((grid2.coords t) 1)).trans (by rw [coord2_1 t])

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Away from the last block of a row nothing is stored into the output block: idle by the configuration's table, -/
theorem idleAt2_3 (t : Fin cfg2.N) (h : ¬cond2_1 (grid2.coords t)) : cfg2.idle 3 (grid2.coords t) = true := by
  show (!(k2_cond2 (grid2.coords t) == 1#1)) = true
  simpa using h
/-- and the block is not written back there; -/
theorem noFlush2_3 (t : Fin cfg2.N) (hc : ¬cond2_1 (grid2.coords t)) : (cfg2.win 3).flush t = false := by
  have h : ¬ t.val % 49 = 48 := fun e => hc ((hcond2_1 t).mpr e)
  have hN : t.val < 40719 := lt_of_lt_of_eq t.isLt (show cfg2.N = 40719 from N_2)
  have h1 : t.val + 1 < grid2.N := by rw [N_2]; omega
  show (win2_3.isOut && (decide (t.val + 1 = grid2.N) || decide (∃ h : t.val + 1 < grid2.N, win2_3.index ⟨t.val + 1, h⟩ ≠ win2_3.index t))) = false
  have e : win2_3.index ⟨t.val + 1, h1⟩ = win2_3.index t := by
    show cc2_transform_3 (grid2.coords ⟨t.val + 1, h1⟩) = cc2_transform_3 (grid2.coords t)
    unfold cc2_transform_3
    have : ((grid2.coords ⟨t.val + 1, h1⟩) 0).val = ((grid2.coords t) 0).val := by
      rw [coord2_0, coord2_0]; show (t.val + 1) / 49 % 831 = t.val / 49 % 831; omega
    simp only [this]
  have hne : ¬ (t.val + 1 = grid2.N) := by rw [N_2]; omega
  simp only [hne, decide_false, Bool.false_or, Bool.and_eq_false_imp, decide_eq_false_iff_not]
  intro _ ⟨h', hh⟩
  exact hh e
/-- at the last block it is stored. -/
theorem liveAt2_3 (t : Fin cfg2.N) (h : cond2_1 (grid2.coords t)) : cfg2.idle 3 (grid2.coords t) = false := by
  show (!(k2_cond2 (grid2.coords t) == 1#1)) = false
  simpa using h

/-- The body as the pipeline calls it at point `t`: on the windows' current buffers and the accumulator. -/
abbrev bodyAtR2 (t : Fin cfg2.N) : Prog (TpuEff nD τ sig (Elt F) Λ₀ .tc) PUnit :=
  cc2__gather_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)

abbrev VO2_3 : View sig .tc .vmem S1024x128 .bf16 := (Memref.whole cc2_stg3_0 : Memref sig .tc .vmem S1024x128 .bf16).view
abbrev ms2_0 (t : Fin cfg2.N) : Memref sig .tc .vmem S1024x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x128 .bf16 := win2_3.stage (cfg2.slots t 3)
abbrev hs2_3 (t : Fin cfg2.N) : (ms2_3 t).IsWhole := hstage2_3 ((cfg2.slots t 3).cast nbuf2_3)
/-- The accumulator: a whole scoped buffer of the call's own. -/
abbrev scM2_0 : Memref sig .tc .vmem S1024x128 .f32 := Memref.whole cc2_scratch0
abbrev VS2_0 : View sig .tc .vmem S1024x128 .f32 := scM2_0.view

end Cert.Kernel.Gen

end
-- ==== Proof.KB.R2RunA.lean ====
/-
  The gather body at the first block of a row (coordinate 0, not 48): the accumulator, found at anything, is zeroed and then receives the one-hot product of this block; the output block's buffer is not touched.
-/
import proofs.«179232_j88021059764774_1_alg».proof.Proof.KB.R2Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg2 : Memref sig .tc .vmem S1024x1 .i32) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (hc0 : cond2_0 i) (hc1 : ¬cond2_1 i)
    (x0 : Vec F S1024x1 .i32) (x1 : Vec F S1024x1 .f32) (x2 : Vec F S1024x128 .bf16) :
    Σ' (L3 : List (View.Piece (Elt F) S1024x128 .bf16)), { LS0 : List (View.Piece (Elt F) S1024x128 .f32) //
      ∀ (xi3 : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gather_kernel i arg2 harg2 arg3 harg3 arg4 harg4 arg5 harg5 arg6 harg6) K } := by
  refine ⟨[], ?_, fun xi3 E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KB.R2RunB.lean ====
/-
  The gather body away from both ends of a row of blocks (coordinate neither 0 nor 48): the accumulator, found at what the point before left, receives the one-hot product of this block; the output block's buffer is not touched.
-/
import proofs.«179232_j88021059764774_1_alg».proof.Proof.KB.R2RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg2 : Memref sig .tc .vmem S1024x1 .i32) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (hc0 : ¬cond2_0 i) (hc1 : ¬cond2_1 i)
    (x0 : Vec F S1024x1 .i32) (x1 : Vec F S1024x1 .f32) (x2 : Vec F S1024x128 .bf16) (xs0 : Vec F S1024x128 .f32) :
    Σ' (L3 : List (View.Piece (Elt F) S1024x128 .bf16)), { LS0 : List (View.Piece (Elt F) S1024x128 .f32) //
      ∀ (xi3 : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gather_kernel i arg2 harg2 arg3 harg3 arg4 harg4 arg5 harg5 arg6 harg6) K } := by
  refine ⟨[], ?_, fun xi3 E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KB.R2RunC.lean ====
/-
  The gather body at the last block of a row (coordinate 48, not 0): the accumulator receives the last one-hot product and is then written, in the output's format, over the whole output block.
-/
import proofs.«179232_j88021059764774_1_alg».proof.Proof.KB.R2RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg2 : Memref sig .tc .vmem S1024x1 .i32) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (hc0 : ¬cond2_0 i) (hc1 : cond2_1 i)
    (x0 : Vec F S1024x1 .i32) (x1 : Vec F S1024x1 .f32) (x2 : Vec F S1024x128 .bf16) (xs0 : Vec F S1024x128 .f32) :
    Σ' (L3 : List (View.Piece (Elt F) S1024x128 .bf16)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__gather_kernel i arg2 harg2 arg3 harg3 arg4 harg4 arg5 harg5 arg6 harg6) K } := by
  refine ⟨?_, ?_, fun E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.Kernel.Gen

end
-- ==== Proof.KB.R2Dat.lean ====
/-
  The gather call's proof data. After point `t` the accumulator holds the sum, over the blocks of the current
  row met so far, of the one-hot products (the run of the point's case, started from zero at the first block of
  the row and from what the point before left otherwise); the output block's buffer holds the finished row
  after the last block of a row and is not touched elsewhere. Both are defined by recursion on the point,
  through the pieces each case's run found.
-/
import proofs.«179232_j88021059764774_1_alg».proof.Proof.KB.R2RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev runA2 (c : Dev nD) (t : Fin cfg2.N) (h0 : cond2_0 (grid2.coords t)) (h1 : ¬cond2_1 (grid2.coords t)) :=
  kernelRun2_A (F := F) c (grid2.coords t) (ms2_0 t) (hs2_0 t) (ms2_1 t) (hs2_1 t) (ms2_2 t) (hs2_2 t) (ms2_3 t) (hs2_3 t) scM2_0 (Memref.isWhole_whole _) h0 h1 (iblk2 V c 0 t) (iblk2 V c 1 t) (iblk2 V c 2 t)
abbrev runB2 (c : Dev nD) (t : Fin cfg2.N) (h0 : ¬cond2_0 (grid2.coords t)) (h1 : ¬cond2_1 (grid2.coords t)) (xs0 : Vec F S1024x128 .f32) :=
  kernelRun2_B (F := F) c (grid2.coords t) (ms2_0 t) (hs2_0 t) (ms2_1 t) (hs2_1 t) (ms2_2 t) (hs2_2 t) (ms2_3 t) (hs2_3 t) scM2_0 (Memref.isWhole_whole _) h0 h1 (iblk2 V c 0 t) (iblk2 V c 1 t) (iblk2 V c 2 t) xs0
abbrev runC2 (c : Dev nD) (t : Fin cfg2.N) (h0 : ¬cond2_0 (grid2.coords t)) (h1 : cond2_1 (grid2.coords t)) (xs0 : Vec F S1024x128 .f32) :=
  kernelRun2_C (F := F) c (grid2.coords t) (ms2_0 t) (hs2_0 t) (ms2_1 t) (hs2_1 t) (ms2_2 t) (hs2_2 t) (ms2_3 t) (hs2_3 t) scM2_0 (Memref.isWhole_whole _) h0 h1 (iblk2 V c 0 t) (iblk2 V c 1 t) (iblk2 V c 2 t) xs0

/-- What a list of pieces leaves in the accumulator, read back. -/
abbrev sRead2 (L : List (View.Piece (Elt F) S1024x128 .f32)) : Vec F S1024x128 .f32 :=
  VS2_0.read (Elt F) (VS2_0.writes (Elt F) VS2_0.junk L)
/-- What a list of pieces leaves in the output block's buffer, read back. -/
abbrev oRead2 (L : List (View.Piece (Elt F) S1024x128 .bf16)) : Vec F S1024x128 .bf16 :=
  VO2_3.read (Elt F) (VO2_3.writes (Elt F) VO2_3.junk L)

/-- Each case's pieces for the accumulator tile it. -/
theorem scover2_A (c : Dev nD) (t : Fin cfg2.N) (h0 h1) (y : S1024x128.Idx) : ∃ pc ∈ (runA2 V c t h0 h1).2.1, y ∈ pc.1.set :=
  View.cover_of_tiledL (runA2 V c t h0 h1).2.1 S1024x128.size (by sl_kernel_rfl) y
theorem scover2_B (c : Dev nD) (t : Fin cfg2.N) (h0 h1) (xs0) (y : S1024x128.Idx) : ∃ pc ∈ (runB2 V c t h0 h1 xs0).2.1, y ∈ pc.1.set :=
  View.cover_of_tiledL (runB2 V c t h0 h1 xs0).2.1 S1024x128.size (by sl_kernel_rfl) y
theorem scover2_C (c : Dev nD) (t : Fin cfg2.N) (h0 h1) (xs0) (y : S1024x128.Idx) : ∃ pc ∈ (runC2 V c t h0 h1 xs0).2.1, y ∈ pc.1.set :=
  View.cover_of_tiledL (runC2 V c t h0 h1 xs0).2.1 S1024x128.size (by sl_kernel_rfl) y
/-- The last case's pieces for the output block tile it. -/
theorem cover2_C (c : Dev nD) (t : Fin cfg2.N) (h0 h1) (xs0) (y : S1024x128.Idx) : ∃ pc ∈ (runC2 V c t h0 h1 xs0).1, y ∈ pc.1.set :=
  View.cover_of_tiledL (runC2 V c t h0 h1 xs0).1 S1024x128.size (by sl_kernel_rfl) y

/-- After the body at position `n`: (the output block's buffer, the accumulator). Where the output is idle the
    first component is a placeholder nothing reads. -/
def outsAt2 (c : Dev nD) : (n : ℕ) → n < cfg2.N → Vec F S1024x128 .bf16 × Vec F S1024x128 .f32
  | 0, hn =>
    have h0 : cond2_0 (grid2.coords ⟨0, hn⟩) := (hcond2_0 ⟨0, hn⟩).mpr (Nat.zero_mod _)
    have h1 : ¬cond2_1 (grid2.coords ⟨0, hn⟩) := fun h => absurd ((hcond2_1 ⟨0, hn⟩).mp h) (by show ¬ (0 % 49 = 48); decide)
    (oRead2 (runA2 V c ⟨0, hn⟩ h0 h1).1, sRead2 (runA2 V c ⟨0, hn⟩ h0 h1).2.1)
  | n + 1, hn =>
    if h0 : (n + 1) % 49 = 0 then
      if h1 : (n + 1) % 49 = 48 then False.elim (by omega)
      else
        (oRead2 (runA2 V c ⟨n + 1, hn⟩ ((hcond2_0 ⟨n + 1, hn⟩).mpr h0) (fun h => h1 ((hcond2_1 ⟨n + 1, hn⟩).mp h))).1,
         sRead2 (runA2 V c ⟨n + 1, hn⟩ ((hcond2_0 ⟨n + 1, hn⟩).mpr h0) (fun h => h1 ((hcond2_1 ⟨n + 1, hn⟩).mp h))).2.1)
    else
      if h1 : (n + 1) % 49 = 48 then
        (oRead2 (runC2 V c ⟨n + 1, hn⟩ (fun h => h0 ((hcond2_0 ⟨n + 1, hn⟩).mp h)) ((hcond2_1 ⟨n + 1, hn⟩).mpr h1) (outsAt2 c n (Nat.lt_of_succ_lt hn)).2).1,
         sRead2 (runC2 V c ⟨n + 1, hn⟩ (fun h => h0 ((hcond2_0 ⟨n + 1, hn⟩).mp h)) ((hcond2_1 ⟨n + 1, hn⟩).mpr h1) (outsAt2 c n (Nat.lt_of_succ_lt hn)).2).2.1)
      else
        (oRead2 (runB2 V c ⟨n + 1, hn⟩ (fun h => h0 ((hcond2_0 ⟨n + 1, hn⟩).mp h)) (fun h => h1 ((hcond2_1 ⟨n + 1, hn⟩).mp h)) (outsAt2 c n (Nat.lt_of_succ_lt hn)).2).1,
         sRead2 (runB2 V c ⟨n + 1, hn⟩ (fun h => h0 ((hcond2_0 ⟨n + 1, hn⟩).mp h)) (fun h => h1 ((hcond2_1 ⟨n + 1, hn⟩).mp h)) (outsAt2 c n (Nat.lt_of_succ_lt hn)).2).2.1)

/-- The accumulator a point that is not the first of its row starts from. -/
abbrev prevAcc2 (c : Dev nD) (t : Fin cfg2.N) : Vec F S1024x128 .f32 :=
  (outsAt2 V c (t.val - 1) (Nat.lt_of_le_of_lt (Nat.sub_le _ _) t.isLt)).2

theorem outsAt2_A (c : Dev nD) (t : Fin cfg2.N) (h0 : t.val % 49 = 0) (h1 : ¬t.val % 49 = 48) :
    outsAt2 V c t.val t.isLt = (oRead2 (runA2 V c t ((hcond2_0 t).mpr h0) (fun h => h1 ((hcond2_1 t).mp h))).1,
      sRead2 (runA2 V c t ((hcond2_0 t).mpr h0) (fun h => h1 ((hcond2_1 t).mp h))).2.1) := by
  obtain ⟨n, hn⟩ := t
  cases n with
  | zero => exact rfl
  | succ n => exact (dif_pos h0).trans ((dif_neg h1).trans rfl)

theorem outsAt2_B (c : Dev nD) (t : Fin cfg2.N) (h0 : ¬t.val % 49 = 0) (h1 : ¬t.val % 49 = 48) :
    outsAt2 V c t.val t.isLt = (oRead2 (runB2 V c t (fun h => h0 ((hcond2_0 t).mp h)) (fun h => h1 ((hcond2_1 t).mp h)) (prevAcc2 V c t)).1,
      sRead2 (runB2 V c t (fun h => h0 ((hcond2_0 t).mp h)) (fun h => h1 ((hcond2_1 t).mp h)) (prevAcc2 V c t)).2.1) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 49 = 0) (h1 : t.val % 49 = 48) :
    outsAt2 V c t.val t.isLt = (oRead2 (runC2 V c t (fun h => h0 ((hcond2_0 t).mp h)) ((hcond2_1 t).mpr h1) (prevAcc2 V c t)).1,
      sRead2 (runC2 V c t (fun h => h0 ((hcond2_0 t).mp h)) ((hcond2_1 t).mpr h1) (prevAcc2 V c t)).2.1) := by
  obtain ⟨n, hn⟩ := t
  cases n with
  | zero => exact absurd (Nat.zero_mod _) h0
  | succ n => exact (dif_neg h0).trans ((dif_pos h1).trans rfl)

/-- Every scoped buffer but the accumulator, untouched by the call. -/
abbrev restBut2 (c : Dev nD) : sProp 𝕄 :=
  Pipeline.scopedRestBut (Ix := Unit) (Name := ℕ) (U := UR sig nD τ) (Lvl := ℕ) (Val := Elt F) spec2 c [cc2_scratch0]

/-- Before position `n`: the accumulator at anything before the first point, afterwards at what the point before
    left in it; beside it the other scoped buffers. -/
def PhiS2 (c : Dev nD) : (n : ℕ) → n ≤ cfg2.N → sProp 𝕄
  | 0, _ => iprop((∃ d, owns (c : Thread nD τ) scM2_0 fullShare d) ∗ restBut2 (F := F) c)
  | n + 1, hn => iprop(owns (c : Thread nD τ) scM2_0 fullShare ((outsAt2 V c n hn).2) ∗ restBut2 (F := F) c)

theorem PhiS2_zero (c : Dev nD) (n : ℕ) (h : n ≤ cfg2.N) (hz : n = 0) :
    PhiS2 V c n h = iprop((∃ d, owns (c : Thread nD τ) scM2_0 fullShare d) ∗ restBut2 (F := F) c) := by
  subst hz; rfl
theorem PhiS2_succ (c : Dev nD) (n : ℕ) (hn : n < cfg2.N) :
    PhiS2 V c (n + 1) hn = iprop(owns (c : Thread nD τ) scM2_0 fullShare ((outsAt2 V c n hn).2) ∗ restBut2 (F := F) c) := rfl
theorem PhiS2_pos (c : Dev nD) (n : ℕ) (h : n ≤ cfg2.N) (hz : n ≠ 0) :
    PhiS2 V c n h = iprop(owns (c : Thread nD τ) scM2_0 fullShare ((outsAt2 V c (n - 1) (by omega)).2) ∗ restBut2 (F := F) c) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

end Cert.Kernel.Gen

end
-- ==== Proof.KB.R2Body.lean ====
/-
  The gather call's body obligation: at every point the body, called with the windows' current buffers and the
  accumulator, runs from the invariant before the point to the invariant after it. The point's case is decided
  by its second grid coordinate (`t mod 49`); the case's run does the rest.
-/
import proofs.«179232_j88021059764774_1_alg».proof.Proof.KB.R2Dat

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAtR2 t) (fun _ => bodyPost2 V c t) := by
  unfold bodyPre2 bodyPost2 bodyAtR2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 40719 := lt_of_lt_of_eq t.isLt (show cfg2.N = 40719 from N_2)
  by_cases h0 : t.val % 49 = 0
  · by_cases h1 : t.val % 49 = 48
    · exfalso; omega
    · rw [Dat.leavesExact_idle (dat2 V c) 3 t (idleAt2_3 t (fun h => h1 ((hcond2_1 t).mp h))) (noFlush2_3 t (fun h => h1 ((hcond2_1 t).mp h)))]
      rw [outsAt2_A V c t h0 h1]
      (try dsimp only)
      have hpre : (dat2 V c).Φ t.castSucc ⊢ iprop((∃ d, owns (c : Thread nD τ) scM2_0 fullShare d) ∗ restBut2 (F := F) c) := by
        rw [PhiS2_castSucc V c t]
        by_cases hz : t.val = 0
        · rw [PhiS2_zero V c _ _ hz]
        · rw [PhiS2_pos V c _ _ hz]
          iintro ⟨HS0, Hr⟩
          isplitl [HS0]; · iexists _; iexact HS0
          iexact Hr
      iintro ⟨HΦ, Ho, ⟨%d0, H0⟩, ⟨%d1, H1⟩, ⟨%d2, H2⟩, ⟨%d3, H3⟩⟩
      ihave HΦ' := hpre $$ HΦ
      icases HΦ' with ⟨HS0, Hr⟩
      iapply ((runA2 V c t ((hcond2_0 t).mpr h0) (fun h => h1 ((hcond2_1 t).mp h))).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover2_A V c t _ _)
        iexact Hr
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 49 = 48
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      (try dsimp only)
      rw [PhiS2_castSucc V c t, PhiS2_pos V c _ _ hz]
      iintro ⟨⟨HS0, Hr⟩, Ho, ⟨%d0, H0⟩, ⟨%d1, H1⟩, ⟨%d2, H2⟩, ⟨%d3, H3⟩⟩
      iapply ((runC2 V c t (fun h => h0 ((hcond2_0 t).mp h)) ((hcond2_1 t).mpr h1) (prevAcc2 V c t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr]
      · isplitl [HS0]
        · unfold owns; iexists _; isplitr
          swap; · iexact HS0
          ipureintro; exact View.read_writes_of_cover _ _ _ _ _ (scover2_C V c t _ _ _)
        iexact Hr
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C V c t _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      (try dsimp only)
      rw [PhiS2_castSucc V c t, PhiS2_pos V c _ _ hz]
      iintro ⟨⟨HS0, Hr⟩, Ho, ⟨%d0, H0⟩, ⟨%d1, H1⟩, ⟨%d2, H2⟩, ⟨%d3, H3⟩⟩
      iapply ((runB2 V c t (fun h => h0 ((hcond2_0 t).mp h)) (fun h => h1 ((hcond2_1 t).mp h)) (prevAcc2 V c t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover2_B V c t _ _ _)
        iexact Hr
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-- What the launch hands the call (the scoped buffers no window stages) is the invariant before the first point. -/
theorem hin2 (c : Dev nD) :
    (Pipeline.scopedRest (Ix := Unit) (Name := ℕ) (U := UR sig nD τ) (Lvl := ℕ) (Val := Elt F) spec2 c : sProp 𝕄) ⊢ (dat2 V c).Φ 0 := by
  rw [show (dat2 V c).Φ 0 = PhiS2 V c 0 (Nat.zero_le _) from rfl, PhiS2_zero V c 0 _ rfl, scopedRest2_split]
  simp only [scM2_0, owns_whole]
  exact Idealize.SL.BI.Entails.refl _

/-- After the last point the invariant gives those buffers back, the accumulator's contents forgotten. -/
theorem hout2 (c : Dev nD) :
    (dat2 V c).Φ (Fin.last cfg2.N) ⊢ (Pipeline.scopedRest (Ix := Unit) (Name := ℕ) (U := UR sig nD τ) (Lvl := ℕ) (Val := Elt F) spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 40719 := N_2; omega), scopedRest2_split]
  iintro ⟨HS0, Hr⟩
  isplitl [HS0]
  · simp only [scM2_0, owns_whole]; iexists _; iexact HS0
  iexact Hr

end Cert.Kernel.Gen

end
-- ==== Proof.KB.R3Base.lean ====
/-
  The scatter call (pipeline 3), what its three control cases share. A point is "first" when its edge-block
  coordinate (the grid's second axis) is 0 — the accumulator is zeroed before the one-hot product is added —
  and "last" when it is 830 — the accumulator is written to the output block. Point `t` has that
  coordinate equal to `t mod 831`.
-/
import proofs.«179232_j88021059764774_1_alg».proof.Proof.Gen.Kernel.Launch
import proofs.«179232_j88021059764774_1_alg».proof.Proof.Gen.Kernel.Skeleton
import Idealize.ShloMosaic.Lib.Pipeline.Kit
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point's coordinates: the second is `t mod 831`, the first `t / 831` (the second axis runs fastest). -/
theorem coord3_1 (t : Fin cfg3.N) : ((grid3.coords t) 1).val = t.val % 831 := by
  show t.val / grid3.stride 1 % 831 = _
  rw [show grid3.stride 1 = 1 from by decide, Nat.div_one]
theorem coord3_0 (t : Fin cfg3.N) : ((grid3.coords t) 0).val = t.val / 831 % 49 := by
  show t.val / grid3.stride 0 % 49 = _
  rw [show grid3.stride 0 = 831 from by decide]

/-- "The second coordinate is 0": the accumulator is zeroed first. -/
abbrev cond3_0 (i : grid3.Coords) : Prop := (Scalar.cmpi .ne (Scalar.extui (Scalar.cmpi .eq (BitVec.ofNat 32 (i 1).val) 0#32)) 0#32) = 1#1
theorem key3_0 : ∀ x : Fin 831, ((Scalar.cmpi .ne (Scalar.extui (Scalar.cmpi .eq (BitVec.ofNat 32 x.val) 0#32)) 0#32) = 1#1) ↔ x.val = 0 := by decide +kernel
theorem hcond3_0 (t : Fin cfg3.N) : cond3_0 (grid3.coords t) ↔ t.val % 831 = 0 :=
  (key3_0 ((grid3.coords t) 1)).trans (by rw [coord3_1 t])

/-- "The second coordinate is 830": the accumulator goes to the output block. -/
abbrev cond3_1 (i : grid3.Coords) : Prop := k3_cond2 i = 1#1
theorem key3_1 : ∀ x : Fin 831, ((Scalar.cmpi .ne (Scalar.extui (Scalar.cmpi .eq (BitVec.ofNat 32 x.val) 830#32)) 0#32) = 1#1) ↔ x.val = 830 := by decide +kernel
theorem hcond3_1 (t : Fin cfg3.N) : cond3_1 (grid3.coords t) ↔ t.val % 831 = 830 :=
  (key3_1 ((grid3.coords t) 1)).trans (by rw [coord3_1 t])

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
/-- Away from the last block of a row nothing is stored into the output block: idle by the configuration's table, -/
theorem idleAt3_3 (t : Fin cfg3.N) (h : ¬cond3_1 (grid3.coords t)) : cfg3.idle 3 (grid3.coords t) = true := by
  show (!(k3_cond2 (grid3.coords t) == 1#1)) = true
  simpa using h
/-- and the block is not written back there; -/
theorem noFlush3_3 (t : Fin cfg3.N) (hc : ¬cond3_1 (grid3.coords t)) : (cfg3.win 3).flush t = false := by
  have h : ¬ t.val % 831 = 830 := fun e => hc ((hcond3_1 t).mpr e)
  have hN : t.val < 40719 := lt_of_lt_of_eq t.isLt (show cfg3.N = 40719 from N_3)
  have h1 : t.val + 1 < grid3.N := by rw [N_3]; omega
  show (win3_3.isOut && (decide (t.val + 1 = grid3.N) || decide (∃ h : t.val + 1 < grid3.N, win3_3.index ⟨t.val + 1, h⟩ ≠ win3_3.index t))) = false
  have e : win3_3.index ⟨t.val + 1, h1⟩ = win3_3.index t := by
    show cc3_transform_3 (grid3.coords ⟨t.val + 1, h1⟩) = cc3_transform_3 (grid3.coords t)
    unfold cc3_transform_3
    have : ((grid3.coords ⟨t.val + 1, h1⟩) 0).val = ((grid3.coords t) 0).val := by
      rw [coord3_0, coord3_0]; show (t.val + 1) / 831 % 49 = t.val / 831 % 49; omega
    simp only [this]
  have hne : ¬ (t.val + 1 = grid3.N) := by rw [N_3]; omega
  simp only [hne, decide_false, Bool.false_or, Bool.and_eq_false_imp, decide_eq_false_iff_not]
  intro _ ⟨h', hh⟩
  exact hh e
/-- at the last block it is stored. -/
theorem liveAt3_3 (t : Fin cfg3.N) (h : cond3_1 (grid3.coords t)) : cfg3.idle 3 (grid3.coords t) = false := by
  show (!(k3_cond2 (grid3.coords t) == 1#1)) = false
  simpa using h

/-- The body as the pipeline calls it at point `t`: on the windows' current buffers and the accumulator. -/
abbrev bodyAtR3 (t : Fin cfg3.N) : Prog (TpuEff nD τ sig (Elt F) Λ₀ .tc) PUnit :=
  cc3__scatter_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (Memref.whole cc3_scratch0) (Memref.isWhole_whole _)

abbrev VO3_3 : View sig .tc .vmem S1024x128 .f32 := (Memref.whole cc3_stg3_0 : Memref sig .tc .vmem S1024x128 .f32).view
abbrev ms3_0 (t : Fin cfg3.N) : Memref sig .tc .vmem S1x1024 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x128 .f32 := win3_3.stage (cfg3.slots t 3)
abbrev hs3_3 (t : Fin cfg3.N) : (ms3_3 t).IsWhole := hstage3_3 ((cfg3.slots t 3).cast nbuf3_3)
/-- The accumulator: a whole scoped buffer of the call's own. -/
abbrev scM3_0 : Memref sig .tc .vmem S1024x128 .f32 := Memref.whole cc3_scratch0
abbrev VS3_0 : View sig .tc .vmem S1024x128 .f32 := scM3_0.view

end Cert.Kernel.Gen

end
-- ==== Proof.KB.R3RunA.lean ====
/-
  The scatter body at the first block of a row (coordinate 0, not 830): the accumulator, found at anything, is zeroed and then receives the one-hot product of this block; the output block's buffer is not touched.
-/
import proofs.«179232_j88021059764774_1_alg».proof.Proof.KB.R3Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_A (c : Dev nD) (i : grid3.Coords) (arg2 : Memref sig .tc .vmem S1x1024 .i32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1x1024 .i32) (x1 : Vec F S1024x128 .bf16) (x2 : Vec F S1x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__scatter_kernel i arg2 harg2 arg3 harg3 arg4 harg4 arg5 harg5 arg6 harg6) K } := by
  refine ⟨[], ?_, fun xi3 E K => ?run⟩
  case run =>
    simp only [cc3__scatter_kernel_eq_skeleton]; unfold cc3__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KB.R3RunB.lean ====
/-
  The scatter body away from both ends of a row of blocks (coordinate neither 0 nor 830): the accumulator, found at what the point before left, receives the one-hot product of this block; the output block's buffer is not touched.
-/
import proofs.«179232_j88021059764774_1_alg».proof.Proof.KB.R3RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_B (c : Dev nD) (i : grid3.Coords) (arg2 : Memref sig .tc .vmem S1x1024 .i32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1x1024 .i32) (x1 : Vec F S1024x128 .bf16) (x2 : Vec F S1x128 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__scatter_kernel i arg2 harg2 arg3 harg3 arg4 harg4 arg5 harg5 arg6 harg6) K } := by
  refine ⟨[], ?_, fun xi3 E K => ?run⟩
  case run =>
    simp only [cc3__scatter_kernel_eq_skeleton]; unfold cc3__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KB.R3RunC.lean ====
/-
  The scatter body at the last block of a row (coordinate 830, not 0): the accumulator receives the last one-hot product and is then written, with the bias added and negative entries replaced by zero, over the whole output block.
-/
import proofs.«179232_j88021059764774_1_alg».proof.Proof.KB.R3RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_C (c : Dev nD) (i : grid3.Coords) (arg2 : Memref sig .tc .vmem S1x1024 .i32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1x1024 .i32) (x1 : Vec F S1024x128 .bf16) (x2 : Vec F S1x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__scatter_kernel i arg2 harg2 arg3 harg3 arg4 harg4 arg5 harg5 arg6 harg6) K } := by
  refine ⟨?_, ?_, fun E K => ?run⟩
  case run =>
    simp only [cc3__scatter_kernel_eq_skeleton]; unfold cc3__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.Kernel.Gen

end
-- ==== Proof.KB.R3Dat.lean ====
/-
  The scatter call's proof data. After point `t` the accumulator holds the sum, over the blocks of the current
  row met so far, of the one-hot products (the run of the point's case, started from zero at the first block of
  the row and from what the point before left otherwise); the output block's buffer holds the finished row
  after the last block of a row and is not touched elsewhere. Both are defined by recursion on the point,
  through the pieces each case's run found.
-/
import proofs.«179232_j88021059764774_1_alg».proof.Proof.KB.R3RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev runA3 (c : Dev nD) (t : Fin cfg3.N) (h0 : cond3_0 (grid3.coords t)) (h1 : ¬cond3_1 (grid3.coords t)) :=
  kernelRun3_A (F := F) c (grid3.coords t) (ms3_0 t) (hs3_0 t) (ms3_1 t) (hs3_1 t) (ms3_2 t) (hs3_2 t) (ms3_3 t) (hs3_3 t) scM3_0 (Memref.isWhole_whole _) h0 h1 (iblk3 V c 0 t) (iblk3 V c 1 t) (iblk3 V c 2 t)
abbrev runB3 (c : Dev nD) (t : Fin cfg3.N) (h0 : ¬cond3_0 (grid3.coords t)) (h1 : ¬cond3_1 (grid3.coords t)) (xs0 : Vec F S1024x128 .f32) :=
  kernelRun3_B (F := F) c (grid3.coords t) (ms3_0 t) (hs3_0 t) (ms3_1 t) (hs3_1 t) (ms3_2 t) (hs3_2 t) (ms3_3 t) (hs3_3 t) scM3_0 (Memref.isWhole_whole _) h0 h1 (iblk3 V c 0 t) (iblk3 V c 1 t) (iblk3 V c 2 t) xs0
abbrev runC3 (c : Dev nD) (t : Fin cfg3.N) (h0 : ¬cond3_0 (grid3.coords t)) (h1 : cond3_1 (grid3.coords t)) (xs0 : Vec F S1024x128 .f32) :=
  kernelRun3_C (F := F) c (grid3.coords t) (ms3_0 t) (hs3_0 t) (ms3_1 t) (hs3_1 t) (ms3_2 t) (hs3_2 t) (ms3_3 t) (hs3_3 t) scM3_0 (Memref.isWhole_whole _) h0 h1 (iblk3 V c 0 t) (iblk3 V c 1 t) (iblk3 V c 2 t) xs0

/-- What a list of pieces leaves in the accumulator, read back. -/
abbrev sRead3 (L : List (View.Piece (Elt F) S1024x128 .f32)) : Vec F S1024x128 .f32 :=
  VS3_0.read (Elt F) (VS3_0.writes (Elt F) VS3_0.junk L)
/-- What a list of pieces leaves in the output block's buffer, read back. -/
abbrev oRead3 (L : List (View.Piece (Elt F) S1024x128 .f32)) : Vec F S1024x128 .f32 :=
  VO3_3.read (Elt F) (VO3_3.writes (Elt F) VO3_3.junk L)

/-- Each case's pieces for the accumulator tile it. -/
theorem scover3_A (c : Dev nD) (t : Fin cfg3.N) (h0 h1) (y : S1024x128.Idx) : ∃ pc ∈ (runA3 V c t h0 h1).2.1, y ∈ pc.1.set :=
  View.cover_of_tiledL (runA3 V c t h0 h1).2.1 S1024x128.size (by sl_kernel_rfl) y
theorem scover3_B (c : Dev nD) (t : Fin cfg3.N) (h0 h1) (xs0) (y : S1024x128.Idx) : ∃ pc ∈ (runB3 V c t h0 h1 xs0).2.1, y ∈ pc.1.set :=
  View.cover_of_tiledL (runB3 V c t h0 h1 xs0).2.1 S1024x128.size (by sl_kernel_rfl) y
theorem scover3_C (c : Dev nD) (t : Fin cfg3.N) (h0 h1) (xs0) (y : S1024x128.Idx) : ∃ pc ∈ (runC3 V c t h0 h1 xs0).2.1, y ∈ pc.1.set :=
  View.cover_of_tiledL (runC3 V c t h0 h1 xs0).2.1 S1024x128.size (by sl_kernel_rfl) y
/-- The last case's pieces for the output block tile it. -/
theorem cover3_C (c : Dev nD) (t : Fin cfg3.N) (h0 h1) (xs0) (y : S1024x128.Idx) : ∃ pc ∈ (runC3 V c t h0 h1 xs0).1, y ∈ pc.1.set :=
  View.cover_of_tiledL (runC3 V c t h0 h1 xs0).1 S1024x128.size (by sl_kernel_rfl) y

/-- After the body at position `n`: (the output block's buffer, the accumulator). Where the output is idle the
    first component is a placeholder nothing reads. -/
def outsAt3 (c : Dev nD) : (n : ℕ) → n < cfg3.N → Vec F S1024x128 .f32 × Vec F S1024x128 .f32
  | 0, hn =>
    have h0 : cond3_0 (grid3.coords ⟨0, hn⟩) := (hcond3_0 ⟨0, hn⟩).mpr (Nat.zero_mod _)
    have h1 : ¬cond3_1 (grid3.coords ⟨0, hn⟩) := fun h => absurd ((hcond3_1 ⟨0, hn⟩).mp h) (by show ¬ (0 % 831 = 830); decide)
    (oRead3 (runA3 V c ⟨0, hn⟩ h0 h1).1, sRead3 (runA3 V c ⟨0, hn⟩ h0 h1).2.1)
  | n + 1, hn =>
    if h0 : (n + 1) % 831 = 0 then
      if h1 : (n + 1) % 831 = 830 then False.elim (by omega)
      else
        (oRead3 (runA3 V c ⟨n + 1, hn⟩ ((hcond3_0 ⟨n + 1, hn⟩).mpr h0) (fun h => h1 ((hcond3_1 ⟨n + 1, hn⟩).mp h))).1,
         sRead3 (runA3 V c ⟨n + 1, hn⟩ ((hcond3_0 ⟨n + 1, hn⟩).mpr h0) (fun h => h1 ((hcond3_1 ⟨n + 1, hn⟩).mp h))).2.1)
    else
      if h1 : (n + 1) % 831 = 830 then
        (oRead3 (runC3 V c ⟨n + 1, hn⟩ (fun h => h0 ((hcond3_0 ⟨n + 1, hn⟩).mp h)) ((hcond3_1 ⟨n + 1, hn⟩).mpr h1) (outsAt3 c n (Nat.lt_of_succ_lt hn)).2).1,
         sRead3 (runC3 V c ⟨n + 1, hn⟩ (fun h => h0 ((hcond3_0 ⟨n + 1, hn⟩).mp h)) ((hcond3_1 ⟨n + 1, hn⟩).mpr h1) (outsAt3 c n (Nat.lt_of_succ_lt hn)).2).2.1)
      else
        (oRead3 (runB3 V c ⟨n + 1, hn⟩ (fun h => h0 ((hcond3_0 ⟨n + 1, hn⟩).mp h)) (fun h => h1 ((hcond3_1 ⟨n + 1, hn⟩).mp h)) (outsAt3 c n (Nat.lt_of_succ_lt hn)).2).1,
         sRead3 (runB3 V c ⟨n + 1, hn⟩ (fun h => h0 ((hcond3_0 ⟨n + 1, hn⟩).mp h)) (fun h => h1 ((hcond3_1 ⟨n + 1, hn⟩).mp h)) (outsAt3 c n (Nat.lt_of_succ_lt hn)).2).2.1)

/-- The accumulator a point that is not the first of its row starts from. -/
abbrev prevAcc3 (c : Dev nD) (t : Fin cfg3.N) : Vec F S1024x128 .f32 :=
  (outsAt3 V c (t.val - 1) (Nat.lt_of_le_of_lt (Nat.sub_le _ _) t.isLt)).2

theorem outsAt3_A (c : Dev nD) (t : Fin cfg3.N) (h0 : t.val % 831 = 0) (h1 : ¬t.val % 831 = 830) :
    outsAt3 V c t.val t.isLt = (oRead3 (runA3 V c t ((hcond3_0 t).mpr h0) (fun h => h1 ((hcond3_1 t).mp h))).1,
      sRead3 (runA3 V c t ((hcond3_0 t).mpr h0) (fun h => h1 ((hcond3_1 t).mp h))).2.1) := by
  obtain ⟨n, hn⟩ := t
  cases n with
  | zero => exact rfl
  | succ n => exact (dif_pos h0).trans ((dif_neg h1).trans rfl)

theorem outsAt3_B (c : Dev nD) (t : Fin cfg3.N) (h0 : ¬t.val % 831 = 0) (h1 : ¬t.val % 831 = 830) :
    outsAt3 V c t.val t.isLt = (oRead3 (runB3 V c t (fun h => h0 ((hcond3_0 t).mp h)) (fun h => h1 ((hcond3_1 t).mp h)) (prevAcc3 V c t)).1,
      sRead3 (runB3 V c t (fun h => h0 ((hcond3_0 t).mp h)) (fun h => h1 ((hcond3_1 t).mp h)) (prevAcc3 V c t)).2.1) := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 831 = 0) (h1 : t.val % 831 = 830) :
    outsAt3 V c t.val t.isLt = (oRead3 (runC3 V c t (fun h => h0 ((hcond3_0 t).mp h)) ((hcond3_1 t).mpr h1) (prevAcc3 V c t)).1,
      sRead3 (runC3 V c t (fun h => h0 ((hcond3_0 t).mp h)) ((hcond3_1 t).mpr h1) (prevAcc3 V c t)).2.1) := by
  obtain ⟨n, hn⟩ := t
  cases n with
  | zero => exact absurd (Nat.zero_mod _) h0
  | succ n => exact (dif_neg h0).trans ((dif_pos h1).trans rfl)

/-- Every scoped buffer but the accumulator, untouched by the call. -/
abbrev restBut3 (c : Dev nD) : sProp 𝕄 :=
  Pipeline.scopedRestBut (Ix := Unit) (Name := ℕ) (U := UR sig nD τ) (Lvl := ℕ) (Val := Elt F) spec3 c [cc3_scratch0]

/-- Before position `n`: the accumulator at anything before the first point, afterwards at what the point before
    left in it; beside it the other scoped buffers. -/
def PhiS3 (c : Dev nD) : (n : ℕ) → n ≤ cfg3.N → sProp 𝕄
  | 0, _ => iprop((∃ d, owns (c : Thread nD τ) scM3_0 fullShare d) ∗ restBut3 (F := F) c)
  | n + 1, hn => iprop(owns (c : Thread nD τ) scM3_0 fullShare ((outsAt3 V c n hn).2) ∗ restBut3 (F := F) c)

theorem PhiS3_zero (c : Dev nD) (n : ℕ) (h : n ≤ cfg3.N) (hz : n = 0) :
    PhiS3 V c n h = iprop((∃ d, owns (c : Thread nD τ) scM3_0 fullShare d) ∗ restBut3 (F := F) c) := by
  subst hz; rfl
theorem PhiS3_succ (c : Dev nD) (n : ℕ) (hn : n < cfg3.N) :
    PhiS3 V c (n + 1) hn = iprop(owns (c : Thread nD τ) scM3_0 fullShare ((outsAt3 V c n hn).2) ∗ restBut3 (F := F) c) := rfl
theorem PhiS3_pos (c : Dev nD) (n : ℕ) (h : n ≤ cfg3.N) (hz : n ≠ 0) :
    PhiS3 V c n h = iprop(owns (c : Thread nD τ) scM3_0 fullShare ((outsAt3 V c (n - 1) (by omega)).2) ∗ restBut3 (F := F) c) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

end Cert.Kernel.Gen

end
-- ==== Proof.KB.R3Body.lean ====
/-
  The scatter call's body obligation: at every point the body, called with the windows' current buffers and the
  accumulator, runs from the invariant before the point to the invariant after it. The point's case is decided
  by its second grid coordinate (`t mod 831`); the case's run does the rest.
-/
import proofs.«179232_j88021059764774_1_alg».proof.Proof.KB.R3Dat

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
theorem sound_body3 (c : Dev nD) (t : Fin cfg3.N) :
    bodyPre3 V c t ⊢ wp frame (wpE (defs₀ (F := F)) Variants.none c none) Set.univ (bodyAtR3 t) (fun _ => bodyPost3 V c t) := by
  unfold bodyPre3 bodyPost3 bodyAtR3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hN : t.val < 40719 := lt_of_lt_of_eq t.isLt (show cfg3.N = 40719 from N_3)
  by_cases h0 : t.val % 831 = 0
  · by_cases h1 : t.val % 831 = 830
    · exfalso; omega
    · rw [Dat.leavesExact_idle (dat3 V c) 3 t (idleAt3_3 t (fun h => h1 ((hcond3_1 t).mp h))) (noFlush3_3 t (fun h => h1 ((hcond3_1 t).mp h)))]
      rw [outsAt3_A V c t h0 h1]
      (try dsimp only)
      have hpre : (dat3 V c).Φ t.castSucc ⊢ iprop((∃ d, owns (c : Thread nD τ) scM3_0 fullShare d) ∗ restBut3 (F := F) c) := by
        rw [PhiS3_castSucc V c t]
        by_cases hz : t.val = 0
        · rw [PhiS3_zero V c _ _ hz]
        · rw [PhiS3_pos V c _ _ hz]
          iintro ⟨HS0, Hr⟩
          isplitl [HS0]; · iexists _; iexact HS0
          iexact Hr
      iintro ⟨HΦ, Ho, ⟨%d0, H0⟩, ⟨%d1, H1⟩, ⟨%d2, H2⟩, ⟨%d3, H3⟩⟩
      ihave HΦ' := hpre $$ HΦ
      icases HΦ' with ⟨HS0, Hr⟩
      iapply ((runA3 V c t ((hcond3_0 t).mpr h0) (fun h => h1 ((hcond3_1 t).mp h))).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover3_A V c t _ _)
        iexact Hr
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 831 = 830
    · rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      (try dsimp only)
      rw [PhiS3_castSucc V c t, PhiS3_pos V c _ _ hz]
      iintro ⟨⟨HS0, Hr⟩, Ho, ⟨%d0, H0⟩, ⟨%d1, H1⟩, ⟨%d2, H2⟩, ⟨%d3, H3⟩⟩
      iapply ((runC3 V c t (fun h => h0 ((hcond3_0 t).mp h)) ((hcond3_1 t).mpr h1) (prevAcc3 V c t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr]
      · isplitl [HS0]
        · unfold owns; iexists _; isplitr
          swap; · iexact HS0
          ipureintro; exact View.read_writes_of_cover _ _ _ _ _ (scover3_C V c t _ _ _)
        iexact Hr
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C V c t _ _ _)
    · rw [Dat.leavesExact_idle (dat3 V c) 3 t (idleAt3_3 t (fun h => h1 ((hcond3_1 t).mp h))) (noFlush3_3 t (fun h => h1 ((hcond3_1 t).mp h)))]
      rw [outsAt3_B V c t h0 h1]
      (try dsimp only)
      rw [PhiS3_castSucc V c t, PhiS3_pos V c _ _ hz]
      iintro ⟨⟨HS0, Hr⟩, Ho, ⟨%d0, H0⟩, ⟨%d1, H1⟩, ⟨%d2, H2⟩, ⟨%d3, H3⟩⟩
      iapply ((runB3 V c t (fun h => h0 ((hcond3_0 t).mp h)) (fun h => h1 ((hcond3_1 t).mp h)) (prevAcc3 V c t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover3_B V c t _ _ _)
        iexact Hr
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

/-- What the launch hands the call (the scoped buffers no window stages) is the invariant before the first point. -/
theorem hin3 (c : Dev nD) :
    (Pipeline.scopedRest (Ix := Unit) (Name := ℕ) (U := UR sig nD τ) (Lvl := ℕ) (Val := Elt F) spec3 c : sProp 𝕄) ⊢ (dat3 V c).Φ 0 := by
  rw [show (dat3 V c).Φ 0 = PhiS3 V c 0 (Nat.zero_le _) from rfl, PhiS3_zero V c 0 _ rfl, scopedRest3_split]
  simp only [scM3_0, owns_whole]
  exact Idealize.SL.BI.Entails.refl _

/-- After the last point the invariant gives those buffers back, the accumulator's contents forgotten. -/
theorem hout3 (c : Dev nD) :
    (dat3 V c).Φ (Fin.last cfg3.N) ⊢ (Pipeline.scopedRest (Ix := Unit) (Name := ℕ) (U := UR sig nD τ) (Lvl := ℕ) (Val := Elt F) spec3 c : sProp 𝕄) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 40719 := N_3; omega), scopedRest3_split]
  iintro ⟨HS0, Hr⟩
  isplitl [HS0]
  · simp only [scM3_0, owns_whole]; iexists _; iexact HS0
  iexact Hr

end Cert.Kernel.Gen

end
-- ==== Proof.KB.Outs.lean ====
/-
  The contents of the buffers between the program's items, call by call. Each call's exit contents are its
  entry contents with the output array replaced by the blocks the pipeline wrote back; the entry contents of
  the next call are what the host operations in between make of them.
-/
import proofs.«179232_j88021059764774_1_alg».proof.Proof.KB.R0Body
import proofs.«179232_j88021059764774_1_alg».proof.Proof.KB.R1Body
import proofs.«179232_j88021059764774_1_alg».proof.Proof.KB.R2Body
import proofs.«179232_j88021059764774_1_alg».proof.Proof.KB.R3Body
import proofs.«179232_j88021059764774_1_alg».proof.Proof.Gen.Kernel.Regions
import Idealize.ShloMosaic.Lib.Pipeline.Regions
import Idealize.ShloMosaic.Lib.Pipeline.RegionsLoop

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No core owes another anything: no level is assigned. -/
abbrev LL : GSem nD τ sig → Finset Unit := fun _ => ∅
abbrev lvv : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)

/-! ## The valuations depend on what the calls left only through the four output arrays -/

theorem V4_congr (o o' : Outs (F := F)) (h4 : o 4 main_v45 = o' 4 main_v45) (c : Dev nD) : V4 m o c = V4 m o' c := by
  show Function.update (V3 m c) _ (o 4 main_v45 c) = Function.update (V3 m c) _ (o' 4 main_v45 c)
  rw [h4]
theorem V5_congr (o o' : Outs (F := F)) (h4 : o 4 main_v45 = o' 4 main_v45) (c : Dev nD) : V5 m o c = V5 m o' c :=
  congrArg (StableHlo.after hostOps1) (V4_congr m o o' h4 c)
theorem V6_congr (o o' : Outs (F := F)) (h4 : o 4 main_v45 = o' 4 main_v45) (h6 : o 6 main_v47 = o' 6 main_v47) (c : Dev nD) :
    V6 m o c = V6 m o' c := by
  show Function.update (V5 m o c) _ (o 6 main_v47 c) = Function.update (V5 m o' c) _ (o' 6 main_v47 c)
  rw [V5_congr m o o' h4 c, h6]
theorem V7_congr (o o' : Outs (F := F)) (h4 : o 4 main_v45 = o' 4 main_v45) (h6 : o 6 main_v47 = o' 6 main_v47) (c : Dev nD) :
    V7 m o c = V7 m o' c :=
  congrArg (StableHlo.after hostOps2) (V6_congr m o o' h4 h6 c)
theorem V8_congr (o o' : Outs (F := F)) (h4 : o 4 main_v45 = o' 4 main_v45) (h6 : o 6 main_v47 = o' 6 main_v47) (h8 : o 8 main_v53 = o' 8 main_v53)
    (c : Dev nD) : V8 m o c = V8 m o' c := by
  show Function.update (V7 m o c) _ (o 8 main_v53 c) = Function.update (V7 m o' c) _ (o' 8 main_v53 c)
  rw [V7_congr m o o' h4 h6 c, h8]
theorem V9_congr (o o' : Outs (F := F)) (h4 : o 4 main_v45 = o' 4 main_v45) (h6 : o 6 main_v47 = o' 6 main_v47) (h8 : o 8 main_v53 = o' 8 main_v53)
    (c : Dev nD) : V9 m o c = V9 m o' c :=
  congrArg (StableHlo.after hostOps3) (V8_congr m o o' h4 h6 h8 c)

/-! ## The contents the calls leave, call by call -/

abbrev VV3 : (c : Dev nD) → (b : Ref sig .tc) → Buf (Elt F) ((c : Thread nD τ).loc b) := fun c b => V3 m c b
@[irreducible] def O4 (c : Dev nD) : Valuation τ sig (Elt F) := Pipeline.withArrays spec0 c (V3 m c) fun w => (dat0 (VV3 m) c).arrAt w cfg0.N
theorem O4_arr (c : Dev nD) (w : Fin cfg0.W) : O4 m c (Proc.devRef .tc (Pipeline.arrRef spec0 w)) = (dat0 (VV3 m) c).arrAt w cfg0.N := by
  unfold O4; exact Pipeline.withArrays_arr spec0 launch0.win.arr_inj c _ _ w
def outs4 : Outs (F := F) := fun _ r c => O4 m c (Proc.devRef .tc r)
abbrev VV5 : (c : Dev nD) → (b : Ref sig .tc) → Buf (Elt F) ((c : Thread nD τ).loc b) := fun c b => V5 m (outs4 m) c b
@[irreducible] def O6 (c : Dev nD) : Valuation τ sig (Elt F) := Pipeline.withArrays spec1 c (V5 m (outs4 m) c) fun w => (dat1 (VV5 m) c).arrAt w cfg1.N
theorem O6_arr (c : Dev nD) (w : Fin cfg1.W) : O6 m c (Proc.devRef .tc (Pipeline.arrRef spec1 w)) = (dat1 (VV5 m) c).arrAt w cfg1.N := by
  unfold O6; exact Pipeline.withArrays_arr spec1 launch1.win.arr_inj c _ _ w
def outs6 : Outs (F := F) := fun J r c => match J with | 4 => O4 m c (Proc.devRef .tc r) | _ => O6 m c (Proc.devRef .tc r)
abbrev VV7 : (c : Dev nD) → (b : Ref sig .tc) → Buf (Elt F) ((c : Thread nD τ).loc b) := fun c b => V7 m (outs6 m) c b
@[irreducible] def O8 (c : Dev nD) : Valuation τ sig (Elt F) := Pipeline.withArrays spec2 c (V7 m (outs6 m) c) fun w => (dat2 (VV7 m) c).arrAt w cfg2.N
theorem O8_arr (c : Dev nD) (w : Fin cfg2.W) : O8 m c (Proc.devRef .tc (Pipeline.arrRef spec2 w)) = (dat2 (VV7 m) c).arrAt w cfg2.N := by
  unfold O8; exact Pipeline.withArrays_arr spec2 launch2.win.arr_inj c _ _ w
def outs8 : Outs (F := F) := fun J r c => match J with | 4 => O4 m c (Proc.devRef .tc r) | 6 => O6 m c (Proc.devRef .tc r) | _ => O8 m c (Proc.devRef .tc r)
abbrev VV9 : (c : Dev nD) → (b : Ref sig .tc) → Buf (Elt F) ((c : Thread nD τ).loc b) := fun c b => V9 m (outs8 m) c b
@[irreducible] def O10 (c : Dev nD) : Valuation τ sig (Elt F) := Pipeline.withArrays spec3 c (V9 m (outs8 m) c) fun w => (dat3 (VV9 m) c).arrAt w cfg3.N
theorem O10_arr (c : Dev nD) (w : Fin cfg3.W) : O10 m c (Proc.devRef .tc (Pipeline.arrRef spec3 w)) = (dat3 (VV9 m) c).arrAt w cfg3.N := by
  unfold O10; exact Pipeline.withArrays_arr spec3 launch3.win.arr_inj c _ _ w
/-- What each call leaves in its output array. -/
def outs : Outs (F := F) := fun J r c => match J with
  | 4 => O4 m c (Proc.devRef .tc r) | 6 => O6 m c (Proc.devRef .tc r) | 8 => O8 m c (Proc.devRef .tc r) | _ => O10 m c (Proc.devRef .tc r)

theorem hV5 (c : Dev nD) : V5 m (outs m) c = V5 m (outs4 m) c := V5_congr m (outs m) (outs4 m) rfl c

end Cert.Kernel.Gen

end
-- ==== Proof.KB.Outs2.lean ====
/-
  The valuations before the third and fourth call, read with the final table of the calls' outputs, are those the
  calls' proof data were stated at.
-/
import proofs.«179232_j88021059764774_1_alg».proof.Proof.KB.Outs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem outs_46 : outs m 4 main_v45 = outs6 m 4 main_v45 := by
  funext c; simp only [outs, outs6]
theorem outs_66 : outs m 6 main_v47 = outs6 m 6 main_v47 := by
  funext c; simp only [outs, outs6]
theorem outs_48 : outs m 4 main_v45 = outs8 m 4 main_v45 := by
  funext c; simp only [outs, outs8]
theorem outs_68 : outs m 6 main_v47 = outs8 m 6 main_v47 := by
  funext c; simp only [outs, outs8]
theorem outs_88 : outs m 8 main_v53 = outs8 m 8 main_v53 := by
  funext c; simp only [outs, outs8]

theorem hV7 (c : Dev nD) : V7 m (outs m) c = V7 m (outs6 m) c := V7_congr m (outs m) (outs6 m) (outs_46 m) (outs_66 m) c
theorem hV9 (c : Dev nD) : V9 m (outs m) c = V9 m (outs8 m) c := V9_congr m (outs m) (outs8 m) (outs_48 m) (outs_68 m) (outs_88 m) c

/-- Every call's proof data, each at its entry contents. -/
def pdats : (p : Fin 4) → (c : Dev nD) → Dat τ (Elt F) Unit ℕ (UR sig nD τ) ℕ (cfgs p) c
  | ⟨0, _⟩ => fun c => dat0 (VV3 m) c
  | ⟨1, _⟩ => fun c => dat1 (VV5 m) c
  | ⟨2, _⟩ => fun c => dat2 (VV7 m) c
  | ⟨3, _⟩ => fun c => dat3 (VV9 m) c

end Cert.Kernel.Gen

end
-- ==== Proof.KB.Reg0.lean ====
/-
  Call 0 as a segment of the program: entered from every unscoped buffer at the contents before it, left at the
  contents after it. Its arrays are split out of the unscoped buffers and put back at the exit contents (the
  inputs as entered, the output's blocks written back); the scoped buffers no window stages make the invariant
  before the first point and come back after the last; nothing is owed; the call has no semaphore of its own.
-/
import proofs.«179232_j88021059764774_1_alg».proof.Proof.KB.Outs2

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
theorem hF0_0 (c : Dev nD) : (pdats m 0 c).arrAt 0 cfg0.N = V4 m (outs m) c (Pipeline.arrRef spec0 0) := by
  show (dat0 (VV3 m) c).arrAt 0 cfg0.N = V4 m (outs m) c main_v38
  exact ((dat0 (VV3 m) c).arrAt_in 0 rfl _).trans ((V4_of m (outs m) c main_v38 (by decide)).symm)
set_option maxHeartbeats 2000000 in
theorem hF0_1 (c : Dev nD) : (pdats m 0 c).arrAt 1 cfg0.N = V4 m (outs m) c (Pipeline.arrRef spec0 1) := by
  show (dat0 (VV3 m) c).arrAt 1 cfg0.N = V4 m (outs m) c main_v39
  exact ((dat0 (VV3 m) c).arrAt_in 1 rfl _).trans ((V4_of m (outs m) c main_v39 (by decide)).symm)
set_option maxHeartbeats 2000000 in
theorem hF0_2 (c : Dev nD) : (pdats m 0 c).arrAt 2 cfg0.N = V4 m (outs m) c (Pipeline.arrRef spec0 2) := by
  show (dat0 (VV3 m) c).arrAt 2 cfg0.N = V4 m (outs m) c main_v44
  exact ((dat0 (VV3 m) c).arrAt_in 2 rfl _).trans ((V4_of m (outs m) c main_v44 (by decide)).symm)
set_option maxHeartbeats 2000000 in
theorem hF0_3 (c : Dev nD) : (pdats m 0 c).arrAt 3 cfg0.N = V4 m (outs m) c (Pipeline.arrRef spec0 3) := by
  show (dat0 (VV3 m) c).arrAt 3 cfg0.N = V4 m (outs m) c main_v45
  have h : V4 m (outs m) c main_v45 = outs m 4 main_v45 c := Function.update_self _ _ _
  rw [h]
  exact (O4_arr m c 3).symm

theorem hF0 (c : Dev nD) : ∀ w : Fin cfg0.W, (pdats m 0 c).arrAt w cfg0.N = V4 m (outs m) c (Pipeline.arrRef spec0 w)
  | ⟨0, _⟩ => hF0_0 m c
  | ⟨1, _⟩ => hF0_1 m c
  | ⟨2, _⟩ => hF0_2 m c
  | ⟨3, _⟩ => hF0_3 m c

theorem hrest0 (c : Dev nD) : ∀ b : Ref sig .tc, b ∉ Finset.univ.image (Pipeline.arrRef spec0) → V4 m (outs m) c b = V3 m c b :=
  fun b hb => V4_of m (outs m) c b (fun h => hb (by
    rw [List.mem_singleton] at h; subst h
    exact Finset.mem_image.mpr ⟨3, Finset.mem_univ _, rfl⟩))

set_option maxHeartbeats 2000000 in
set_option backward.isDefEq.respectTransparency.types false in
def reg0 : Pipeline.RegionSeg (pcfgs (F := F)) adm (pdats m) () defs₀ Variants.none LL lvv 0 where
  win := launch0.win.to₀
  block_pos := launch0.block_pos
  stage_whole := launch0.stage_whole
  K := PEmpty
  osem k := k.elim
  ho := Pipeline.OwnSemFacts.none _
  hbody c := (body_obligation0 (VV3 m) c).loose
  hwaits := Pipeline.hwaits_of_owed_zero _ _ _ _ LL lvv 0 fun _ _ => rfl
  pre c := iprop(StableHlo.held (c : Thread nD τ) (Pipeline.ucRefs τ sig) (V3 m c) ∗ Rr (F := F) c)
  post c := iprop(StableHlo.held (c : Thread nD τ) (Pipeline.ucRefs τ sig) (V4 m (outs m) c) ∗ Rr (F := F) c)
  X c := iprop(emp)
  Y c := iprop(emp)
  Z c := iprop(Pipeline.unscopedRest (Ix := Unit) (Name := ℕ) (U := UR sig nD τ) (Lvl := ℕ) spec0 c (fun b => V3 m c b) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V3 m c b) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = (dat0 (VV3 m) c).Φ 0 from rfl]
    iintro ⟨-, -, Hr⟩
    iapply (hin0 (VV3 m) c)
    iexact Hr
  hout c := by
    rw [Pipeline.ownSems0_none, show (pdats m 0 c).Φ (Fin.last _) = (dat0 (VV3 m) c).Φ (Fin.last cfg0.N) from rfl]
    iintro HΦ
    isplitr; · iempintro
    isplitr; · iempintro
    iapply (hout0 (VV3 m) c)
    iexact HΦ
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V3 m c b) (fun b => V4 m (outs m) c b) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Gen

end
-- ==== Proof.KB.Reg1.lean ====
/-
  Call 1 as a segment of the program: entered from every unscoped buffer at the contents before it, left at the
  contents after it. Its arrays are split out of the unscoped buffers and put back at the exit contents (the
  inputs as entered, the output's blocks written back); the scoped buffers no window stages make the invariant
  before the first point and come back after the last; nothing is owed; the call has no semaphore of its own.
-/
import proofs.«179232_j88021059764774_1_alg».proof.Proof.KB.Outs2

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
theorem hF1_0 (c : Dev nD) : (pdats m 1 c).arrAt 0 cfg1.N = V6 m (outs m) c (Pipeline.arrRef spec1 0) := by
  show (dat1 (VV5 m) c).arrAt 0 cfg1.N = V6 m (outs m) c main_v40
  exact ((dat1 (VV5 m) c).arrAt_in 0 rfl _).trans ((congrFun (hV5 m c) _).symm.trans (V6_of m (outs m) c main_v40 (by decide)).symm)
set_option maxHeartbeats 2000000 in
theorem hF1_1 (c : Dev nD) : (pdats m 1 c).arrAt 1 cfg1.N = V6 m (outs m) c (Pipeline.arrRef spec1 1) := by
  show (dat1 (VV5 m) c).arrAt 1 cfg1.N = V6 m (outs m) c main_v45
  exact ((dat1 (VV5 m) c).arrAt_in 1 rfl _).trans ((congrFun (hV5 m c) _).symm.trans (V6_of m (outs m) c main_v45 (by decide)).symm)
set_option maxHeartbeats 2000000 in
theorem hF1_2 (c : Dev nD) : (pdats m 1 c).arrAt 2 cfg1.N = V6 m (outs m) c (Pipeline.arrRef spec1 2) := by
  show (dat1 (VV5 m) c).arrAt 2 cfg1.N = V6 m (outs m) c main_v46
  exact ((dat1 (VV5 m) c).arrAt_in 2 rfl _).trans ((congrFun (hV5 m c) _).symm.trans (V6_of m (outs m) c main_v46 (by decide)).symm)
set_option maxHeartbeats 2000000 in
theorem hF1_3 (c : Dev nD) : (pdats m 1 c).arrAt 3 cfg1.N = V6 m (outs m) c (Pipeline.arrRef spec1 3) := by
  show (dat1 (VV5 m) c).arrAt 3 cfg1.N = V6 m (outs m) c main_v47
  have h : V6 m (outs m) c main_v47 = outs m 6 main_v47 c := Function.update_self _ _ _
  rw [h]
  exact (O6_arr m c 3).symm

theorem hF1 (c : Dev nD) : ∀ w : Fin cfg1.W, (pdats m 1 c).arrAt w cfg1.N = V6 m (outs m) c (Pipeline.arrRef spec1 w)
  | ⟨0, _⟩ => hF1_0 m c
  | ⟨1, _⟩ => hF1_1 m c
  | ⟨2, _⟩ => hF1_2 m c
  | ⟨3, _⟩ => hF1_3 m c

theorem hrest1 (c : Dev nD) : ∀ b : Ref sig .tc, b ∉ Finset.univ.image (Pipeline.arrRef spec1) → V6 m (outs m) c b = V5 m (outs m) c b :=
  fun b hb => V6_of m (outs m) c b (fun h => hb (by
    rw [List.mem_singleton] at h; subst h
    exact Finset.mem_image.mpr ⟨3, Finset.mem_univ _, rfl⟩))

set_option maxHeartbeats 2000000 in
set_option backward.isDefEq.respectTransparency.types false in
def reg1 : Pipeline.RegionSeg (pcfgs (F := F)) adm (pdats m) () defs₀ Variants.none LL lvv 1 where
  win := launch1.win.to₀
  block_pos := launch1.block_pos
  stage_whole := launch1.stage_whole
  K := PEmpty
  osem k := k.elim
  ho := Pipeline.OwnSemFacts.none _
  hbody c := (body_obligation1 (VV5 m) c).loose
  hwaits := Pipeline.hwaits_of_owed_zero _ _ _ _ LL lvv 1 fun _ _ => rfl
  pre c := iprop(StableHlo.held (c : Thread nD τ) (Pipeline.ucRefs τ sig) (V5 m (outs m) c) ∗ Rr (F := F) c)
  post c := iprop(StableHlo.held (c : Thread nD τ) (Pipeline.ucRefs τ sig) (V6 m (outs m) c) ∗ Rr (F := F) c)
  X c := iprop(emp)
  Y c := iprop(emp)
  Z c := iprop(Pipeline.unscopedRest (Ix := Unit) (Name := ℕ) (U := UR sig nD τ) (Lvl := ℕ) spec1 c (fun b => V5 m (outs m) c b) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V5 m (outs m) c b) (fun w => (congrFun (hV5 m c) _).symm)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = (dat1 (VV5 m) c).Φ 0 from rfl]
    iintro ⟨-, -, Hr⟩
    iapply (hin1 (VV5 m) c)
    iexact Hr
  hout c := by
    rw [Pipeline.ownSems0_none, show (pdats m 1 c).Φ (Fin.last _) = (dat1 (VV5 m) c).Φ (Fin.last cfg1.N) from rfl]
    iintro HΦ
    isplitr; · iempintro
    isplitr; · iempintro
    iapply (hout1 (VV5 m) c)
    iexact HΦ
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V5 m (outs m) c b) (fun b => V6 m (outs m) c b) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Gen

end
-- ==== Proof.KB.Reg2.lean ====
/-
  Call 2 as a segment of the program: entered from every unscoped buffer at the contents before it, left at the
  contents after it. Its arrays are split out of the unscoped buffers and put back at the exit contents (the
  inputs as entered, the output's blocks written back); the scoped buffers no window stages make the invariant
  before the first point and come back after the last; nothing is owed; the call has no semaphore of its own.
-/
import proofs.«179232_j88021059764774_1_alg».proof.Proof.KB.Outs2

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
theorem hF2_0 (c : Dev nD) : (pdats m 2 c).arrAt 0 cfg2.N = V8 m (outs m) c (Pipeline.arrRef spec2 0) := by
  show (dat2 (VV7 m) c).arrAt 0 cfg2.N = V8 m (outs m) c main_v38
  exact ((dat2 (VV7 m) c).arrAt_in 0 rfl _).trans ((congrFun (hV7 m c) _).symm.trans (V8_of m (outs m) c main_v38 (by decide)).symm)
set_option maxHeartbeats 2000000 in
theorem hF2_1 (c : Dev nD) : (pdats m 2 c).arrAt 1 cfg2.N = V8 m (outs m) c (Pipeline.arrRef spec2 1) := by
  show (dat2 (VV7 m) c).arrAt 1 cfg2.N = V8 m (outs m) c main_v39
  exact ((dat2 (VV7 m) c).arrAt_in 1 rfl _).trans ((congrFun (hV7 m c) _).symm.trans (V8_of m (outs m) c main_v39 (by decide)).symm)
set_option maxHeartbeats 2000000 in
theorem hF2_2 (c : Dev nD) : (pdats m 2 c).arrAt 2 cfg2.N = V8 m (outs m) c (Pipeline.arrRef spec2 2) := by
  show (dat2 (VV7 m) c).arrAt 2 cfg2.N = V8 m (outs m) c main_v52
  exact ((dat2 (VV7 m) c).arrAt_in 2 rfl _).trans ((congrFun (hV7 m c) _).symm.trans (V8_of m (outs m) c main_v52 (by decide)).symm)
set_option maxHeartbeats 2000000 in
theorem hF2_3 (c : Dev nD) : (pdats m 2 c).arrAt 3 cfg2.N = V8 m (outs m) c (Pipeline.arrRef spec2 3) := by
  show (dat2 (VV7 m) c).arrAt 3 cfg2.N = V8 m (outs m) c main_v53
  have h : V8 m (outs m) c main_v53 = outs m 8 main_v53 c := Function.update_self _ _ _
  rw [h]
  exact (O8_arr m c 3).symm

theorem hF2 (c : Dev nD) : ∀ w : Fin cfg2.W, (pdats m 2 c).arrAt w cfg2.N = V8 m (outs m) c (Pipeline.arrRef spec2 w)
  | ⟨0, _⟩ => hF2_0 m c
  | ⟨1, _⟩ => hF2_1 m c
  | ⟨2, _⟩ => hF2_2 m c
  | ⟨3, _⟩ => hF2_3 m c

theorem hrest2 (c : Dev nD) : ∀ b : Ref sig .tc, b ∉ Finset.univ.image (Pipeline.arrRef spec2) → V8 m (outs m) c b = V7 m (outs m) c b :=
  fun b hb => V8_of m (outs m) c b (fun h => hb (by
    rw [List.mem_singleton] at h; subst h
    exact Finset.mem_image.mpr ⟨3, Finset.mem_univ _, rfl⟩))

set_option maxHeartbeats 2000000 in
set_option backward.isDefEq.respectTransparency.types false in
def reg2 : Pipeline.RegionSeg (pcfgs (F := F)) adm (pdats m) () defs₀ Variants.none LL lvv 2 where
  win := launch2.win.to₀
  block_pos := launch2.block_pos
  stage_whole := launch2.stage_whole
  K := PEmpty
  osem k := k.elim
  ho := Pipeline.OwnSemFacts.none _
  hbody c := (body_obligation2 (VV7 m) c).loose
  hwaits := Pipeline.hwaits_of_owed_zero _ _ _ _ LL lvv 2 fun _ _ => rfl
  pre c := iprop(StableHlo.held (c : Thread nD τ) (Pipeline.ucRefs τ sig) (V7 m (outs m) c) ∗ Rr (F := F) c)
  post c := iprop(StableHlo.held (c : Thread nD τ) (Pipeline.ucRefs τ sig) (V8 m (outs m) c) ∗ Rr (F := F) c)
  X c := iprop(emp)
  Y c := iprop(emp)
  Z c := iprop(Pipeline.unscopedRest (Ix := Unit) (Name := ℕ) (U := UR sig nD τ) (Lvl := ℕ) spec2 c (fun b => V7 m (outs m) c b) ∗ ∃ r, prngReg c r)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V7 m (outs m) c b) (fun w => (congrFun (hV7 m c) _).symm)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = (dat2 (VV7 m) c).Φ 0 from rfl]
    iintro ⟨-, -, Hr⟩
    iapply (hin2 (VV7 m) c)
    iexact Hr
  hout c := by
    rw [Pipeline.ownSems0_none, show (pdats m 2 c).Φ (Fin.last _) = (dat2 (VV7 m) c).Φ (Fin.last cfg2.N) from rfl]
    iintro HΦ
    isplitr; · iempintro
    isplitr; · iempintro
    iapply (hout2 (VV7 m) c)
    iexact HΦ
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V7 m (outs m) c b) (fun b => V8 m (outs m) c b) ((pdats m 2 c).arrAt · cfg2.N) (hF2 m c) (hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Gen

end
-- ==== Proof.KB.Reg3.lean ====
/-
  Call 3 as a segment of the program: entered from every unscoped buffer at the contents before it, left at the
  contents after it. Its arrays are split out of the unscoped buffers and put back at the exit contents (the
  inputs as entered, the output's blocks written back); the scoped buffers no window stages make the invariant
  before the first point and come back after the last; nothing is owed; the call has no semaphore of its own.
-/
import proofs.«179232_j88021059764774_1_alg».proof.Proof.KB.Outs2

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
theorem hF3_0 (c : Dev nD) : (pdats m 3 c).arrAt 0 cfg3.N = V10 m (outs m) c (Pipeline.arrRef spec3 0) := by
  show (dat3 (VV9 m) c).arrAt 0 cfg3.N = V10 m (outs m) c main_v40
  exact ((dat3 (VV9 m) c).arrAt_in 0 rfl _).trans ((congrFun (hV9 m c) _).symm.trans (V10_of m (outs m) c main_v40 (by decide)).symm)
set_option maxHeartbeats 2000000 in
theorem hF3_1 (c : Dev nD) : (pdats m 3 c).arrAt 1 cfg3.N = V10 m (outs m) c (Pipeline.arrRef spec3 1) := by
  show (dat3 (VV9 m) c).arrAt 1 cfg3.N = V10 m (outs m) c main_v53
  exact ((dat3 (VV9 m) c).arrAt_in 1 rfl _).trans ((congrFun (hV9 m c) _).symm.trans (V10_of m (outs m) c main_v53 (by decide)).symm)
set_option maxHeartbeats 2000000 in
theorem hF3_2 (c : Dev nD) : (pdats m 3 c).arrAt 2 cfg3.N = V10 m (outs m) c (Pipeline.arrRef spec3 2) := by
  show (dat3 (VV9 m) c).arrAt 2 cfg3.N = V10 m (outs m) c main_v54
  exact ((dat3 (VV9 m) c).arrAt_in 2 rfl _).trans ((congrFun (hV9 m c) _).symm.trans (V10_of m (outs m) c main_v54 (by decide)).symm)
set_option maxHeartbeats 2000000 in
theorem hF3_3 (c : Dev nD) : (pdats m 3 c).arrAt 3 cfg3.N = V10 m (outs m) c (Pipeline.arrRef spec3 3) := by
  show (dat3 (VV9 m) c).arrAt 3 cfg3.N = V10 m (outs m) c main_v55
  have h : V10 m (outs m) c main_v55 = outs m 10 main_v55 c := Function.update_self _ _ _
  rw [h]
  exact (O10_arr m c 3).symm

theorem hF3 (c : Dev nD) : ∀ w : Fin cfg3.W, (pdats m 3 c).arrAt w cfg3.N = V10 m (outs m) c (Pipeline.arrRef spec3 w)
  | ⟨0, _⟩ => hF3_0 m c
  | ⟨1, _⟩ => hF3_1 m c
  | ⟨2, _⟩ => hF3_2 m c
  | ⟨3, _⟩ => hF3_3 m c

theorem hrest3 (c : Dev nD) : ∀ b : Ref sig .tc, b ∉ Finset.univ.image (Pipeline.arrRef spec3) → V10 m (outs m) c b = V9 m (outs m) c b :=
  fun b hb => V10_of m (outs m) c b (fun h => hb (by
    rw [List.mem_singleton] at h; subst h
    exact Finset.mem_image.mpr ⟨3, Finset.mem_univ _, rfl⟩))

set_option maxHeartbeats 2000000 in
set_option backward.isDefEq.respectTransparency.types false in
def reg3 : Pipeline.RegionSeg (pcfgs (F := F)) adm (pdats m) () defs₀ Variants.none LL lvv 3 where
  win := launch3.win.to₀
  block_pos := launch3.block_pos
  stage_whole := launch3.stage_whole
  K := PEmpty
  osem k := k.elim
  ho := Pipeline.OwnSemFacts.none _
  hbody c := (body_obligation3 (VV9 m) c).loose
  hwaits := Pipeline.hwaits_of_owed_zero _ _ _ _ LL lvv 3 fun _ _ => rfl
  pre c := iprop(StableHlo.held (c : Thread nD τ) (Pipeline.ucRefs τ sig) (V9 m (outs m) c) ∗ Rr (F := F) c)
  post c := iprop(StableHlo.held (c : Thread nD τ) (Pipeline.ucRefs τ sig) (V10 m (outs m) c) ∗ Rr (F := F) c)
  X c := iprop(emp)
  Y c := iprop(emp)
  Z c := iprop(Pipeline.unscopedRest (Ix := Unit) (Name := ℕ) (U := UR sig nD τ) (Lvl := ℕ) spec3 c (fun b => V9 m (outs m) c b) ∗ ∃ r, prngReg c r)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V9 m (outs m) c b) (fun w => (congrFun (hV9 m c) _).symm)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 3 c).Φ 0 = (dat3 (VV9 m) c).Φ 0 from rfl]
    iintro ⟨-, -, Hr⟩
    iapply (hin3 (VV9 m) c)
    iexact Hr
  hout c := by
    rw [Pipeline.ownSems0_none, show (pdats m 3 c).Φ (Fin.last _) = (dat3 (VV9 m) c).Φ (Fin.last cfg3.N) from rfl]
    iintro HΦ
    isplitr; · iempintro
    isplitr; · iempintro
    iapply (hout3 (VV9 m) c)
    iexact HΦ
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V9 m (outs m) c b) (fun b => V10 m (outs m) c b) ((pdats m 3 c).arrAt · cfg3.N) (hF3 m c) (hrest3 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Gen

end
-- ==== Proof.KB.Frame.lean ====
/-
  The program's frame: from any memory, every weakly fair execution of the program terminates without a fault
  and ends with every argument array as launched. The four calls are entered and left through their segment
  records; the host operations between them are the generated host segments.
-/
import proofs.«179232_j88021059764774_1_alg».proof.Proof.KB.Reg0
import proofs.«179232_j88021059764774_1_alg».proof.Proof.KB.Reg1
import proofs.«179232_j88021059764774_1_alg».proof.Proof.KB.Reg2
import proofs.«179232_j88021059764774_1_alg».proof.Proof.KB.Reg3

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond (F := F) m emb₁ () Variants.none LL lvv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr (F := F) c)
    (hE0 := by
      have hcore : ∀ c : Dev nD, iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) ⊢ (Rr (F := F) c : sProp 𝕄) := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ fun c : Dev nD => Rr (F := F) c : sProp 𝕄) :=
        bigSep_mono fun c _ => hcore c
      iintro ⟨H, -⟩
      imodintro
      iapply hmono
      iexact H)
    (hE4 := fun c => by
      iintro ⟨-, HO⟩
      iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)

end Cert.Kernel.Gen

end
-- ==== Proof.KI.R0Base.lean ====
/-
  The gather call (pipeline 0), what its three control cases share. A point is "first" when its node-block
  coordinate (the grid's second axis) is 0 — the accumulator is zeroed before the one-hot product is added —
  and "last" when it is 48 — the accumulator is written to the output block. Point `t` has that
  coordinate equal to `t mod 49`.
-/
import proofs.«179232_j88021059764774_1_alg».proof.Proof.Gen.KernelIdeal.Launch
import proofs.«179232_j88021059764774_1_alg».proof.Proof.Gen.KernelIdeal.Skeleton
import Idealize.ShloMosaic.Lib.Pipeline.Kit
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point's coordinates: the second is `t mod 49`, the first `t / 49` (the second axis runs fastest). -/
theorem coord0_1 (t : Fin cfg0.N) : ((grid0.coords t) 1).val = t.val % 49 := by
  show t.val / grid0.stride 1 % 49 = _
  rw [show grid0.stride 1 = 1 from by decide, Nat.div_one]
theorem coord0_0 (t : Fin cfg0.N) : ((grid0.coords t) 0).val = t.val / 49 % 831 := by
  show t.val / grid0.stride 0 % 831 = _
  rw [show grid0.stride 0 = 49 from by decide]

/-- "The second coordinate is 0": the accumulator is zeroed first. -/
abbrev cond0_0 (i : grid0.Coords) : Prop := (Scalar.cmpi .ne (Scalar.extui (Scalar.cmpi .eq (BitVec.ofNat 32 (i 1).val) 0#32)) 0#32) = 1#1
theorem key0_0 : ∀ x : Fin 49, ((Scalar.cmpi .ne (Scalar.extui (Scalar.cmpi .eq (BitVec.ofNat 32 x.val) 0#32)) 0#32) = 1#1) ↔ x.val = 0 := by decide +kernel
theorem hcond0_0 (t : Fin cfg0.N) : cond0_0 (grid0.coords t) ↔ t.val % 49 = 0 :=
  (key0_0 ((grid0.coords t) 1)).trans (by rw [coord0_1 t])

/-- "The second coordinate is 48": the accumulator goes to the output block. -/
abbrev cond0_1 (i : grid0.Coords) : Prop := k0_cond2 i = 1#1
theorem key0_1 : ∀ x : Fin 49, ((Scalar.cmpi .ne (Scalar.extui (Scalar.cmpi .eq (BitVec.ofNat 32 x.val) 48#32)) 0#32) = 1#1) ↔ x.val = 48 := by decide +kernel
theorem hcond0_1 (t : Fin cfg0.N) : cond0_1 (grid0.coords t) ↔ t.val % 49 = 48 :=
  (key0_1 ((grid0.coords t) 1)).trans (by rw [coord0_1 t])

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Away from the last block of a row nothing is stored into the output block: idle by the configuration's table, -/
theorem idleAt0_3 (t : Fin cfg0.N) (h : ¬cond0_1 (grid0.coords t)) : cfg0.idle 3 (grid0.coords t) = true := by
  show (!(k0_cond2 (grid0.coords t) == 1#1)) = true
  simpa using h
/-- and the block is not written back there; -/
theorem noFlush0_3 (t : Fin cfg0.N) (hc : ¬cond0_1 (grid0.coords t)) : (cfg0.win 3).flush t = false := by
  have h : ¬ t.val % 49 = 48 := fun e => hc ((hcond0_1 t).mpr e)
  have hN : t.val < 40719 := lt_of_lt_of_eq t.isLt (show cfg0.N = 40719 from N_0)
  have h1 : t.val + 1 < grid0.N := by rw [N_0]; omega
  show (win0_3.isOut && (decide (t.val + 1 = grid0.N) || decide (∃ h : t.val + 1 < grid0.N, win0_3.index ⟨t.val + 1, h⟩ ≠ win0_3.index t))) = false
  have e : win0_3.index ⟨t.val + 1, h1⟩ = win0_3.index t := by
    show cc0_transform_3 (grid0.coords ⟨t.val + 1, h1⟩) = cc0_transform_3 (grid0.coords t)
    unfold cc0_transform_3
    have : ((grid0.coords ⟨t.val + 1, h1⟩) 0).val = ((grid0.coords t) 0).val := by
      rw [coord0_0, coord0_0]; show (t.val + 1) / 49 % 831 = t.val / 49 % 831; omega
    simp only [this]
  have hne : ¬ (t.val + 1 = grid0.N) := by rw [N_0]; omega
  simp only [hne, decide_false, Bool.false_or, Bool.and_eq_false_imp, decide_eq_false_iff_not]
  intro _ ⟨h', hh⟩
  exact hh e
/-- at the last block it is stored. -/
theorem liveAt0_3 (t : Fin cfg0.N) (h : cond0_1 (grid0.coords t)) : cfg0.idle 3 (grid0.coords t) = false := by
  show (!(k0_cond2 (grid0.coords t) == 1#1)) = false
  simpa using h

/-- The body as the pipeline calls it at point `t`: on the windows' current buffers and the accumulator. -/
abbrev bodyAtR0 (t : Fin cfg0.N) : Prog (TpuEff nD τ sig (Elt F) Λ₀ .tc) PUnit :=
  cc0__gather_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)

abbrev VO0_3 : View sig .tc .vmem S1024x128 .bf16 := (Memref.whole cc0_stg3_0 : Memref sig .tc .vmem S1024x128 .bf16).view
abbrev ms0_0 (t : Fin cfg0.N) : Memref sig .tc .vmem S1024x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
/-- The accumulator: a whole scoped buffer of the call's own. -/
abbrev scM0_0 : Memref sig .tc .vmem S1024x128 .f32 := Memref.whole cc0_scratch0
abbrev VS0_0 : View sig .tc .vmem S1024x128 .f32 := scM0_0.view

end Cert.KernelIdeal.Gen

end
-- ==== Proof.KI.R0RunA.lean ====
/-
  The gather body at the first block of a row (coordinate 0, not 48): the accumulator, found at anything, is zeroed and then receives the one-hot product of this block; the output block's buffer is not touched.
-/
import proofs.«179232_j88021059764774_1_alg».proof.Proof.KI.R0Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (hc0 : cond0_0 i) (hc1 : ¬cond0_1 i)
    (x0 : Vec F S1024x1 .i32) (x1 : Vec F S1024x1 .f32) (x2 : Vec F S1024x128 .bf16) :
    Σ' (L3 : List (View.Piece (Elt F) S1024x128 .bf16)), { LS0 : List (View.Piece (Elt F) S1024x128 .f32) //
      ∀ (xi3 : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨[], ?_, fun xi3 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.KI.R0RunB.lean ====
/-
  The gather body away from both ends of a row of blocks (coordinate neither 0 nor 48): the accumulator, found at what the point before left, receives the one-hot product of this block; the output block's buffer is not touched.
-/
import proofs.«179232_j88021059764774_1_alg».proof.Proof.KI.R0RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (hc0 : ¬cond0_0 i) (hc1 : ¬cond0_1 i)
    (x0 : Vec F S1024x1 .i32) (x1 : Vec F S1024x1 .f32) (x2 : Vec F S1024x128 .bf16) (xs0 : Vec F S1024x128 .f32) :
    Σ' (L3 : List (View.Piece (Elt F) S1024x128 .bf16)), { LS0 : List (View.Piece (Elt F) S1024x128 .f32) //
      ∀ (xi3 : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨[], ?_, fun xi3 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.KI.R0RunC.lean ====
/-
  The gather body at the last block of a row (coordinate 48, not 0): the accumulator receives the last one-hot product and is then written, in the output's format, over the whole output block.
-/
import proofs.«179232_j88021059764774_1_alg».proof.Proof.KI.R0RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x1 .i32) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (hc0 : ¬cond0_0 i) (hc1 : cond0_1 i)
    (x0 : Vec F S1024x1 .i32) (x1 : Vec F S1024x1 .f32) (x2 : Vec F S1024x128 .bf16) (xs0 : Vec F S1024x128 .f32) :
    Σ' (L3 : List (View.Piece (Elt F) S1024x128 .bf16)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.KernelIdeal.Gen

end
-- ==== Proof.KI.R0Dat.lean ====
/-
  The gather call's proof data. After point `t` the accumulator holds the sum, over the blocks of the current
  row met so far, of the one-hot products (the run of the point's case, started from zero at the first block of
  the row and from what the point before left otherwise); the output block's buffer holds the finished row
  after the last block of a row and is not touched elsewhere. Both are defined by recursion on the point,
  through the pieces each case's run found.
-/
import proofs.«179232_j88021059764774_1_alg».proof.Proof.KI.R0RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev runA0 (c : Dev nD) (t : Fin cfg0.N) (h0 : cond0_0 (grid0.coords t)) (h1 : ¬cond0_1 (grid0.coords t)) :=
  kernelRun0_A (F := F) c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t)
abbrev runB0 (c : Dev nD) (t : Fin cfg0.N) (h0 : ¬cond0_0 (grid0.coords t)) (h1 : ¬cond0_1 (grid0.coords t)) (xs0 : Vec F S1024x128 .f32) :=
  kernelRun0_B (F := F) c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) xs0
abbrev runC0 (c : Dev nD) (t : Fin cfg0.N) (h0 : ¬cond0_0 (grid0.coords t)) (h1 : cond0_1 (grid0.coords t)) (xs0 : Vec F S1024x128 .f32) :=
  kernelRun0_C (F := F) c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) xs0

/-- What a list of pieces leaves in the accumulator, read back. -/
abbrev sRead0 (L : List (View.Piece (Elt F) S1024x128 .f32)) : Vec F S1024x128 .f32 :=
  VS0_0.read (Elt F) (VS0_0.writes (Elt F) VS0_0.junk L)
/-- What a list of pieces leaves in the output block's buffer, read back. -/
abbrev oRead0 (L : List (View.Piece (Elt F) S1024x128 .bf16)) : Vec F S1024x128 .bf16 :=
  VO0_3.read (Elt F) (VO0_3.writes (Elt F) VO0_3.junk L)

/-- Each case's pieces for the accumulator tile it. -/
theorem scover0_A (c : Dev nD) (t : Fin cfg0.N) (h0 h1) (y : S1024x128.Idx) : ∃ pc ∈ (runA0 V c t h0 h1).2.1, y ∈ pc.1.set :=
  View.cover_of_tiledL (runA0 V c t h0 h1).2.1 S1024x128.size (by sl_kernel_rfl) y
theorem scover0_B (c : Dev nD) (t : Fin cfg0.N) (h0 h1) (xs0) (y : S1024x128.Idx) : ∃ pc ∈ (runB0 V c t h0 h1 xs0).2.1, y ∈ pc.1.set :=
  View.cover_of_tiledL (runB0 V c t h0 h1 xs0).2.1 S1024x128.size (by sl_kernel_rfl) y
theorem scover0_C (c : Dev nD) (t : Fin cfg0.N) (h0 h1) (xs0) (y : S1024x128.Idx) : ∃ pc ∈ (runC0 V c t h0 h1 xs0).2.1, y ∈ pc.1.set :=
  View.cover_of_tiledL (runC0 V c t h0 h1 xs0).2.1 S1024x128.size (by sl_kernel_rfl) y
/-- The last case's pieces for the output block tile it. -/
theorem cover0_C (c : Dev nD) (t : Fin cfg0.N) (h0 h1) (xs0) (y : S1024x128.Idx) : ∃ pc ∈ (runC0 V c t h0 h1 xs0).1, y ∈ pc.1.set :=
  View.cover_of_tiledL (runC0 V c t h0 h1 xs0).1 S1024x128.size (by sl_kernel_rfl) y

/-- After the body at position `n`: (the output block's buffer, the accumulator). Where the output is idle the
    first component is a placeholder nothing reads. -/
def outsAt0 (c : Dev nD) : (n : ℕ) → n < cfg0.N → Vec F S1024x128 .bf16 × Vec F S1024x128 .f32
  | 0, hn =>
    have h0 : cond0_0 (grid0.coords ⟨0, hn⟩) := (hcond0_0 ⟨0, hn⟩).mpr (Nat.zero_mod _)
    have h1 : ¬cond0_1 (grid0.coords ⟨0, hn⟩) := fun h => absurd ((hcond0_1 ⟨0, hn⟩).mp h) (by show ¬ (0 % 49 = 48); decide)
    (oRead0 (runA0 V c ⟨0, hn⟩ h0 h1).1, sRead0 (runA0 V c ⟨0, hn⟩ h0 h1).2.1)
  | n + 1, hn =>
    if h0 : (n + 1) % 49 = 0 then
      if h1 : (n + 1) % 49 = 48 then False.elim (by omega)
      else
        (oRead0 (runA0 V c ⟨n + 1, hn⟩ ((hcond0_0 ⟨n + 1, hn⟩).mpr h0) (fun h => h1 ((hcond0_1 ⟨n + 1, hn⟩).mp h))).1,
         sRead0 (runA0 V c ⟨n + 1, hn⟩ ((hcond0_0 ⟨n + 1, hn⟩).mpr h0) (fun h => h1 ((hcond0_1 ⟨n + 1, hn⟩).mp h))).2.1)
    else
      if h1 : (n + 1) % 49 = 48 then
        (oRead0 (runC0 V c ⟨n + 1, hn⟩ (fun h => h0 ((hcond0_0 ⟨n + 1, hn⟩).mp h)) ((hcond0_1 ⟨n + 1, hn⟩).mpr h1) (outsAt0 c n (Nat.lt_of_succ_lt hn)).2).1,
         sRead0 (runC0 V c ⟨n + 1, hn⟩ (fun h => h0 ((hcond0_0 ⟨n + 1, hn⟩).mp h)) ((hcond0_1 ⟨n + 1, hn⟩).mpr h1) (outsAt0 c n (Nat.lt_of_succ_lt hn)).2).2.1)
      else
        (oRead0 (runB0 V c ⟨n + 1, hn⟩ (fun h => h0 ((hcond0_0 ⟨n + 1, hn⟩).mp h)) (fun h => h1 ((hcond0_1 ⟨n + 1, hn⟩).mp h)) (outsAt0 c n (Nat.lt_of_succ_lt hn)).2).1,
         sRead0 (runB0 V c ⟨n + 1, hn⟩ (fun h => h0 ((hcond0_0 ⟨n + 1, hn⟩).mp h)) (fun h => h1 ((hcond0_1 ⟨n + 1, hn⟩).mp h)) (outsAt0 c n (Nat.lt_of_succ_lt hn)).2).2.1)

/-- The accumulator a point that is not the first of its row starts from. -/
abbrev prevAcc0 (c : Dev nD) (t : Fin cfg0.N) : Vec F S1024x128 .f32 :=
  (outsAt0 V c (t.val - 1) (Nat.lt_of_le_of_lt (Nat.sub_le _ _) t.isLt)).2

theorem outsAt0_A (c : Dev nD) (t : Fin cfg0.N) (h0 : t.val % 49 = 0) (h1 : ¬t.val % 49 = 48) :
    outsAt0 V c t.val t.isLt = (oRead0 (runA0 V c t ((hcond0_0 t).mpr h0) (fun h => h1 ((hcond0_1 t).mp h))).1,
      sRead0 (runA0 V c t ((hcond0_0 t).mpr h0) (fun h => h1 ((hcond0_1 t).mp h))).2.1) := by
  obtain ⟨n, hn⟩ := t
  cases n with
  | zero => exact rfl
  | succ n => exact (dif_pos h0).trans ((dif_neg h1).trans rfl)

theorem outsAt0_B (c : Dev nD) (t : Fin cfg0.N) (h0 : ¬t.val % 49 = 0) (h1 : ¬t.val % 49 = 48) :
    outsAt0 V c t.val t.isLt = (oRead0 (runB0 V c t (fun h => h0 ((hcond0_0 t).mp h)) (fun h => h1 ((hcond0_1 t).mp h)) (prevAcc0 V c t)).1,
      sRead0 (runB0 V c t (fun h => h0 ((hcond0_0 t).mp h)) (fun h => h1 ((hcond0_1 t).mp h)) (prevAcc0 V c t)).2.1) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 49 = 0) (h1 : t.val % 49 = 48) :
    outsAt0 V c t.val t.isLt = (oRead0 (runC0 V c t (fun h => h0 ((hcond0_0 t).mp h)) ((hcond0_1 t).mpr h1) (prevAcc0 V c t)).1,
      sRead0 (runC0 V c t (fun h => h0 ((hcond0_0 t).mp h)) ((hcond0_1 t).mpr h1) (prevAcc0 V c t)).2.1) := by
  obtain ⟨n, hn⟩ := t
  cases n with
  | zero => exact absurd (Nat.zero_mod _) h0
  | succ n => exact (dif_neg h0).trans ((dif_pos h1).trans rfl)

/-- Every scoped buffer but the accumulator, untouched by the call. -/
abbrev restBut0 (c : Dev nD) : sProp 𝕄 :=
  Pipeline.scopedRestBut (Ix := Unit) (Name := ℕ) (U := UR sig nD τ) (Lvl := ℕ) (Val := Elt F) spec0 c [cc0_scratch0]

/-- Before position `n`: the accumulator at anything before the first point, afterwards at what the point before
    left in it; beside it the other scoped buffers. -/
def PhiS0 (c : Dev nD) : (n : ℕ) → n ≤ cfg0.N → sProp 𝕄
  | 0, _ => iprop((∃ d, owns (c : Thread nD τ) scM0_0 fullShare d) ∗ restBut0 (F := F) c)
  | n + 1, hn => iprop(owns (c : Thread nD τ) scM0_0 fullShare ((outsAt0 V c n hn).2) ∗ restBut0 (F := F) c)

theorem PhiS0_zero (c : Dev nD) (n : ℕ) (h : n ≤ cfg0.N) (hz : n = 0) :
    PhiS0 V c n h = iprop((∃ d, owns (c : Thread nD τ) scM0_0 fullShare d) ∗ restBut0 (F := F) c) := by
  subst hz; rfl
theorem PhiS0_succ (c : Dev nD) (n : ℕ) (hn : n < cfg0.N) :
    PhiS0 V c (n + 1) hn = iprop(owns (c : Thread nD τ) scM0_0 fullShare ((outsAt0 V c n hn).2) ∗ restBut0 (F := F) c) := rfl
theorem PhiS0_pos (c : Dev nD) (n : ℕ) (h : n ≤ cfg0.N) (hz : n ≠ 0) :
    PhiS0 V c n h = iprop(owns (c : Thread nD τ) scM0_0 fullShare ((outsAt0 V c (n - 1) (by omega)).2) ∗ restBut0 (F := F) c) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Gen

end
-- ==== Proof.KI.R0Body.lean ====
/-
  The gather call's body obligation: at every point the body, called with the windows' current buffers and the
  accumulator, runs from the invariant before the point to the invariant after it. The point's case is decided
  by its second grid coordinate (`t mod 49`); the case's run does the rest.
-/
import proofs.«179232_j88021059764774_1_alg».proof.Proof.KI.R0Dat

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAtR0 t) (fun _ => bodyPost0 V c t) := by
  unfold bodyPre0 bodyPost0 bodyAtR0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 40719 := lt_of_lt_of_eq t.isLt (show cfg0.N = 40719 from N_0)
  by_cases h0 : t.val % 49 = 0
  · by_cases h1 : t.val % 49 = 48
    · exfalso; omega
    · rw [Dat.leavesExact_idle (dat0 V c) 3 t (idleAt0_3 t (fun h => h1 ((hcond0_1 t).mp h))) (noFlush0_3 t (fun h => h1 ((hcond0_1 t).mp h)))]
      rw [outsAt0_A V c t h0 h1]
      (try dsimp only)
      have hpre : (dat0 V c).Φ t.castSucc ⊢ iprop((∃ d, owns (c : Thread nD τ) scM0_0 fullShare d) ∗ restBut0 (F := F) c) := by
        rw [PhiS0_castSucc V c t]
        by_cases hz : t.val = 0
        · rw [PhiS0_zero V c _ _ hz]
        · rw [PhiS0_pos V c _ _ hz]
          iintro ⟨HS0, Hr⟩
          isplitl [HS0]; · iexists _; iexact HS0
          iexact Hr
      iintro ⟨HΦ, Ho, ⟨%d0, H0⟩, ⟨%d1, H1⟩, ⟨%d2, H2⟩, ⟨%d3, H3⟩⟩
      ihave HΦ' := hpre $$ HΦ
      icases HΦ' with ⟨HS0, Hr⟩
      iapply ((runA0 V c t ((hcond0_0 t).mpr h0) (fun h => h1 ((hcond0_1 t).mp h))).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover0_A V c t _ _)
        iexact Hr
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 49 = 48
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      (try dsimp only)
      rw [PhiS0_castSucc V c t, PhiS0_pos V c _ _ hz]
      iintro ⟨⟨HS0, Hr⟩, Ho, ⟨%d0, H0⟩, ⟨%d1, H1⟩, ⟨%d2, H2⟩, ⟨%d3, H3⟩⟩
      iapply ((runC0 V c t (fun h => h0 ((hcond0_0 t).mp h)) ((hcond0_1 t).mpr h1) (prevAcc0 V c t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr]
      · isplitl [HS0]
        · unfold owns; iexists _; isplitr
          swap; · iexact HS0
          ipureintro; exact View.read_writes_of_cover _ _ _ _ _ (scover0_C V c t _ _ _)
        iexact Hr
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C V c t _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      (try dsimp only)
      rw [PhiS0_castSucc V c t, PhiS0_pos V c _ _ hz]
      iintro ⟨⟨HS0, Hr⟩, Ho, ⟨%d0, H0⟩, ⟨%d1, H1⟩, ⟨%d2, H2⟩, ⟨%d3, H3⟩⟩
      iapply ((runB0 V c t (fun h => h0 ((hcond0_0 t).mp h)) (fun h => h1 ((hcond0_1 t).mp h)) (prevAcc0 V c t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover0_B V c t _ _ _)
        iexact Hr
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the call (the scoped buffers no window stages) is the invariant before the first point. -/
theorem hin0 (c : Dev nD) :
    (Pipeline.scopedRest (Ix := Unit) (Name := ℕ) (U := UR sig nD τ) (Lvl := ℕ) (Val := Elt F) spec0 c : sProp 𝕄) ⊢ (dat0 V c).Φ 0 := by
  rw [show (dat0 V c).Φ 0 = PhiS0 V c 0 (Nat.zero_le _) from rfl, PhiS0_zero V c 0 _ rfl, scopedRest0_split]
  simp only [scM0_0, owns_whole]
  exact Idealize.SL.BI.Entails.refl _

/-- After the last point the invariant gives those buffers back, the accumulator's contents forgotten. -/
theorem hout0 (c : Dev nD) :
    (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 40719 := N_0; omega), scopedRest0_split]
  iintro ⟨HS0, Hr⟩
  isplitl [HS0]
  · simp only [scM0_0, owns_whole]; iexists _; iexact HS0
  iexact Hr

end Cert.KernelIdeal.Gen

end
-- ==== Proof.KI.R1Base.lean ====
/-
  The scatter call (pipeline 1), what its three control cases share. A point is "first" when its edge-block
  coordinate (the grid's second axis) is 0 — the accumulator is zeroed before the one-hot product is added —
  and "last" when it is 830 — the accumulator is written to the output block. Point `t` has that
  coordinate equal to `t mod 831`.
-/
import proofs.«179232_j88021059764774_1_alg».proof.Proof.Gen.KernelIdeal.Launch
import proofs.«179232_j88021059764774_1_alg».proof.Proof.Gen.KernelIdeal.Skeleton
import Idealize.ShloMosaic.Lib.Pipeline.Kit
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point's coordinates: the second is `t mod 831`, the first `t / 831` (the second axis runs fastest). -/
theorem coord1_1 (t : Fin cfg1.N) : ((grid1.coords t) 1).val = t.val % 831 := by
  show t.val / grid1.stride 1 % 831 = _
  rw [show grid1.stride 1 = 1 from by decide, Nat.div_one]
theorem coord1_0 (t : Fin cfg1.N) : ((grid1.coords t) 0).val = t.val / 831 % 49 := by
  show t.val / grid1.stride 0 % 49 = _
  rw [show grid1.stride 0 = 831 from by decide]

/-- "The second coordinate is 0": the accumulator is zeroed first. -/
abbrev cond1_0 (i : grid1.Coords) : Prop := (Scalar.cmpi .ne (Scalar.extui (Scalar.cmpi .eq (BitVec.ofNat 32 (i 1).val) 0#32)) 0#32) = 1#1
theorem key1_0 : ∀ x : Fin 831, ((Scalar.cmpi .ne (Scalar.extui (Scalar.cmpi .eq (BitVec.ofNat 32 x.val) 0#32)) 0#32) = 1#1) ↔ x.val = 0 := by decide +kernel
theorem hcond1_0 (t : Fin cfg1.N) : cond1_0 (grid1.coords t) ↔ t.val % 831 = 0 :=
  (key1_0 ((grid1.coords t) 1)).trans (by rw [coord1_1 t])

/-- "The second coordinate is 830": the accumulator goes to the output block. -/
abbrev cond1_1 (i : grid1.Coords) : Prop := k1_cond2 i = 1#1
theorem key1_1 : ∀ x : Fin 831, ((Scalar.cmpi .ne (Scalar.extui (Scalar.cmpi .eq (BitVec.ofNat 32 x.val) 830#32)) 0#32) = 1#1) ↔ x.val = 830 := by decide +kernel
theorem hcond1_1 (t : Fin cfg1.N) : cond1_1 (grid1.coords t) ↔ t.val % 831 = 830 :=
  (key1_1 ((grid1.coords t) 1)).trans (by rw [coord1_1 t])

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Away from the last block of a row nothing is stored into the output block: idle by the configuration's table, -/
theorem idleAt1_3 (t : Fin cfg1.N) (h : ¬cond1_1 (grid1.coords t)) : cfg1.idle 3 (grid1.coords t) = true := by
  show (!(k1_cond2 (grid1.coords t) == 1#1)) = true
  simpa using h
/-- and the block is not written back there; -/
theorem noFlush1_3 (t : Fin cfg1.N) (hc : ¬cond1_1 (grid1.coords t)) : (cfg1.win 3).flush t = false := by
  have h : ¬ t.val % 831 = 830 := fun e => hc ((hcond1_1 t).mpr e)
  have hN : t.val < 40719 := lt_of_lt_of_eq t.isLt (show cfg1.N = 40719 from N_1)
  have h1 : t.val + 1 < grid1.N := by rw [N_1]; omega
  show (win1_3.isOut && (decide (t.val + 1 = grid1.N) || decide (∃ h : t.val + 1 < grid1.N, win1_3.index ⟨t.val + 1, h⟩ ≠ win1_3.index t))) = false
  have e : win1_3.index ⟨t.val + 1, h1⟩ = win1_3.index t := by
    show cc1_transform_3 (grid1.coords ⟨t.val + 1, h1⟩) = cc1_transform_3 (grid1.coords t)
    unfold cc1_transform_3
    have : ((grid1.coords ⟨t.val + 1, h1⟩) 0).val = ((grid1.coords t) 0).val := by
      rw [coord1_0, coord1_0]; show (t.val + 1) / 831 % 49 = t.val / 831 % 49; omega
    simp only [this]
  have hne : ¬ (t.val + 1 = grid1.N) := by rw [N_1]; omega
  simp only [hne, decide_false, Bool.false_or, Bool.and_eq_false_imp, decide_eq_false_iff_not]
  intro _ ⟨h', hh⟩
  exact hh e
/-- at the last block it is stored. -/
theorem liveAt1_3 (t : Fin cfg1.N) (h : cond1_1 (grid1.coords t)) : cfg1.idle 3 (grid1.coords t) = false := by
  show (!(k1_cond2 (grid1.coords t) == 1#1)) = false
  simpa using h

/-- The body as the pipeline calls it at point `t`: on the windows' current buffers and the accumulator. -/
abbrev bodyAtR1 (t : Fin cfg1.N) : Prog (TpuEff nD τ sig (Elt F) Λ₀ .tc) PUnit :=
  cc1__scatter_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)

abbrev VO1_3 : View sig .tc .vmem S1024x128 .f32 := (Memref.whole cc1_stg3_0 : Memref sig .tc .vmem S1024x128 .f32).view
abbrev ms1_0 (t : Fin cfg1.N) : Memref sig .tc .vmem S1x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The accumulator: a whole scoped buffer of the call's own. -/
abbrev scM1_0 : Memref sig .tc .vmem S1024x128 .f32 := Memref.whole cc1_scratch0
abbrev VS1_0 : View sig .tc .vmem S1024x128 .f32 := scM1_0.view

end Cert.KernelIdeal.Gen

end
-- ==== Proof.KI.R1RunA.lean ====
/-
  The scatter body at the first block of a row (coordinate 0, not 830): the accumulator, found at anything, is zeroed and then receives the one-hot product of this block; the output block's buffer is not touched.
-/
import proofs.«179232_j88021059764774_1_alg».proof.Proof.KI.R1Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1x1024 .i32) (x1 : Vec F S1024x128 .bf16) (x2 : Vec F S1x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.KI.R1RunB.lean ====
/-
  The scatter body away from both ends of a row of blocks (coordinate neither 0 nor 830): the accumulator, found at what the point before left, receives the one-hot product of this block; the output block's buffer is not touched.
-/
import proofs.«179232_j88021059764774_1_alg».proof.Proof.KI.R1RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1x1024 .i32) (x1 : Vec F S1024x128 .bf16) (x2 : Vec F S1x128 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.KI.R1RunC.lean ====
/-
  The scatter body at the last block of a row (coordinate 830, not 0): the accumulator receives the last one-hot product and is then written, with the bias added and negative entries replaced by zero, over the whole output block.
-/
import proofs.«179232_j88021059764774_1_alg».proof.Proof.KI.R1RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1x1024 .i32) (x1 : Vec F S1024x128 .bf16) (x2 : Vec F S1x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.KernelIdeal.Gen

end
-- ==== Proof.KI.R1Dat.lean ====
/-
  The scatter call's proof data. After point `t` the accumulator holds the sum, over the blocks of the current
  row met so far, of the one-hot products (the run of the point's case, started from zero at the first block of
  the row and from what the point before left otherwise); the output block's buffer holds the finished row
  after the last block of a row and is not touched elsewhere. Both are defined by recursion on the point,
  through the pieces each case's run found.
-/
import proofs.«179232_j88021059764774_1_alg».proof.Proof.KI.R1RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev runA1 (c : Dev nD) (t : Fin cfg1.N) (h0 : cond1_0 (grid1.coords t)) (h1 : ¬cond1_1 (grid1.coords t)) :=
  kernelRun1_A (F := F) c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t)
abbrev runB1 (c : Dev nD) (t : Fin cfg1.N) (h0 : ¬cond1_0 (grid1.coords t)) (h1 : ¬cond1_1 (grid1.coords t)) (xs0 : Vec F S1024x128 .f32) :=
  kernelRun1_B (F := F) c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) xs0
abbrev runC1 (c : Dev nD) (t : Fin cfg1.N) (h0 : ¬cond1_0 (grid1.coords t)) (h1 : cond1_1 (grid1.coords t)) (xs0 : Vec F S1024x128 .f32) :=
  kernelRun1_C (F := F) c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) xs0

/-- What a list of pieces leaves in the accumulator, read back. -/
abbrev sRead1 (L : List (View.Piece (Elt F) S1024x128 .f32)) : Vec F S1024x128 .f32 :=
  VS1_0.read (Elt F) (VS1_0.writes (Elt F) VS1_0.junk L)
/-- What a list of pieces leaves in the output block's buffer, read back. -/
abbrev oRead1 (L : List (View.Piece (Elt F) S1024x128 .f32)) : Vec F S1024x128 .f32 :=
  VO1_3.read (Elt F) (VO1_3.writes (Elt F) VO1_3.junk L)

/-- Each case's pieces for the accumulator tile it. -/
theorem scover1_A (c : Dev nD) (t : Fin cfg1.N) (h0 h1) (y : S1024x128.Idx) : ∃ pc ∈ (runA1 V c t h0 h1).2.1, y ∈ pc.1.set :=
  View.cover_of_tiledL (runA1 V c t h0 h1).2.1 S1024x128.size (by sl_kernel_rfl) y
theorem scover1_B (c : Dev nD) (t : Fin cfg1.N) (h0 h1) (xs0) (y : S1024x128.Idx) : ∃ pc ∈ (runB1 V c t h0 h1 xs0).2.1, y ∈ pc.1.set :=
  View.cover_of_tiledL (runB1 V c t h0 h1 xs0).2.1 S1024x128.size (by sl_kernel_rfl) y
theorem scover1_C (c : Dev nD) (t : Fin cfg1.N) (h0 h1) (xs0) (y : S1024x128.Idx) : ∃ pc ∈ (runC1 V c t h0 h1 xs0).2.1, y ∈ pc.1.set :=
  View.cover_of_tiledL (runC1 V c t h0 h1 xs0).2.1 S1024x128.size (by sl_kernel_rfl) y
/-- The last case's pieces for the output block tile it. -/
theorem cover1_C (c : Dev nD) (t : Fin cfg1.N) (h0 h1) (xs0) (y : S1024x128.Idx) : ∃ pc ∈ (runC1 V c t h0 h1 xs0).1, y ∈ pc.1.set :=
  View.cover_of_tiledL (runC1 V c t h0 h1 xs0).1 S1024x128.size (by sl_kernel_rfl) y

/-- After the body at position `n`: (the output block's buffer, the accumulator). Where the output is idle the
    first component is a placeholder nothing reads. -/
def outsAt1 (c : Dev nD) : (n : ℕ) → n < cfg1.N → Vec F S1024x128 .f32 × Vec F S1024x128 .f32
  | 0, hn =>
    have h0 : cond1_0 (grid1.coords ⟨0, hn⟩) := (hcond1_0 ⟨0, hn⟩).mpr (Nat.zero_mod _)
    have h1 : ¬cond1_1 (grid1.coords ⟨0, hn⟩) := fun h => absurd ((hcond1_1 ⟨0, hn⟩).mp h) (by show ¬ (0 % 831 = 830); decide)
    (oRead1 (runA1 V c ⟨0, hn⟩ h0 h1).1, sRead1 (runA1 V c ⟨0, hn⟩ h0 h1).2.1)
  | n + 1, hn =>
    if h0 : (n + 1) % 831 = 0 then
      if h1 : (n + 1) % 831 = 830 then False.elim (by omega)
      else
        (oRead1 (runA1 V c ⟨n + 1, hn⟩ ((hcond1_0 ⟨n + 1, hn⟩).mpr h0) (fun h => h1 ((hcond1_1 ⟨n + 1, hn⟩).mp h))).1,
         sRead1 (runA1 V c ⟨n + 1, hn⟩ ((hcond1_0 ⟨n + 1, hn⟩).mpr h0) (fun h => h1 ((hcond1_1 ⟨n + 1, hn⟩).mp h))).2.1)
    else
      if h1 : (n + 1) % 831 = 830 then
        (oRead1 (runC1 V c ⟨n + 1, hn⟩ (fun h => h0 ((hcond1_0 ⟨n + 1, hn⟩).mp h)) ((hcond1_1 ⟨n + 1, hn⟩).mpr h1) (outsAt1 c n (Nat.lt_of_succ_lt hn)).2).1,
         sRead1 (runC1 V c ⟨n + 1, hn⟩ (fun h => h0 ((hcond1_0 ⟨n + 1, hn⟩).mp h)) ((hcond1_1 ⟨n + 1, hn⟩).mpr h1) (outsAt1 c n (Nat.lt_of_succ_lt hn)).2).2.1)
      else
        (oRead1 (runB1 V c ⟨n + 1, hn⟩ (fun h => h0 ((hcond1_0 ⟨n + 1, hn⟩).mp h)) (fun h => h1 ((hcond1_1 ⟨n + 1, hn⟩).mp h)) (outsAt1 c n (Nat.lt_of_succ_lt hn)).2).1,
         sRead1 (runB1 V c ⟨n + 1, hn⟩ (fun h => h0 ((hcond1_0 ⟨n + 1, hn⟩).mp h)) (fun h => h1 ((hcond1_1 ⟨n + 1, hn⟩).mp h)) (outsAt1 c n (Nat.lt_of_succ_lt hn)).2).2.1)

/-- The accumulator a point that is not the first of its row starts from. -/
abbrev prevAcc1 (c : Dev nD) (t : Fin cfg1.N) : Vec F S1024x128 .f32 :=
  (outsAt1 V c (t.val - 1) (Nat.lt_of_le_of_lt (Nat.sub_le _ _) t.isLt)).2

theorem outsAt1_A (c : Dev nD) (t : Fin cfg1.N) (h0 : t.val % 831 = 0) (h1 : ¬t.val % 831 = 830) :
    outsAt1 V c t.val t.isLt = (oRead1 (runA1 V c t ((hcond1_0 t).mpr h0) (fun h => h1 ((hcond1_1 t).mp h))).1,
      sRead1 (runA1 V c t ((hcond1_0 t).mpr h0) (fun h => h1 ((hcond1_1 t).mp h))).2.1) := by
  obtain ⟨n, hn⟩ := t
  cases n with
  | zero => exact rfl
  | succ n => exact (dif_pos h0).trans ((dif_neg h1).trans rfl)

theorem outsAt1_B (c : Dev nD) (t : Fin cfg1.N) (h0 : ¬t.val % 831 = 0) (h1 : ¬t.val % 831 = 830) :
    outsAt1 V c t.val t.isLt = (oRead1 (runB1 V c t (fun h => h0 ((hcond1_0 t).mp h)) (fun h => h1 ((hcond1_1 t).mp h)) (prevAcc1 V c t)).1,
      sRead1 (runB1 V c t (fun h => h0 ((hcond1_0 t).mp h)) (fun h => h1 ((hcond1_1 t).mp h)) (prevAcc1 V c t)).2.1) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 831 = 0) (h1 : t.val % 831 = 830) :
    outsAt1 V c t.val t.isLt = (oRead1 (runC1 V c t (fun h => h0 ((hcond1_0 t).mp h)) ((hcond1_1 t).mpr h1) (prevAcc1 V c t)).1,
      sRead1 (runC1 V c t (fun h => h0 ((hcond1_0 t).mp h)) ((hcond1_1 t).mpr h1) (prevAcc1 V c t)).2.1) := by
  obtain ⟨n, hn⟩ := t
  cases n with
  | zero => exact absurd (Nat.zero_mod _) h0
  | succ n => exact (dif_neg h0).trans ((dif_pos h1).trans rfl)

/-- Every scoped buffer but the accumulator, untouched by the call. -/
abbrev restBut1 (c : Dev nD) : sProp 𝕄 :=
  Pipeline.scopedRestBut (Ix := Unit) (Name := ℕ) (U := UR sig nD τ) (Lvl := ℕ) (Val := Elt F) spec1 c [cc1_scratch0]

/-- Before position `n`: the accumulator at anything before the first point, afterwards at what the point before
    left in it; beside it the other scoped buffers. -/
def PhiS1 (c : Dev nD) : (n : ℕ) → n ≤ cfg1.N → sProp 𝕄
  | 0, _ => iprop((∃ d, owns (c : Thread nD τ) scM1_0 fullShare d) ∗ restBut1 (F := F) c)
  | n + 1, hn => iprop(owns (c : Thread nD τ) scM1_0 fullShare ((outsAt1 V c n hn).2) ∗ restBut1 (F := F) c)

theorem PhiS1_zero (c : Dev nD) (n : ℕ) (h : n ≤ cfg1.N) (hz : n = 0) :
    PhiS1 V c n h = iprop((∃ d, owns (c : Thread nD τ) scM1_0 fullShare d) ∗ restBut1 (F := F) c) := by
  subst hz; rfl
theorem PhiS1_succ (c : Dev nD) (n : ℕ) (hn : n < cfg1.N) :
    PhiS1 V c (n + 1) hn = iprop(owns (c : Thread nD τ) scM1_0 fullShare ((outsAt1 V c n hn).2) ∗ restBut1 (F := F) c) := rfl
theorem PhiS1_pos (c : Dev nD) (n : ℕ) (h : n ≤ cfg1.N) (hz : n ≠ 0) :
    PhiS1 V c n h = iprop(owns (c : Thread nD τ) scM1_0 fullShare ((outsAt1 V c (n - 1) (by omega)).2) ∗ restBut1 (F := F) c) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Gen

end
-- ==== Proof.KI.R1Body.lean ====
/-
  The scatter call's body obligation: at every point the body, called with the windows' current buffers and the
  accumulator, runs from the invariant before the point to the invariant after it. The point's case is decided
  by its second grid coordinate (`t mod 831`); the case's run does the rest.
-/
import proofs.«179232_j88021059764774_1_alg».proof.Proof.KI.R1Dat

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAtR1 t) (fun _ => bodyPost1 V c t) := by
  unfold bodyPre1 bodyPost1 bodyAtR1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 40719 := lt_of_lt_of_eq t.isLt (show cfg1.N = 40719 from N_1)
  by_cases h0 : t.val % 831 = 0
  · by_cases h1 : t.val % 831 = 830
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      (try dsimp only)
      have hpre : (dat1 V c).Φ t.castSucc ⊢ iprop((∃ d, owns (c : Thread nD τ) scM1_0 fullShare d) ∗ restBut1 (F := F) c) := by
        rw [PhiS1_castSucc V c t]
        by_cases hz : t.val = 0
        · rw [PhiS1_zero V c _ _ hz]
        · rw [PhiS1_pos V c _ _ hz]
          iintro ⟨HS0, Hr⟩
          isplitl [HS0]; · iexists _; iexact HS0
          iexact Hr
      iintro ⟨HΦ, Ho, ⟨%d0, H0⟩, ⟨%d1, H1⟩, ⟨%d2, H2⟩, ⟨%d3, H3⟩⟩
      ihave HΦ' := hpre $$ HΦ
      icases HΦ' with ⟨HS0, Hr⟩
      iapply ((runA1 V c t ((hcond1_0 t).mpr h0) (fun h => h1 ((hcond1_1 t).mp h))).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover1_A V c t _ _)
        iexact Hr
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 831 = 830
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      (try dsimp only)
      rw [PhiS1_castSucc V c t, PhiS1_pos V c _ _ hz]
      iintro ⟨⟨HS0, Hr⟩, Ho, ⟨%d0, H0⟩, ⟨%d1, H1⟩, ⟨%d2, H2⟩, ⟨%d3, H3⟩⟩
      iapply ((runC1 V c t (fun h => h0 ((hcond1_0 t).mp h)) ((hcond1_1 t).mpr h1) (prevAcc1 V c t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr]
      · isplitl [HS0]
        · unfold owns; iexists _; isplitr
          swap; · iexact HS0
          ipureintro; exact View.read_writes_of_cover _ _ _ _ _ (scover1_C V c t _ _ _)
        iexact Hr
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C V c t _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      (try dsimp only)
      rw [PhiS1_castSucc V c t, PhiS1_pos V c _ _ hz]
      iintro ⟨⟨HS0, Hr⟩, Ho, ⟨%d0, H0⟩, ⟨%d1, H1⟩, ⟨%d2, H2⟩, ⟨%d3, H3⟩⟩
      iapply ((runB1 V c t (fun h => h0 ((hcond1_0 t).mp h)) (fun h => h1 ((hcond1_1 t).mp h)) (prevAcc1 V c t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover1_B V c t _ _ _)
        iexact Hr
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the call (the scoped buffers no window stages) is the invariant before the first point. -/
theorem hin1 (c : Dev nD) :
    (Pipeline.scopedRest (Ix := Unit) (Name := ℕ) (U := UR sig nD τ) (Lvl := ℕ) (Val := Elt F) spec1 c : sProp 𝕄) ⊢ (dat1 V c).Φ 0 := by
  rw [show (dat1 V c).Φ 0 = PhiS1 V c 0 (Nat.zero_le _) from rfl, PhiS1_zero V c 0 _ rfl, scopedRest1_split]
  simp only [scM1_0, owns_whole]
  exact Idealize.SL.BI.Entails.refl _

/-- After the last point the invariant gives those buffers back, the accumulator's contents forgotten. -/
theorem hout1 (c : Dev nD) :
    (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 40719 := N_1; omega), scopedRest1_split]
  iintro ⟨HS0, Hr⟩
  isplitl [HS0]
  · simp only [scM1_0, owns_whole]; iexists _; iexact HS0
  iexact Hr

end Cert.KernelIdeal.Gen

end
-- ==== Proof.KI.R2Base.lean ====
/-
  The gather call (pipeline 2), what its three control cases share. A point is "first" when its node-block
  coordinate (the grid's second axis) is 0 — the accumulator is zeroed before the one-hot product is added —
  and "last" when it is 48 — the accumulator is written to the output block. Point `t` has that
  coordinate equal to `t mod 49`.
-/
import proofs.«179232_j88021059764774_1_alg».proof.Proof.Gen.KernelIdeal.Launch
import proofs.«179232_j88021059764774_1_alg».proof.Proof.Gen.KernelIdeal.Skeleton
import Idealize.ShloMosaic.Lib.Pipeline.Kit
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point's coordinates: the second is `t mod 49`, the first `t / 49` (the second axis runs fastest). -/
theorem coord2_1 (t : Fin cfg2.N) : ((grid2.coords t) 1).val = t.val % 49 := by
  show t.val / grid2.stride 1 % 49 = _
  rw [show grid2.stride 1 = 1 from by decide, Nat.div_one]
theorem coord2_0 (t : Fin cfg2.N) : ((grid2.coords t) 0).val = t.val / 49 % 831 := by
  show t.val / grid2.stride 0 % 831 = _
  rw [show grid2.stride 0 = 49 from by decide]

/-- "The second coordinate is 0": the accumulator is zeroed first. -/
abbrev cond2_0 (i : grid2.Coords) : Prop := (Scalar.cmpi .ne (Scalar.extui (Scalar.cmpi .eq (BitVec.ofNat 32 (i 1).val) 0#32)) 0#32) = 1#1
theorem key2_0 : ∀ x : Fin 49, ((Scalar.cmpi .ne (Scalar.extui (Scalar.cmpi .eq (BitVec.ofNat 32 x.val) 0#32)) 0#32) = 1#1) ↔ x.val = 0 := by decide +kernel
theorem hcond2_0 (t : Fin cfg2.N) : cond2_0 (grid2.coords t) ↔ t.val % 49 = 0 :=
  (key2_0 ((grid2.coords t) 1)).trans (by rw [coord2_1 t])

/-- "The second coordinate is 48": the accumulator goes to the output block. -/
abbrev cond2_1 (i : grid2.Coords) : Prop := k2_cond2 i = 1#1
theorem key2_1 : ∀ x : Fin 49, ((Scalar.cmpi .ne (Scalar.extui (Scalar.cmpi .eq (BitVec.ofNat 32 x.val) 48#32)) 0#32) = 1#1) ↔ x.val = 48 := by decide +kernel
theorem hcond2_1 (t : Fin cfg2.N) : cond2_1 (grid2.coords t) ↔ t.val % 49 = 48 :=
  (key2_1 ((grid2.coords t) 1)).trans (by rw [coord2_1 t])

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Away from the last block of a row nothing is stored into the output block: idle by the configuration's table, -/
theorem idleAt2_3 (t : Fin cfg2.N) (h : ¬cond2_1 (grid2.coords t)) : cfg2.idle 3 (grid2.coords t) = true := by
  show (!(k2_cond2 (grid2.coords t) == 1#1)) = true
  simpa using h
/-- and the block is not written back there; -/
theorem noFlush2_3 (t : Fin cfg2.N) (hc : ¬cond2_1 (grid2.coords t)) : (cfg2.win 3).flush t = false := by
  have h : ¬ t.val % 49 = 48 := fun e => hc ((hcond2_1 t).mpr e)
  have hN : t.val < 40719 := lt_of_lt_of_eq t.isLt (show cfg2.N = 40719 from N_2)
  have h1 : t.val + 1 < grid2.N := by rw [N_2]; omega
  show (win2_3.isOut && (decide (t.val + 1 = grid2.N) || decide (∃ h : t.val + 1 < grid2.N, win2_3.index ⟨t.val + 1, h⟩ ≠ win2_3.index t))) = false
  have e : win2_3.index ⟨t.val + 1, h1⟩ = win2_3.index t := by
    show cc2_transform_3 (grid2.coords ⟨t.val + 1, h1⟩) = cc2_transform_3 (grid2.coords t)
    unfold cc2_transform_3
    have : ((grid2.coords ⟨t.val + 1, h1⟩) 0).val = ((grid2.coords t) 0).val := by
      rw [coord2_0, coord2_0]; show (t.val + 1) / 49 % 831 = t.val / 49 % 831; omega
    simp only [this]
  have hne : ¬ (t.val + 1 = grid2.N) := by rw [N_2]; omega
  simp only [hne, decide_false, Bool.false_or, Bool.and_eq_false_imp, decide_eq_false_iff_not]
  intro _ ⟨h', hh⟩
  exact hh e
/-- at the last block it is stored. -/
theorem liveAt2_3 (t : Fin cfg2.N) (h : cond2_1 (grid2.coords t)) : cfg2.idle 3 (grid2.coords t) = false := by
  show (!(k2_cond2 (grid2.coords t) == 1#1)) = false
  simpa using h

/-- The body as the pipeline calls it at point `t`: on the windows' current buffers and the accumulator. -/
abbrev bodyAtR2 (t : Fin cfg2.N) : Prog (TpuEff nD τ sig (Elt F) Λ₀ .tc) PUnit :=
  cc2__gather_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)

abbrev VO2_3 : View sig .tc .vmem S1024x128 .bf16 := (Memref.whole cc2_stg3_0 : Memref sig .tc .vmem S1024x128 .bf16).view
abbrev ms2_0 (t : Fin cfg2.N) : Memref sig .tc .vmem S1024x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x128 .bf16 := win2_3.stage (cfg2.slots t 3)
abbrev hs2_3 (t : Fin cfg2.N) : (ms2_3 t).IsWhole := hstage2_3 ((cfg2.slots t 3).cast nbuf2_3)
/-- The accumulator: a whole scoped buffer of the call's own. -/
abbrev scM2_0 : Memref sig .tc .vmem S1024x128 .f32 := Memref.whole cc2_scratch0
abbrev VS2_0 : View sig .tc .vmem S1024x128 .f32 := scM2_0.view

end Cert.KernelIdeal.Gen

end
-- ==== Proof.KI.R2RunA.lean ====
/-
  The gather body at the first block of a row (coordinate 0, not 48): the accumulator, found at anything, is zeroed and then receives the one-hot product of this block; the output block's buffer is not touched.
-/
import proofs.«179232_j88021059764774_1_alg».proof.Proof.KI.R2Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg2 : Memref sig .tc .vmem S1024x1 .i32) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (hc0 : cond2_0 i) (hc1 : ¬cond2_1 i)
    (x0 : Vec F S1024x1 .i32) (x1 : Vec F S1024x1 .f32) (x2 : Vec F S1024x128 .bf16) :
    Σ' (L3 : List (View.Piece (Elt F) S1024x128 .bf16)), { LS0 : List (View.Piece (Elt F) S1024x128 .f32) //
      ∀ (xi3 : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gather_kernel i arg2 harg2 arg3 harg3 arg4 harg4 arg5 harg5 arg6 harg6) K } := by
  refine ⟨[], ?_, fun xi3 E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.KI.R2RunB.lean ====
/-
  The gather body away from both ends of a row of blocks (coordinate neither 0 nor 48): the accumulator, found at what the point before left, receives the one-hot product of this block; the output block's buffer is not touched.
-/
import proofs.«179232_j88021059764774_1_alg».proof.Proof.KI.R2RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg2 : Memref sig .tc .vmem S1024x1 .i32) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (hc0 : ¬cond2_0 i) (hc1 : ¬cond2_1 i)
    (x0 : Vec F S1024x1 .i32) (x1 : Vec F S1024x1 .f32) (x2 : Vec F S1024x128 .bf16) (xs0 : Vec F S1024x128 .f32) :
    Σ' (L3 : List (View.Piece (Elt F) S1024x128 .bf16)), { LS0 : List (View.Piece (Elt F) S1024x128 .f32) //
      ∀ (xi3 : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gather_kernel i arg2 harg2 arg3 harg3 arg4 harg4 arg5 harg5 arg6 harg6) K } := by
  refine ⟨[], ?_, fun xi3 E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.KI.R2RunC.lean ====
/-
  The gather body at the last block of a row (coordinate 48, not 0): the accumulator receives the last one-hot product and is then written, in the output's format, over the whole output block.
-/
import proofs.«179232_j88021059764774_1_alg».proof.Proof.KI.R2RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg2 : Memref sig .tc .vmem S1024x1 .i32) (harg2 : arg2.IsWhole) (arg3 : Memref sig .tc .vmem S1024x1 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (hc0 : ¬cond2_0 i) (hc1 : cond2_1 i)
    (x0 : Vec F S1024x1 .i32) (x1 : Vec F S1024x1 .f32) (x2 : Vec F S1024x128 .bf16) (xs0 : Vec F S1024x128 .f32) :
    Σ' (L3 : List (View.Piece (Elt F) S1024x128 .bf16)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__gather_kernel i arg2 harg2 arg3 harg3 arg4 harg4 arg5 harg5 arg6 harg6) K } := by
  refine ⟨?_, ?_, fun E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.KernelIdeal.Gen

end
-- ==== Proof.KI.R2Dat.lean ====
/-
  The gather call's proof data. After point `t` the accumulator holds the sum, over the blocks of the current
  row met so far, of the one-hot products (the run of the point's case, started from zero at the first block of
  the row and from what the point before left otherwise); the output block's buffer holds the finished row
  after the last block of a row and is not touched elsewhere. Both are defined by recursion on the point,
  through the pieces each case's run found.
-/
import proofs.«179232_j88021059764774_1_alg».proof.Proof.KI.R2RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev runA2 (c : Dev nD) (t : Fin cfg2.N) (h0 : cond2_0 (grid2.coords t)) (h1 : ¬cond2_1 (grid2.coords t)) :=
  kernelRun2_A (F := F) c (grid2.coords t) (ms2_0 t) (hs2_0 t) (ms2_1 t) (hs2_1 t) (ms2_2 t) (hs2_2 t) (ms2_3 t) (hs2_3 t) scM2_0 (Memref.isWhole_whole _) h0 h1 (iblk2 V c 0 t) (iblk2 V c 1 t) (iblk2 V c 2 t)
abbrev runB2 (c : Dev nD) (t : Fin cfg2.N) (h0 : ¬cond2_0 (grid2.coords t)) (h1 : ¬cond2_1 (grid2.coords t)) (xs0 : Vec F S1024x128 .f32) :=
  kernelRun2_B (F := F) c (grid2.coords t) (ms2_0 t) (hs2_0 t) (ms2_1 t) (hs2_1 t) (ms2_2 t) (hs2_2 t) (ms2_3 t) (hs2_3 t) scM2_0 (Memref.isWhole_whole _) h0 h1 (iblk2 V c 0 t) (iblk2 V c 1 t) (iblk2 V c 2 t) xs0
abbrev runC2 (c : Dev nD) (t : Fin cfg2.N) (h0 : ¬cond2_0 (grid2.coords t)) (h1 : cond2_1 (grid2.coords t)) (xs0 : Vec F S1024x128 .f32) :=
  kernelRun2_C (F := F) c (grid2.coords t) (ms2_0 t) (hs2_0 t) (ms2_1 t) (hs2_1 t) (ms2_2 t) (hs2_2 t) (ms2_3 t) (hs2_3 t) scM2_0 (Memref.isWhole_whole _) h0 h1 (iblk2 V c 0 t) (iblk2 V c 1 t) (iblk2 V c 2 t) xs0

/-- What a list of pieces leaves in the accumulator, read back. -/
abbrev sRead2 (L : List (View.Piece (Elt F) S1024x128 .f32)) : Vec F S1024x128 .f32 :=
  VS2_0.read (Elt F) (VS2_0.writes (Elt F) VS2_0.junk L)
/-- What a list of pieces leaves in the output block's buffer, read back. -/
abbrev oRead2 (L : List (View.Piece (Elt F) S1024x128 .bf16)) : Vec F S1024x128 .bf16 :=
  VO2_3.read (Elt F) (VO2_3.writes (Elt F) VO2_3.junk L)

/-- Each case's pieces for the accumulator tile it. -/
theorem scover2_A (c : Dev nD) (t : Fin cfg2.N) (h0 h1) (y : S1024x128.Idx) : ∃ pc ∈ (runA2 V c t h0 h1).2.1, y ∈ pc.1.set :=
  View.cover_of_tiledL (runA2 V c t h0 h1).2.1 S1024x128.size (by sl_kernel_rfl) y
theorem scover2_B (c : Dev nD) (t : Fin cfg2.N) (h0 h1) (xs0) (y : S1024x128.Idx) : ∃ pc ∈ (runB2 V c t h0 h1 xs0).2.1, y ∈ pc.1.set :=
  View.cover_of_tiledL (runB2 V c t h0 h1 xs0).2.1 S1024x128.size (by sl_kernel_rfl) y
theorem scover2_C (c : Dev nD) (t : Fin cfg2.N) (h0 h1) (xs0) (y : S1024x128.Idx) : ∃ pc ∈ (runC2 V c t h0 h1 xs0).2.1, y ∈ pc.1.set :=
  View.cover_of_tiledL (runC2 V c t h0 h1 xs0).2.1 S1024x128.size (by sl_kernel_rfl) y
/-- The last case's pieces for the output block tile it. -/
theorem cover2_C (c : Dev nD) (t : Fin cfg2.N) (h0 h1) (xs0) (y : S1024x128.Idx) : ∃ pc ∈ (runC2 V c t h0 h1 xs0).1, y ∈ pc.1.set :=
  View.cover_of_tiledL (runC2 V c t h0 h1 xs0).1 S1024x128.size (by sl_kernel_rfl) y

/-- After the body at position `n`: (the output block's buffer, the accumulator). Where the output is idle the
    first component is a placeholder nothing reads. -/
def outsAt2 (c : Dev nD) : (n : ℕ) → n < cfg2.N → Vec F S1024x128 .bf16 × Vec F S1024x128 .f32
  | 0, hn =>
    have h0 : cond2_0 (grid2.coords ⟨0, hn⟩) := (hcond2_0 ⟨0, hn⟩).mpr (Nat.zero_mod _)
    have h1 : ¬cond2_1 (grid2.coords ⟨0, hn⟩) := fun h => absurd ((hcond2_1 ⟨0, hn⟩).mp h) (by show ¬ (0 % 49 = 48); decide)
    (oRead2 (runA2 V c ⟨0, hn⟩ h0 h1).1, sRead2 (runA2 V c ⟨0, hn⟩ h0 h1).2.1)
  | n + 1, hn =>
    if h0 : (n + 1) % 49 = 0 then
      if h1 : (n + 1) % 49 = 48 then False.elim (by omega)
      else
        (oRead2 (runA2 V c ⟨n + 1, hn⟩ ((hcond2_0 ⟨n + 1, hn⟩).mpr h0) (fun h => h1 ((hcond2_1 ⟨n + 1, hn⟩).mp h))).1,
         sRead2 (runA2 V c ⟨n + 1, hn⟩ ((hcond2_0 ⟨n + 1, hn⟩).mpr h0) (fun h => h1 ((hcond2_1 ⟨n + 1, hn⟩).mp h))).2.1)
    else
      if h1 : (n + 1) % 49 = 48 then
        (oRead2 (runC2 V c ⟨n + 1, hn⟩ (fun h => h0 ((hcond2_0 ⟨n + 1, hn⟩).mp h)) ((hcond2_1 ⟨n + 1, hn⟩).mpr h1) (outsAt2 c n (Nat.lt_of_succ_lt hn)).2).1,
         sRead2 (runC2 V c ⟨n + 1, hn⟩ (fun h => h0 ((hcond2_0 ⟨n + 1, hn⟩).mp h)) ((hcond2_1 ⟨n + 1, hn⟩).mpr h1) (outsAt2 c n (Nat.lt_of_succ_lt hn)).2).2.1)
      else
        (oRead2 (runB2 V c ⟨n + 1, hn⟩ (fun h => h0 ((hcond2_0 ⟨n + 1, hn⟩).mp h)) (fun h => h1 ((hcond2_1 ⟨n + 1, hn⟩).mp h)) (outsAt2 c n (Nat.lt_of_succ_lt hn)).2).1,
         sRead2 (runB2 V c ⟨n + 1, hn⟩ (fun h => h0 ((hcond2_0 ⟨n + 1, hn⟩).mp h)) (fun h => h1 ((hcond2_1 ⟨n + 1, hn⟩).mp h)) (outsAt2 c n (Nat.lt_of_succ_lt hn)).2).2.1)

/-- The accumulator a point that is not the first of its row starts from. -/
abbrev prevAcc2 (c : Dev nD) (t : Fin cfg2.N) : Vec F S1024x128 .f32 :=
  (outsAt2 V c (t.val - 1) (Nat.lt_of_le_of_lt (Nat.sub_le _ _) t.isLt)).2

theorem outsAt2_A (c : Dev nD) (t : Fin cfg2.N) (h0 : t.val % 49 = 0) (h1 : ¬t.val % 49 = 48) :
    outsAt2 V c t.val t.isLt = (oRead2 (runA2 V c t ((hcond2_0 t).mpr h0) (fun h => h1 ((hcond2_1 t).mp h))).1,
      sRead2 (runA2 V c t ((hcond2_0 t).mpr h0) (fun h => h1 ((hcond2_1 t).mp h))).2.1) := by
  obtain ⟨n, hn⟩ := t
  cases n with
  | zero => exact rfl
  | succ n => exact (dif_pos h0).trans ((dif_neg h1).trans rfl)

theorem outsAt2_B (c : Dev nD) (t : Fin cfg2.N) (h0 : ¬t.val % 49 = 0) (h1 : ¬t.val % 49 = 48) :
    outsAt2 V c t.val t.isLt = (oRead2 (runB2 V c t (fun h => h0 ((hcond2_0 t).mp h)) (fun h => h1 ((hcond2_1 t).mp h)) (prevAcc2 V c t)).1,
      sRead2 (runB2 V c t (fun h => h0 ((hcond2_0 t).mp h)) (fun h => h1 ((hcond2_1 t).mp h)) (prevAcc2 V c t)).2.1) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 49 = 0) (h1 : t.val % 49 = 48) :
    outsAt2 V c t.val t.isLt = (oRead2 (runC2 V c t (fun h => h0 ((hcond2_0 t).mp h)) ((hcond2_1 t).mpr h1) (prevAcc2 V c t)).1,
      sRead2 (runC2 V c t (fun h => h0 ((hcond2_0 t).mp h)) ((hcond2_1 t).mpr h1) (prevAcc2 V c t)).2.1) := by
  obtain ⟨n, hn⟩ := t
  cases n with
  | zero => exact absurd (Nat.zero_mod _) h0
  | succ n => exact (dif_neg h0).trans ((dif_pos h1).trans rfl)

/-- Every scoped buffer but the accumulator, untouched by the call. -/
abbrev restBut2 (c : Dev nD) : sProp 𝕄 :=
  Pipeline.scopedRestBut (Ix := Unit) (Name := ℕ) (U := UR sig nD τ) (Lvl := ℕ) (Val := Elt F) spec2 c [cc2_scratch0]

/-- Before position `n`: the accumulator at anything before the first point, afterwards at what the point before
    left in it; beside it the other scoped buffers. -/
def PhiS2 (c : Dev nD) : (n : ℕ) → n ≤ cfg2.N → sProp 𝕄
  | 0, _ => iprop((∃ d, owns (c : Thread nD τ) scM2_0 fullShare d) ∗ restBut2 (F := F) c)
  | n + 1, hn => iprop(owns (c : Thread nD τ) scM2_0 fullShare ((outsAt2 V c n hn).2) ∗ restBut2 (F := F) c)

theorem PhiS2_zero (c : Dev nD) (n : ℕ) (h : n ≤ cfg2.N) (hz : n = 0) :
    PhiS2 V c n h = iprop((∃ d, owns (c : Thread nD τ) scM2_0 fullShare d) ∗ restBut2 (F := F) c) := by
  subst hz; rfl
theorem PhiS2_succ (c : Dev nD) (n : ℕ) (hn : n < cfg2.N) :
    PhiS2 V c (n + 1) hn = iprop(owns (c : Thread nD τ) scM2_0 fullShare ((outsAt2 V c n hn).2) ∗ restBut2 (F := F) c) := rfl
theorem PhiS2_pos (c : Dev nD) (n : ℕ) (h : n ≤ cfg2.N) (hz : n ≠ 0) :
    PhiS2 V c n h = iprop(owns (c : Thread nD τ) scM2_0 fullShare ((outsAt2 V c (n - 1) (by omega)).2) ∗ restBut2 (F := F) c) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

end Cert.KernelIdeal.Gen

end
-- ==== Proof.KI.R2Body.lean ====
/-
  The gather call's body obligation: at every point the body, called with the windows' current buffers and the
  accumulator, runs from the invariant before the point to the invariant after it. The point's case is decided
  by its second grid coordinate (`t mod 49`); the case's run does the rest.
-/
import proofs.«179232_j88021059764774_1_alg».proof.Proof.KI.R2Dat

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAtR2 t) (fun _ => bodyPost2 V c t) := by
  unfold bodyPre2 bodyPost2 bodyAtR2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 40719 := lt_of_lt_of_eq t.isLt (show cfg2.N = 40719 from N_2)
  by_cases h0 : t.val % 49 = 0
  · by_cases h1 : t.val % 49 = 48
    · exfalso; omega
    · rw [Dat.leavesExact_idle (dat2 V c) 3 t (idleAt2_3 t (fun h => h1 ((hcond2_1 t).mp h))) (noFlush2_3 t (fun h => h1 ((hcond2_1 t).mp h)))]
      rw [outsAt2_A V c t h0 h1]
      (try dsimp only)
      have hpre : (dat2 V c).Φ t.castSucc ⊢ iprop((∃ d, owns (c : Thread nD τ) scM2_0 fullShare d) ∗ restBut2 (F := F) c) := by
        rw [PhiS2_castSucc V c t]
        by_cases hz : t.val = 0
        · rw [PhiS2_zero V c _ _ hz]
        · rw [PhiS2_pos V c _ _ hz]
          iintro ⟨HS0, Hr⟩
          isplitl [HS0]; · iexists _; iexact HS0
          iexact Hr
      iintro ⟨HΦ, Ho, ⟨%d0, H0⟩, ⟨%d1, H1⟩, ⟨%d2, H2⟩, ⟨%d3, H3⟩⟩
      ihave HΦ' := hpre $$ HΦ
      icases HΦ' with ⟨HS0, Hr⟩
      iapply ((runA2 V c t ((hcond2_0 t).mpr h0) (fun h => h1 ((hcond2_1 t).mp h))).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover2_A V c t _ _)
        iexact Hr
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 49 = 48
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      (try dsimp only)
      rw [PhiS2_castSucc V c t, PhiS2_pos V c _ _ hz]
      iintro ⟨⟨HS0, Hr⟩, Ho, ⟨%d0, H0⟩, ⟨%d1, H1⟩, ⟨%d2, H2⟩, ⟨%d3, H3⟩⟩
      iapply ((runC2 V c t (fun h => h0 ((hcond2_0 t).mp h)) ((hcond2_1 t).mpr h1) (prevAcc2 V c t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr]
      · isplitl [HS0]
        · unfold owns; iexists _; isplitr
          swap; · iexact HS0
          ipureintro; exact View.read_writes_of_cover _ _ _ _ _ (scover2_C V c t _ _ _)
        iexact Hr
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C V c t _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      (try dsimp only)
      rw [PhiS2_castSucc V c t, PhiS2_pos V c _ _ hz]
      iintro ⟨⟨HS0, Hr⟩, Ho, ⟨%d0, H0⟩, ⟨%d1, H1⟩, ⟨%d2, H2⟩, ⟨%d3, H3⟩⟩
      iapply ((runB2 V c t (fun h => h0 ((hcond2_0 t).mp h)) (fun h => h1 ((hcond2_1 t).mp h)) (prevAcc2 V c t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover2_B V c t _ _ _)
        iexact Hr
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-- What the launch hands the call (the scoped buffers no window stages) is the invariant before the first point. -/
theorem hin2 (c : Dev nD) :
    (Pipeline.scopedRest (Ix := Unit) (Name := ℕ) (U := UR sig nD τ) (Lvl := ℕ) (Val := Elt F) spec2 c : sProp 𝕄) ⊢ (dat2 V c).Φ 0 := by
  rw [show (dat2 V c).Φ 0 = PhiS2 V c 0 (Nat.zero_le _) from rfl, PhiS2_zero V c 0 _ rfl, scopedRest2_split]
  simp only [scM2_0, owns_whole]
  exact Idealize.SL.BI.Entails.refl _

/-- After the last point the invariant gives those buffers back, the accumulator's contents forgotten. -/
theorem hout2 (c : Dev nD) :
    (dat2 V c).Φ (Fin.last cfg2.N) ⊢ (Pipeline.scopedRest (Ix := Unit) (Name := ℕ) (U := UR sig nD τ) (Lvl := ℕ) (Val := Elt F) spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 40719 := N_2; omega), scopedRest2_split]
  iintro ⟨HS0, Hr⟩
  isplitl [HS0]
  · simp only [scM2_0, owns_whole]; iexists _; iexact HS0
  iexact Hr

end Cert.KernelIdeal.Gen

end
-- ==== Proof.KI.R3Base.lean ====
/-
  The scatter call (pipeline 3), what its three control cases share. A point is "first" when its edge-block
  coordinate (the grid's second axis) is 0 — the accumulator is zeroed before the one-hot product is added —
  and "last" when it is 830 — the accumulator is written to the output block. Point `t` has that
  coordinate equal to `t mod 831`.
-/
import proofs.«179232_j88021059764774_1_alg».proof.Proof.Gen.KernelIdeal.Launch
import proofs.«179232_j88021059764774_1_alg».proof.Proof.Gen.KernelIdeal.Skeleton
import Idealize.ShloMosaic.Lib.Pipeline.Kit
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point's coordinates: the second is `t mod 831`, the first `t / 831` (the second axis runs fastest). -/
theorem coord3_1 (t : Fin cfg3.N) : ((grid3.coords t) 1).val = t.val % 831 := by
  show t.val / grid3.stride 1 % 831 = _
  rw [show grid3.stride 1 = 1 from by decide, Nat.div_one]
theorem coord3_0 (t : Fin cfg3.N) : ((grid3.coords t) 0).val = t.val / 831 % 49 := by
  show t.val / grid3.stride 0 % 49 = _
  rw [show grid3.stride 0 = 831 from by decide]

/-- "The second coordinate is 0": the accumulator is zeroed first. -/
abbrev cond3_0 (i : grid3.Coords) : Prop := (Scalar.cmpi .ne (Scalar.extui (Scalar.cmpi .eq (BitVec.ofNat 32 (i 1).val) 0#32)) 0#32) = 1#1
theorem key3_0 : ∀ x : Fin 831, ((Scalar.cmpi .ne (Scalar.extui (Scalar.cmpi .eq (BitVec.ofNat 32 x.val) 0#32)) 0#32) = 1#1) ↔ x.val = 0 := by decide +kernel
theorem hcond3_0 (t : Fin cfg3.N) : cond3_0 (grid3.coords t) ↔ t.val % 831 = 0 :=
  (key3_0 ((grid3.coords t) 1)).trans (by rw [coord3_1 t])

/-- "The second coordinate is 830": the accumulator goes to the output block. -/
abbrev cond3_1 (i : grid3.Coords) : Prop := k3_cond2 i = 1#1
theorem key3_1 : ∀ x : Fin 831, ((Scalar.cmpi .ne (Scalar.extui (Scalar.cmpi .eq (BitVec.ofNat 32 x.val) 830#32)) 0#32) = 1#1) ↔ x.val = 830 := by decide +kernel
theorem hcond3_1 (t : Fin cfg3.N) : cond3_1 (grid3.coords t) ↔ t.val % 831 = 830 :=
  (key3_1 ((grid3.coords t) 1)).trans (by rw [coord3_1 t])

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
/-- Away from the last block of a row nothing is stored into the output block: idle by the configuration's table, -/
theorem idleAt3_3 (t : Fin cfg3.N) (h : ¬cond3_1 (grid3.coords t)) : cfg3.idle 3 (grid3.coords t) = true := by
  show (!(k3_cond2 (grid3.coords t) == 1#1)) = true
  simpa using h
/-- and the block is not written back there; -/
theorem noFlush3_3 (t : Fin cfg3.N) (hc : ¬cond3_1 (grid3.coords t)) : (cfg3.win 3).flush t = false := by
  have h : ¬ t.val % 831 = 830 := fun e => hc ((hcond3_1 t).mpr e)
  have hN : t.val < 40719 := lt_of_lt_of_eq t.isLt (show cfg3.N = 40719 from N_3)
  have h1 : t.val + 1 < grid3.N := by rw [N_3]; omega
  show (win3_3.isOut && (decide (t.val + 1 = grid3.N) || decide (∃ h : t.val + 1 < grid3.N, win3_3.index ⟨t.val + 1, h⟩ ≠ win3_3.index t))) = false
  have e : win3_3.index ⟨t.val + 1, h1⟩ = win3_3.index t := by
    show cc3_transform_3 (grid3.coords ⟨t.val + 1, h1⟩) = cc3_transform_3 (grid3.coords t)
    unfold cc3_transform_3
    have : ((grid3.coords ⟨t.val + 1, h1⟩) 0).val = ((grid3.coords t) 0).val := by
      rw [coord3_0, coord3_0]; show (t.val + 1) / 831 % 49 = t.val / 831 % 49; omega
    simp only [this]
  have hne : ¬ (t.val + 1 = grid3.N) := by rw [N_3]; omega
  simp only [hne, decide_false, Bool.false_or, Bool.and_eq_false_imp, decide_eq_false_iff_not]
  intro _ ⟨h', hh⟩
  exact hh e
/-- at the last block it is stored. -/
theorem liveAt3_3 (t : Fin cfg3.N) (h : cond3_1 (grid3.coords t)) : cfg3.idle 3 (grid3.coords t) = false := by
  show (!(k3_cond2 (grid3.coords t) == 1#1)) = false
  simpa using h

/-- The body as the pipeline calls it at point `t`: on the windows' current buffers and the accumulator. -/
abbrev bodyAtR3 (t : Fin cfg3.N) : Prog (TpuEff nD τ sig (Elt F) Λ₀ .tc) PUnit :=
  cc3__scatter_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (Memref.whole cc3_scratch0) (Memref.isWhole_whole _)

abbrev VO3_3 : View sig .tc .vmem S1024x128 .f32 := (Memref.whole cc3_stg3_0 : Memref sig .tc .vmem S1024x128 .f32).view
abbrev ms3_0 (t : Fin cfg3.N) : Memref sig .tc .vmem S1x1024 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x128 .f32 := win3_3.stage (cfg3.slots t 3)
abbrev hs3_3 (t : Fin cfg3.N) : (ms3_3 t).IsWhole := hstage3_3 ((cfg3.slots t 3).cast nbuf3_3)
/-- The accumulator: a whole scoped buffer of the call's own. -/
abbrev scM3_0 : Memref sig .tc .vmem S1024x128 .f32 := Memref.whole cc3_scratch0
abbrev VS3_0 : View sig .tc .vmem S1024x128 .f32 := scM3_0.view

end Cert.KernelIdeal.Gen

end
-- ==== Proof.KI.R3RunA.lean ====
/-
  The scatter body at the first block of a row (coordinate 0, not 830): the accumulator, found at anything, is zeroed and then receives the one-hot product of this block; the output block's buffer is not touched.
-/
import proofs.«179232_j88021059764774_1_alg».proof.Proof.KI.R3Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_A (c : Dev nD) (i : grid3.Coords) (arg2 : Memref sig .tc .vmem S1x1024 .i32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1x1024 .i32) (x1 : Vec F S1024x128 .bf16) (x2 : Vec F S1x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__scatter_kernel i arg2 harg2 arg3 harg3 arg4 harg4 arg5 harg5 arg6 harg6) K } := by
  refine ⟨[], ?_, fun xi3 E K => ?run⟩
  case run =>
    simp only [cc3__scatter_kernel_eq_skeleton]; unfold cc3__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.KI.R3RunB.lean ====
/-
  The scatter body away from both ends of a row of blocks (coordinate neither 0 nor 830): the accumulator, found at what the point before left, receives the one-hot product of this block; the output block's buffer is not touched.
-/
import proofs.«179232_j88021059764774_1_alg».proof.Proof.KI.R3RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_B (c : Dev nD) (i : grid3.Coords) (arg2 : Memref sig .tc .vmem S1x1024 .i32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1x1024 .i32) (x1 : Vec F S1024x128 .bf16) (x2 : Vec F S1x128 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__scatter_kernel i arg2 harg2 arg3 harg3 arg4 harg4 arg5 harg5 arg6 harg6) K } := by
  refine ⟨[], ?_, fun xi3 E K => ?run⟩
  case run =>
    simp only [cc3__scatter_kernel_eq_skeleton]; unfold cc3__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.KI.R3RunC.lean ====
/-
  The scatter body at the last block of a row (coordinate 830, not 0): the accumulator receives the last one-hot product and is then written, with the bias added and negative entries replaced by zero, over the whole output block.
-/
import proofs.«179232_j88021059764774_1_alg».proof.Proof.KI.R3RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_C (c : Dev nD) (i : grid3.Coords) (arg2 : Memref sig .tc .vmem S1x1024 .i32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1x1024 .i32) (x1 : Vec F S1024x128 .bf16) (x2 : Vec F S1x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__scatter_kernel i arg2 harg2 arg3 harg3 arg4 harg4 arg5 harg5 arg6 harg6) K } := by
  refine ⟨?_, ?_, fun E K => ?run⟩
  case run =>
    simp only [cc3__scatter_kernel_eq_skeleton]; unfold cc3__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.KernelIdeal.Gen

end
-- ==== Proof.KI.R3Dat.lean ====
/-
  The scatter call's proof data. After point `t` the accumulator holds the sum, over the blocks of the current
  row met so far, of the one-hot products (the run of the point's case, started from zero at the first block of
  the row and from what the point before left otherwise); the output block's buffer holds the finished row
  after the last block of a row and is not touched elsewhere. Both are defined by recursion on the point,
  through the pieces each case's run found.
-/
import proofs.«179232_j88021059764774_1_alg».proof.Proof.KI.R3RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev runA3 (c : Dev nD) (t : Fin cfg3.N) (h0 : cond3_0 (grid3.coords t)) (h1 : ¬cond3_1 (grid3.coords t)) :=
  kernelRun3_A (F := F) c (grid3.coords t) (ms3_0 t) (hs3_0 t) (ms3_1 t) (hs3_1 t) (ms3_2 t) (hs3_2 t) (ms3_3 t) (hs3_3 t) scM3_0 (Memref.isWhole_whole _) h0 h1 (iblk3 V c 0 t) (iblk3 V c 1 t) (iblk3 V c 2 t)
abbrev runB3 (c : Dev nD) (t : Fin cfg3.N) (h0 : ¬cond3_0 (grid3.coords t)) (h1 : ¬cond3_1 (grid3.coords t)) (xs0 : Vec F S1024x128 .f32) :=
  kernelRun3_B (F := F) c (grid3.coords t) (ms3_0 t) (hs3_0 t) (ms3_1 t) (hs3_1 t) (ms3_2 t) (hs3_2 t) (ms3_3 t) (hs3_3 t) scM3_0 (Memref.isWhole_whole _) h0 h1 (iblk3 V c 0 t) (iblk3 V c 1 t) (iblk3 V c 2 t) xs0
abbrev runC3 (c : Dev nD) (t : Fin cfg3.N) (h0 : ¬cond3_0 (grid3.coords t)) (h1 : cond3_1 (grid3.coords t)) (xs0 : Vec F S1024x128 .f32) :=
  kernelRun3_C (F := F) c (grid3.coords t) (ms3_0 t) (hs3_0 t) (ms3_1 t) (hs3_1 t) (ms3_2 t) (hs3_2 t) (ms3_3 t) (hs3_3 t) scM3_0 (Memref.isWhole_whole _) h0 h1 (iblk3 V c 0 t) (iblk3 V c 1 t) (iblk3 V c 2 t) xs0

/-- What a list of pieces leaves in the accumulator, read back. -/
abbrev sRead3 (L : List (View.Piece (Elt F) S1024x128 .f32)) : Vec F S1024x128 .f32 :=
  VS3_0.read (Elt F) (VS3_0.writes (Elt F) VS3_0.junk L)
/-- What a list of pieces leaves in the output block's buffer, read back. -/
abbrev oRead3 (L : List (View.Piece (Elt F) S1024x128 .f32)) : Vec F S1024x128 .f32 :=
  VO3_3.read (Elt F) (VO3_3.writes (Elt F) VO3_3.junk L)

/-- Each case's pieces for the accumulator tile it. -/
theorem scover3_A (c : Dev nD) (t : Fin cfg3.N) (h0 h1) (y : S1024x128.Idx) : ∃ pc ∈ (runA3 V c t h0 h1).2.1, y ∈ pc.1.set :=
  View.cover_of_tiledL (runA3 V c t h0 h1).2.1 S1024x128.size (by sl_kernel_rfl) y
theorem scover3_B (c : Dev nD) (t : Fin cfg3.N) (h0 h1) (xs0) (y : S1024x128.Idx) : ∃ pc ∈ (runB3 V c t h0 h1 xs0).2.1, y ∈ pc.1.set :=
  View.cover_of_tiledL (runB3 V c t h0 h1 xs0).2.1 S1024x128.size (by sl_kernel_rfl) y
theorem scover3_C (c : Dev nD) (t : Fin cfg3.N) (h0 h1) (xs0) (y : S1024x128.Idx) : ∃ pc ∈ (runC3 V c t h0 h1 xs0).2.1, y ∈ pc.1.set :=
  View.cover_of_tiledL (runC3 V c t h0 h1 xs0).2.1 S1024x128.size (by sl_kernel_rfl) y
/-- The last case's pieces for the output block tile it. -/
theorem cover3_C (c : Dev nD) (t : Fin cfg3.N) (h0 h1) (xs0) (y : S1024x128.Idx) : ∃ pc ∈ (runC3 V c t h0 h1 xs0).1, y ∈ pc.1.set :=
  View.cover_of_tiledL (runC3 V c t h0 h1 xs0).1 S1024x128.size (by sl_kernel_rfl) y

/-- After the body at position `n`: (the output block's buffer, the accumulator). Where the output is idle the
    first component is a placeholder nothing reads. -/
def outsAt3 (c : Dev nD) : (n : ℕ) → n < cfg3.N → Vec F S1024x128 .f32 × Vec F S1024x128 .f32
  | 0, hn =>
    have h0 : cond3_0 (grid3.coords ⟨0, hn⟩) := (hcond3_0 ⟨0, hn⟩).mpr (Nat.zero_mod _)
    have h1 : ¬cond3_1 (grid3.coords ⟨0, hn⟩) := fun h => absurd ((hcond3_1 ⟨0, hn⟩).mp h) (by show ¬ (0 % 831 = 830); decide)
    (oRead3 (runA3 V c ⟨0, hn⟩ h0 h1).1, sRead3 (runA3 V c ⟨0, hn⟩ h0 h1).2.1)
  | n + 1, hn =>
    if h0 : (n + 1) % 831 = 0 then
      if h1 : (n + 1) % 831 = 830 then False.elim (by omega)
      else
        (oRead3 (runA3 V c ⟨n + 1, hn⟩ ((hcond3_0 ⟨n + 1, hn⟩).mpr h0) (fun h => h1 ((hcond3_1 ⟨n + 1, hn⟩).mp h))).1,
         sRead3 (runA3 V c ⟨n + 1, hn⟩ ((hcond3_0 ⟨n + 1, hn⟩).mpr h0) (fun h => h1 ((hcond3_1 ⟨n + 1, hn⟩).mp h))).2.1)
    else
      if h1 : (n + 1) % 831 = 830 then
        (oRead3 (runC3 V c ⟨n + 1, hn⟩ (fun h => h0 ((hcond3_0 ⟨n + 1, hn⟩).mp h)) ((hcond3_1 ⟨n + 1, hn⟩).mpr h1) (outsAt3 c n (Nat.lt_of_succ_lt hn)).2).1,
         sRead3 (runC3 V c ⟨n + 1, hn⟩ (fun h => h0 ((hcond3_0 ⟨n + 1, hn⟩).mp h)) ((hcond3_1 ⟨n + 1, hn⟩).mpr h1) (outsAt3 c n (Nat.lt_of_succ_lt hn)).2).2.1)
      else
        (oRead3 (runB3 V c ⟨n + 1, hn⟩ (fun h => h0 ((hcond3_0 ⟨n + 1, hn⟩).mp h)) (fun h => h1 ((hcond3_1 ⟨n + 1, hn⟩).mp h)) (outsAt3 c n (Nat.lt_of_succ_lt hn)).2).1,
         sRead3 (runB3 V c ⟨n + 1, hn⟩ (fun h => h0 ((hcond3_0 ⟨n + 1, hn⟩).mp h)) (fun h => h1 ((hcond3_1 ⟨n + 1, hn⟩).mp h)) (outsAt3 c n (Nat.lt_of_succ_lt hn)).2).2.1)

/-- The accumulator a point that is not the first of its row starts from. -/
abbrev prevAcc3 (c : Dev nD) (t : Fin cfg3.N) : Vec F S1024x128 .f32 :=
  (outsAt3 V c (t.val - 1) (Nat.lt_of_le_of_lt (Nat.sub_le _ _) t.isLt)).2

theorem outsAt3_A (c : Dev nD) (t : Fin cfg3.N) (h0 : t.val % 831 = 0) (h1 : ¬t.val % 831 = 830) :
    outsAt3 V c t.val t.isLt = (oRead3 (runA3 V c t ((hcond3_0 t).mpr h0) (fun h => h1 ((hcond3_1 t).mp h))).1,
      sRead3 (runA3 V c t ((hcond3_0 t).mpr h0) (fun h => h1 ((hcond3_1 t).mp h))).2.1) := by
  obtain ⟨n, hn⟩ := t
  cases n with
  | zero => exact rfl
  | succ n => exact (dif_pos h0).trans ((dif_neg h1).trans rfl)

theorem outsAt3_B (c : Dev nD) (t : Fin cfg3.N) (h0 : ¬t.val % 831 = 0) (h1 : ¬t.val % 831 = 830) :
    outsAt3 V c t.val t.isLt = (oRead3 (runB3 V c t (fun h => h0 ((hcond3_0 t).mp h)) (fun h => h1 ((hcond3_1 t).mp h)) (prevAcc3 V c t)).1,
      sRead3 (runB3 V c t (fun h => h0 ((hcond3_0 t).mp h)) (fun h => h1 ((hcond3_1 t).mp h)) (prevAcc3 V c t)).2.1) := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 831 = 0) (h1 : t.val % 831 = 830) :
    outsAt3 V c t.val t.isLt = (oRead3 (runC3 V c t (fun h => h0 ((hcond3_0 t).mp h)) ((hcond3_1 t).mpr h1) (prevAcc3 V c t)).1,
      sRead3 (runC3 V c t (fun h => h0 ((hcond3_0 t).mp h)) ((hcond3_1 t).mpr h1) (prevAcc3 V c t)).2.1) := by
  obtain ⟨n, hn⟩ := t
  cases n with
  | zero => exact absurd (Nat.zero_mod _) h0
  | succ n => exact (dif_neg h0).trans ((dif_pos h1).trans rfl)

/-- Every scoped buffer but the accumulator, untouched by the call. -/
abbrev restBut3 (c : Dev nD) : sProp 𝕄 :=
  Pipeline.scopedRestBut (Ix := Unit) (Name := ℕ) (U := UR sig nD τ) (Lvl := ℕ) (Val := Elt F) spec3 c [cc3_scratch0]

/-- Before position `n`: the accumulator at anything before the first point, afterwards at what the point before
    left in it; beside it the other scoped buffers. -/
def PhiS3 (c : Dev nD) : (n : ℕ) → n ≤ cfg3.N → sProp 𝕄
  | 0, _ => iprop((∃ d, owns (c : Thread nD τ) scM3_0 fullShare d) ∗ restBut3 (F := F) c)
  | n + 1, hn => iprop(owns (c : Thread nD τ) scM3_0 fullShare ((outsAt3 V c n hn).2) ∗ restBut3 (F := F) c)

theorem PhiS3_zero (c : Dev nD) (n : ℕ) (h : n ≤ cfg3.N) (hz : n = 0) :
    PhiS3 V c n h = iprop((∃ d, owns (c : Thread nD τ) scM3_0 fullShare d) ∗ restBut3 (F := F) c) := by
  subst hz; rfl
theorem PhiS3_succ (c : Dev nD) (n : ℕ) (hn : n < cfg3.N) :
    PhiS3 V c (n + 1) hn = iprop(owns (c : Thread nD τ) scM3_0 fullShare ((outsAt3 V c n hn).2) ∗ restBut3 (F := F) c) := rfl
theorem PhiS3_pos (c : Dev nD) (n : ℕ) (h : n ≤ cfg3.N) (hz : n ≠ 0) :
    PhiS3 V c n h = iprop(owns (c : Thread nD τ) scM3_0 fullShare ((outsAt3 V c (n - 1) (by omega)).2) ∗ restBut3 (F := F) c) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

end Cert.KernelIdeal.Gen

end
-- ==== Proof.KI.R3Body.lean ====
/-
  The scatter call's body obligation: at every point the body, called with the windows' current buffers and the
  accumulator, runs from the invariant before the point to the invariant after it. The point's case is decided
  by its second grid coordinate (`t mod 831`); the case's run does the rest.
-/
import proofs.«179232_j88021059764774_1_alg».proof.Proof.KI.R3Dat

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
theorem sound_body3 (c : Dev nD) (t : Fin cfg3.N) :
    bodyPre3 V c t ⊢ wp frame (wpE (defs₀ (F := F)) Variants.none c none) Set.univ (bodyAtR3 t) (fun _ => bodyPost3 V c t) := by
  unfold bodyPre3 bodyPost3 bodyAtR3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hN : t.val < 40719 := lt_of_lt_of_eq t.isLt (show cfg3.N = 40719 from N_3)
  by_cases h0 : t.val % 831 = 0
  · by_cases h1 : t.val % 831 = 830
    · exfalso; omega
    · rw [Dat.leavesExact_idle (dat3 V c) 3 t (idleAt3_3 t (fun h => h1 ((hcond3_1 t).mp h))) (noFlush3_3 t (fun h => h1 ((hcond3_1 t).mp h)))]
      rw [outsAt3_A V c t h0 h1]
      (try dsimp only)
      have hpre : (dat3 V c).Φ t.castSucc ⊢ iprop((∃ d, owns (c : Thread nD τ) scM3_0 fullShare d) ∗ restBut3 (F := F) c) := by
        rw [PhiS3_castSucc V c t]
        by_cases hz : t.val = 0
        · rw [PhiS3_zero V c _ _ hz]
        · rw [PhiS3_pos V c _ _ hz]
          iintro ⟨HS0, Hr⟩
          isplitl [HS0]; · iexists _; iexact HS0
          iexact Hr
      iintro ⟨HΦ, Ho, ⟨%d0, H0⟩, ⟨%d1, H1⟩, ⟨%d2, H2⟩, ⟨%d3, H3⟩⟩
      ihave HΦ' := hpre $$ HΦ
      icases HΦ' with ⟨HS0, Hr⟩
      iapply ((runA3 V c t ((hcond3_0 t).mpr h0) (fun h => h1 ((hcond3_1 t).mp h))).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover3_A V c t _ _)
        iexact Hr
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 831 = 830
    · rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      (try dsimp only)
      rw [PhiS3_castSucc V c t, PhiS3_pos V c _ _ hz]
      iintro ⟨⟨HS0, Hr⟩, Ho, ⟨%d0, H0⟩, ⟨%d1, H1⟩, ⟨%d2, H2⟩, ⟨%d3, H3⟩⟩
      iapply ((runC3 V c t (fun h => h0 ((hcond3_0 t).mp h)) ((hcond3_1 t).mpr h1) (prevAcc3 V c t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr]
      · isplitl [HS0]
        · unfold owns; iexists _; isplitr
          swap; · iexact HS0
          ipureintro; exact View.read_writes_of_cover _ _ _ _ _ (scover3_C V c t _ _ _)
        iexact Hr
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C V c t _ _ _)
    · rw [Dat.leavesExact_idle (dat3 V c) 3 t (idleAt3_3 t (fun h => h1 ((hcond3_1 t).mp h))) (noFlush3_3 t (fun h => h1 ((hcond3_1 t).mp h)))]
      rw [outsAt3_B V c t h0 h1]
      (try dsimp only)
      rw [PhiS3_castSucc V c t, PhiS3_pos V c _ _ hz]
      iintro ⟨⟨HS0, Hr⟩, Ho, ⟨%d0, H0⟩, ⟨%d1, H1⟩, ⟨%d2, H2⟩, ⟨%d3, H3⟩⟩
      iapply ((runB3 V c t (fun h => h0 ((hcond3_0 t).mp h)) (fun h => h1 ((hcond3_1 t).mp h)) (prevAcc3 V c t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover3_B V c t _ _ _)
        iexact Hr
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

/-- What the launch hands the call (the scoped buffers no window stages) is the invariant before the first point. -/
theorem hin3 (c : Dev nD) :
    (Pipeline.scopedRest (Ix := Unit) (Name := ℕ) (U := UR sig nD τ) (Lvl := ℕ) (Val := Elt F) spec3 c : sProp 𝕄) ⊢ (dat3 V c).Φ 0 := by
  rw [show (dat3 V c).Φ 0 = PhiS3 V c 0 (Nat.zero_le _) from rfl, PhiS3_zero V c 0 _ rfl, scopedRest3_split]
  simp only [scM3_0, owns_whole]
  exact Idealize.SL.BI.Entails.refl _

/-- After the last point the invariant gives those buffers back, the accumulator's contents forgotten. -/
theorem hout3 (c : Dev nD) :
    (dat3 V c).Φ (Fin.last cfg3.N) ⊢ (Pipeline.scopedRest (Ix := Unit) (Name := ℕ) (U := UR sig nD τ) (Lvl := ℕ) (Val := Elt F) spec3 c : sProp 𝕄) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 40719 := N_3; omega), scopedRest3_split]
  iintro ⟨HS0, Hr⟩
  isplitl [HS0]
  · simp only [scM3_0, owns_whole]; iexists _; iexact HS0
  iexact Hr

end Cert.KernelIdeal.Gen

end
-- ==== Proof.KI.Outs.lean ====
/-
  The contents of the buffers between the program's items, call by call. Each call's exit contents are its
  entry contents with the output array replaced by the blocks the pipeline wrote back; the entry contents of
  the next call are what the host operations in between make of them.
-/
import proofs.«179232_j88021059764774_1_alg».proof.Proof.KI.R0Body
import proofs.«179232_j88021059764774_1_alg».proof.Proof.KI.R1Body
import proofs.«179232_j88021059764774_1_alg».proof.Proof.KI.R2Body
import proofs.«179232_j88021059764774_1_alg».proof.Proof.KI.R3Body
import proofs.«179232_j88021059764774_1_alg».proof.Proof.Gen.KernelIdeal.Regions
import Idealize.ShloMosaic.Lib.Pipeline.Regions
import Idealize.ShloMosaic.Lib.Pipeline.RegionsLoop

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No core owes another anything: no level is assigned. -/
abbrev LL : GSem nD τ sig → Finset Unit := fun _ => ∅
abbrev lvv : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)

/-! ## The valuations depend on what the calls left only through the four output arrays -/

theorem V4_congr (o o' : Outs (F := F)) (h4 : o 4 main_v45 = o' 4 main_v45) (c : Dev nD) : V4 m o c = V4 m o' c := by
  show Function.update (V3 m c) _ (o 4 main_v45 c) = Function.update (V3 m c) _ (o' 4 main_v45 c)
  rw [h4]
theorem V5_congr (o o' : Outs (F := F)) (h4 : o 4 main_v45 = o' 4 main_v45) (c : Dev nD) : V5 m o c = V5 m o' c :=
  congrArg (StableHlo.after hostOps1) (V4_congr m o o' h4 c)
theorem V6_congr (o o' : Outs (F := F)) (h4 : o 4 main_v45 = o' 4 main_v45) (h6 : o 6 main_v47 = o' 6 main_v47) (c : Dev nD) :
    V6 m o c = V6 m o' c := by
  show Function.update (V5 m o c) _ (o 6 main_v47 c) = Function.update (V5 m o' c) _ (o' 6 main_v47 c)
  rw [V5_congr m o o' h4 c, h6]
theorem V7_congr (o o' : Outs (F := F)) (h4 : o 4 main_v45 = o' 4 main_v45) (h6 : o 6 main_v47 = o' 6 main_v47) (c : Dev nD) :
    V7 m o c = V7 m o' c :=
  congrArg (StableHlo.after hostOps2) (V6_congr m o o' h4 h6 c)
theorem V8_congr (o o' : Outs (F := F)) (h4 : o 4 main_v45 = o' 4 main_v45) (h6 : o 6 main_v47 = o' 6 main_v47) (h8 : o 8 main_v53 = o' 8 main_v53)
    (c : Dev nD) : V8 m o c = V8 m o' c := by
  show Function.update (V7 m o c) _ (o 8 main_v53 c) = Function.update (V7 m o' c) _ (o' 8 main_v53 c)
  rw [V7_congr m o o' h4 h6 c, h8]
theorem V9_congr (o o' : Outs (F := F)) (h4 : o 4 main_v45 = o' 4 main_v45) (h6 : o 6 main_v47 = o' 6 main_v47) (h8 : o 8 main_v53 = o' 8 main_v53)
    (c : Dev nD) : V9 m o c = V9 m o' c :=
  congrArg (StableHlo.after hostOps3) (V8_congr m o o' h4 h6 h8 c)

/-! ## The contents the calls leave, call by call -/

abbrev VV3 : (c : Dev nD) → (b : Ref sig .tc) → Buf (Elt F) ((c : Thread nD τ).loc b) := fun c b => V3 m c b
@[irreducible] def O4 (c : Dev nD) : Valuation τ sig (Elt F) := Pipeline.withArrays spec0 c (V3 m c) fun w => (dat0 (VV3 m) c).arrAt w cfg0.N
theorem O4_arr (c : Dev nD) (w : Fin cfg0.W) : O4 m c (Proc.devRef .tc (Pipeline.arrRef spec0 w)) = (dat0 (VV3 m) c).arrAt w cfg0.N := by
  unfold O4; exact Pipeline.withArrays_arr spec0 launch0.win.arr_inj c _ _ w
def outs4 : Outs (F := F) := fun _ r c => O4 m c (Proc.devRef .tc r)
abbrev VV5 : (c : Dev nD) → (b : Ref sig .tc) → Buf (Elt F) ((c : Thread nD τ).loc b) := fun c b => V5 m (outs4 m) c b
@[irreducible] def O6 (c : Dev nD) : Valuation τ sig (Elt F) := Pipeline.withArrays spec1 c (V5 m (outs4 m) c) fun w => (dat1 (VV5 m) c).arrAt w cfg1.N
theorem O6_arr (c : Dev nD) (w : Fin cfg1.W) : O6 m c (Proc.devRef .tc (Pipeline.arrRef spec1 w)) = (dat1 (VV5 m) c).arrAt w cfg1.N := by
  unfold O6; exact Pipeline.withArrays_arr spec1 launch1.win.arr_inj c _ _ w
def outs6 : Outs (F := F) := fun J r c => match J with | 4 => O4 m c (Proc.devRef .tc r) | _ => O6 m c (Proc.devRef .tc r)
abbrev VV7 : (c : Dev nD) → (b : Ref sig .tc) → Buf (Elt F) ((c : Thread nD τ).loc b) := fun c b => V7 m (outs6 m) c b
@[irreducible] def O8 (c : Dev nD) : Valuation τ sig (Elt F) := Pipeline.withArrays spec2 c (V7 m (outs6 m) c) fun w => (dat2 (VV7 m) c).arrAt w cfg2.N
theorem O8_arr (c : Dev nD) (w : Fin cfg2.W) : O8 m c (Proc.devRef .tc (Pipeline.arrRef spec2 w)) = (dat2 (VV7 m) c).arrAt w cfg2.N := by
  unfold O8; exact Pipeline.withArrays_arr spec2 launch2.win.arr_inj c _ _ w
def outs8 : Outs (F := F) := fun J r c => match J with | 4 => O4 m c (Proc.devRef .tc r) | 6 => O6 m c (Proc.devRef .tc r) | _ => O8 m c (Proc.devRef .tc r)
abbrev VV9 : (c : Dev nD) → (b : Ref sig .tc) → Buf (Elt F) ((c : Thread nD τ).loc b) := fun c b => V9 m (outs8 m) c b
@[irreducible] def O10 (c : Dev nD) : Valuation τ sig (Elt F) := Pipeline.withArrays spec3 c (V9 m (outs8 m) c) fun w => (dat3 (VV9 m) c).arrAt w cfg3.N
theorem O10_arr (c : Dev nD) (w : Fin cfg3.W) : O10 m c (Proc.devRef .tc (Pipeline.arrRef spec3 w)) = (dat3 (VV9 m) c).arrAt w cfg3.N := by
  unfold O10; exact Pipeline.withArrays_arr spec3 launch3.win.arr_inj c _ _ w
/-- What each call leaves in its output array. -/
def outs : Outs (F := F) := fun J r c => match J with
  | 4 => O4 m c (Proc.devRef .tc r) | 6 => O6 m c (Proc.devRef .tc r) | 8 => O8 m c (Proc.devRef .tc r) | _ => O10 m c (Proc.devRef .tc r)

theorem hV5 (c : Dev nD) : V5 m (outs m) c = V5 m (outs4 m) c := V5_congr m (outs m) (outs4 m) rfl c

end Cert.KernelIdeal.Gen

end
-- ==== Proof.KI.Outs2.lean ====
/-
  The valuations before the third and fourth call, read with the final table of the calls' outputs, are those the
  calls' proof data were stated at.
-/
import proofs.«179232_j88021059764774_1_alg».proof.Proof.KI.Outs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem outs_46 : outs m 4 main_v45 = outs6 m 4 main_v45 := by
  funext c; simp only [outs, outs6]
theorem outs_66 : outs m 6 main_v47 = outs6 m 6 main_v47 := by
  funext c; simp only [outs, outs6]
theorem outs_48 : outs m 4 main_v45 = outs8 m 4 main_v45 := by
  funext c; simp only [outs, outs8]
theorem outs_68 : outs m 6 main_v47 = outs8 m 6 main_v47 := by
  funext c; simp only [outs, outs8]
theorem outs_88 : outs m 8 main_v53 = outs8 m 8 main_v53 := by
  funext c; simp only [outs, outs8]

theorem hV7 (c : Dev nD) : V7 m (outs m) c = V7 m (outs6 m) c := V7_congr m (outs m) (outs6 m) (outs_46 m) (outs_66 m) c
theorem hV9 (c : Dev nD) : V9 m (outs m) c = V9 m (outs8 m) c := V9_congr m (outs m) (outs8 m) (outs_48 m) (outs_68 m) (outs_88 m) c

/-- Every call's proof data, each at its entry contents. -/
def pdats : (p : Fin 4) → (c : Dev nD) → Dat τ (Elt F) Unit ℕ (UR sig nD τ) ℕ (cfgs p) c
  | ⟨0, _⟩ => fun c => dat0 (VV3 m) c
  | ⟨1, _⟩ => fun c => dat1 (VV5 m) c
  | ⟨2, _⟩ => fun c => dat2 (VV7 m) c
  | ⟨3, _⟩ => fun c => dat3 (VV9 m) c

end Cert.KernelIdeal.Gen

end
-- ==== Proof.KI.Reg0.lean ====
/-
  Call 0 as a segment of the program: entered from every unscoped buffer at the contents before it, left at the
  contents after it. Its arrays are split out of the unscoped buffers and put back at the exit contents (the
  inputs as entered, the output's blocks written back); the scoped buffers no window stages make the invariant
  before the first point and come back after the last; nothing is owed; the call has no semaphore of its own.
-/
import proofs.«179232_j88021059764774_1_alg».proof.Proof.KI.Outs2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
theorem hF0_0 (c : Dev nD) : (pdats m 0 c).arrAt 0 cfg0.N = V4 m (outs m) c (Pipeline.arrRef spec0 0) := by
  show (dat0 (VV3 m) c).arrAt 0 cfg0.N = V4 m (outs m) c main_v38
  exact ((dat0 (VV3 m) c).arrAt_in 0 rfl _).trans ((V4_of m (outs m) c main_v38 (by decide)).symm)
set_option maxHeartbeats 2000000 in
theorem hF0_1 (c : Dev nD) : (pdats m 0 c).arrAt 1 cfg0.N = V4 m (outs m) c (Pipeline.arrRef spec0 1) := by
  show (dat0 (VV3 m) c).arrAt 1 cfg0.N = V4 m (outs m) c main_v39
  exact ((dat0 (VV3 m) c).arrAt_in 1 rfl _).trans ((V4_of m (outs m) c main_v39 (by decide)).symm)
set_option maxHeartbeats 2000000 in
theorem hF0_2 (c : Dev nD) : (pdats m 0 c).arrAt 2 cfg0.N = V4 m (outs m) c (Pipeline.arrRef spec0 2) := by
  show (dat0 (VV3 m) c).arrAt 2 cfg0.N = V4 m (outs m) c main_v44
  exact ((dat0 (VV3 m) c).arrAt_in 2 rfl _).trans ((V4_of m (outs m) c main_v44 (by decide)).symm)
set_option maxHeartbeats 2000000 in
theorem hF0_3 (c : Dev nD) : (pdats m 0 c).arrAt 3 cfg0.N = V4 m (outs m) c (Pipeline.arrRef spec0 3) := by
  show (dat0 (VV3 m) c).arrAt 3 cfg0.N = V4 m (outs m) c main_v45
  have h : V4 m (outs m) c main_v45 = outs m 4 main_v45 c := Function.update_self _ _ _
  rw [h]
  exact (O4_arr m c 3).symm

theorem hF0 (c : Dev nD) : ∀ w : Fin cfg0.W, (pdats m 0 c).arrAt w cfg0.N = V4 m (outs m) c (Pipeline.arrRef spec0 w)
  | ⟨0, _⟩ => hF0_0 m c
  | ⟨1, _⟩ => hF0_1 m c
  | ⟨2, _⟩ => hF0_2 m c
  | ⟨3, _⟩ => hF0_3 m c

theorem hrest0 (c : Dev nD) : ∀ b : Ref sig .tc, b ∉ Finset.univ.image (Pipeline.arrRef spec0) → V4 m (outs m) c b = V3 m c b :=
  fun b hb => V4_of m (outs m) c b (fun h => hb (by
    rw [List.mem_singleton] at h; subst h
    exact Finset.mem_image.mpr ⟨3, Finset.mem_univ _, rfl⟩))

set_option maxHeartbeats 2000000 in
set_option backward.isDefEq.respectTransparency.types false in
def reg0 : Pipeline.RegionSeg (pcfgs (F := F)) adm (pdats m) () defs₀ Variants.none LL lvv 0 where
  win := launch0.win.to₀
  block_pos := launch0.block_pos
  stage_whole := launch0.stage_whole
  K := PEmpty
  osem k := k.elim
  ho := Pipeline.OwnSemFacts.none _
  hbody c := (body_obligation0 (VV3 m) c).loose
  hwaits := Pipeline.hwaits_of_owed_zero _ _ _ _ LL lvv 0 fun _ _ => rfl
  pre c := iprop(StableHlo.held (c : Thread nD τ) (Pipeline.ucRefs τ sig) (V3 m c) ∗ Rr (F := F) c)
  post c := iprop(StableHlo.held (c : Thread nD τ) (Pipeline.ucRefs τ sig) (V4 m (outs m) c) ∗ Rr (F := F) c)
  X c := iprop(emp)
  Y c := iprop(emp)
  Z c := iprop(Pipeline.unscopedRest (Ix := Unit) (Name := ℕ) (U := UR sig nD τ) (Lvl := ℕ) spec0 c (fun b => V3 m c b) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V3 m c b) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = (dat0 (VV3 m) c).Φ 0 from rfl]
    iintro ⟨-, -, Hr⟩
    iapply (hin0 (VV3 m) c)
    iexact Hr
  hout c := by
    rw [Pipeline.ownSems0_none, show (pdats m 0 c).Φ (Fin.last _) = (dat0 (VV3 m) c).Φ (Fin.last cfg0.N) from rfl]
    iintro HΦ
    isplitr; · iempintro
    isplitr; · iempintro
    iapply (hout0 (VV3 m) c)
    iexact HΦ
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V3 m c b) (fun b => V4 m (outs m) c b) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Gen

end
-- ==== Proof.KI.Reg1.lean ====
/-
  Call 1 as a segment of the program: entered from every unscoped buffer at the contents before it, left at the
  contents after it. Its arrays are split out of the unscoped buffers and put back at the exit contents (the
  inputs as entered, the output's blocks written back); the scoped buffers no window stages make the invariant
  before the first point and come back after the last; nothing is owed; the call has no semaphore of its own.
-/
import proofs.«179232_j88021059764774_1_alg».proof.Proof.KI.Outs2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
theorem hF1_0 (c : Dev nD) : (pdats m 1 c).arrAt 0 cfg1.N = V6 m (outs m) c (Pipeline.arrRef spec1 0) := by
  show (dat1 (VV5 m) c).arrAt 0 cfg1.N = V6 m (outs m) c main_v40
  exact ((dat1 (VV5 m) c).arrAt_in 0 rfl _).trans ((congrFun (hV5 m c) _).symm.trans (V6_of m (outs m) c main_v40 (by decide)).symm)
set_option maxHeartbeats 2000000 in
theorem hF1_1 (c : Dev nD) : (pdats m 1 c).arrAt 1 cfg1.N = V6 m (outs m) c (Pipeline.arrRef spec1 1) := by
  show (dat1 (VV5 m) c).arrAt 1 cfg1.N = V6 m (outs m) c main_v45
  exact ((dat1 (VV5 m) c).arrAt_in 1 rfl _).trans ((congrFun (hV5 m c) _).symm.trans (V6_of m (outs m) c main_v45 (by decide)).symm)
set_option maxHeartbeats 2000000 in
theorem hF1_2 (c : Dev nD) : (pdats m 1 c).arrAt 2 cfg1.N = V6 m (outs m) c (Pipeline.arrRef spec1 2) := by
  show (dat1 (VV5 m) c).arrAt 2 cfg1.N = V6 m (outs m) c main_v46
  exact ((dat1 (VV5 m) c).arrAt_in 2 rfl _).trans ((congrFun (hV5 m c) _).symm.trans (V6_of m (outs m) c main_v46 (by decide)).symm)
set_option maxHeartbeats 2000000 in
theorem hF1_3 (c : Dev nD) : (pdats m 1 c).arrAt 3 cfg1.N = V6 m (outs m) c (Pipeline.arrRef spec1 3) := by
  show (dat1 (VV5 m) c).arrAt 3 cfg1.N = V6 m (outs m) c main_v47
  have h : V6 m (outs m) c main_v47 = outs m 6 main_v47 c := Function.update_self _ _ _
  rw [h]
  exact (O6_arr m c 3).symm

theorem hF1 (c : Dev nD) : ∀ w : Fin cfg1.W, (pdats m 1 c).arrAt w cfg1.N = V6 m (outs m) c (Pipeline.arrRef spec1 w)
  | ⟨0, _⟩ => hF1_0 m c
  | ⟨1, _⟩ => hF1_1 m c
  | ⟨2, _⟩ => hF1_2 m c
  | ⟨3, _⟩ => hF1_3 m c

theorem hrest1 (c : Dev nD) : ∀ b : Ref sig .tc, b ∉ Finset.univ.image (Pipeline.arrRef spec1) → V6 m (outs m) c b = V5 m (outs m) c b :=
  fun b hb => V6_of m (outs m) c b (fun h => hb (by
    rw [List.mem_singleton] at h; subst h
    exact Finset.mem_image.mpr ⟨3, Finset.mem_univ _, rfl⟩))

set_option maxHeartbeats 2000000 in
set_option backward.isDefEq.respectTransparency.types false in
def reg1 : Pipeline.RegionSeg (pcfgs (F := F)) adm (pdats m) () defs₀ Variants.none LL lvv 1 where
  win := launch1.win.to₀
  block_pos := launch1.block_pos
  stage_whole := launch1.stage_whole
  K := PEmpty
  osem k := k.elim
  ho := Pipeline.OwnSemFacts.none _
  hbody c := (body_obligation1 (VV5 m) c).loose
  hwaits := Pipeline.hwaits_of_owed_zero _ _ _ _ LL lvv 1 fun _ _ => rfl
  pre c := iprop(StableHlo.held (c : Thread nD τ) (Pipeline.ucRefs τ sig) (V5 m (outs m) c) ∗ Rr (F := F) c)
  post c := iprop(StableHlo.held (c : Thread nD τ) (Pipeline.ucRefs τ sig) (V6 m (outs m) c) ∗ Rr (F := F) c)
  X c := iprop(emp)
  Y c := iprop(emp)
  Z c := iprop(Pipeline.unscopedRest (Ix := Unit) (Name := ℕ) (U := UR sig nD τ) (Lvl := ℕ) spec1 c (fun b => V5 m (outs m) c b) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V5 m (outs m) c b) (fun w => (congrFun (hV5 m c) _).symm)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = (dat1 (VV5 m) c).Φ 0 from rfl]
    iintro ⟨-, -, Hr⟩
    iapply (hin1 (VV5 m) c)
    iexact Hr
  hout c := by
    rw [Pipeline.ownSems0_none, show (pdats m 1 c).Φ (Fin.last _) = (dat1 (VV5 m) c).Φ (Fin.last cfg1.N) from rfl]
    iintro HΦ
    isplitr; · iempintro
    isplitr; · iempintro
    iapply (hout1 (VV5 m) c)
    iexact HΦ
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V5 m (outs m) c b) (fun b => V6 m (outs m) c b) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Gen

end
-- ==== Proof.KI.Reg2.lean ====
/-
  Call 2 as a segment of the program: entered from every unscoped buffer at the contents before it, left at the
  contents after it. Its arrays are split out of the unscoped buffers and put back at the exit contents (the
  inputs as entered, the output's blocks written back); the scoped buffers no window stages make the invariant
  before the first point and come back after the last; nothing is owed; the call has no semaphore of its own.
-/
import proofs.«179232_j88021059764774_1_alg».proof.Proof.KI.Outs2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
theorem hF2_0 (c : Dev nD) : (pdats m 2 c).arrAt 0 cfg2.N = V8 m (outs m) c (Pipeline.arrRef spec2 0) := by
  show (dat2 (VV7 m) c).arrAt 0 cfg2.N = V8 m (outs m) c main_v38
  exact ((dat2 (VV7 m) c).arrAt_in 0 rfl _).trans ((congrFun (hV7 m c) _).symm.trans (V8_of m (outs m) c main_v38 (by decide)).symm)
set_option maxHeartbeats 2000000 in
theorem hF2_1 (c : Dev nD) : (pdats m 2 c).arrAt 1 cfg2.N = V8 m (outs m) c (Pipeline.arrRef spec2 1) := by
  show (dat2 (VV7 m) c).arrAt 1 cfg2.N = V8 m (outs m) c main_v39
  exact ((dat2 (VV7 m) c).arrAt_in 1 rfl _).trans ((congrFun (hV7 m c) _).symm.trans (V8_of m (outs m) c main_v39 (by decide)).symm)
set_option maxHeartbeats 2000000 in
theorem hF2_2 (c : Dev nD) : (pdats m 2 c).arrAt 2 cfg2.N = V8 m (outs m) c (Pipeline.arrRef spec2 2) := by
  show (dat2 (VV7 m) c).arrAt 2 cfg2.N = V8 m (outs m) c main_v52
  exact ((dat2 (VV7 m) c).arrAt_in 2 rfl _).trans ((congrFun (hV7 m c) _).symm.trans (V8_of m (outs m) c main_v52 (by decide)).symm)
set_option maxHeartbeats 2000000 in
theorem hF2_3 (c : Dev nD) : (pdats m 2 c).arrAt 3 cfg2.N = V8 m (outs m) c (Pipeline.arrRef spec2 3) := by
  show (dat2 (VV7 m) c).arrAt 3 cfg2.N = V8 m (outs m) c main_v53
  have h : V8 m (outs m) c main_v53 = outs m 8 main_v53 c := Function.update_self _ _ _
  rw [h]
  exact (O8_arr m c 3).symm

theorem hF2 (c : Dev nD) : ∀ w : Fin cfg2.W, (pdats m 2 c).arrAt w cfg2.N = V8 m (outs m) c (Pipeline.arrRef spec2 w)
  | ⟨0, _⟩ => hF2_0 m c
  | ⟨1, _⟩ => hF2_1 m c
  | ⟨2, _⟩ => hF2_2 m c
  | ⟨3, _⟩ => hF2_3 m c

theorem hrest2 (c : Dev nD) : ∀ b : Ref sig .tc, b ∉ Finset.univ.image (Pipeline.arrRef spec2) → V8 m (outs m) c b = V7 m (outs m) c b :=
  fun b hb => V8_of m (outs m) c b (fun h => hb (by
    rw [List.mem_singleton] at h; subst h
    exact Finset.mem_image.mpr ⟨3, Finset.mem_univ _, rfl⟩))

set_option maxHeartbeats 2000000 in
set_option backward.isDefEq.respectTransparency.types false in
def reg2 : Pipeline.RegionSeg (pcfgs (F := F)) adm (pdats m) () defs₀ Variants.none LL lvv 2 where
  win := launch2.win.to₀
  block_pos := launch2.block_pos
  stage_whole := launch2.stage_whole
  K := PEmpty
  osem k := k.elim
  ho := Pipeline.OwnSemFacts.none _
  hbody c := (body_obligation2 (VV7 m) c).loose
  hwaits := Pipeline.hwaits_of_owed_zero _ _ _ _ LL lvv 2 fun _ _ => rfl
  pre c := iprop(StableHlo.held (c : Thread nD τ) (Pipeline.ucRefs τ sig) (V7 m (outs m) c) ∗ Rr (F := F) c)
  post c := iprop(StableHlo.held (c : Thread nD τ) (Pipeline.ucRefs τ sig) (V8 m (outs m) c) ∗ Rr (F := F) c)
  X c := iprop(emp)
  Y c := iprop(emp)
  Z c := iprop(Pipeline.unscopedRest (Ix := Unit) (Name := ℕ) (U := UR sig nD τ) (Lvl := ℕ) spec2 c (fun b => V7 m (outs m) c b) ∗ ∃ r, prngReg c r)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V7 m (outs m) c b) (fun w => (congrFun (hV7 m c) _).symm)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = (dat2 (VV7 m) c).Φ 0 from rfl]
    iintro ⟨-, -, Hr⟩
    iapply (hin2 (VV7 m) c)
    iexact Hr
  hout c := by
    rw [Pipeline.ownSems0_none, show (pdats m 2 c).Φ (Fin.last _) = (dat2 (VV7 m) c).Φ (Fin.last cfg2.N) from rfl]
    iintro HΦ
    isplitr; · iempintro
    isplitr; · iempintro
    iapply (hout2 (VV7 m) c)
    iexact HΦ
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V7 m (outs m) c b) (fun b => V8 m (outs m) c b) ((pdats m 2 c).arrAt · cfg2.N) (hF2 m c) (hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Gen

end
-- ==== Proof.KI.Reg3.lean ====
/-
  Call 3 as a segment of the program: entered from every unscoped buffer at the contents before it, left at the
  contents after it. Its arrays are split out of the unscoped buffers and put back at the exit contents (the
  inputs as entered, the output's blocks written back); the scoped buffers no window stages make the invariant
  before the first point and come back after the last; nothing is owed; the call has no semaphore of its own.
-/
import proofs.«179232_j88021059764774_1_alg».proof.Proof.KI.Outs2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
theorem hF3_0 (c : Dev nD) : (pdats m 3 c).arrAt 0 cfg3.N = V10 m (outs m) c (Pipeline.arrRef spec3 0) := by
  show (dat3 (VV9 m) c).arrAt 0 cfg3.N = V10 m (outs m) c main_v40
  exact ((dat3 (VV9 m) c).arrAt_in 0 rfl _).trans ((congrFun (hV9 m c) _).symm.trans (V10_of m (outs m) c main_v40 (by decide)).symm)
set_option maxHeartbeats 2000000 in
theorem hF3_1 (c : Dev nD) : (pdats m 3 c).arrAt 1 cfg3.N = V10 m (outs m) c (Pipeline.arrRef spec3 1) := by
  show (dat3 (VV9 m) c).arrAt 1 cfg3.N = V10 m (outs m) c main_v53
  exact ((dat3 (VV9 m) c).arrAt_in 1 rfl _).trans ((congrFun (hV9 m c) _).symm.trans (V10_of m (outs m) c main_v53 (by decide)).symm)
set_option maxHeartbeats 2000000 in
theorem hF3_2 (c : Dev nD) : (pdats m 3 c).arrAt 2 cfg3.N = V10 m (outs m) c (Pipeline.arrRef spec3 2) := by
  show (dat3 (VV9 m) c).arrAt 2 cfg3.N = V10 m (outs m) c main_v54
  exact ((dat3 (VV9 m) c).arrAt_in 2 rfl _).trans ((congrFun (hV9 m c) _).symm.trans (V10_of m (outs m) c main_v54 (by decide)).symm)
set_option maxHeartbeats 2000000 in
theorem hF3_3 (c : Dev nD) : (pdats m 3 c).arrAt 3 cfg3.N = V10 m (outs m) c (Pipeline.arrRef spec3 3) := by
  show (dat3 (VV9 m) c).arrAt 3 cfg3.N = V10 m (outs m) c main_v55
  have h : V10 m (outs m) c main_v55 = outs m 10 main_v55 c := Function.update_self _ _ _
  rw [h]
  exact (O10_arr m c 3).symm

theorem hF3 (c : Dev nD) : ∀ w : Fin cfg3.W, (pdats m 3 c).arrAt w cfg3.N = V10 m (outs m) c (Pipeline.arrRef spec3 w)
  | ⟨0, _⟩ => hF3_0 m c
  | ⟨1, _⟩ => hF3_1 m c
  | ⟨2, _⟩ => hF3_2 m c
  | ⟨3, _⟩ => hF3_3 m c

theorem hrest3 (c : Dev nD) : ∀ b : Ref sig .tc, b ∉ Finset.univ.image (Pipeline.arrRef spec3) → V10 m (outs m) c b = V9 m (outs m) c b :=
  fun b hb => V10_of m (outs m) c b (fun h => hb (by
    rw [List.mem_singleton] at h; subst h
    exact Finset.mem_image.mpr ⟨3, Finset.mem_univ _, rfl⟩))

set_option maxHeartbeats 2000000 in
set_option backward.isDefEq.respectTransparency.types false in
def reg3 : Pipeline.RegionSeg (pcfgs (F := F)) adm (pdats m) () defs₀ Variants.none LL lvv 3 where
  win := launch3.win.to₀
  block_pos := launch3.block_pos
  stage_whole := launch3.stage_whole
  K := PEmpty
  osem k := k.elim
  ho := Pipeline.OwnSemFacts.none _
  hbody c := (body_obligation3 (VV9 m) c).loose
  hwaits := Pipeline.hwaits_of_owed_zero _ _ _ _ LL lvv 3 fun _ _ => rfl
  pre c := iprop(StableHlo.held (c : Thread nD τ) (Pipeline.ucRefs τ sig) (V9 m (outs m) c) ∗ Rr (F := F) c)
  post c := iprop(StableHlo.held (c : Thread nD τ) (Pipeline.ucRefs τ sig) (V10 m (outs m) c) ∗ Rr (F := F) c)
  X c := iprop(emp)
  Y c := iprop(emp)
  Z c := iprop(Pipeline.unscopedRest (Ix := Unit) (Name := ℕ) (U := UR sig nD τ) (Lvl := ℕ) spec3 c (fun b => V9 m (outs m) c b) ∗ ∃ r, prngReg c r)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V9 m (outs m) c b) (fun w => (congrFun (hV9 m c) _).symm)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 3 c).Φ 0 = (dat3 (VV9 m) c).Φ 0 from rfl]
    iintro ⟨-, -, Hr⟩
    iapply (hin3 (VV9 m) c)
    iexact Hr
  hout c := by
    rw [Pipeline.ownSems0_none, show (pdats m 3 c).Φ (Fin.last _) = (dat3 (VV9 m) c).Φ (Fin.last cfg3.N) from rfl]
    iintro HΦ
    isplitr; · iempintro
    isplitr; · iempintro
    iapply (hout3 (VV9 m) c)
    iexact HΦ
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V9 m (outs m) c b) (fun b => V10 m (outs m) c b) ((pdats m 3 c).arrAt · cfg3.N) (hF3 m c) (hrest3 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Gen

end
-- ==== Proof.KI.Frame.lean ====
/-
  The program's frame: from any memory, every weakly fair execution of the program terminates without a fault
  and ends with every argument array as launched. The four calls are entered and left through their segment
  records; the host operations between them are the generated host segments.
-/
import proofs.«179232_j88021059764774_1_alg».proof.Proof.KI.Reg0
import proofs.«179232_j88021059764774_1_alg».proof.Proof.KI.Reg1
import proofs.«179232_j88021059764774_1_alg».proof.Proof.KI.Reg2
import proofs.«179232_j88021059764774_1_alg».proof.Proof.KI.Reg3

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond (F := F) m emb₁ () Variants.none LL lvv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr (F := F) c)
    (hE0 := by
      have hcore : ∀ c : Dev nD, iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) ⊢ (Rr (F := F) c : sProp 𝕄) := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ fun c : Dev nD => Rr (F := F) c : sProp 𝕄) :=
        bigSep_mono fun c _ => hcore c
      iintro ⟨H, -⟩
      imodintro
      iapply hmono
      iexact H)
    (hE4 := fun c => by
      iintro ⟨-, HO⟩
      iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)

end Cert.KernelIdeal.Gen

end
-- ==== Proof.KI.RunCond.lean ====
/-
  The program's run with the result's final contents stated: the same launch as the generated conditional frame
  (same segments, same chaining), the final state read at the result's buffer as well as at the arguments'.
-/
import proofs.«179232_j88021059764774_1_alg».proof.Proof.Gen.KernelIdeal.Regions
import Idealize.ShloMosaic.Lib.Pipeline.Frame
import Idealize.ShloMosaic.Lib.Pipeline.Regions

-- decided memberships and the launch's enumerations over 136 references recurse past the default depth
set_option maxRecDepth 1056

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

-- `θ_run_regions_kit_dev`'s implicit arguments are found by unifying its conclusion with this one, which takes unfolding
-- plain definitions in a metavariable's type
set_option backward.isDefEq.respectTransparency.types false in
/-- The conditional run: as the conditional frame, with the result array's final contents stated as well — the last
    valuation read at the result's buffer. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c)) :
    θ_run defs (onTc (τ := τ) (main (F := F))) ⟨m, fun _ => 0, ρ⟩ (fun r => ∀ c : Dev nD,
      r.2.mem ((c.tc : Thread nD τ).loc main_v72) = V11 m outs c main_v72
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m outs c))
    (hch := fun c => ⟨.rfl, .rfl, .rfl, hpre0 c, hpost0 c, hpre1 c, hpost1 c, hpre2 c, hpost2 c, hpre3 c, hpost3 c, sep_mono .rfl (hE4 c)⟩)
    (hinit := ?_) (QY := fun c s => s.mem ((c.tc : Thread nD τ).loc main_v72) = V11 m outs c main_v72 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact ⟨h (Proc.devRef .tc main_v72) (Finset.mem_filter.mpr ⟨StableHlo.devRef_mem_tcRefs main_v72, by decide⟩),
        (h (Proc.devRef .tc main_arg0) (Finset.mem_filter.mpr ⟨StableHlo.devRef_mem_tcRefs main_arg0, by decide⟩)).trans (V11_main_arg0 m outs c),
        (h (Proc.devRef .tc main_arg1) (Finset.mem_filter.mpr ⟨StableHlo.devRef_mem_tcRefs main_arg1, by decide⟩)).trans (V11_main_arg1 m outs c),
        (h (Proc.devRef .tc main_arg2) (Finset.mem_filter.mpr ⟨StableHlo.devRef_mem_tcRefs main_arg2, by decide⟩)).trans (V11_main_arg2 m outs c),
        (h (Proc.devRef .tc main_arg3) (Finset.mem_filter.mpr ⟨StableHlo.devRef_mem_tcRefs main_arg3, by decide⟩)).trans (V11_main_arg3 m outs c),
        (h (Proc.devRef .tc main_arg4) (Finset.mem_filter.mpr ⟨StableHlo.devRef_mem_tcRefs main_arg4, by decide⟩)).trans (V11_main_arg4 m outs c),
        (h (Proc.devRef .tc main_arg5) (Finset.mem_filter.mpr ⟨StableHlo.devRef_mem_tcRefs main_arg5, by decide⟩)).trans (V11_main_arg5 m outs c),
        (h (Proc.devRef .tc main_arg6) (Finset.mem_filter.mpr ⟨StableHlo.devRef_mem_tcRefs main_arg6, by decide⟩)).trans (V11_main_arg6 m outs c),
        (h (Proc.devRef .tc main_arg7) (Finset.mem_filter.mpr ⟨StableHlo.devRef_mem_tcRefs main_arg7, by decide⟩)).trans (V11_main_arg7 m outs c),
        (h (Proc.devRef .tc main_arg8) (Finset.mem_filter.mpr ⟨StableHlo.devRef_mem_tcRefs main_arg8, by decide⟩)).trans (V11_main_arg8 m outs c)⟩
    · iexact HSI

end Cert.KernelIdeal.Gen

end
-- ==== Proof.KI.RunVal.lean ====
/-
  The idealized program's run with its result named: every weakly fair execution terminates without a fault, the
  result array ends at the last valuation's contents (the host operations after the last call applied to what
  that call left) and every argument array ends as launched.
-/
import proofs.«179232_j88021059764774_1_alg».proof.Proof.KI.Reg0
import proofs.«179232_j88021059764774_1_alg».proof.Proof.KI.Reg1
import proofs.«179232_j88021059764774_1_alg».proof.Proof.KI.Reg2
import proofs.«179232_j88021059764774_1_alg».proof.Proof.KI.Reg3
import proofs.«179232_j88021059764774_1_alg».proof.Proof.KI.RunCond

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem runH : θ_run defs (onTc (τ := τ) (main (F := F))) ⟨m, fun _ => 0, ρ⟩ (fun r => ∀ c : Dev nD,
      r.2.mem ((c.tc : Thread nD τ).loc main_v72) = V11 m (outs m) c main_v72
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_cond (F := F) m emb₁ () Variants.none LL lvv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr (F := F) c)
    (hE0 := by
      have hcore : ∀ c : Dev nD, iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) ⊢ (Rr (F := F) c : sProp 𝕄) := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ fun c : Dev nD => Rr (F := F) c : sProp 𝕄) :=
        bigSep_mono fun c _ => hcore c
      iintro ⟨H, -⟩
      imodintro
      iapply hmono
      iexact H)
    (hE4 := fun c => by
      iintro ⟨-, HO⟩
      iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)

end Cert.KernelIdeal.Gen

end
-- ==== Proof.Spec.lean ====
/-
  What the two kinds of call compute, as whole-array functions over the extended reals.

  The gather call: row `e` of its result is the source row of edge `e` scaled by the edge's weight,
  written as a sum over ALL 50176 (padded) node rows of an indicator times the weight times the row —
  `msgs[e, d] = Σ_k [src e = k] · w e · h[k, d]`.

  The scatter call: row `n` of its result is the rectified sum, over ALL 850944 (padded) edges whose
  destination is `n`, of the edge's row, plus the bias — `out[n, d] = max (Σ_e [n = dst e] · msgs[e, d] + b d) 0`.
-/
import Idealize.ShloMosaic.PureOps.Ideal
import Idealize.ShloMosaic.Lib.ValueIdx

noncomputable section

namespace Cert.Spec

open Idealize.ShloMosaic Idealize.ShloMosaic.ValueIdx

/-- The indicator of an integer equality, as an extended real. -/
def ind (a b : BitVec 32) : EReal := if a = b then 1 else 0

/-- `msgs[e, d] = Σ_k [src e = k] · w e · h[k, d]` over the 50176 padded node rows. -/
def gatherOut (s : (⟨2, ![850944, 1]⟩ : Shape).Idx → BitVec 32) (w : (⟨2, ![850944, 1]⟩ : Shape).Idx → EReal)
    (h : (⟨2, ![50176, 128]⟩ : Shape).Idx → EReal) : (⟨2, ![850944, 128]⟩ : Shape).Idx → EReal :=
  fun j => ∑ k : Fin 50176, ind (s (ix2 (j 0) (0 : Fin 1))) (BitVec.ofNat 32 k.val) * w (ix2 (j 0) (0 : Fin 1)) * h (ix2 k (j 1))

/-- `out[n, d] = max (Σ_e [n = dst e] · msgs[e, d] + b d) 0` over the 850944 padded edges. -/
def scatterOut (dr : (⟨2, ![1, 850944]⟩ : Shape).Idx → BitVec 32) (msgs : (⟨2, ![850944, 128]⟩ : Shape).Idx → EReal)
    (b : (⟨2, ![1, 128]⟩ : Shape).Idx → EReal) : (⟨2, ![50176, 128]⟩ : Shape).Idx → EReal :=
  fun j => max ((∑ e : Fin 850944, ind (BitVec.ofNat 32 (j 0).val) (dr (ix2 (0 : Fin 1) e)) * msgs (ix2 e (j 1))) + b (ix2 (0 : Fin 1) (j 1))) 0

/-! ## The padded operands the calls are given, and one layer as a single sum -/

/-- An edge column `[850944, 1]`: the 850000 real edges, then 944 padding entries `z`. -/
def padCol {α : Type} (z : α) (f : Fin 850000 → α) : (⟨2, ![850944, 1]⟩ : Shape).Idx → α :=
  fun j => if h : (j 0).val < 850000 then f ⟨(j 0).val, h⟩ else z

/-- An edge row `[1, 850944]`: the 850000 real edges, then 944 padding entries `z`. -/
def padRow {α : Type} (z : α) (f : Fin 850000 → α) : (⟨2, ![1, 850944]⟩ : Shape).Idx → α :=
  fun j => if h : (j 1).val < 850000 then f ⟨(j 1).val, h⟩ else z

/-- A node matrix `[50176, 128]`: the 50000 real rows, then 176 rows of zeros. -/
def padRows (h : (⟨2, ![50000, 128]⟩ : Shape).Idx → EReal) : (⟨2, ![50176, 128]⟩ : Shape).Idx → EReal :=
  fun j => if hn : (j 0).val < 50000 then h (ix2 (⟨(j 0).val, hn⟩ : Fin 50000) (j 1)) else 0

/-- One graph-convolution layer as ONE sum over the 850000 real edges:
    `out[n, d] = max (Σ_e [n = dst e] · (h[src e, d] · w e) + b d) 0`. -/
def convSpec (src dst : Fin 850000 → BitVec 32) (w : Fin 850000 → EReal)
    (h : (⟨2, ![50000, 128]⟩ : Shape).Idx → EReal) (b : Fin 128 → EReal) : (⟨2, ![50000, 128]⟩ : Shape).Idx → EReal :=
  fun j => max ((∑ e : Fin 850000, ind (BitVec.ofNat 32 (j 0).val) (dst e)
      * (h (ix2 (⟨(src e).toNat % 50000, Nat.mod_lt _ (by norm_num)⟩ : Fin 50000) (j 1)) * w e)) + b (j 1)) 0

end Cert.Spec

end
-- ==== Proof.RefSide.lean ====
/-
  The reference side, named. The reference builds the edge list (the 800000 given edges followed by one self-loop per
  node), a per-edge weight (the product of the two gathered entries of the inverse square root of the degrees), and then
  applies twice: a matrix product, a gather of rows at the edges' sources, a product with the weights, an accumulating
  scatter into the edges' destinations, a bias and a rectification. It ends with a mean over the graphs of the batch
  and a last matrix product with a bias.

  Here each of these pieces is a function of the arrays it depends on, over the extended reals:
  'srcR', 'dstR' (the edge list), 'nrmR' (the weights), 'h0R', 'h1R' (the two matrix products) and 'tailR' (everything
  after the second layer, as ONE function of the second layer's result). They are the reference's own operations,
  composed; nothing is evaluated.
-/
import proofs.«179232_j88021059764774_1_alg».proof.Proof.RefReadP
import proofs.«179232_j88021059764774_1_alg».proof.Proof.Spec

noncomputable section

namespace Cert.RefSide

open Cert.ReferenceIdeal Cert.ReferenceIdeal.Gen Cert.ReferenceIdeal.ReadP Idealize.ShloMosaic Idealize.ShloMosaic.ValueIdx

/-- The source of edge 'e': row 0 of the edge array for the 800000 given edges, then the nodes 0 … 49999 in order. -/
def srcR (ei : IVec S2x800000 32) (e : Fin 850000) : BitVec 32 := val_main_v3 (F := Ideal) ei (ix1 e)

/-- The destination of edge 'e': row 1 of the edge array for the 800000 given edges, then the nodes 0 … 49999. -/
def dstR (ei : IVec S2x800000 32) (e : Fin 850000) : BitVec 32 := val_main_v6 (F := Ideal) ei (ix1 e)

/-- The weight of edge 'e': the inverse square root of the degree at its source times that at its destination. -/
def nrmR (ei : IVec S2x800000 32) (e : Fin 850000) : EReal := val_main_v32 (F := Ideal) ei (ix1 e)

/-- The first layer's matrix product 'x · W1'. -/
def h0R (x : FVec Ideal S50000x64 .f32) (W1 : FVec Ideal S64x128 .f32) : FVec Ideal S50000x128 .f32 :=
  Host.dotGeneral (F := Ideal) dot_S50000x64_S64x128_S50000x128_1_0_0_1_n_n none x W1

/-- The second layer's matrix product 'a · W2'. -/
def h1R (a : FVec Ideal S50000x128 .f32) (W2 : FVec Ideal S128x128 .f32) : FVec Ideal S50000x128 .f32 :=
  Host.dotGeneral (F := Ideal) dot_S50000x128_S128x128_S50000x128_1_0_0_1_n_n none a W2

/-- Everything after the second layer, as one function of the second layer's result 'a': the sums of the rows of 'a'
    over the nodes of each graph, divided by the number of nodes of the graph (at least 1), times 'Wl', plus 'bl'. -/
def tailR (batch : IVec S50000 32) (a : FVec Ideal S50000x128 .f32) (Wl : FVec Ideal S128x10 .f32)
    (bl : FVec Ideal S10 .f32) : FVec Ideal S64x10 .f32 :=
  addf
    (Host.dotGeneral (F := Ideal) dot_S64x128_S128x10_S64x10_1_0_0_1_n_n none
      (Host.divf (F := Ideal)
        (Host.scatterAdd (F := Ideal) scatter_S64x128_S50000x1_S50000x128_1_0_0_1
          (broadcastInDim S64x128 ![] bcast_S_S64x128 (constant (F := Ideal) S_ .f32 0x00000000#32))
          (broadcastInDim S50000x1 ![0] bcast_S50000_S50000x1_0 batch)
          a)
        (broadcastInDim S64x128 ![0, 1] bcast_S64x1_S64x128_0_1
          (broadcastInDim S64x1 ![0] bcast_S64_S64x1_0
            (maximumf
              (Host.scatterAdd (F := Ideal) scatter_S64_S50000x1_S50000_n_0_0_1
                (broadcastInDim S64 ![] bcast_S_S64 (constant (F := Ideal) S_ .f32 0x00000000#32))
                (broadcastInDim S50000x1 ![0] bcast_S50000_S50000x1_0 batch)
                (broadcastInDim S50000 ![] bcast_S_S50000 (constant (F := Ideal) S_ .f32 0x3F800000#32)))
              (broadcastInDim S64 ![] bcast_S_S64 (constant (F := Ideal) S_ .f32 0x3F800000#32))))))
      Wl)
    (broadcastInDim S64x10 ![0, 1] bcast_S1x10_S64x10_0_1 (broadcastInDim S1x10 ![1] bcast_S10_S1x10_1 bl))

/-- The reference's result is 'tailR' of its second layer's result. -/
theorem result_eq_tail (x : FVec Ideal S50000x64 .f32) (ei : IVec S2x800000 32) (batch : IVec S50000 32)
    (W1 : FVec Ideal S64x128 .f32) (b1 : FVec Ideal S128 .f32) (W2 : FVec Ideal S128x128 .f32)
    (b2 : FVec Ideal S128 .f32) (Wl : FVec Ideal S128x10 .f32) (bl : FVec Ideal S10 .f32) :
    val_main_v98 (F := Ideal) x ei batch W1 b1 W2 b2 Wl bl
      = tailR batch (val_main_v82 (F := Ideal) x ei W1 b1 W2 b2) Wl bl := by
  unfold val_main_v98 val_main_v97 val_main_v96 val_main_v95 val_main_v94 val_main_v93 val_main_v92 val_main_v91
    val_main_v90 val_main_v89 val_main_v88 val_main_v87 val_main_v86 val_main_v85 val_main_v84 val_main_v83
    val_main_cst_17 val_main_cst_18 val_main_cst_19 val_main_cst_20 tailR
  generalize val_main_v82 (F := Ideal) x ei W1 b1 W2 b2 = a
  rfl

/-- The weights the second layer recomputes are the first layer's. -/
theorem nrm_again (ei : IVec S2x800000 32) : val_main_v65 (F := Ideal) ei = val_main_v32 (F := Ideal) ei := by
  unfold val_main_v65 val_main_v57 val_main_v64 val_main_v56 val_main_v63 val_main_v55 val_main_v62
    val_main_v52 val_main_v54 val_main_v59 val_main_v61 val_main_v51 val_main_v53 val_main_v58 val_main_v60
    val_main_c_10 val_main_c_11 val_main_c_12 val_main_c_13
    val_main_v32 val_main_v24 val_main_v31 val_main_v23 val_main_v30 val_main_v22 val_main_v29
    val_main_v19 val_main_v21 val_main_v26 val_main_v28 val_main_v18 val_main_v20 val_main_v25 val_main_v27
    val_main_c val_main_c_4 val_main_c_5 val_main_c_6
  rfl

end Cert.RefSide

end
-- ==== Proof.LibScatterColumn.lean ====
/-
  A COLUMN SCATTER-ADD IS THE VECTOR SCATTER-ADD VIEWED AS A COLUMN (a general lemma, over the extended reals).

  An accumulating scatter with one scalar start index per update can be written in two ways.

  * The VECTOR form: the operand is a vector of extent N, the updates a vector of extent E, the scatter indices an
    [E, 1] array whose second axis is the index vector's. There is no window axis; the operand's only axis is an
    inserted window axis and is the axis the start index addresses. Update e lands at operand position idx[e, 0].

  * The COLUMN form: the operand is an [N, 1] column, the updates an [E, 1] column, the scatter indices the same
    [E, 1] array. The updates' second axis is a window axis of extent 1 that goes to the operand's second axis; the
    operand's first axis is inserted and is the one the start index addresses. Update (e, 0) lands at operand position
    (idx[e, 0], 0 + 0).

  In both forms the start index is read signed and is not clamped, and an update whose position falls outside the
  operand is dropped. At the ideal instance the result at a position is the operand there plus the sum of the updates
  that land there. So when the operands agree (x n = x' (n, 0)) and the updates agree (u e = u' (e, 0)), the two results
  agree: result n of the vector form is result (n, 0) of the column form.

  The proof: an update index j lands on position i exactly when start + window coordinate equals i's coordinate on
  every axis ('resultIdx?_eq_some_iff': the in-range test is then implied by i's own bounds). For the two sets of
  dimension numbers the starts and window coordinates are computed axis by axis ('vec_start' … 'col_window1'); on the
  column's second axis the condition reads 0 + (j 1) = 0, which holds because that axis has extent 1. Hence both
  "lands on n" conditions are the same equation idx[j 0, 0] = n ('vec_hit', 'col_hit'), and the bijection
  e ↦ (e, 0) between the two update index sets ('colEquiv') carries one sum to the other. All extents stay symbolic.
-/
import Idealize.ShloMosaic.Lib.ValueIdx
import Idealize.ShloMosaic.PureOps.Ideal

open scoped BigOperators
open Idealize.ShloMosaic Idealize.ShloMosaic.ValueIdx

namespace Cert.ScatterColumn

/-- An update index j lands on operand index i exactly when, on every operand axis, the (signed, unclamped) start
    plus the window coordinate is i's coordinate. The in-range condition of the landing position follows from i's
    own bounds, so it does not appear on the right. Holds for any scatter dimension numbers. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hi a
      have h1 := h a
      rw [← hi]
      show _ = (((d.start j idx a + (d.window j a : ℤ)).toNat : ℕ) : ℤ)
      omega
    · intro hi
      funext a
      apply Fin.ext
      have h1 := hi a
      have h2 := h a
      show (d.start j idx a + (d.window j a : ℤ)).toNat = (i a).val
      omega
  · rename_i h
    constructor
    · intro hi; cases hi
    · intro hi
      exfalso
      apply h
      intro a
      have h1 := hi a
      have h2 := (i a).isLt
      omega

/-- The VECTOR form's dimension numbers: operand [N], scatter indices [E, 1] (index vector on axis 1), updates [E];
    no update window axis, operand axis 0 inserted and addressed by the one start-index component. -/
abbrev vecDims (N E : ℕ) (w1 : ScatterDims.WF (⟨1, ![N]⟩ : Shape) ⟨2, ![E, 1]⟩ ⟨1, ![E]⟩ [] [0] [0] 1) :
    ScatterDims (⟨1, ![N]⟩ : Shape) ⟨2, ![E, 1]⟩ ⟨1, ![E]⟩ := ⟨[], [0], [0], 1, w1⟩

/-- The COLUMN form's dimension numbers: operand [N, 1], scatter indices [E, 1] (index vector on axis 1), updates
    [E, 1]; update axis 1 is a window axis going to operand axis 1, operand axis 0 inserted and addressed by the one
    start-index component. -/
abbrev colDims (N E : ℕ) (w2 : ScatterDims.WF (⟨2, ![N, 1]⟩ : Shape) ⟨2, ![E, 1]⟩ ⟨2, ![E, 1]⟩ [1] [0] [0] 1) :
    ScatterDims (⟨2, ![N, 1]⟩ : Shape) ⟨2, ![E, 1]⟩ ⟨2, ![E, 1]⟩ := ⟨[1], [0], [0], 1, w2⟩

/-- Vector form: the start on the operand's axis for update e is the scatter index idx[e, 0], read signed. -/
theorem vec_start {N E : ℕ} (w1 : ScatterDims.WF (⟨1, ![N]⟩ : Shape) ⟨2, ![E, 1]⟩ ⟨1, ![E]⟩ [] [0] [0] 1)
    (j : (⟨1, ![E]⟩ : Shape).Idx) (idx : IVec ⟨2, ![E, 1]⟩ 32) :
    (vecDims N E w1).start j idx 0 = (idx (ix2 (j 0) (0 : Fin 1))).toInt := by
  have hmem : (0 : Fin 1) ∈ (vecDims N E w1).scatterDimsToOperandDims := List.mem_singleton.mpr rfl
  unfold ScatterDims.start
  rw [dif_pos hmem]
  have hsi : (vecDims N E w1).siIdx j ⟨List.idxOf (0 : Fin 1) (vecDims N E w1).scatterDimsToOperandDims,
      List.idxOf_lt_length_iff.2 hmem⟩ = ix2 (j 0) (0 : Fin 1) := by
    funext b; refine Fin.ext ?_
    match b with
    | ⟨0, _⟩ => rfl
    | ⟨1, _⟩ => rfl
  rw [hsi]
  rfl

/-- Vector form: the operand's axis is an inserted window axis, so the window coordinate on it is 0. -/
theorem vec_window {N E : ℕ} (w1 : ScatterDims.WF (⟨1, ![N]⟩ : Shape) ⟨2, ![E, 1]⟩ ⟨1, ![E]⟩ [] [0] [0] 1)
    (j : (⟨1, ![E]⟩ : Shape).Idx) : (vecDims N E w1).window j 0 = 0 := by
  rfl

/-- Column form: the start on operand axis 0 for update (e, k) is the scatter index idx[e, 0], read signed. -/
theorem col_start0 {N E : ℕ}
    (w2 : ScatterDims.WF (⟨2, ![N, 1]⟩ : Shape) ⟨2, ![E, 1]⟩ ⟨2, ![E, 1]⟩ [1] [0] [0] 1)
    (j : (⟨2, ![E, 1]⟩ : Shape).Idx) (idx : IVec ⟨2, ![E, 1]⟩ 32) :
    (colDims N E w2).start j idx 0 = (idx (ix2 (j 0) (0 : Fin 1))).toInt := by
  have hmem : (0 : Fin 2) ∈ (colDims N E w2).scatterDimsToOperandDims := List.mem_singleton.mpr rfl
  unfold ScatterDims.start
  rw [dif_pos hmem]
  have hsi : (colDims N E w2).siIdx j ⟨List.idxOf (0 : Fin 2) (colDims N E w2).scatterDimsToOperandDims,
      List.idxOf_lt_length_iff.2 hmem⟩ = ix2 (j 0) (0 : Fin 1) := by
    funext b; refine Fin.ext ?_
    match b with
    | ⟨0, _⟩ => rfl
    | ⟨1, _⟩ => rfl
  rw [hsi]
  rfl

/-- Column form: operand axis 1 is not addressed by the start index, so the start on it is 0. -/
theorem col_start1 {N E : ℕ}
    (w2 : ScatterDims.WF (⟨2, ![N, 1]⟩ : Shape) ⟨2, ![E, 1]⟩ ⟨2, ![E, 1]⟩ [1] [0] [0] 1)
    (j : (⟨2, ![E, 1]⟩ : Shape).Idx) (idx : IVec ⟨2, ![E, 1]⟩ 32) :
    (colDims N E w2).start j idx 1 = 0 := by
  rfl

/-- Column form: operand axis 0 is an inserted window axis, so the window coordinate on it is 0. -/
theorem col_window0 {N E : ℕ}
    (w2 : ScatterDims.WF (⟨2, ![N, 1]⟩ : Shape) ⟨2, ![E, 1]⟩ ⟨2, ![E, 1]⟩ [1] [0] [0] 1)
    (j : (⟨2, ![E, 1]⟩ : Shape).Idx) : (colDims N E w2).window j 0 = 0 := by
  rfl

/-- Column form: the window coordinate on operand axis 1 is the update index's coordinate on its window axis 1. -/
theorem col_window1 {N E : ℕ}
    (w2 : ScatterDims.WF (⟨2, ![N, 1]⟩ : Shape) ⟨2, ![E, 1]⟩ ⟨2, ![E, 1]⟩ [1] [0] [0] 1)
    (j : (⟨2, ![E, 1]⟩ : Shape).Idx) : (colDims N E w2).window j 1 = (j 1).val := by
  rfl

/-- Vector form: update e lands on position n exactly when idx[e, 0], read signed, is n. -/
theorem vec_hit {N E : ℕ} (w1 : ScatterDims.WF (⟨1, ![N]⟩ : Shape) ⟨2, ![E, 1]⟩ ⟨1, ![E]⟩ [] [0] [0] 1)
    (j : (⟨1, ![E]⟩ : Shape).Idx) (idx : IVec ⟨2, ![E, 1]⟩ 32) (n : Fin N) :
    (vecDims N E w1).resultIdx? j idx = some (ix1 n) ↔ (idx (ix2 (j 0) (0 : Fin 1))).toInt = (n.val : ℤ) := by
  rw [resultIdx?_eq_some_iff]
  constructor
  · intro h
    have h0 := h 0
    rw [vec_start, vec_window] at h0
    simp only [Nat.cast_zero, add_zero] at h0
    exact h0
  · intro h a
    obtain rfl : a = 0 := Subsingleton.elim _ _
    rw [vec_start, vec_window]
    simp only [Nat.cast_zero, add_zero]
    exact h

/-- Column form: update (e, k) lands on position (n, 0) exactly when idx[e, 0], read signed, is n: on the second
    axis the condition is 0 + k = 0, true because that axis has extent 1. -/
theorem col_hit {N E : ℕ}
    (w2 : ScatterDims.WF (⟨2, ![N, 1]⟩ : Shape) ⟨2, ![E, 1]⟩ ⟨2, ![E, 1]⟩ [1] [0] [0] 1)
    (j : (⟨2, ![E, 1]⟩ : Shape).Idx) (idx : IVec ⟨2, ![E, 1]⟩ 32) (n : Fin N) :
    (colDims N E w2).resultIdx? j idx = some (ix2 n (0 : Fin 1)) ↔
      (idx (ix2 (j 0) (0 : Fin 1))).toInt = (n.val : ℤ) := by
  rw [resultIdx?_eq_some_iff]
  constructor
  · intro h
    have h0 := h 0
    rw [col_start0, col_window0] at h0
    simp only [Nat.cast_zero, add_zero] at h0
    exact h0
  · intro h a
    match a with
    | ⟨0, _⟩ =>
      show (colDims N E w2).start j idx 0 + (((colDims N E w2).window j 0 : ℕ) : ℤ) = _
      rw [col_start0, col_window0]
      simp only [Nat.cast_zero, add_zero]
      exact h
    | ⟨1, _⟩ =>
      show (colDims N E w2).start j idx 1 + (((colDims N E w2).window j 1 : ℕ) : ℤ) = _
      rw [col_start1, col_window1]
      have := idx2_lt1 j
      show (0 : ℤ) + (((j 1).val : ℕ) : ℤ) = ((0 : ℕ) : ℤ)
      omega

/-- The update index sets of the two forms correspond by e ↦ (e, 0): the column's second axis has extent 1. -/
def colEquiv (E : ℕ) : (⟨1, ![E]⟩ : Shape).Idx ≃ (⟨2, ![E, 1]⟩ : Shape).Idx where
  toFun j := ix2 (j 0) (0 : Fin 1)
  invFun j := ix1 (j 0)
  left_inv j := (eq_ix1 j).symm
  right_inv j := by
    have h1 : (j 1) = (0 : Fin 1) := Fin.ext (by have := idx2_lt1 j; show (j 1).val = 0; omega)
    have h2 : j = ix2 (j 0) (0 : Fin 1) := by
      funext a
      match a with
      | ⟨0, _⟩ => rfl
      | ⟨1, _⟩ => exact h1
    exact h2.symm

/-- A COLUMN SCATTER-ADD IS THE VECTOR SCATTER-ADD VIEWED AS A COLUMN. With the same [E, 1] scatter indices, operands
    that agree (x n = x' (n, 0)) and updates that agree (u e = u' (e, 0)), the accumulating scatter of the vector
    updates into the vector operand, read at n, equals the accumulating scatter of the column updates (window axis of
    extent 1) into the column operand, read at (n, 0). Extents N and E are arbitrary; the well-formedness proofs of
    the two sets of dimension numbers are arbitrary. -/
theorem scatterAdd_column {N E : ℕ}
    (w1 : ScatterDims.WF (⟨1, ![N]⟩ : Shape) ⟨2, ![E, 1]⟩ ⟨1, ![E]⟩ [] [0] [0] 1)
    (w2 : ScatterDims.WF (⟨2, ![N, 1]⟩ : Shape) ⟨2, ![E, 1]⟩ ⟨2, ![E, 1]⟩ [1] [0] [0] 1)
    (x : (⟨1, ![N]⟩ : Shape).Idx → EReal) (x' : (⟨2, ![N, 1]⟩ : Shape).Idx → EReal)
    (u : (⟨1, ![E]⟩ : Shape).Idx → EReal) (u' : (⟨2, ![E, 1]⟩ : Shape).Idx → EReal)
    (idx : IVec ⟨2, ![E, 1]⟩ 32)
    (hx : ∀ n : Fin N, x (ix1 n) = x' (ix2 n (0 : Fin 1)))
    (hu : ∀ e : Fin E, u (ix1 e) = u' (ix2 e (0 : Fin 1))) (n : Fin N) :
    Ideal.hostScatterAdd (⟨[], [0], [0], 1, w1⟩ : ScatterDims (⟨1, ![N]⟩ : Shape) ⟨2, ![E, 1]⟩ ⟨1, ![E]⟩) x idx u (ix1 n)
      = Ideal.hostScatterAdd (⟨[1], [0], [0], 1, w2⟩ : ScatterDims (⟨2, ![N, 1]⟩ : Shape) ⟨2, ![E, 1]⟩ ⟨2, ![E, 1]⟩)
          x' idx u' (ix2 n (0 : Fin 1)) := by
  show x (ix1 n) + ∑ j ∈ Finset.univ.filter (fun j => (vecDims N E w1).resultIdx? j idx = some (ix1 n)), u j
    = x' (ix2 n (0 : Fin 1)) +
      ∑ j ∈ Finset.univ.filter (fun j => (colDims N E w2).resultIdx? j idx = some (ix2 n (0 : Fin 1))), u' j
  rw [hx n]
  congr 1
  refine Finset.sum_equiv (colEquiv E) ?_ ?_
  · intro j
    rw [Finset.mem_filter, Finset.mem_filter, vec_hit, col_hit]
    simp only [Finset.mem_univ, true_and]
    rfl
  · intro j _
    rw [eq_ix1 j]
    exact hu (j 0)

/-- The column lemma in the host operation's own spelling, over arbitrary extents: the vector scatter-add read at `n`
    is the column scatter-add read at `(n, 0)`. -/
theorem host_scatter_column {N E : ℕ}
    (w1 : ScatterDims.WF (⟨1, ![N]⟩ : Shape) ⟨2, ![E, 1]⟩ ⟨1, ![E]⟩ [] [0] [0] 1)
    (w2 : ScatterDims.WF (⟨2, ![N, 1]⟩ : Shape) ⟨2, ![E, 1]⟩ ⟨2, ![E, 1]⟩ [1] [0] [0] 1)
    (x : FVec Ideal ⟨1, ![N]⟩ .f32) (x' : FVec Ideal ⟨2, ![N, 1]⟩ .f32)
    (u : FVec Ideal ⟨1, ![E]⟩ .f32) (u' : FVec Ideal ⟨2, ![E, 1]⟩ .f32)
    (idx idx' : IVec ⟨2, ![E, 1]⟩ 32) (hidx : idx = idx')
    (hx : ∀ n : Fin N, x (ix1 n) = x' (ix2 n (0 : Fin 1))) (hu : ∀ e : Fin E, u (ix1 e) = u' (ix2 e (0 : Fin 1))) (n : Fin N) :
    Host.scatterAdd (F := Ideal) (⟨[], [0], [0], 1, w1⟩ : ScatterDims (⟨1, ![N]⟩ : Shape) ⟨2, ![E, 1]⟩ ⟨1, ![E]⟩) x idx u (ix1 n)
      = Host.scatterAdd (F := Ideal) (⟨[1], [0], [0], 1, w2⟩ : ScatterDims (⟨2, ![N, 1]⟩ : Shape) ⟨2, ![E, 1]⟩ ⟨2, ![E, 1]⟩) x' idx' u' (ix2 n (0 : Fin 1)) := by
  subst hidx
  exact scatterAdd_column w1 w2 x x' u u' idx hx hu n

end Cert.ScatterColumn
-- ==== Proof.LibGraph.lean ====
/-
  GRAPH AGGREGATION OVER THE EXTENDED REALS: general lemmas (arbitrary extents N, E).

  * 'sum_filter_concat': a sum over the E + N positions of a concatenated key list, restricted to the positions whose
    key is n, when the last N keys are 0, 1, …, N − 1 in order: it is the restricted sum over the first E positions
    plus the single term at position E + n. This is "adding one self-loop per node" in sum form.
  * 'vecScatterAdd_apply' / 'colScatterAdd_apply': an accumulating scatter with one scalar start index per update,
    into a vector [N] or a column [N, 1], read at n: the operand there plus the sum of the updates e whose (signed,
    unclamped) index equals n, as a sum over Fin E.
  * 'vecGather_apply' / 'colGather_apply': a gather of single elements of a vector [N] or a column [N, 1] at [E, 1]
    start indices, read at e: the operand at the start index read signed and clamped into [0, N − 1].
  * 'toInt_ofNat_lt' / 'clampIdx_ofNat': a position below N (N at most 2³¹), written as a 32-bit word, reads signed as
    itself, and clamped as itself.
-/
import Idealize.ShloMosaic.Lib.ValueIdx
import Idealize.ShloMosaic.Lib.Pipeline.Value
import Idealize.ShloMosaic.PureOps.Ideal
import proofs.«179232_j88021059764774_1_alg».proof.Proof.LibScatterColumn

open scoped BigOperators
open Idealize.ShloMosaic Idealize.ShloMosaic.ValueIdx

namespace Cert.Graph

/-! ## Sums over a concatenation whose second part is keyed by position -/

/-- Over E + N positions with integer keys, where position E + k (k < N) has key k: the sum of F over the positions
    with key n is the sum over the first E positions with key n, plus F at position E + n. -/
theorem sum_filter_concat {M : Type*} [AddCommMonoid M] {E N : ℕ} (key : Fin (E + N) → ℤ) (F : Fin (E + N) → M)
    (hkey : ∀ k : Fin N, key (Fin.natAdd E k) = (k.val : ℤ)) (n : Fin N) :
    ∑ j ∈ Finset.univ.filter (fun j => key j = (n.val : ℤ)), F j
      = ∑ e ∈ (Finset.univ : Finset (Fin E)).filter (fun e => key (Fin.castAdd N e) = (n.val : ℤ)), F (Fin.castAdd N e)
        + F (Fin.natAdd E n) := by
  rw [Finset.sum_filter, Fin.sum_univ_add, Finset.sum_filter]
  congr 1
  have h : ∀ k : Fin N, (if key (Fin.natAdd E k) = (n.val : ℤ) then F (Fin.natAdd E k) else 0)
      = if k = n then F (Fin.natAdd E n) else 0 := by
    intro k
    rw [hkey k]
    by_cases hk : k = n
    · subst hk; rw [if_pos rfl, if_pos rfl]
    · rw [if_neg hk, if_neg]
      intro h'
      exact hk (Fin.ext (by exact_mod_cast h'))
  rw [Finset.sum_congr rfl (fun k _ => h k), Finset.sum_ite_eq' Finset.univ n, if_pos (Finset.mem_univ n)]

/-! ## Index sets of a vector and of a column, as Fin E -/

/-- A vector's indices are its positions. -/
def vecEquiv (E : ℕ) : Fin E ≃ (⟨1, ![E]⟩ : Shape).Idx where
  toFun e := ix1 e
  invFun j := j 0
  left_inv _ := rfl
  right_inv j := (eq_ix1 j).symm

/-- A column's indices are its rows. -/
def colEquiv (E : ℕ) : Fin E ≃ (⟨2, ![E, 1]⟩ : Shape).Idx := (vecEquiv E).trans (ScatterColumn.colEquiv E)

theorem colEquiv_apply (E : ℕ) (e : Fin E) : colEquiv E e = ix2 e (0 : Fin 1) := rfl

/-! ## The accumulating scatter read at a position -/

/-- The vector form: the result at n is the operand at n plus the sum of the updates whose index is n. -/
theorem vecScatterAdd_apply {N E : ℕ}
    (w1 : ScatterDims.WF (⟨1, ![N]⟩ : Shape) ⟨2, ![E, 1]⟩ ⟨1, ![E]⟩ [] [0] [0] 1)
    (x : (⟨1, ![N]⟩ : Shape).Idx → EReal) (idx : IVec ⟨2, ![E, 1]⟩ 32) (u : (⟨1, ![E]⟩ : Shape).Idx → EReal)
    (n : Fin N) :
    Ideal.hostScatterAdd (⟨[], [0], [0], 1, w1⟩ : ScatterDims (⟨1, ![N]⟩ : Shape) ⟨2, ![E, 1]⟩ ⟨1, ![E]⟩) x idx u (ix1 n)
      = x (ix1 n) + ∑ e ∈ (Finset.univ : Finset (Fin E)).filter
          (fun e => (idx (ix2 e (0 : Fin 1))).toInt = (n.val : ℤ)), u (ix1 e) := by
  show x (ix1 n) + ∑ j ∈ Finset.univ.filter
      (fun j => (ScatterColumn.vecDims N E w1).resultIdx? j idx = some (ix1 n)), u j = _
  congr 1
  symm
  refine Finset.sum_equiv (vecEquiv E) ?_ ?_
  · intro e
    rw [Finset.mem_filter, Finset.mem_filter, ScatterColumn.vec_hit]
    simp only [Finset.mem_univ, true_and]
    rfl
  · intro e _
    rfl

/-- The column form: the result at (n, 0) is the operand there plus the sum of the updates whose index is n. -/
theorem colScatterAdd_apply {N E : ℕ}
    (w2 : ScatterDims.WF (⟨2, ![N, 1]⟩ : Shape) ⟨2, ![E, 1]⟩ ⟨2, ![E, 1]⟩ [1] [0] [0] 1)
    (x : (⟨2, ![N, 1]⟩ : Shape).Idx → EReal) (idx : IVec ⟨2, ![E, 1]⟩ 32) (u : (⟨2, ![E, 1]⟩ : Shape).Idx → EReal)
    (n : Fin N) :
    Ideal.hostScatterAdd (⟨[1], [0], [0], 1, w2⟩ : ScatterDims (⟨2, ![N, 1]⟩ : Shape) ⟨2, ![E, 1]⟩ ⟨2, ![E, 1]⟩)
        x idx u (ix2 n (0 : Fin 1))
      = x (ix2 n (0 : Fin 1)) + ∑ e ∈ (Finset.univ : Finset (Fin E)).filter
          (fun e => (idx (ix2 e (0 : Fin 1))).toInt = (n.val : ℤ)), u (ix2 e (0 : Fin 1)) := by
  show x (ix2 n (0 : Fin 1)) + ∑ j ∈ Finset.univ.filter
      (fun j => (ScatterColumn.colDims N E w2).resultIdx? j idx = some (ix2 n (0 : Fin 1))), u j = _
  congr 1
  symm
  refine Finset.sum_equiv (colEquiv E) ?_ ?_
  · intro e
    rw [Finset.mem_filter, Finset.mem_filter, ScatterColumn.col_hit]
    simp only [Finset.mem_univ, true_and]
    rfl
  · intro e _
    rfl

/-! ## The gather of single elements read at a position -/

/-- A start index read signed and clamped into [0, N − 1]. -/
def clampIdx (N : ℕ) (hN : 0 < N) (v : BitVec 32) : Fin N := ⟨min v.toInt.toNat (N - 1), by omega⟩

/-- Dimension numbers of x[idx] for a vector x : [N] and start indices [E, 1]. -/
abbrev vecGatherDims (N E : ℕ)
    (wf : GatherDims.WF (⟨1, ![N]⟩ : Shape) ⟨2, ![E, 1]⟩ ⟨1, ![E]⟩ [] [0] [] [0] [] 1 ![1]) :
    GatherDims (⟨1, ![N]⟩ : Shape) ⟨2, ![E, 1]⟩ ⟨1, ![E]⟩ := ⟨[], [0], [], [], [0], 1, ![1], wf⟩

/-- Dimension numbers of x[idx] for a column x : [N, 1] and start indices [E, 1]. -/
abbrev colGatherDims (N E : ℕ)
    (wf : GatherDims.WF (⟨2, ![N, 1]⟩ : Shape) ⟨2, ![E, 1]⟩ ⟨2, ![E, 1]⟩ [1] [0] [] [0] [] 1 ![1, 1]) :
    GatherDims (⟨2, ![N, 1]⟩ : Shape) ⟨2, ![E, 1]⟩ ⟨2, ![E, 1]⟩ := ⟨[1], [0], [], [], [0], 1, ![1, 1], wf⟩

/-- The vector gather at e: the operand at the clamped start index idx[e, 0]. -/
theorem vecGather_apply {α : Type} {N E : ℕ} (hN : 0 < N)
    (wf : GatherDims.WF (⟨1, ![N]⟩ : Shape) ⟨2, ![E, 1]⟩ ⟨1, ![E]⟩ [] [0] [] [0] [] 1 ![1])
    (x : (⟨1, ![N]⟩ : Shape).Idx → α) (idx : IVec ⟨2, ![E, 1]⟩ 32) (e : Fin E) :
    Host.gather (vecGatherDims N E wf) x idx (ix1 e) = x (ix1 (clampIdx N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The column gather at (e, 0): the operand at (clamped start index idx[e, 0], 0). -/
theorem colGather_apply {α : Type} {N E : ℕ} (hN : 0 < N)
    (wf : GatherDims.WF (⟨2, ![N, 1]⟩ : Shape) ⟨2, ![E, 1]⟩ ⟨2, ![E, 1]⟩ [1] [0] [] [0] [] 1 ![1, 1])
    (x : (⟨2, ![N, 1]⟩ : Shape).Idx → α) (idx : IVec ⟨2, ![E, 1]⟩ 32) (e : Fin E) :
    Host.gather (colGatherDims N E wf) x idx (ix2 e (0 : Fin 1))
      = x (ix2 (clampIdx N hN (idx (ix2 e (0 : Fin 1)))) (0 : Fin 1)) := by
  unfold Host.gather
  congr 1
  funext a
  match a with
  | ⟨1, h1⟩ =>
    refine Fin.ext ?_
    have hl : ((colGatherDims N E wf).operandIdx (ix2 e (0 : Fin 1)) idx ⟨1, h1⟩).val < 1 :=
      ((colGatherDims N E wf).operandIdx (ix2 e (0 : Fin 1)) idx ⟨1, h1⟩).isLt
    show ((colGatherDims N E wf).operandIdx (ix2 e (0 : Fin 1)) idx ⟨1, h1⟩).val = 0
    omega
  | ⟨0, _⟩ =>
    refine Fin.ext ?_
    show (colGatherDims N E wf).start (ix2 e (0 : Fin 1)) idx 0 + (colGatherDims N E wf).batchCoord (ix2 e (0 : Fin 1)) 0
      + (colGatherDims N E wf).offCoord (ix2 e (0 : Fin 1)) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (colGatherDims N E wf).startIndexMap from List.mem_singleton.mpr rfl)]
    have hsi : (colGatherDims N E wf).siIdx (ix2 e (0 : Fin 1)) ⟨List.idxOf (0 : Fin 2) (colGatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- A position below N, as a 32-bit word, read signed is itself (N at most 2³¹). -/
theorem toInt_ofNat_lt {N : ℕ} (hN31 : N ≤ 2 ^ 31) (k : Fin N) : (BitVec.ofNat 32 k.val).toInt = (k.val : ℤ) := by
  have hk := k.isLt
  have h31 : (2 : ℕ) ^ 31 = 2147483648 := by norm_num
  have h32 : (2 : ℕ) ^ 32 = 4294967296 := by norm_num
  rw [BitVec.toInt_eq_toNat_cond, BitVec.toNat_ofNat]
  have hm : k.val % 2 ^ 32 = k.val := Nat.mod_eq_of_lt (by omega)
  rw [hm, if_pos (by omega)]

/-- A position below N, as a 32-bit word, read signed and clamped is itself (N at most 2³¹). -/
theorem clampIdx_ofNat {N : ℕ} (hN : 0 < N) (hN31 : N ≤ 2 ^ 31) (k : Fin N) :
    clampIdx N hN (BitVec.ofNat 32 k.val) = k := by
  have hk := k.isLt
  refine Fin.ext ?_
  show min (BitVec.ofNat 32 k.val).toInt.toNat (N - 1) = k.val
  rw [toInt_ofNat_lt hN31 k]
  simp only [Int.toNat_natCast]
  omega

end Cert.Graph
-- ==== Proof.LibRowGraph.lean ====
/-
  ROW ARRAYS IN A GRAPH LAYER, OVER THE EXTENDED REALS: general lemmas (arbitrary extents N, E, K, Q).

  A graph layer sums, at each node n, the messages x[src e] of the edges e whose destination is n. With node features
  stored as the rows of an [N, K] array this is a gather of rows followed by an accumulating scatter of rows.

  * 'rowScatterAdd_apply': an accumulating scatter of the rows of an [E, K] update array into an [N, K] operand, one
    scalar start index idx[e, 0] per update row. The updates' second axis is a window axis of extent K that goes to the
    operand's second axis; the operand's first axis is inserted and is the one the start index addresses. Update (e, k)
    lands on (idx[e, 0] read signed and unclamped, 0 + k). So it lands on (n, q) exactly when idx[e, 0] = n and k = q
    ('row_hit'), and e ↦ (e, q) is a bijection from the edges with index n onto the updates landing on (n, q): the
    result at (n, q) is the operand there plus the sum over those edges of u (e, q).
  * 'rowGather_apply': a gather of whole rows of an [N, K] operand at [E, 1] start indices. On the first operand axis
    (collapsed, slice size 1) the coordinate is the start index read signed and clamped into [0, N − 1]; on the second
    (slice size K, the result's offset axis) the start is 0 and the coordinate is the result's own second coordinate.
    So the result at (e, q) is the operand at (clamped idx[e, 0], q).
  * 'agg_linear': summing over edges the products of gathered rows with a weight matrix equals the product of the
    summed rows with the weight matrix (for real entries, viewed in the extended reals): finite sums commute and
    multiplication distributes over them.
-/
import Idealize.ShloMosaic.Lib.ValueIdx
import Idealize.ShloMosaic.Lib.Pipeline.Value
import Idealize.ShloMosaic.PureOps.Ideal
import Mathlib.Algebra.BigOperators.Fin
import Mathlib.Data.EReal.Basic
import Mathlib.Tactic.NormNum
import proofs.«179232_j88021059764774_1_alg».proof.Proof.LibScatterColumn
import proofs.«179232_j88021059764774_1_alg».proof.Proof.LibGraph

open scoped BigOperators
open Idealize.ShloMosaic Idealize.ShloMosaic.ValueIdx

namespace Cert.RowGraph

/-! ## The accumulating scatter of rows read at a position -/

/-- The ROW form's dimension numbers: operand [N, K], scatter indices [E, 1] (index vector on axis 1), updates [E, K];
    update axis 1 is a window axis going to operand axis 1, operand axis 0 inserted and addressed by the one
    start-index component. -/
abbrev rowDims (N E K : ℕ) (wf : ScatterDims.WF (⟨2, ![N, K]⟩ : Shape) ⟨2, ![E, 1]⟩ ⟨2, ![E, K]⟩ [1] [0] [0] 1) :
    ScatterDims (⟨2, ![N, K]⟩ : Shape) ⟨2, ![E, 1]⟩ ⟨2, ![E, K]⟩ := ⟨[1], [0], [0], 1, wf⟩

/-- The start on operand axis 0 for update (e, k) is the scatter index idx[e, 0], read signed. -/
theorem row_start0 {N E K : ℕ}
    (wf : ScatterDims.WF (⟨2, ![N, K]⟩ : Shape) ⟨2, ![E, 1]⟩ ⟨2, ![E, K]⟩ [1] [0] [0] 1)
    (j : (⟨2, ![E, K]⟩ : Shape).Idx) (idx : IVec ⟨2, ![E, 1]⟩ 32) :
    (rowDims N E K wf).start j idx 0 = (idx (ix2 (j 0) (0 : Fin 1))).toInt := by
  have hmem : (0 : Fin 2) ∈ (rowDims N E K wf).scatterDimsToOperandDims := List.mem_singleton.mpr rfl
  unfold ScatterDims.start
  rw [dif_pos hmem]
  have hsi : (rowDims N E K wf).siIdx j ⟨List.idxOf (0 : Fin 2) (rowDims N E K wf).scatterDimsToOperandDims,
      List.idxOf_lt_length_iff.2 hmem⟩ = ix2 (j 0) (0 : Fin 1) := by
    funext b; refine Fin.ext ?_
    match b with
    | ⟨0, _⟩ => rfl
    | ⟨1, _⟩ => rfl
  rw [hsi]
  rfl

/-- Operand axis 1 is not addressed by the start index, so the start on it is 0. -/
theorem row_start1 {N E K : ℕ}
    (wf : ScatterDims.WF (⟨2, ![N, K]⟩ : Shape) ⟨2, ![E, 1]⟩ ⟨2, ![E, K]⟩ [1] [0] [0] 1)
    (j : (⟨2, ![E, K]⟩ : Shape).Idx) (idx : IVec ⟨2, ![E, 1]⟩ 32) :
    (rowDims N E K wf).start j idx 1 = 0 := by
  rfl

/-- Operand axis 0 is an inserted window axis, so the window coordinate on it is 0. -/
theorem row_window0 {N E K : ℕ}
    (wf : ScatterDims.WF (⟨2, ![N, K]⟩ : Shape) ⟨2, ![E, 1]⟩ ⟨2, ![E, K]⟩ [1] [0] [0] 1)
    (j : (⟨2, ![E, K]⟩ : Shape).Idx) : (rowDims N E K wf).window j 0 = 0 := by
  rfl

/-- The window coordinate on operand axis 1 is the update index's coordinate on its window axis 1. -/
theorem row_window1 {N E K : ℕ}
    (wf : ScatterDims.WF (⟨2, ![N, K]⟩ : Shape) ⟨2, ![E, 1]⟩ ⟨2, ![E, K]⟩ [1] [0] [0] 1)
    (j : (⟨2, ![E, K]⟩ : Shape).Idx) : (rowDims N E K wf).window j 1 = (j 1).val := by
  rfl

/-- Update (e, k) lands on position (n, q) exactly when idx[e, 0], read signed, is n, and k = q. -/
theorem row_hit {N E K : ℕ}
    (wf : ScatterDims.WF (⟨2, ![N, K]⟩ : Shape) ⟨2, ![E, 1]⟩ ⟨2, ![E, K]⟩ [1] [0] [0] 1)
    (j : (⟨2, ![E, K]⟩ : Shape).Idx) (idx : IVec ⟨2, ![E, 1]⟩ 32) (n : Fin N) (q : Fin K) :
    (rowDims N E K wf).resultIdx? j idx = some (ix2 n q) ↔
      (idx (ix2 (j 0) (0 : Fin 1))).toInt = (n.val : ℤ) ∧ (j 1).val = q.val := by
  rw [ScatterColumn.resultIdx?_eq_some_iff]
  constructor
  · intro h
    have h0 := h 0
    have h1 := h 1
    rw [row_start0, row_window0] at h0
    rw [row_start1, row_window1] at h1
    simp only [Nat.cast_zero, add_zero] at h0
    refine ⟨h0, ?_⟩
    have h1' : (0 : ℤ) + (((j 1).val : ℕ) : ℤ) = ((q.val : ℕ) : ℤ) := h1
    omega
  · intro h a
    match a with
    | ⟨0, _⟩ =>
      show (rowDims N E K wf).start j idx 0 + (((rowDims N E K wf).window j 0 : ℕ) : ℤ) = _
      rw [row_start0, row_window0]
      simp only [Nat.cast_zero, add_zero]
      exact h.1
    | ⟨1, _⟩ =>
      show (rowDims N E K wf).start j idx 1 + (((rowDims N E K wf).window j 1 : ℕ) : ℤ) = _
      rw [row_start1, row_window1]
      have h2 := h.2
      show (0 : ℤ) + (((j 1).val : ℕ) : ℤ) = ((q.val : ℕ) : ℤ)
      omega

/-- The row form: the result at (n, q) is the operand there plus the sum, over the updates e whose index is n, of
    the update's entry (e, q). -/
theorem rowScatterAdd_apply {N E K : ℕ}
    (wf : ScatterDims.WF (⟨2, ![N, K]⟩ : Shape) ⟨2, ![E, 1]⟩ ⟨2, ![E, K]⟩ [1] [0] [0] 1)
    (x : (⟨2, ![N, K]⟩ : Shape).Idx → EReal) (idx : IVec ⟨2, ![E, 1]⟩ 32) (u : (⟨2, ![E, K]⟩ : Shape).Idx → EReal)
    (n : Fin N) (q : Fin K) :
    Ideal.hostScatterAdd (⟨[1], [0], [0], 1, wf⟩ : ScatterDims (⟨2, ![N, K]⟩ : Shape) ⟨2, ![E, 1]⟩ ⟨2, ![E, K]⟩)
        x idx u (ix2 n q)
      = x (ix2 n q) + ∑ e ∈ (Finset.univ : Finset (Fin E)).filter
          (fun e => (idx (ix2 e (0 : Fin 1))).toInt = (n.val : ℤ)), u (ix2 e q) := by
  show x (ix2 n q) + ∑ j ∈ Finset.univ.filter
      (fun j => (rowDims N E K wf).resultIdx? j idx = some (ix2 n q)), u j = _
  congr 1
  symm
  refine Finset.sum_bij (fun e _ => ix2 e q) ?_ ?_ ?_ ?_
  · intro e he
    rw [Finset.mem_filter] at he
    rw [Finset.mem_filter, row_hit]
    exact ⟨Finset.mem_univ _, he.2, rfl⟩
  · intro a _ b _ hab
    exact congrFun hab 0
  · intro j hj
    rw [Finset.mem_filter, row_hit] at hj
    refine ⟨j 0, ?_, ?_⟩
    · exact Finset.mem_filter.mpr ⟨Finset.mem_univ _, hj.2.1⟩
    · have h1 : q = j 1 := Fin.ext hj.2.2.symm
      funext a
      match a with
      | ⟨0, _⟩ => rfl
      | ⟨1, _⟩ => exact h1
  · intro e _
    rfl

/-- The row scatter-add in the host operation's own spelling, for any dimension record equal to the row form's. -/
theorem host_rowScatterAdd_apply {N E K : ℕ}
    (wf : ScatterDims.WF (⟨2, ![N, K]⟩ : Shape) ⟨2, ![E, 1]⟩ ⟨2, ![E, K]⟩ [1] [0] [0] 1)
    (d : ScatterDims (⟨2, ![N, K]⟩ : Shape) ⟨2, ![E, 1]⟩ ⟨2, ![E, K]⟩) (hd : d = ⟨[1], [0], [0], 1, wf⟩)
    (x : FVec Ideal ⟨2, ![N, K]⟩ .f32) (idx : IVec ⟨2, ![E, 1]⟩ 32) (u : FVec Ideal ⟨2, ![E, K]⟩ .f32)
    (n : Fin N) (q : Fin K) :
    Host.scatterAdd (F := Ideal) d x idx u (ix2 n q)
      = x (ix2 n q) + ∑ e ∈ (Finset.univ : Finset (Fin E)).filter
          (fun e => (idx (ix2 e (0 : Fin 1))).toInt = (n.val : ℤ)), u (ix2 e q) := by
  subst hd
  exact rowScatterAdd_apply wf x idx u n q

/-! ## The gather of rows read at a position -/

/-- Dimension numbers of x[idx] for a row array x : [N, K] and start indices [E, 1]: operand axis 0 is collapsed and
    addressed by the one start-index component, operand axis 1 is taken whole (slice size K) and is the result's
    offset axis 1. -/
abbrev rowGatherDims (N E K : ℕ)
    (wf : GatherDims.WF (⟨2, ![N, K]⟩ : Shape) ⟨2, ![E, 1]⟩ ⟨2, ![E, K]⟩ [1] [0] [] [0] [] 1 ![1, K]) :
    GatherDims (⟨2, ![N, K]⟩ : Shape) ⟨2, ![E, 1]⟩ ⟨2, ![E, K]⟩ := ⟨[1], [0], [], [], [0], 1, ![1, K], wf⟩

/-- The row gather at (e, q): the operand at (clamped start index idx[e, 0], q). -/
theorem rowGather_apply {α : Type} {N E K : ℕ} (hN : 0 < N)
    (wf : GatherDims.WF (⟨2, ![N, K]⟩ : Shape) ⟨2, ![E, 1]⟩ ⟨2, ![E, K]⟩ [1] [0] [] [0] [] 1 ![1, K])
    (x : (⟨2, ![N, K]⟩ : Shape).Idx → α) (idx : IVec ⟨2, ![E, 1]⟩ 32) (e : Fin E) (q : Fin K) :
    Host.gather (⟨[1], [0], [], [], [0], 1, ![1, K], wf⟩ : GatherDims (⟨2, ![N, K]⟩ : Shape) ⟨2, ![E, 1]⟩ ⟨2, ![E, K]⟩)
        x idx (ix2 e q)
      = x (ix2 (Cert.Graph.clampIdx N hN (idx (ix2 e (0 : Fin 1)))) q) := by
  unfold Host.gather
  congr 1
  funext a
  match a with
  | ⟨1, h1⟩ =>
    refine Fin.ext ?_
    show (rowGatherDims N E K wf).start (ix2 e q) idx 1 + (rowGatherDims N E K wf).batchCoord (ix2 e q) 1
      + (rowGatherDims N E K wf).offCoord (ix2 e q) 1 = q.val
    rw [GatherDims.batchCoord_eq_zero _ _ _ List.not_mem_nil]
    have hs : (rowGatherDims N E K wf).start (ix2 e q) idx 1 = 0 := rfl
    have ho : (rowGatherDims N E K wf).offCoord (ix2 e q) 1 = q.val := rfl
    rw [hs, ho]
    omega
  | ⟨0, _⟩ =>
    refine Fin.ext ?_
    show (rowGatherDims N E K wf).start (ix2 e q) idx 0 + (rowGatherDims N E K wf).batchCoord (ix2 e q) 0
      + (rowGatherDims N E K wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E K wf).startIndexMap from List.mem_singleton.mpr rfl)]
    have hsi : (rowGatherDims N E K wf).siIdx (ix2 e q) ⟨List.idxOf (0 : Fin 2) (rowGatherDims N E K wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The row gather for any dimension record equal to the row form's. -/
theorem host_rowGather_apply {α : Type} {N E K : ℕ} (hN : 0 < N)
    (wf : GatherDims.WF (⟨2, ![N, K]⟩ : Shape) ⟨2, ![E, 1]⟩ ⟨2, ![E, K]⟩ [1] [0] [] [0] [] 1 ![1, K])
    (d : GatherDims (⟨2, ![N, K]⟩ : Shape) ⟨2, ![E, 1]⟩ ⟨2, ![E, K]⟩)
    (hd : d = ⟨[1], [0], [], [], [0], 1, ![1, K], wf⟩)
    (x : (⟨2, ![N, K]⟩ : Shape).Idx → α) (idx : IVec ⟨2, ![E, 1]⟩ 32) (e : Fin E) (q : Fin K) :
    Host.gather d x idx (ix2 e q) = x (ix2 (Cert.Graph.clampIdx N hN (idx (ix2 e (0 : Fin 1)))) q) := by
  subst hd
  exact rowGather_apply hN wf x idx e q

/-! ## Linearity of the aggregation -/

/-- The embedding of the reals into the extended reals carries a finite sum to the finite sum. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Summing over edges the row-times-matrix products equals the summed rows times the matrix (real entries). -/
theorem agg_linear' {N E K Q : ℕ} (h : Fin N → Fin K → ℝ) (w : Fin K → Fin Q → ℝ) (s : Finset (Fin E))
    (c : Fin E → Fin N) (q : Fin Q) :
    ∑ e ∈ s, ∑ k : Fin K, ((h (c e) k : ℝ) : EReal) * ((w k q : ℝ) : EReal)
      = ∑ k : Fin K, (∑ e ∈ s, ((h (c e) k : ℝ) : EReal)) * ((w k q : ℝ) : EReal) := by
  have hL : ∀ e : Fin E, ∑ k : Fin K, ((h (c e) k : ℝ) : EReal) * ((w k q : ℝ) : EReal)
      = ((∑ k : Fin K, h (c e) k * w k q : ℝ) : EReal) := by
    intro e
    rw [coe_sum]
    exact Finset.sum_congr rfl (fun k _ => (EReal.coe_mul _ _).symm)
  have hR : ∀ k : Fin K, (∑ e ∈ s, ((h (c e) k : ℝ) : EReal)) * ((w k q : ℝ) : EReal)
      = (((∑ e ∈ s, h (c e) k) * w k q : ℝ) : EReal) := by
    intro k
    rw [EReal.coe_mul, coe_sum]
  rw [Finset.sum_congr rfl (fun e _ => hL e), Finset.sum_congr rfl (fun k _ => hR k), ← coe_sum, ← coe_sum]
  congr 1
  rw [Finset.sum_comm]
  exact Finset.sum_congr rfl (fun k _ => (Finset.sum_mul _ _ _).symm)

/-- The same with each sum started from an explicit zero, as an accumulating evaluation writes it. -/
theorem agg_linear {N E K Q : ℕ} (h : Fin N → Fin K → ℝ) (w : Fin K → Fin Q → ℝ) (s : Finset (Fin E))
    (c : Fin E → Fin N) (q : Fin Q) :
    (0 : EReal) + ∑ e ∈ s, (0 + ∑ k : Fin K, ((h (c e) k : ℝ) : EReal) * ((w k q : ℝ) : EReal))
      = 0 + ∑ k : Fin K, (0 + ∑ e ∈ s, ((h (c e) k : ℝ) : EReal)) * ((w k q : ℝ) : EReal) := by
  simp only [zero_add]
  exact agg_linear' h w s c q

end Cert.RowGraph
-- ==== Proof.RefConv.lean ====
/-
  One graph-convolution layer written with a gather of rows, a product with per-edge weights, an accumulating
  scatter of rows, a bias and a rectification, read at an index: it is the single sum over the edges of
  'Cert.Spec.convSpec'. Stated for any dimension records of the row forms, at the extents 50000 × 128 (nodes) and
  850000 (edges), under the one hypothesis that every source index, read unsigned, is below 50000 (so it is not
  negative, the wrap of negative indices leaves it alone and the gather's clamp leaves it alone).
-/
import Idealize.ShloMosaic.Lib.ValueIdx
import Idealize.ShloMosaic.PureOps.Ideal
import Idealize.ShloMosaic.PureOps.Ideal.Laws
import Mathlib.Tactic.NormNum
import proofs.«179232_j88021059764774_1_alg».proof.Proof.LibGraph
import proofs.«179232_j88021059764774_1_alg».proof.Proof.LibRowGraph
import proofs.«179232_j88021059764774_1_alg».proof.Proof.Spec

open scoped BigOperators
open Idealize.ShloMosaic Idealize.ShloMosaic.ValueIdx

namespace Cert.RefConv

/-! ## 32-bit words that are small natural numbers -/

/-- A word equals the word of a natural number below 2³¹ exactly when its signed reading is that number. -/
theorem ofNat_eq_iff_toInt {n : ℕ} (hn : n < 2 ^ 31) (v : BitVec 32) :
    BitVec.ofNat 32 n = v ↔ v.toInt = (n : ℤ) := by
  have h31 : (2 : ℕ) ^ 31 = 2147483648 := by norm_num
  have h32 : (2 : ℕ) ^ 32 = 4294967296 := by norm_num
  have hv := v.isLt
  constructor
  · intro h; subst h
    rw [BitVec.toInt_eq_toNat_cond, BitVec.toNat_ofNat, Nat.mod_eq_of_lt (by omega), if_pos (by omega)]
  · intro h
    apply BitVec.eq_of_toNat_eq
    rw [BitVec.toNat_ofNat, Nat.mod_eq_of_lt (by omega)]
    rw [BitVec.toInt_eq_toNat_cond] at h
    split_ifs at h <;> omega

/-- A word below 50000 reads signed as it reads unsigned. -/
theorem toInt_of_lt (v : BitVec 32) (hv : v.toNat < 50000) : v.toInt = (v.toNat : ℤ) := by
  rw [BitVec.toInt_eq_toNat_cond, if_pos (by omega)]

/-- The wrap of negative indices, 'select (v < 0) (v + 50000) v', leaves a word below 50000 alone. -/
theorem wrap_id (v : BitVec 32) (hv : v.toNat < 50000) :
    Scalar.select (IntOp.cmpi .slt v 0#32) (IntOp.addi v 50000#32) v = v := by
  have hs : v.slt 0#32 = false := by
    rw [Bool.eq_false_iff]
    intro h
    rw [BitVec.slt_iff_toInt_lt, toInt_of_lt v hv] at h
    simp at h
    omega
  show Scalar.select (BitVec.ofBool (v.slt 0#32)) _ _ = v
  rw [hs]
  exact select_zero _ _

/-- The clamp into [0, 49999] leaves a word below 50000 alone. -/
theorem clampIdx_of_lt (h0 : 0 < 50000) (v : BitVec 32) (hv : v.toNat < 50000) :
    Cert.Graph.clampIdx 50000 h0 v = (⟨v.toNat % 50000, Nat.mod_lt _ (by norm_num)⟩ : Fin 50000) := by
  refine Fin.ext ?_
  show min v.toInt.toNat (50000 - 1) = v.toNat % 50000
  rw [toInt_of_lt v hv, Nat.mod_eq_of_lt hv, Int.toNat_natCast]
  omega

/-- The indicator times a value is the value where the two words agree and zero elsewhere. -/
theorem ind_mul (a b : BitVec 32) (X : EReal) : Cert.Spec.ind a b * X = if a = b then X else 0 := by
  unfold Cert.Spec.ind
  by_cases h : a = b
  · rw [if_pos h, if_pos h, one_mul]
  · rw [if_neg h, if_neg h, zero_mul]

/-! ## The layer -/

/-- Gather the rows 'h[s e]', scale row 'e' by 'w e', add row 'e' into row 'd e' of zeros, add the bias, rectify:
    at every index this is 'Cert.Spec.convSpec s d w h b'. The operands are given by what they hold: the index columns
    'sI', 'dI' hold 's', 'd'; the weight matrix 'W' holds 'w e' along row 'e'; 'Z' and 'C' are zero; 'B' holds 'b'
    along every row. -/
theorem conv_law
    (wfS : ScatterDims.WF (⟨2, ![50000, 128]⟩ : Shape) ⟨2, ![850000, 1]⟩ ⟨2, ![850000, 128]⟩ [1] [0] [0] 1)
    (dS : ScatterDims (⟨2, ![50000, 128]⟩ : Shape) ⟨2, ![850000, 1]⟩ ⟨2, ![850000, 128]⟩)
    (hdS : dS = ⟨[1], [0], [0], 1, wfS⟩)
    (wfG : GatherDims.WF (⟨2, ![50000, 128]⟩ : Shape) ⟨2, ![850000, 1]⟩ ⟨2, ![850000, 128]⟩ [1] [0] [] [0] [] 1 ![1, 128])
    (dG : GatherDims (⟨2, ![50000, 128]⟩ : Shape) ⟨2, ![850000, 1]⟩ ⟨2, ![850000, 128]⟩)
    (hdG : dG = ⟨[1], [0], [], [], [0], 1, ![1, 128], wfG⟩)
    (h : FVec Ideal ⟨2, ![50000, 128]⟩ .f32) (sI dI : IVec ⟨2, ![850000, 1]⟩ 32)
    (W : FVec Ideal ⟨2, ![850000, 128]⟩ .f32) (Z B C : FVec Ideal ⟨2, ![50000, 128]⟩ .f32)
    (s d : Fin 850000 → BitVec 32) (w : Fin 850000 → EReal) (b : Fin 128 → EReal)
    (hs : ∀ e : Fin 850000, sI (ix2 e (0 : Fin 1)) = s e) (hd : ∀ e : Fin 850000, dI (ix2 e (0 : Fin 1)) = d e)
    (hW : ∀ (e : Fin 850000) (q : Fin 128), W (ix2 e q) = w e) (hZ : ∀ i, Z i = 0)
    (hB : ∀ (n : Fin 50000) (q : Fin 128), B (ix2 n q) = b q) (hC : ∀ i, C i = 0)
    (hsrc : ∀ e, (s e).toNat < 50000) (j : (⟨2, ![50000, 128]⟩ : Shape).Idx) :
    maximumf (addf (Host.scatterAdd (F := Ideal) dS Z dI (mulf (Host.gather dG h sI) W)) B) C j
      = Cert.Spec.convSpec s d w h b j := by
  obtain ⟨n, q, rfl⟩ : ∃ (n : Fin 50000) (q : Fin 128), j = ix2 n q := ⟨j 0, j 1, eq_ix2 j⟩
  rw [maximumf_apply, addf_apply, hC, hB,
    Cert.RowGraph.host_rowScatterAdd_apply wfS dS hdS Z dI _ n q, hZ, zero_add, Finset.sum_filter]
  show max (_ + b q) 0 = max ((∑ e : Fin 850000, _) + b q) 0
  refine congrArg (fun t : EReal => max (t + b q) 0) ?_
  refine Finset.sum_congr rfl (fun e _ => ?_)
  rw [mulf_apply, Cert.RowGraph.host_rowGather_apply (by norm_num) wfG dG hdG h sI e q, hW, hs, hd,
    clampIdx_of_lt _ _ (hsrc e), ind_mul]
  exact if_congr (ofNat_eq_iff_toInt (lt_trans n.isLt (by norm_num)) (d e)).symm rfl rfl

end Cert.RefConv
-- ==== Proof.RefLayer.lean ====
/-
  The reference's two layers are 'Cert.Spec.convSpec', and its result is 'tailR' of the second.

  Each layer of the reference is: gather the rows of the matrix product at the edges' sources (after the wrap of
  negative indices), multiply row 'e' by the weight of edge 'e', add row 'e' into row 'dst e' of a zero matrix, add the
  bias, take the maximum with zero. Where every source index is below 50000 the wrap and the gather's clamp do nothing
  and the layer is the single sum over the edges of 'convSpec' (the general statement is 'Cert.RefConv.conv_law').
-/
import proofs.«179232_j88021059764774_1_alg».proof.Proof.RefSide
import proofs.«179232_j88021059764774_1_alg».proof.Proof.RefConv

noncomputable section

namespace Cert.RefSide

open Cert.ReferenceIdeal Cert.ReferenceIdeal.Gen Cert.ReferenceIdeal.ReadP Idealize.ShloMosaic Idealize.ShloMosaic.ValueIdx

/-! ## Index equations: the broadcasts' index functions at the indices built by 'ix1', 'ix2' -/

theorem idx38 (e : Fin 850000) : idx_main_v38 (ix2 e (0 : Fin 1)) = ix1 e :=
  funext fun a => by match a with | ⟨0, _⟩ => rfl
theorem idx44 (e : Fin 850000) : idx_main_v44 (ix2 e (0 : Fin 1)) = ix1 e :=
  funext fun a => by match a with | ⟨0, _⟩ => rfl
theorem idx40 (e : Fin 850000) : idx_main_v40 (ix2 e (0 : Fin 1)) = ix1 e :=
  funext fun a => by match a with | ⟨0, _⟩ => rfl
theorem idx41 (e : Fin 850000) (q : Fin 128) : idx_main_v41 (ix2 e q) = ix2 e (0 : Fin 1) :=
  funext fun a => by match a with | ⟨0, _⟩ => rfl | ⟨1, _⟩ => rfl
theorem idx47 (n : Fin 50000) (q : Fin 128) : idx_main_v47 (ix2 n q) = ix2 (0 : Fin 1) q :=
  funext fun a => by match a with | ⟨0, _⟩ => rfl | ⟨1, _⟩ => rfl
theorem idx46 (q : Fin 128) : idx_main_v46 (ix2 (0 : Fin 1) q) = ix1 q :=
  funext fun a => by match a with | ⟨0, _⟩ => rfl

theorem idx71 (e : Fin 850000) : idx_main_v71 (ix2 e (0 : Fin 1)) = ix1 e :=
  funext fun a => by match a with | ⟨0, _⟩ => rfl
theorem idx77 (e : Fin 850000) : idx_main_v77 (ix2 e (0 : Fin 1)) = ix1 e :=
  funext fun a => by match a with | ⟨0, _⟩ => rfl
theorem idx73 (e : Fin 850000) : idx_main_v73 (ix2 e (0 : Fin 1)) = ix1 e :=
  funext fun a => by match a with | ⟨0, _⟩ => rfl
theorem idx74 (e : Fin 850000) (q : Fin 128) : idx_main_v74 (ix2 e q) = ix2 e (0 : Fin 1) :=
  funext fun a => by match a with | ⟨0, _⟩ => rfl | ⟨1, _⟩ => rfl
theorem idx80 (n : Fin 50000) (q : Fin 128) : idx_main_v80 (ix2 n q) = ix2 (0 : Fin 1) q :=
  funext fun a => by match a with | ⟨0, _⟩ => rfl | ⟨1, _⟩ => rfl
theorem idx79 (q : Fin 128) : idx_main_v79 (ix2 (0 : Fin 1) q) = ix1 q :=
  funext fun a => by match a with | ⟨0, _⟩ => rfl

/-! ## The first layer -/

/-- Operations %33–%49: the first layer, under 'every source index is below 50000'. -/
theorem layer1 (x : FVec Ideal S50000x64 .f32) (ei : IVec S2x800000 32) (W1 : FVec Ideal S64x128 .f32)
    (b1 : FVec Ideal S128 .f32) (hsrc : ∀ e, (srcR ei e).toNat < 50000) :
    val_main_v49 (F := Ideal) x ei W1 b1
      = Cert.Spec.convSpec (srcR ei) (dstR ei) (nrmR ei) (h0R x W1) (fun d => b1 (ix1 d)) := by
  funext j
  unfold val_main_v49 val_main_v48 val_main_v45 val_main_v42 val_main_v39
  refine Cert.RefConv.conv_law scatter_S50000x128_S850000x1_S850000x128_1_0_0_1_wf _ rfl
    gather_S50000x128_S850000x1_S850000x128_1_0_n_n_0_1_1128_wf _ rfl
    (h0R x W1) (val_main_v38 (F := Ideal) ei) (val_main_v44 (F := Ideal) ei) (val_main_v41 (F := Ideal) ei)
    (val_main_v43 (F := Ideal)) (val_main_v47 (F := Ideal) b1) (val_main_call1_v0 (F := Ideal))
    (srcR ei) (dstR ei) (nrmR ei) (fun d => b1 (ix1 d)) ?_ ?_ ?_ ?_ ?_ ?_ hsrc j
  · intro e
    rw [val_main_v38_apply, idx38, val_main_v37_apply, val_main_v34_apply, val_main_v36_apply, val_main_v33_apply,
      val_main_v35_apply, val_main_c_7_apply, val_main_c_8_apply]
    exact Cert.RefConv.wrap_id _ (hsrc e)
  · intro e
    rw [val_main_v44_apply, idx44]
    rfl
  · intro e q
    rw [val_main_v41_apply, idx41, val_main_v40_apply, idx40]
    rfl
  · intro i
    rw [val_main_v43_apply, val_main_cst_9_apply]
    exact Ideal.ofBits_zero_f32
  · intro n q
    rw [val_main_v47_apply, idx47, val_main_v46_apply, idx46]
  · intro i
    rw [val_main_call1_v0_apply, val_main_call1_cst_apply]
    exact Ideal.ofBits_zero_f32

/-! ## The second layer -/

/-- Operations %50–%82: the second layer on a first-layer result 'a', under the same hypothesis. -/
theorem layer2 (x : FVec Ideal S50000x64 .f32) (ei : IVec S2x800000 32) (W1 : FVec Ideal S64x128 .f32)
    (b1 : FVec Ideal S128 .f32) (W2 : FVec Ideal S128x128 .f32) (b2 : FVec Ideal S128 .f32)
    (hsrc : ∀ e, (srcR ei e).toNat < 50000) :
    val_main_v82 (F := Ideal) x ei W1 b1 W2 b2
      = Cert.Spec.convSpec (srcR ei) (dstR ei) (nrmR ei) (h1R (val_main_v49 (F := Ideal) x ei W1 b1) W2)
          (fun d => b2 (ix1 d)) := by
  funext j
  unfold val_main_v82 val_main_v81 val_main_v78 val_main_v75 val_main_v72
  refine Cert.RefConv.conv_law scatter_S50000x128_S850000x1_S850000x128_1_0_0_1_wf _ rfl
    gather_S50000x128_S850000x1_S850000x128_1_0_n_n_0_1_1128_wf _ rfl
    (h1R (val_main_v49 (F := Ideal) x ei W1 b1) W2) (val_main_v71 (F := Ideal) ei) (val_main_v77 (F := Ideal) ei)
    (val_main_v74 (F := Ideal) ei)
    (val_main_v76 (F := Ideal)) (val_main_v80 (F := Ideal) b2) (val_main_call2_v0 (F := Ideal))
    (srcR ei) (dstR ei) (nrmR ei) (fun d => b2 (ix1 d)) ?_ ?_ ?_ ?_ ?_ ?_ hsrc j
  · intro e
    rw [val_main_v71_apply, idx71, val_main_v70_apply, val_main_v67_apply, val_main_v69_apply, val_main_v66_apply,
      val_main_v68_apply, val_main_c_14_apply, val_main_c_15_apply]
    exact Cert.RefConv.wrap_id _ (hsrc e)
  · intro e
    rw [val_main_v77_apply, idx77]
    rfl
  · intro e q
    rw [val_main_v74_apply, idx74, val_main_v73_apply, idx73, nrm_again]
    rfl
  · intro i
    rw [val_main_v76_apply, val_main_cst_16_apply]
    exact Ideal.ofBits_zero_f32
  · intro n q
    rw [val_main_v80_apply, idx80, val_main_v79_apply, idx79]
  · intro i
    rw [val_main_call2_v0_apply, val_main_call2_cst_apply]
    exact Ideal.ofBits_zero_f32

/-! ## The result -/

/-- The reference's result as a function of its nine argument arrays. -/
theorem ref_val (x : FVec Ideal S50000x64 .f32) (ei : IVec S2x800000 32) (batch : IVec S50000 32)
    (W1 : FVec Ideal S64x128 .f32) (b1 : FVec Ideal S128 .f32) (W2 : FVec Ideal S128x128 .f32)
    (b2 : FVec Ideal S128 .f32) (Wl : FVec Ideal S128x10 .f32) (bl : FVec Ideal S10 .f32)
    (hsrc : ∀ e, (srcR ei e).toNat < 50000) :
    val_main_v98 (F := Ideal) x ei batch W1 b1 W2 b2 Wl bl
      = tailR batch (Cert.Spec.convSpec (srcR ei) (dstR ei) (nrmR ei)
          (h1R (Cert.Spec.convSpec (srcR ei) (dstR ei) (nrmR ei) (h0R x W1) (fun d => b1 (ix1 d))) W2)
          (fun d => b2 (ix1 d))) Wl bl := by
  rw [result_eq_tail, layer2 x ei W1 b1 W2 b2 hsrc, layer1 x ei W1 b1 hsrc]

/-- The term the reference's run states for its result, from any memory 'm' on any device 'c'. -/
theorem ref_result (m : (ℓ : Loc nD τ sig) → Buf (Elt Ideal) ℓ) (c : Dev nD)
    (hsrc : ∀ e, (srcR (m ((c.tc : Thread nD τ).loc main_arg1)) e).toNat < 50000) :
    Cert.ReferenceIdeal.ValueP.res_main_v98 (F := Ideal) m c
      = tailR (m ((c.tc : Thread nD τ).loc main_arg2))
          (Cert.Spec.convSpec (srcR (m ((c.tc : Thread nD τ).loc main_arg1))) (dstR (m ((c.tc : Thread nD τ).loc main_arg1)))
            (nrmR (m ((c.tc : Thread nD τ).loc main_arg1)))
            (h1R (Cert.Spec.convSpec (srcR (m ((c.tc : Thread nD τ).loc main_arg1)))
                (dstR (m ((c.tc : Thread nD τ).loc main_arg1))) (nrmR (m ((c.tc : Thread nD τ).loc main_arg1)))
                (h0R (m ((c.tc : Thread nD τ).loc main_arg0)) (m ((c.tc : Thread nD τ).loc main_arg3)))
                (fun d => m ((c.tc : Thread nD τ).loc main_arg4) (ix1 d)))
              (m ((c.tc : Thread nD τ).loc main_arg5)))
            (fun d => m ((c.tc : Thread nD τ).loc main_arg6) (ix1 d)))
          (m ((c.tc : Thread nD τ).loc main_arg7)) (m ((c.tc : Thread nD τ).loc main_arg8)) := by
  rw [val_main_v98_eq]
  exact ref_val _ _ _ _ _ _ _ _ _ hsrc

end Cert.RefSide

end
-- ==== Proof.RefEdges.lean ====
/-
  The reference's edge list read at an edge: the 800000 given edges come from the edge array (row 0 the sources, row 1
  the destinations), and edge 800000 + k is the self-loop at node k. So where every entry of the edge array is below
  50000, every source and every destination is.
-/
import proofs.«179232_j88021059764774_1_alg».proof.Proof.RefSide

noncomputable section

namespace Cert.RefSide

open Cert.ReferenceIdeal Cert.ReferenceIdeal.Gen Cert.ReferenceIdeal.ReadP Idealize.ShloMosaic Idealize.ShloMosaic.ValueIdx

/-- Row 'r' of the edge array at column 'k', as the slice and the reshape index it. -/
theorem idx_given (k : Fin 800000) :
    idx_main_v1 (idx_main_v2 (ix1 k)) = ix2 (0 : Fin 2) k :=
  funext fun a => by
    match a with
    | ⟨0, _⟩ => exact Fin.ext rfl
    | ⟨1, _⟩ => exact Fin.ext (Nat.mod_eq_of_lt k.isLt)

theorem idx_given' (k : Fin 800000) :
    idx_main_v4 (idx_main_v5 (ix1 k)) = ix2 (1 : Fin 2) k :=
  funext fun a => by
    match a with
    | ⟨0, _⟩ => exact Fin.ext rfl
    | ⟨1, _⟩ => exact Fin.ext (Nat.mod_eq_of_lt k.isLt)

/-- A given edge's source is the edge array's row 0 at its column. -/
theorem srcR_given (ei : IVec S2x800000 32) (e : Fin 850000) (he : e.val < 800000) :
    srcR ei e = ei (ix2 (0 : Fin 2) (⟨e.val, he⟩ : Fin 800000)) := by
  unfold srcR val_main_v3
  rw [concatenate_pair_apply_left (0 : Fin 1) (val_main_v2 (F := Ideal) ei) (val_main_v0 (F := Ideal))
      concatenates_S800000_S50000_S850000_d0 (ix1 e) rfl (ix1 (⟨e.val, he⟩ : Fin 800000))
      (fun b => by match b with | ⟨0, _⟩ => rfl),
    val_main_v2_apply, val_main_v1_apply, idx_given]

/-- A given edge's destination is the edge array's row 1 at its column. -/
theorem dstR_given (ei : IVec S2x800000 32) (e : Fin 850000) (he : e.val < 800000) :
    dstR ei e = ei (ix2 (1 : Fin 2) (⟨e.val, he⟩ : Fin 800000)) := by
  unfold dstR val_main_v6
  rw [concatenate_pair_apply_left (0 : Fin 1) (val_main_v5 (F := Ideal) ei) (val_main_v0 (F := Ideal))
      concatenates_S800000_S50000_S850000_d0 (ix1 e) rfl (ix1 (⟨e.val, he⟩ : Fin 800000))
      (fun b => by match b with | ⟨0, _⟩ => rfl),
    val_main_v5_apply, val_main_v4_apply, idx_given']

/-- Edge 800000 + k is the self-loop at node k: its source is k. -/
theorem srcR_loop (ei : IVec S2x800000 32) (e : Fin 850000) (he : 800000 ≤ e.val) :
    srcR ei e = BitVec.ofNat 32 (e.val - 800000) := by
  have hk : e.val - 800000 < 50000 := by have := e.isLt; omega
  unfold srcR val_main_v3
  rw [concatenate_pair_apply_right (0 : Fin 1) (val_main_v2 (F := Ideal) ei) (val_main_v0 (F := Ideal))
      concatenates_S800000_S50000_S850000_d0 (ix1 e) rfl rfl (ix1 (⟨e.val - 800000, hk⟩ : Fin 50000))
      (fun b hb => absurd (Subsingleton.elim _ _) hb)
      (by show (e.val - 800000) + 800000 = e.val; omega)]
  rfl

/-- Edge 800000 + k is the self-loop at node k: its destination is k. -/
theorem dstR_loop (ei : IVec S2x800000 32) (e : Fin 850000) (he : 800000 ≤ e.val) :
    dstR ei e = BitVec.ofNat 32 (e.val - 800000) := by
  have hk : e.val - 800000 < 50000 := by have := e.isLt; omega
  unfold dstR val_main_v6
  rw [concatenate_pair_apply_right (0 : Fin 1) (val_main_v5 (F := Ideal) ei) (val_main_v0 (F := Ideal))
      concatenates_S800000_S50000_S850000_d0 (ix1 e) rfl rfl (ix1 (⟨e.val - 800000, hk⟩ : Fin 50000))
      (fun b hb => absurd (Subsingleton.elim _ _) hb)
      (by show (e.val - 800000) + 800000 = e.val; omega)]
  rfl

/-- Where every entry of the edge array is below 50000, so is every edge's source. -/
theorem srcR_lt (ei : IVec S2x800000 32) (h : ∀ i, (ei i).toNat < 50000) (e : Fin 850000) :
    (srcR ei e).toNat < 50000 := by
  by_cases he : e.val < 800000
  · rw [srcR_given ei e he]; exact h _
  · have hk : e.val - 800000 < 50000 := by have := e.isLt; omega
    rw [srcR_loop ei e (Nat.le_of_not_lt he), BitVec.toNat_ofNat]
    exact Nat.lt_of_le_of_lt (Nat.mod_le _ _) hk

/-- Where every entry of the edge array is below 50000, so is every edge's destination. -/
theorem dstR_lt (ei : IVec S2x800000 32) (h : ∀ i, (ei i).toNat < 50000) (e : Fin 850000) :
    (dstR ei e).toNat < 50000 := by
  by_cases he : e.val < 800000
  · rw [dstR_given ei e he]; exact h _
  · have hk : e.val - 800000 < 50000 := by have := e.isLt; omega
    rw [dstR_loop ei e (Nat.le_of_not_lt he), BitVec.toNat_ofNat]
    exact Nat.lt_of_le_of_lt (Nat.mod_le _ _) hk

end Cert.RefSide

end
-- ==== Proof.KHost.lean ====
/-
  The host operations of the program around its four calls, read as whole-array functions over the extended
  reals: the padded edge columns and row the calls are given, the projected and padded node rows, the bias
  rows, what is done between the two layers, and the pooling and linear head after the second.
-/
import proofs.«179232_j88021059764774_1_alg».proof.Proof.Gen.KernelIdeal.Regions
import proofs.«179232_j88021059764774_1_alg».proof.Proof.Spec
import Idealize.ShloMosaic.Lib.Pipeline.Value
import Idealize.ShloMosaic.Lib.ValueIdx
import Idealize.ShloMosaic.Lib.IdealHost
import Idealize.ShloMosaic.Lib.StableHlo.Run

set_option maxRecDepth 16384

noncomputable section

namespace Cert.KHost

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (outs : Outs (F := Ideal)) (c : Dev nD)

/-! ## Arguments are never written by a host stretch or a call -/

theorem V4_arg (r : Ref sig .tc) (h1 : r ∉ hostOps0_W) (h2 : r ∉ hostOps0_1_W) (h3 : r ∉ hostOps0_2_W)
    (h4 : r ∉ ([main_v45] : List (Ref sig .tc))) : V4 m outs c r = m ((c : Thread nD τ).loc r) := by
  rw [V4_of m outs c r h4, V3_of m c r h3, V2_of m c r h2, V1_of m c r h1]

/-! ## A bias vector as one row: `reshape [128] → [1, 128]` -/

theorem reshape_row_apply (b : S128.Idx → EReal) (i : S1x128.Idx) :
    shapeCast S1x128 b shapeCasts_S128_S1x128 i = b (ix1 (i 1)) := by
  refine shapeCast_apply _ _ i (ix1 (i 1)) ?_
  rw [Shape.rowMajor_val_one, Shape.rowMajor_val_two]
  have h0 : (i 0).val < 1 := (i 0).isLt
  show (i 1).val = (i 0).val * 128 + (i 1).val
  omega

/-- The bias row the first scatter call is given is `b1` read along the columns. -/
theorem V5_v46 :
    (V5 m outs c main_v46 : S1x128.Idx → EReal)
      = fun i => (m ((c : Thread nD τ).loc main_arg4) : S128.Idx → EReal) (ix1 (i 1)) := by
  funext i
  show StableHlo.after hostOps1 _ (Proc.devRef .tc main_v46) i = _
  after_results
  show shapeCast S1x128 (V4 m outs c (Proc.devRef .tc main_arg4)) shapeCasts_S128_S1x128 i = _
  rw [V4_arg m outs c main_arg4 (by decide) (by decide) (by decide) (by decide)]
  exact reshape_row_apply _ i

theorem V5_v40 : V5 m outs c main_v40 = V3 m c main_v40 := by
  rw [V5_of m outs c main_v40 (by decide), V4_of m outs c main_v40 (by decide)]

theorem V5_v45 : V5 m outs c main_v45 = outs 4 main_v45 c := by
  rw [V5_of m outs c main_v45 (by decide)]
  exact Function.update_self ..

/-! ## The second layer's bias row -/

theorem V8_arg (r : Ref sig .tc) (h1 : r ∉ hostOps0_W) (h2 : r ∉ hostOps0_1_W) (h3 : r ∉ hostOps0_2_W)
    (h4 : r ∉ ([main_v45] : List (Ref sig .tc))) (h5 : r ∉ hostOps1_W) (h6 : r ∉ ([main_v47] : List (Ref sig .tc)))
    (h7 : r ∉ hostOps2_W) (h8 : r ∉ ([main_v53] : List (Ref sig .tc))) :
    V8 m outs c r = m ((c : Thread nD τ).loc r) := by
  rw [V8_of m outs c r h8, V7_of m outs c r h7, V6_of m outs c r h6, V5_of m outs c r h5, V4_arg m outs c r h1 h2 h3 h4]

/-- The bias row the second scatter call is given is `b2` read along the columns. -/
theorem V9_v54 :
    (V9 m outs c main_v54 : S1x128.Idx → EReal)
      = fun i => (m ((c : Thread nD τ).loc main_arg6) : S128.Idx → EReal) (ix1 (i 1)) := by
  funext i
  show StableHlo.after hostOps3 _ (Proc.devRef .tc main_v54) i = _
  after_results
  show shapeCast S1x128 (V8 m outs c (Proc.devRef .tc main_arg6)) shapeCasts_S128_S1x128 i = _
  rw [V8_arg m outs c main_arg6 (by decide) (by decide) (by decide) (by decide) (by decide) (by decide) (by decide) (by decide)]
  exact reshape_row_apply _ i

theorem V9_v40 : V9 m outs c main_v40 = V3 m c main_v40 := by
  rw [V9_of m outs c main_v40 (by decide), V8_of m outs c main_v40 (by decide), V7_of m outs c main_v40 (by decide),
    V6_of m outs c main_v40 (by decide), V5_v40]

theorem V9_v53 : V9 m outs c main_v53 = outs 8 main_v53 c := by
  rw [V9_of m outs c main_v53 (by decide)]
  exact Function.update_self ..

theorem V7_v38 : V7 m outs c main_v38 = V3 m c main_v38 := by
  rw [V7_of m outs c main_v38 (by decide), V6_of m outs c main_v38 (by decide), V5_of m outs c main_v38 (by decide),
    V4_of m outs c main_v38 (by decide)]

theorem V7_v39 : V7 m outs c main_v39 = V3 m c main_v39 := by
  rw [V7_of m outs c main_v39 (by decide), V6_of m outs c main_v39 (by decide), V5_of m outs c main_v39 (by decide),
    V4_of m outs c main_v39 (by decide)]

/-! ## The edge list: the given edges, then one self loop per node -/

/-- Row `r` of the edge index (0: sources, 1: destinations) followed by the node numbers `0 … 49999`
    (operations %0–%6 of the host program). -/
def srcV (ei : IVec S2x800000 32) : IVec S850000 32 :=
  concatenate S850000 0
    [⟨S800000, shapeCast S800000 (extractStridedSlice S1x800000 ![0, 0] ei slices_S2x800000_S1x800000_0_0) shapeCasts_S1x800000_S800000⟩,
     ⟨S50000, iotaInDim S50000 32 0⟩] concatenates_S800000_S50000_S850000_d0

def dstV (ei : IVec S2x800000 32) : IVec S850000 32 :=
  concatenate S850000 0
    [⟨S800000, shapeCast S800000 (extractStridedSlice S1x800000 ![1, 0] ei slices_S2x800000_S1x800000_1_0) shapeCasts_S1x800000_S800000⟩,
     ⟨S50000, iotaInDim S50000 32 0⟩] concatenates_S800000_S50000_S850000_d0

/-- The source endpoint of edge `e`. -/
def srcK (ei : IVec S2x800000 32) : Fin 850000 → BitVec 32 := fun e => srcV ei (ix1 e)
/-- The destination endpoint of edge `e`. -/
def dstK (ei : IVec S2x800000 32) : Fin 850000 → BitVec 32 := fun e => dstV ei (ix1 e)

theorem hostOps0_v3 (W : Valuation τ sig (Elt Ideal)) :
    (StableHlo.after (hostOps0 (F := Ideal)) W (Proc.devRef .tc main_v3) : S850000.Idx → BitVec 32)
      = srcV (W (Proc.devRef .tc main_arg1)) := by
  after_results; rfl

theorem hostOps0_v6 (W : Valuation τ sig (Elt Ideal)) :
    (StableHlo.after (hostOps0 (F := Ideal)) W (Proc.devRef .tc main_v6) : S850000.Idx → BitVec 32)
      = dstV (W (Proc.devRef .tc main_arg1)) := by
  after_results; rfl

/-! ## Padding the edge list to 850944 entries, read at an index -/

theorem pad944_apply {α : Type} (x : S850000.Idx → α) (z : S944.Idx → α) (e : Fin 850944) :
    concatenate S850944 0 [⟨S850000, x⟩, ⟨S944, z⟩] concatenates_S850000_S944_S850944_d0 (ix1 e)
      = if h : e.val < 850000 then x (ix1 ⟨e.val, h⟩)
        else z (ix1 ⟨e.val - 850000, by have := e.isLt; omega⟩) := by
  have hk : e.val < 850944 := e.isLt
  by_cases h : e.val < 850000
  · rw [dif_pos h]
    exact concatenate_pair_apply_left 0 x z _ (ix1 e) rfl (ix1 ⟨e.val, h⟩) (fun b => match b with | ⟨0, _⟩ => rfl)
  · rw [dif_neg h]
    exact concatenate_pair_apply_right 0 x z _ (ix1 e) rfl rfl (ix1 ⟨e.val - 850000, by omega⟩)
      (fun b => match b with | ⟨0, _⟩ => fun hb => absurd rfl hb)
      (by show (e.val - 850000) + 850000 = e.val; omega)

theorem col_cast_apply {α : Type} (x : S850944.Idx → α) (j : S850944x1.Idx) :
    shapeCast S850944x1 x shapeCasts_S850944_S850944x1 j = x (ix1 (⟨(j 0).val, (j 0).isLt⟩ : Fin 850944)) := by
  refine shapeCast_apply _ _ j (ix1 (⟨(j 0).val, (j 0).isLt⟩ : Fin 850944)) ?_
  rw [Shape.rowMajor_val_one, Shape.rowMajor_val_two]
  have h1 : (j 1).val < 1 := (j 1).isLt
  show (j 0).val = (j 0).val * 1 + (j 1).val
  omega

theorem row_cast_apply {α : Type} (x : S850944.Idx → α) (j : S1x850944.Idx) :
    shapeCast S1x850944 x shapeCasts_S850944_S1x850944 j = x (ix1 (⟨(j 1).val, (j 1).isLt⟩ : Fin 850944)) := by
  refine shapeCast_apply _ _ j (ix1 (⟨(j 1).val, (j 1).isLt⟩ : Fin 850944)) ?_
  rw [Shape.rowMajor_val_one, Shape.rowMajor_val_two]
  have h0 : (j 0).val < 1 := (j 0).isLt
  show (j 1).val = (j 0).val * 850944 + (j 1).val
  omega

/-- 944 integer zeros. -/
theorem zerosI_apply (k : S944.Idx) : broadcastInDim S944 ![] bcast_S_S944 (constantI S_ 32 0#32) k = 0#32 := by
  rw [broadcastInDim_scalar_apply]; rfl

theorem hostOps0_2_v38 (W : Valuation τ sig (Elt Ideal)) :
    (StableHlo.after (hostOps0_2 (F := Ideal)) W (Proc.devRef .tc main_v38) : S850944x1.Idx → BitVec 32)
      = shapeCast S850944x1 (concatenate S850944 0 [⟨S850000, (W (Proc.devRef .tc main_v3) : S850000.Idx → BitVec 32)⟩,
          ⟨S944, broadcastInDim S944 ![] bcast_S_S944 (constantI S_ 32 0#32)⟩] concatenates_S850000_S944_S850944_d0)
          shapeCasts_S850944_S850944x1 := by
  after_results; rfl

theorem hostOps0_2_v40 (W : Valuation τ sig (Elt Ideal)) :
    (StableHlo.after (hostOps0_2 (F := Ideal)) W (Proc.devRef .tc main_v40) : S1x850944.Idx → BitVec 32)
      = shapeCast S1x850944 (concatenate S850944 0 [⟨S850000, (W (Proc.devRef .tc main_v6) : S850000.Idx → BitVec 32)⟩,
          ⟨S944, broadcastInDim S944 ![] bcast_S_S944 (constantI S_ 32 0#32)⟩] concatenates_S850000_S944_S850944_d0)
          shapeCasts_S850944_S1x850944 := by
  after_results; rfl

theorem V2_v3 : (V2 m c main_v3 : S850000.Idx → BitVec 32) = srcV (m ((c : Thread nD τ).loc main_arg1)) := by
  rw [V2_of m c main_v3 (by decide)]
  exact hostOps0_v3 (V0 m c)

theorem V2_v6 : (V2 m c main_v6 : S850000.Idx → BitVec 32) = dstV (m ((c : Thread nD τ).loc main_arg1)) := by
  rw [V2_of m c main_v6 (by decide)]
  exact hostOps0_v6 (V0 m c)

/-- The source column the gather calls are given: the 850000 sources, then 944 zeros. -/
theorem V3_v38 :
    (V3 m c main_v38 : S850944x1.Idx → BitVec 32)
      = Cert.Spec.padCol 0#32 (srcK (m ((c : Thread nD τ).loc main_arg1))) := by
  refine funext fun (j : S850944x1.Idx) => ?_
  show StableHlo.after hostOps0_2 (V2 m c) (Proc.devRef .tc main_v38) j = _
  rw [hostOps0_2_v38 (V2 m c), V2_v3, col_cast_apply, pad944_apply]
  unfold Cert.Spec.padCol srcK
  by_cases h : (j 0).val < 850000
  · rw [dif_pos h, dif_pos h]
  · rw [dif_neg h, dif_neg h, zerosI_apply]

/-- The destination row the scatter calls are given: the 850000 destinations, then 944 zeros. -/
theorem V3_v40 :
    (V3 m c main_v40 : S1x850944.Idx → BitVec 32)
      = Cert.Spec.padRow 0#32 (dstK (m ((c : Thread nD τ).loc main_arg1))) := by
  refine funext fun (j : S1x850944.Idx) => ?_
  show StableHlo.after hostOps0_2 (V2 m c) (Proc.devRef .tc main_v40) j = _
  rw [hostOps0_2_v40 (V2 m c), V2_v6, row_cast_apply, pad944_apply]
  unfold Cert.Spec.padRow dstK
  by_cases h : (j 1).val < 850000
  · rw [dif_pos h, dif_pos h]
  · rw [dif_neg h, dif_neg h, zerosI_apply]

/-! ## The edge weights -/

/-- The in-degree of every node (self loops included): one added at each edge's destination. -/
def degK (d : IVec S850000 32) : FVec Ideal S50000 .f32 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 d)
    (broadcastInDim S850000 ![] bcast_S_S850000 (constant (F := Ideal) S_ .f32 0x3F800000#32))

/-- The degree to the power `-1/2` where the degree is positive, zero elsewhere. -/
def disK (d : IVec S850000 32) : FVec Ideal S50000 .f32 :=
  select (cmpf .ogt (degK d) (broadcastInDim S50000 ![] bcast_S_S50000 (constant (F := Ideal) S_ .f32 0x00000000#32)))
    (Host.rsqrt (maximumf (degK d) (broadcastInDim S50000 ![] bcast_S_S50000 (constant (F := Ideal) S_ .f32 0x2B8CBCCC#32))))
    (broadcastInDim S50000 ![] bcast_S_S50000 (constant (F := Ideal) S_ .f32 0x00000000#32))

/-- Node numbers as gather indices: a negative one moved up by 50000, as a column. -/
def wrapIdx (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The weight of every edge: the product of `dis` at its two endpoints. -/
def nrmOps (dis : FVec Ideal S50000 .f32) (s d : IVec S850000 32) : FVec Ideal S850000 .f32 :=
  mulf (Host.gather gather_S50000_S850000x1_S850000_n_0_n_n_0_1_1 dis (wrapIdx s))
    (Host.gather gather_S50000_S850000x1_S850000_n_0_n_n_0_1_1 dis (wrapIdx d))

def nrmV (ei : IVec S2x800000 32) : FVec Ideal S850000 .f32 := nrmOps (disK (dstV ei)) (srcV ei) (dstV ei)

/-- The weight of edge `e`. -/
def nrmK (ei : IVec S2x800000 32) : Fin 850000 → EReal := fun e => nrmV ei (ix1 e)

set_option maxHeartbeats 4000000 in
theorem hostOps0_v12 (W : Valuation τ sig (Elt Ideal)) :
    (StableHlo.after (hostOps0 (F := Ideal)) W (Proc.devRef .tc main_v12) : IVec S50000 1)
      = cmpf .ogt (degK (dstV (W (Proc.devRef .tc main_arg1))))
          (broadcastInDim S50000 ![] bcast_S_S50000 (constant (F := Ideal) S_ .f32 0x00000000#32)) := by
  after_results; rfl

set_option maxHeartbeats 4000000 in
theorem hostOps0_v15 (W : Valuation τ sig (Elt Ideal)) :
    (StableHlo.after (hostOps0 (F := Ideal)) W (Proc.devRef .tc main_v15) : FVec Ideal S50000 .f32)
      = Host.rsqrt (maximumf (degK (dstV (W (Proc.devRef .tc main_arg1))))
          (broadcastInDim S50000 ![] bcast_S_S50000 (constant (F := Ideal) S_ .f32 0x2B8CBCCC#32))) := by
  after_results; rfl

theorem hostOps0_cst3 (W : Valuation τ sig (Elt Ideal)) :
    (StableHlo.after (hostOps0 (F := Ideal)) W (Proc.devRef .tc main_cst_3) : FVec Ideal S_ .f32)
      = constant (F := Ideal) S_ .f32 0x00000000#32 := by
  after_results

theorem hostOps0_1_v16 (W : Valuation τ sig (Elt Ideal)) :
    (StableHlo.after (hostOps0_1 (F := Ideal)) W (Proc.devRef .tc main_v16) : FVec Ideal S50000 .f32)
      = select (W (Proc.devRef .tc main_v12) : IVec S50000 1) (W (Proc.devRef .tc main_v15) : FVec Ideal S50000 .f32)
          (broadcastInDim S50000 ![] bcast_S_S50000 (W (Proc.devRef .tc main_cst_3) : FVec Ideal S_ .f32)) := by
  after_results; rfl

theorem V2_v16 : (V2 m c main_v16 : FVec Ideal S50000 .f32) = disK (dstV (m ((c : Thread nD τ).loc main_arg1))) := by
  show StableHlo.after hostOps0_1 (V1 m c) (Proc.devRef .tc main_v16) = _
  rw [hostOps0_1_v16 (V1 m c)]
  have e12 : (V1 m c main_v12 : IVec S50000 1) = _ := hostOps0_v12 (V0 m c)
  have e15 : (V1 m c main_v15 : FVec Ideal S50000 .f32) = _ := hostOps0_v15 (V0 m c)
  have e3 : (V1 m c main_cst_3 : FVec Ideal S_ .f32) = _ := hostOps0_cst3 (V0 m c)
  rw [e12, e15, e3]
  rfl

set_option maxHeartbeats 16000000 in
theorem hostOps0_2_v39 (W : Valuation τ sig (Elt Ideal)) :
    (StableHlo.after (hostOps0_2 (F := Ideal)) W (Proc.devRef .tc main_v39) : S850944x1.Idx → EReal)
      = shapeCast S850944x1 (concatenate S850944 0 [⟨S850000, nrmOps (W (Proc.devRef .tc main_v16)) (W (Proc.devRef .tc main_v3))
            (W (Proc.devRef .tc main_v6))⟩,
          ⟨S944, broadcastInDim S944 ![] bcast_S_S944 (constant (F := Ideal) S_ .f32 0x00000000#32)⟩] concatenates_S850000_S944_S850944_d0)
          shapeCasts_S850944_S850944x1 := by
  after_results; rfl

/-- 944 real zeros. -/
theorem zerosF_apply (k : S944.Idx) :
    (broadcastInDim S944 ![] bcast_S_S944 (constant (F := Ideal) S_ .f32 0x00000000#32) : FVec Ideal S944 .f32) k = (0 : EReal) := by
  rw [broadcastInDim_scalar_apply, constant_apply]; exact Ideal.ofBits_zero_f32

/-- The weight column the gather calls are given: the 850000 weights, then 944 zeros. -/
theorem V3_v39 :
    (V3 m c main_v39 : S850944x1.Idx → EReal)
      = Cert.Spec.padCol (0 : EReal) (nrmK (m ((c : Thread nD τ).loc main_arg1))) := by
  refine funext fun (j : S850944x1.Idx) => ?_
  show StableHlo.after hostOps0_2 (V2 m c) (Proc.devRef .tc main_v39) j = _
  rw [hostOps0_2_v39 (V2 m c), V2_v3, V2_v6, V2_v16, col_cast_apply, pad944_apply]
  unfold Cert.Spec.padCol nrmK nrmV
  by_cases h : (j 0).val < 850000
  · rw [dif_pos h, dif_pos h]
  · rw [dif_neg h, dif_neg h, zerosF_apply]

/-! ## The projected features, padded to 50176 rows -/

/-- The first projection `x · W1`. -/
def h0K (x : FVec Ideal S50000x64 .f32) (W1 : FVec Ideal S64x128 .f32) : FVec Ideal S50000x128 .f32 :=
  Host.dotGeneral dot_S50000x64_S64x128_S50000x128_1_0_0_1_n_n none x W1

/-- The second projection `a · W2`. -/
def h1K (a : FVec Ideal S50000x128 .f32) (W2 : FVec Ideal S128x128 .f32) : FVec Ideal S50000x128 .f32 :=
  Host.dotGeneral dot_S50000x128_S128x128_S50000x128_1_0_0_1_n_n none a W2

theorem pad176_apply {α : Type} (x : S50000x128.Idx → α) (z : S176x128.Idx → α) (j : S50176x128.Idx) :
    concatenate S50176x128 0 [⟨S50000x128, x⟩, ⟨S176x128, z⟩] concatenates_S50000x128_S176x128_S50176x128_d0 j
      = if h : (j 0).val < 50000 then x (ix2 ⟨(j 0).val, h⟩ (j 1))
        else z (ix2 ⟨(j 0).val - 50000, by have : (j 0).val < 50176 := (j 0).isLt; omega⟩ (j 1)) := by
  have hk : (j 0).val < 50176 := (j 0).isLt
  by_cases h : (j 0).val < 50000
  · rw [dif_pos h]
    exact concatenate_pair_apply_left 0 x z _ j rfl (ix2 ⟨(j 0).val, h⟩ (j 1))
      (fun b => match b with | ⟨0, _⟩ => rfl | ⟨1, _⟩ => rfl)
  · rw [dif_neg h]
    exact concatenate_pair_apply_right 0 x z _ j rfl rfl (ix2 ⟨(j 0).val - 50000, by omega⟩ (j 1))
      (fun b => match b with | ⟨0, _⟩ => fun hb => absurd rfl hb | ⟨1, _⟩ => fun _ => rfl)
      (by show ((j 0).val - 50000) + 50000 = (j 0).val; omega)

/-- 176 rows of real zeros. -/
theorem zerosR_apply (k : S176x128.Idx) :
    (broadcastInDim S176x128 ![] bcast_S_S176x128 (constant (F := Ideal) S_ .f32 0x00000000#32) : FVec Ideal S176x128 .f32) k = (0 : EReal) := by
  rw [broadcastInDim_scalar_apply, constant_apply]; exact Ideal.ofBits_zero_f32

/-- A matrix padded with 176 zero rows and read at bf16 (the identity on extended reals). -/
theorem padRows_eq (h : FVec Ideal S50000x128 .f32) :
    (truncf .bf16 (concatenate S50176x128 0 [⟨S50000x128, h⟩,
        ⟨S176x128, broadcastInDim S176x128 ![] bcast_S_S176x128 (constant (F := Ideal) S_ .f32 0x00000000#32)⟩]
        concatenates_S50000x128_S176x128_S50176x128_d0) bitsLt_bf16_f32 : FVec Ideal S50176x128 .bf16)
      = Cert.Spec.padRows h := by
  refine funext fun (j : S50176x128.Idx) => ?_
  rw [truncf_apply, pad176_apply]
  unfold Cert.Spec.padRows
  by_cases hj : (j 0).val < 50000
  · rw [dif_pos hj, dif_pos hj]
  · rw [dif_neg hj, dif_neg hj, zerosR_apply]

set_option maxHeartbeats 4000000 in
theorem hostOps0_2_v44 (W : Valuation τ sig (Elt Ideal)) :
    (StableHlo.after (hostOps0_2 (F := Ideal)) W (Proc.devRef .tc main_v44) : FVec Ideal S50176x128 .bf16)
      = truncf .bf16 (concatenate S50176x128 0 [⟨S50000x128, h0K (W (Proc.devRef .tc main_arg0)) (W (Proc.devRef .tc main_arg3))⟩,
        ⟨S176x128, broadcastInDim S176x128 ![] bcast_S_S176x128 (constant (F := Ideal) S_ .f32 0x00000000#32)⟩]
        concatenates_S50000x128_S176x128_S50176x128_d0) bitsLt_bf16_f32 := by
  after_results; rfl

/-- The node rows the first gather call is given: `x · W1`, then 176 zero rows. -/
theorem V3_v44 :
    (V3 m c main_v44 : S50176x128.Idx → EReal)
      = Cert.Spec.padRows (h0K (m ((c : Thread nD τ).loc main_arg0)) (m ((c : Thread nD τ).loc main_arg3))) := by
  show StableHlo.after hostOps0_2 (V2 m c) (Proc.devRef .tc main_v44) = _
  rw [hostOps0_2_v44 (V2 m c), V2_of m c main_arg0 (by decide), V1_of m c main_arg0 (by decide),
    V2_of m c main_arg3 (by decide), V1_of m c main_arg3 (by decide)]
  exact padRows_eq _

/-! ## Between the layers -/

/-- The first 50000 rows of a padded node matrix. -/
def rows50000 (a : S50176x128.Idx → EReal) : S50000x128.Idx → EReal :=
  fun j => a (ix2 ⟨(j 0).val, Nat.lt_trans (j 0).isLt (by decide)⟩ (j 1))

theorem slice_rows_eq (a : FVec Ideal S50176x128 .f32) :
    extractStridedSlice S50000x128 ![0, 0] a slices_S50176x128_S50000x128_0_0 = rows50000 a := by
  refine funext fun (j : S50000x128.Idx) => ?_
  exact extractStridedSlice_apply _ a _ j _ (fun b => match b with
    | ⟨0, _⟩ => by show (j 0).val = 0 + (j 0).val; omega
    | ⟨1, _⟩ => by show (j 1).val = 0 + (j 1).val; omega)

theorem hostOps2_v52 (W : Valuation τ sig (Elt Ideal)) :
    (StableHlo.after (hostOps2 (F := Ideal)) W (Proc.devRef .tc main_v52) : FVec Ideal S50176x128 .bf16)
      = truncf .bf16 (concatenate S50176x128 0 [⟨S50000x128, h1K (extractStridedSlice S50000x128 ![0, 0]
            (W (Proc.devRef .tc main_v47)) slices_S50176x128_S50000x128_0_0) (W (Proc.devRef .tc main_arg5))⟩,
        ⟨S176x128, broadcastInDim S176x128 ![] bcast_S_S176x128 (constant (F := Ideal) S_ .f32 0x00000000#32)⟩]
        concatenates_S50000x128_S176x128_S50176x128_d0) bitsLt_bf16_f32 := by
  after_results; rfl

/-- The node rows the second gather call is given: the first call pair's 50000 result rows times `W2`, then 176
    zero rows. -/
theorem V7_v52 :
    (V7 m outs c main_v52 : S50176x128.Idx → EReal)
      = Cert.Spec.padRows (h1K (rows50000 (outs 6 main_v47 c)) (m ((c : Thread nD τ).loc main_arg5))) := by
  show StableHlo.after hostOps2 (V6 m outs c) (Proc.devRef .tc main_v52) = _
  rw [hostOps2_v52 (V6 m outs c), slice_rows_eq]
  have e47 : V6 m outs c main_v47 = outs 6 main_v47 c := Function.update_self ..
  have e5 : V6 m outs c main_arg5 = m ((c : Thread nD τ).loc main_arg5) := by
    rw [V6_of m outs c main_arg5 (by decide), V5_of m outs c main_arg5 (by decide),
      V4_arg m outs c main_arg5 (by decide) (by decide) (by decide) (by decide)]
  rw [e47, e5]
  exact padRows_eq _

/-! ## The edge list at an index -/

theorem cat850000_apply {α : Type} (x : S800000.Idx → α) (z : S50000.Idx → α) (e : Fin 850000) :
    concatenate S850000 0 [⟨S800000, x⟩, ⟨S50000, z⟩] concatenates_S800000_S50000_S850000_d0 (ix1 e)
      = if h : e.val < 800000 then x (ix1 ⟨e.val, h⟩)
        else z (ix1 ⟨e.val - 800000, by have := e.isLt; omega⟩) := by
  have hk : e.val < 850000 := e.isLt
  by_cases h : e.val < 800000
  · rw [dif_pos h]
    exact concatenate_pair_apply_left 0 x z _ (ix1 e) rfl (ix1 ⟨e.val, h⟩) (fun b => match b with | ⟨0, _⟩ => rfl)
  · rw [dif_neg h]
    exact concatenate_pair_apply_right 0 x z _ (ix1 e) rfl rfl (ix1 ⟨e.val - 800000, by omega⟩)
      (fun b => match b with | ⟨0, _⟩ => fun hb => absurd rfl hb)
      (by show (e.val - 800000) + 800000 = e.val; omega)

/-- Row `r` of the edge index, flattened, at entry `e`. -/
theorem edge_row_apply (ei : IVec S2x800000 32) (r : Fin 2) (off : Fin 2 → Nat) (hoff : off = ![r.val, 0])
    (hs : S2x800000.Slices off S1x800000) (e : Fin 800000) :
    shapeCast S800000 (extractStridedSlice S1x800000 off ei hs) shapeCasts_S1x800000_S800000 (ix1 e) = ei (ix2 r e) := by
  subst hoff
  refine (shapeCast_apply _ _ (ix1 e) (ix2 (0 : Fin 1) e) ?_).trans ?_
  · rw [Shape.rowMajor_val_one, Shape.rowMajor_val_two]
    show 0 * 800000 + e.val = e.val
    omega
  · exact extractStridedSlice_apply _ ei _ _ (ix2 r e) (fun b => match b with
      | ⟨0, _⟩ => by show r.val = r.val + 0; omega
      | ⟨1, _⟩ => by show e.val = 0 + e.val; omega)

/-- Edge `e` starts at the given source for the first 800000 edges, and is the self loop of node `e − 800000` after. -/
theorem srcK_apply (ei : IVec S2x800000 32) (e : Fin 850000) :
    srcK ei e = if h : e.val < 800000 then ei (ix2 (0 : Fin 2) (⟨e.val, h⟩ : Fin 800000))
      else BitVec.ofNat 32 (e.val - 800000) := by
  unfold srcK srcV
  rw [cat850000_apply]
  by_cases h : e.val < 800000
  · rw [dif_pos h, dif_pos h]
    exact edge_row_apply ei 0 _ rfl _ _
  · rw [dif_neg h, dif_neg h]
    rfl

/-- Edge `e` ends at the given destination for the first 800000 edges, and is the self loop of node `e − 800000` after. -/
theorem dstK_apply (ei : IVec S2x800000 32) (e : Fin 850000) :
    dstK ei e = if h : e.val < 800000 then ei (ix2 (1 : Fin 2) (⟨e.val, h⟩ : Fin 800000))
      else BitVec.ofNat 32 (e.val - 800000) := by
  unfold dstK dstV
  rw [cat850000_apply]
  by_cases h : e.val < 800000
  · rw [dif_pos h, dif_pos h]
    exact edge_row_apply ei 1 _ rfl _ _
  · rw [dif_neg h, dif_neg h]
    rfl

/-- Every source is a node when the given sources are. -/
theorem srcK_lt (ei : IVec S2x800000 32) (hrow : ∀ e : Fin 800000, (ei (ix2 (0 : Fin 2) e)).toNat < 50000) :
    ∀ e, (srcK ei e).toNat < 50000 := by
  intro e
  have he : e.val < 850000 := e.isLt
  rw [srcK_apply]
  by_cases h : e.val < 800000
  · rw [dif_pos h]; exact hrow _
  · rw [dif_neg h, BitVec.toNat_ofNat]
    exact lt_of_le_of_lt (Nat.mod_le _ _) (by omega)

/-- Every destination is a node when the given destinations are. -/
theorem dstK_lt (ei : IVec S2x800000 32) (hrow : ∀ e : Fin 800000, (ei (ix2 (1 : Fin 2) e)).toNat < 50000) :
    ∀ e, (dstK ei e).toNat < 50000 := by
  intro e
  have he : e.val < 850000 := e.isLt
  rw [dstK_apply]
  by_cases h : e.val < 800000
  · rw [dif_pos h]; exact hrow _
  · rw [dif_neg h, BitVec.toNat_ofNat]
    exact lt_of_le_of_lt (Nat.mod_le _ _) (by omega)

/-! ## After the second layer: the mean over each graph's nodes and the linear head -/

/-- The per-graph sums of the node rows, divided by the node counts (at least one), times `Wl`, plus `bl`. -/
def tailK (batch : IVec S50000 32) (a : FVec Ideal S50000x128 .f32) (Wl : FVec Ideal S128x10 .f32)
    (bl : FVec Ideal S10 .f32) : FVec Ideal S64x10 .f32 :=
  addf
    (Host.dotGeneral dot_S64x128_S128x10_S64x10_1_0_0_1_n_n none
      (Host.divf
        (Host.scatterAdd scatter_S64x128_S50000x1_S50000x128_1_0_0_1
          (broadcastInDim S64x128 ![] bcast_S_S64x128 (constant (F := Ideal) S_ .f32 0x00000000#32))
          (broadcastInDim S50000x1 ![0] bcast_S50000_S50000x1_0 batch) a)
        (broadcastInDim S64x128 ![0, 1] bcast_S64x1_S64x128_0_1
          (broadcastInDim S64x1 ![0] bcast_S64_S64x1_0
            (maximumf
              (Host.scatterAdd scatter_S64_S50000x1_S50000_n_0_0_1
                (broadcastInDim S64 ![] bcast_S_S64 (constant (F := Ideal) S_ .f32 0x00000000#32))
                (broadcastInDim S50000x1 ![0] bcast_S50000_S50000x1_0 batch)
                (broadcastInDim S50000 ![] bcast_S_S50000 (constant (F := Ideal) S_ .f32 0x3F800000#32)))
              (broadcastInDim S64 ![] bcast_S_S64 (constant (F := Ideal) S_ .f32 0x3F800000#32))))))
      Wl)
    (broadcastInDim S64x10 ![0, 1] bcast_S1x10_S64x10_0_1 (broadcastInDim S1x10 ![1] bcast_S10_S1x10_1 bl))

set_option maxHeartbeats 4000000 in
theorem hostOps4_v72 (W : Valuation τ sig (Elt Ideal)) :
    (StableHlo.after (hostOps4 (F := Ideal)) W (Proc.devRef .tc main_v72) : FVec Ideal S64x10 .f32)
      = tailK (W (Proc.devRef .tc main_arg2))
          (extractStridedSlice S50000x128 ![0, 0] (W (Proc.devRef .tc main_v55)) slices_S50176x128_S50000x128_0_0)
          (W (Proc.devRef .tc main_arg7)) (W (Proc.devRef .tc main_arg8)) := by
  after_results; rfl

theorem V10_arg (r : Ref sig .tc) (h1 : r ∉ hostOps0_W) (h2 : r ∉ hostOps0_1_W) (h3 : r ∉ hostOps0_2_W)
    (h4 : r ∉ ([main_v45] : List (Ref sig .tc))) (h5 : r ∉ hostOps1_W) (h6 : r ∉ ([main_v47] : List (Ref sig .tc)))
    (h7 : r ∉ hostOps2_W) (h8 : r ∉ ([main_v53] : List (Ref sig .tc))) (h9 : r ∉ hostOps3_W)
    (h10 : r ∉ ([main_v55] : List (Ref sig .tc))) :
    V10 m outs c r = m ((c : Thread nD τ).loc r) := by
  rw [V10_of m outs c r h10, V9_of m outs c r h9, V8_arg m outs c r h1 h2 h3 h4 h5 h6 h7 h8]

/-- The program's result: the tail applied to the second call pair's 50000 result rows. -/
theorem V11_v72 :
    (V11 m outs c main_v72 : S64x10.Idx → EReal)
      = tailK (m ((c : Thread nD τ).loc main_arg2)) (rows50000 (outs 10 main_v55 c))
          (m ((c : Thread nD τ).loc main_arg7)) (m ((c : Thread nD τ).loc main_arg8)) := by
  show StableHlo.after hostOps4 (V10 m outs c) (Proc.devRef .tc main_v72) = _
  rw [hostOps4_v72 (V10 m outs c), slice_rows_eq]
  have e55 : V10 m outs c main_v55 = outs 10 main_v55 c := Function.update_self ..
  rw [e55,
    V10_arg m outs c main_arg2 (by decide) (by decide) (by decide) (by decide) (by decide) (by decide) (by decide) (by decide) (by decide) (by decide),
    V10_arg m outs c main_arg7 (by decide) (by decide) (by decide) (by decide) (by decide) (by decide) (by decide) (by decide) (by decide) (by decide),
    V10_arg m outs c main_arg8 (by decide) (by decide) (by decide) (by decide) (by decide) (by decide) (by decide) (by decide) (by decide) (by decide)]

end Cert.KHost
end
-- ==== Proof.Meet.lean ====
/-
  The two programs compute the edge lists, the edge weights, the two dense projections and the pooled head by
  the same host operations: their terms are the same functions of the arguments.
-/
import proofs.«179232_j88021059764774_1_alg».proof.Proof.KHost
import proofs.«179232_j88021059764774_1_alg».proof.Proof.RefEdges

set_option maxRecDepth 16384

noncomputable section

namespace Cert.Meet

open Idealize.ShloMosaic Idealize.ShloMosaic.ValueIdx

theorem src_eq : Cert.KHost.srcK = Cert.RefSide.srcR := by
  funext ei e
  rw [Cert.KHost.srcK_apply]
  split
  · next h => exact (Cert.RefSide.srcR_given ei e h).symm
  · next h => exact (Cert.RefSide.srcR_loop ei e (by omega)).symm

theorem dst_eq : Cert.KHost.dstK = Cert.RefSide.dstR := by
  funext ei e
  rw [Cert.KHost.dstK_apply]
  split
  · next h => exact (Cert.RefSide.dstR_given ei e h).symm
  · next h => exact (Cert.RefSide.dstR_loop ei e (by omega)).symm

theorem h0_eq : Cert.KHost.h0K = Cert.RefSide.h0R := rfl
theorem h1_eq : Cert.KHost.h1K = Cert.RefSide.h1R := rfl
theorem tail_eq : Cert.KHost.tailK = Cert.RefSide.tailR := rfl
theorem nrm_eq : Cert.KHost.nrmK = Cert.RefSide.nrmR := rfl

end Cert.Meet

end
-- ==== Proof.KI.Val0.lean ====
/-
  The value of the gather call (pipeline 0): the array it leaves is the specification's
  `msgs[e, d] = Σ_k [src e = k] · w e · h[k, d]`, the sum over all 50176 padded node rows.

  The grid is 831 rows of 49 points; point `t` works on edge block `t / 49` (1024 edges) and node block `t mod 49`
  (1024 nodes). At each point the body adds to the accumulator the product of the block's one-hot matrix
  `[src e = 1024 (t mod 49) + k] · w e` with the node block's features: into a zero accumulator this product is the plain sum
  over the 1024 contracted nodes, the integer 0/1 of the comparison converts to the reals 0 and 1, and changes of float format
  are the identity. The accumulator starts from zero at the first node block of a row, so after the `j`-th block it holds the
  sum over the nodes `0 … 1024 (j + 1) - 1` (induction on the point), and after the last one the sum over all 50176. That
  is what the output block receives and what is written back — once per edge block, after the last node block of its row —
  and the edge blocks tile the output array. Only associativity of `+` on the extended reals is used; no entry is
  assumed finite.
-/
import proofs.«179232_j88021059764774_1_alg».proof.Proof.KI.R0Dat
import proofs.«179232_j88021059764774_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat Cfg Window)

section Pieces
variable {F : FTy → Type} [FloatOps F]

/-- The zero offsets of a whole-block access. -/
theorem hz0 : (![0, 0] : Fin 2 → Nat) = fun _ => 0 := funext fun a => by fin_cases a <;> rfl

/-- In the middle of a row the accumulator, found at `xs0`, is left at the body's sum payload of the three blocks and `xs0`. -/
theorem accB0 (c : Dev nD) (i : grid0.Coords) (a2 : Memref sig .tc .vmem S1024x1 .i32) (h2 : a2.IsWhole) (a3 : Memref sig .tc .vmem S1024x1 .f32) (h3 : a3.IsWhole)
    (a4 : Memref sig .tc .vmem S1024x128 .bf16) (h4 : a4.IsWhole) (a5 : Memref sig .tc .vmem S1024x128 .bf16) (h5 : a5.IsWhole)
    (hc0 : ¬cond0_0 i) (hc1 : ¬cond0_1 i) (x0 : Vec F S1024x1 .i32) (x1 : Vec F S1024x1 .f32) (x2 : Vec F S1024x128 .bf16) (xs0 : Vec F S1024x128 .f32)
    (hcov : ∀ y : S1024x128.Idx, ∃ pc ∈ (kernelRun0_B (F := F) c i a2 h2 a3 h3 a4 h4 a5 h5 scM0_0 (Memref.isWhole_whole _) hc0 hc1 x0 x1 x2 xs0).2.1, y ∈ pc.1.set) :
    sRead0 (kernelRun0_B (F := F) c i a2 h2 a3 h3 a4 h4 a5 h5 scM0_0 (Memref.isWhole_whole _) hc0 hc1 x0 x1 x2 xs0).2.1 = k0_pay2 i x0 x1 xs0 x2 := by
  unfold sRead0
  rw [View.read_writes_eq_canon _ _ _ hcov]
  unfold kernelRun0_B
  dsimp only
  rw [View.canon_unit_zero hz0]
  simp only [View.readAt_eq_ld, h2.read_unread, h3.read_unread, h4.read_unread, (Memref.isWhole_whole cc0_scratch0).read_unread,
    View.ld_unit_zero (S := S1024x128) hz0, View.ld_unit_zero (S := S1024x1) hz0]

/-- At the first block of a row it is left at the sum payload over the zero accumulator. -/
theorem accA0 (c : Dev nD) (i : grid0.Coords) (a2 : Memref sig .tc .vmem S1024x1 .i32) (h2 : a2.IsWhole) (a3 : Memref sig .tc .vmem S1024x1 .f32) (h3 : a3.IsWhole)
    (a4 : Memref sig .tc .vmem S1024x128 .bf16) (h4 : a4.IsWhole) (a5 : Memref sig .tc .vmem S1024x128 .bf16) (h5 : a5.IsWhole)
    (hc0 : cond0_0 i) (hc1 : ¬cond0_1 i) (x0 : Vec F S1024x1 .i32) (x1 : Vec F S1024x1 .f32) (x2 : Vec F S1024x128 .bf16)
    (hcov : ∀ y : S1024x128.Idx, ∃ pc ∈ (kernelRun0_A (F := F) c i a2 h2 a3 h3 a4 h4 a5 h5 scM0_0 (Memref.isWhole_whole _) hc0 hc1 x0 x1 x2).2.1, y ∈ pc.1.set) :
    sRead0 (kernelRun0_A (F := F) c i a2 h2 a3 h3 a4 h4 a5 h5 scM0_0 (Memref.isWhole_whole _) hc0 hc1 x0 x1 x2).2.1 = k0_pay2 i x0 x1 k0_pay1 x2 := by
  unfold sRead0
  rw [View.read_writes_eq_canon _ _ _ hcov]
  unfold kernelRun0_A
  dsimp only
  sl_unfold_words
  rw [View.canon_cons_unit_zero (S := S1024x128) hz0, View.readCov_unit_zero (S := S1024x128) _ hz0]
  simp only [View.readAt_eq_ld, h2.read_unread, h3.read_unread, h4.read_unread,
    View.ld_unit_zero (S := S1024x128) hz0, View.ld_unit_zero (S := S1024x1) hz0]

/-- At the last block of a row the accumulator is left as in the middle, -/
theorem accC0 (c : Dev nD) (i : grid0.Coords) (a2 : Memref sig .tc .vmem S1024x1 .i32) (h2 : a2.IsWhole) (a3 : Memref sig .tc .vmem S1024x1 .f32) (h3 : a3.IsWhole)
    (a4 : Memref sig .tc .vmem S1024x128 .bf16) (h4 : a4.IsWhole) (a5 : Memref sig .tc .vmem S1024x128 .bf16) (h5 : a5.IsWhole)
    (hc0 : ¬cond0_0 i) (hc1 : cond0_1 i) (x0 : Vec F S1024x1 .i32) (x1 : Vec F S1024x1 .f32) (x2 : Vec F S1024x128 .bf16) (xs0 : Vec F S1024x128 .f32)
    (hcov : ∀ y : S1024x128.Idx, ∃ pc ∈ (kernelRun0_C (F := F) c i a2 h2 a3 h3 a4 h4 a5 h5 scM0_0 (Memref.isWhole_whole _) hc0 hc1 x0 x1 x2 xs0).2.1, y ∈ pc.1.set) :
    sRead0 (kernelRun0_C (F := F) c i a2 h2 a3 h3 a4 h4 a5 h5 scM0_0 (Memref.isWhole_whole _) hc0 hc1 x0 x1 x2 xs0).2.1 = k0_pay2 i x0 x1 xs0 x2 := by
  unfold sRead0
  rw [View.read_writes_eq_canon _ _ _ hcov]
  unfold kernelRun0_C
  dsimp only
  sl_unfold_words
  rw [View.canon_unit_zero hz0]
  simp only [View.readAt_eq_ld, h2.read_unread, h3.read_unread, h4.read_unread, (Memref.isWhole_whole cc0_scratch0).read_unread,
    View.ld_unit_zero (S := S1024x128) hz0, View.ld_unit_zero (S := S1024x1) hz0]

/-- and the output block is left at that accumulator in the output's format. -/
theorem outC0 (c : Dev nD) (i : grid0.Coords) (a2 : Memref sig .tc .vmem S1024x1 .i32) (h2 : a2.IsWhole) (a3 : Memref sig .tc .vmem S1024x1 .f32) (h3 : a3.IsWhole)
    (a4 : Memref sig .tc .vmem S1024x128 .bf16) (h4 : a4.IsWhole) (a5 : Memref sig .tc .vmem S1024x128 .bf16) (h5 : a5.IsWhole)
    (hc0 : ¬cond0_0 i) (hc1 : cond0_1 i) (x0 : Vec F S1024x1 .i32) (x1 : Vec F S1024x1 .f32) (x2 : Vec F S1024x128 .bf16) (xs0 : Vec F S1024x128 .f32)
    (hcov : ∀ y : S1024x128.Idx, ∃ pc ∈ (kernelRun0_C (F := F) c i a2 h2 a3 h3 a4 h4 a5 h5 scM0_0 (Memref.isWhole_whole _) hc0 hc1 x0 x1 x2 xs0).1, y ∈ pc.1.set) :
    oRead0 (kernelRun0_C (F := F) c i a2 h2 a3 h3 a4 h4 a5 h5 scM0_0 (Memref.isWhole_whole _) hc0 hc1 x0 x1 x2 xs0).1 = k0_pay3 (k0_pay2 i x0 x1 xs0 x2) := by
  unfold oRead0
  rw [View.read_writes_eq_canon _ _ _ hcov]
  unfold kernelRun0_C
  dsimp only
  sl_unfold_words
  rw [View.canon_unit_zero hz0, View.readCov_unit_zero (S := S1024x128) _ hz0]
  simp only [View.readAt_eq_ld, h2.read_unread, h3.read_unread, h4.read_unread, (Memref.isWhole_whole cc0_scratch0).read_unread,
    View.ld_unit_zero (S := S1024x128) hz0, View.ld_unit_zero (S := S1024x1) hz0]

end Pieces

section Pay

/-- The 0/1 word of an integer equality, widened and converted, is the indicator of the equality. -/
theorem ind_cmpi0 (a b : BitVec 32) :
    (FloatOps.sitofp (F := Ideal) .f32 ((IntOp.cmpi .eq a b).setWidth 32) : EReal) = Cert.Spec.ind a b := by
  unfold Cert.Spec.ind
  by_cases h : a = b
  · rw [if_pos h, show (IntOp.cmpi .eq a b).setWidth 32 = 1#32 from by subst h; simp [IntOp.cmpi]]
    show (((1#32 : BitVec 32).toInt : ℝ) : EReal) = 1
    rw [show (1#32 : BitVec 32).toInt = 1 from by decide]; simp
  · rw [if_neg h, show (IntOp.cmpi .eq a b).setWidth 32 = 0#32 from by
      have hb : (a == b) = false := by simpa using h
      simp [IntOp.cmpi, hb]]
    show (((0#32 : BitVec 32).toInt : ℝ) : EReal) = 0
    rw [show (0#32 : BitVec 32).toInt = 0 from by decide]; simp

/-- Node block `j`'s `k`-th node id, as the kernel computes it in 32-bit words, is the word of `1024 j + k`. -/
theorem node_id0 (j : ℕ) (hj : j < 49) (k : Fin 1024) :
    IntOp.addi (Scalar.muli (BitVec.ofNat 32 j) 1024#32) (BitVec.ofNat 32 k.val) = BitVec.ofNat 32 (j * 1024 + k.val) := by
  apply BitVec.eq_of_toNat_eq
  have hk := k.isLt
  show ((BitVec.ofNat 32 j * 1024#32 + BitVec.ofNat 32 k.val : BitVec 32)).toNat = _
  simp only [BitVec.toNat_add, BitVec.toNat_mul, BitVec.toNat_ofNat]
  omega

/-- The contraction of the body's matrix product: [1024, 1024] by [1024, 128] over the shared axis. -/
abbrev Dmm0 := dot_S1024x1024_S1024x128_S1024x128_1_0_0_1_n_n

/-- The sum payload at an entry: the accumulator's entry plus, over the 1024 nodes of the node block, the indicator that the
    edge's source is the node, times the edge's weight, times the node's feature. -/
theorem pay0_2_apply (i : grid0.Coords) (v7 : Vec Ideal S1024x1 .i32) (v14 : Vec Ideal S1024x1 .f32) (v19 : Vec Ideal S1024x128 .f32)
    (v20 : Vec Ideal S1024x128 .bf16) (p : Fin 1024) (q : Fin 128) :
    (k0_pay2 (F := Ideal) i v7 v14 v19 v20 (ix2 p q) : EReal)
      = v19 (ix2 p q) + ∑ k : Fin 1024, Cert.Spec.ind (v7 (ix2 p (0 : Fin 1))) (BitVec.ofNat 32 ((i 1).val * 1024 + k.val)) * v14 (ix2 p (0 : Fin 1)) * v20 (ix2 k q) := by
  unfold k0_pay2
  simp only [shapeCast_self]
  refine (addf_apply _ _ _).trans ?_
  refine congrArg (v19 (ix2 p q) + ·) ?_
  refine (Ideal.matmul_constant_zero_apply (φ₁ := .bf16) (φ₂ := .bf16) Dmm0 none _ v20 (ix2 p q)).trans ?_
  rw [← Equiv.sum_comp (contrEquiv1 Dmm0 1024 rfl rfl).symm]
  refine Finset.sum_congr rfl fun k _ => ?_
  have c2 := contrEquiv1_symm_val Dmm0 1024 rfl rfl k
  have l2 : Dmm0.lhsIdx (ix2 p q) ((contrEquiv1 Dmm0 1024 rfl rfl).symm k) = ix2 p k := by
    funext ax; apply Fin.ext
    match ax with
    | ⟨0, _⟩ => simp [DotDims.lhsIdx, Dmm0, dot_S1024x1024_S1024x128_S1024x128_1_0_0_1_n_n]; rfl
    | ⟨1, _⟩ => simp [DotDims.lhsIdx, Dmm0, dot_S1024x1024_S1024x128_S1024x128_1_0_0_1_n_n]; exact c2
  have r2 : Dmm0.rhsIdx (ix2 p q) ((contrEquiv1 Dmm0 1024 rfl rfl).symm k) = ix2 k q := by
    funext ax; apply Fin.ext
    match ax with
    | ⟨0, _⟩ => simp [DotDims.rhsIdx, Dmm0, dot_S1024x1024_S1024x128_S1024x128_1_0_0_1_n_n]; exact c2
    | ⟨1, _⟩ => simp [DotDims.rhsIdx, Dmm0, dot_S1024x1024_S1024x128_S1024x128_1_0_0_1_n_n]; rfl
  rw [l2, r2]
  refine congrArg (· * v20 (ix2 k q)) ?_
  have hi : (i 1).val < 49 := (i 1).isLt
  have hb7 : broadcastTo S1024x1024 v7 broadcasts_S1024x1_S1024x1024 (ix2 p k) = v7 (ix2 p (0 : Fin 1)) :=
    broadcastTo_apply v7 _ (ix2 p k) (ix2 p (0 : Fin 1)) (fun a => by match a with | ⟨0, _⟩ => rfl | ⟨1, _⟩ => rfl)
  have hb14 : broadcastTo S1024x1024 (truncf (F := Ideal) (φ := .f32) .bf16 v14 bitsLt_bf16_f32) broadcasts_S1024x1_S1024x1024 (ix2 p k) = v14 (ix2 p (0 : Fin 1)) :=
    broadcastTo_apply (truncf (F := Ideal) (φ := .f32) .bf16 v14 bitsLt_bf16_f32) _ (ix2 p k) (ix2 p (0 : Fin 1)) (fun a => by match a with | ⟨0, _⟩ => rfl | ⟨1, _⟩ => rfl)
  have hio : iota .tc S1024x1024 32 [1] iota_S1024x1024_d1_w32 (ix2 p k) = BitVec.ofNat 32 k.val :=
    iota_single_apply .tc S1024x1024 32 1 _ (ix2 p k)
  show FloatOps.sitofp (F := Ideal) .f32 ((IntOp.cmpi .eq (broadcastTo S1024x1024 v7 broadcasts_S1024x1_S1024x1024 (ix2 p k))
      (IntOp.addi (Scalar.muli (BitVec.ofNat 32 (i 1).val) 1024#32) (iota .tc S1024x1024 32 [1] iota_S1024x1024_d1_w32 (ix2 p k)))).setWidth 32)
    * (broadcastTo S1024x1024 (truncf (F := Ideal) (φ := .f32) .bf16 v14 bitsLt_bf16_f32) broadcasts_S1024x1_S1024x1024 (ix2 p k)) = _
  rw [hb7, hb14, hio, node_id0 _ hi k, ind_cmpi0]

/-- The zeroed accumulator is zero. -/
theorem pay0_1_apply (j : S1024x128.Idx) : (k0_pay1 (F := Ideal) j : EReal) = 0 := by
  unfold k0_pay1
  simp only [shapeCast_self]
  exact Ideal.ofBits_zero_f32

/-- Storing the accumulator in the output's format changes nothing. -/
theorem pay0_3_apply (v30 : Vec Ideal S1024x128 .f32) (j : S1024x128.Idx) : (k0_pay3 (F := Ideal) v30 j : EReal) = v30 j := rfl

end Pay

section Blocks

/-- Where each window's block sits at point `t`: the edge-side windows follow the row of blocks `t / 49`, the node-feature window
    the node block `t mod 49`; every window's second block coordinate is 0. -/
theorem idx0_0 (t : Fin cfg0.N) : win0_0.index t 0 = t.val / 49 ∧ win0_0.index t 1 = 0 := by
  have hN : t.val < 40719 := lt_of_lt_of_eq t.isLt N_0
  refine ⟨?_, rfl⟩
  show (BitVec.ofNat 32 ((grid0.coords t) 0).val).toNat = _
  rw [BitVec.toNat_ofNat, coord0_0 t]; omega
theorem idx0_1 (t : Fin cfg0.N) : win0_1.index t 0 = t.val / 49 ∧ win0_1.index t 1 = 0 := by
  have hN : t.val < 40719 := lt_of_lt_of_eq t.isLt N_0
  refine ⟨?_, rfl⟩
  show (BitVec.ofNat 32 ((grid0.coords t) 0).val).toNat = _
  rw [BitVec.toNat_ofNat, coord0_0 t]; omega
theorem idx0_2 (t : Fin cfg0.N) : win0_2.index t 0 = t.val % 49 ∧ win0_2.index t 1 = 0 := by
  refine ⟨?_, rfl⟩
  show (BitVec.ofNat 32 ((grid0.coords t) 1).val).toNat = _
  rw [BitVec.toNat_ofNat, coord0_1 t]; omega
theorem idx0_3 (t : Fin cfg0.N) : win0_3.index t 0 = t.val / 49 ∧ win0_3.index t 1 = 0 := by
  have hN : t.val < 40719 := lt_of_lt_of_eq t.isLt N_0
  refine ⟨?_, rfl⟩
  show (BitVec.ofNat 32 ((grid0.coords t) 0).val).toNat = _
  rw [BitVec.toNat_ofNat, coord0_0 t]; omega

/-- The output block is written back exactly after the last node block of its row. -/
theorem flush0_3_iff (t : Fin cfg0.N) : (cfg0.win 3).flush t = true ↔ t.val % 49 = 48 := by
  have hN : t.val < 40719 := lt_of_lt_of_eq t.isLt N_0
  constructor
  · intro hf
    by_contra h
    have := noFlush0_3 t (fun hc => h ((hcond0_1 t).mp hc))
    rw [this] at hf; exact Bool.noConfusion hf
  · intro h
    show (win0_3.isOut && (decide (t.val + 1 = grid0.N) || decide (∃ h : t.val + 1 < grid0.N, win0_3.index ⟨t.val + 1, h⟩ ≠ win0_3.index t))) = true
    by_cases hl : t.val + 1 = grid0.N
    · simp [hl]
    · have h1 : t.val + 1 < grid0.N := by rw [N_0] at hl ⊢; omega
      have hne : win0_3.index ⟨t.val + 1, h1⟩ ≠ win0_3.index t := fun e => by
        have e0 := congrFun e 0
        rw [(idx0_3 ⟨t.val + 1, h1⟩).1, (idx0_3 t).1] at e0
        simp only at e0; omega
      have hex : ∃ h : t.val + 1 < grid0.N, win0_3.index ⟨t.val + 1, h⟩ ≠ win0_3.index t := ⟨h1, hne⟩
      simp only [hex, decide_true, Bool.or_true, Bool.and_true]

variable (V : (c : Dev nD) → (b : Ref sig .tc) → Buf (Elt Ideal) ((c : Thread nD τ).loc b)) (c : Dev nD)

/-- The blocks the body reads at point `t`, as entries of the whole arrays. -/
theorem rd0_0 (t : Fin cfg0.N) (p : Fin 1024) (e : Fin 850944) (he : e.val = t.val / 49 * 1024 + p.val) :
    (iblk0 V c 0 t : S1024x1.Idx → BitVec 32) (ix2 p (0 : Fin 1)) = (V c main_v38 : S850944x1.Idx → BitVec 32) (ix2 e (0 : Fin 1)) := by
  unfold iblk0
  rw [View.read_apply]
  show V c main_v38 _ = V c main_v38 _
  congr 1
  funext a; apply Fin.ext
  match a with
  | ⟨0, _⟩ => show win0_0.index t 0 * 1024 + 1 * p.val = e.val; rw [(idx0_0 t).1, he]; omega
  | ⟨1, _⟩ => show win0_0.index t 1 * 1 + 1 * 0 = 0; rw [(idx0_0 t).2]
theorem rd0_1 (t : Fin cfg0.N) (p : Fin 1024) (e : Fin 850944) (he : e.val = t.val / 49 * 1024 + p.val) :
    (iblk0 V c 1 t : S1024x1.Idx → EReal) (ix2 p (0 : Fin 1)) = (V c main_v39 : S850944x1.Idx → EReal) (ix2 e (0 : Fin 1)) := by
  unfold iblk0
  rw [View.read_apply]
  show V c main_v39 _ = V c main_v39 _
  congr 1
  funext a; apply Fin.ext
  match a with
  | ⟨0, _⟩ => show win0_1.index t 0 * 1024 + 1 * p.val = e.val; rw [(idx0_1 t).1, he]; omega
  | ⟨1, _⟩ => show win0_1.index t 1 * 1 + 1 * 0 = 0; rw [(idx0_1 t).2]
theorem rd0_2 (t : Fin cfg0.N) (k : Fin 1024) (q : Fin 128) (n : Fin 50176) (hn : n.val = t.val % 49 * 1024 + k.val) :
    (iblk0 V c 2 t : S1024x128.Idx → EReal) (ix2 k q) = (V c main_v44 : S50176x128.Idx → EReal) (ix2 n q) := by
  unfold iblk0
  rw [View.read_apply]
  show V c main_v44 _ = V c main_v44 _
  congr 1
  funext a; apply Fin.ext
  match a with
  | ⟨0, _⟩ => show win0_2.index t 0 * 1024 + 1 * k.val = n.val; rw [(idx0_2 t).1, hn]; omega
  | ⟨1, _⟩ => show win0_2.index t 1 * 128 + 1 * q.val = q.val; rw [(idx0_2 t).2]; omega

end Blocks

section Steps
variable {F : FTy → Type} [FloatOps F]
variable (V : (c : Dev nD) → (b : Ref sig .tc) → Buf (Elt F) ((c : Thread nD τ).loc b)) (c : Dev nD)

/-- At the first node block of a row the accumulator is the block's one-hot product added to zero; -/
theorem acc0_first (t : Fin cfg0.N) (h0 : t.val % 49 = 0) :
    (outsAt0 V c t.val t.isLt).2 = k0_pay2 (grid0.coords t) (iblk0 V c 0 t) (iblk0 V c 1 t) k0_pay1 (iblk0 V c 2 t) := by
  have h1 : ¬t.val % 49 = 48 := by omega
  have key := accA0 (F := F) c (grid0.coords t) (ms0_0 t) (hs0_0 t) (ms0_1 t) (hs0_1 t) (ms0_2 t) (hs0_2 t) (ms0_3 t) (hs0_3 t)
    ((hcond0_0 t).mpr h0) (fun h => h1 ((hcond0_1 t).mp h)) (iblk0 V c 0 t) (iblk0 V c 1 t) (iblk0 V c 2 t)
    (scover0_A V c t ((hcond0_0 t).mpr h0) (fun h => h1 ((hcond0_1 t).mp h)))
  rw [outsAt0_A V c t h0 h1]
  dsimp only
  exact key

/-- at every later block it is the block's one-hot product added to what the block before left; -/
theorem acc0_next (t : Fin cfg0.N) (h0 : ¬t.val % 49 = 0) :
    (outsAt0 V c t.val t.isLt).2 = k0_pay2 (grid0.coords t) (iblk0 V c 0 t) (iblk0 V c 1 t) (prevAcc0 V c t) (iblk0 V c 2 t) := by
  by_cases h1 : t.val % 49 = 48
  · have key := accC0 (F := F) c (grid0.coords t) (ms0_0 t) (hs0_0 t) (ms0_1 t) (hs0_1 t) (ms0_2 t) (hs0_2 t) (ms0_3 t) (hs0_3 t)
      (fun h => h0 ((hcond0_0 t).mp h)) ((hcond0_1 t).mpr h1) (iblk0 V c 0 t) (iblk0 V c 1 t) (iblk0 V c 2 t) (prevAcc0 V c t)
      (scover0_C V c t (fun h => h0 ((hcond0_0 t).mp h)) ((hcond0_1 t).mpr h1) (prevAcc0 V c t))
    rw [outsAt0_C V c t h0 h1]
    dsimp only
    exact key
  · have key := accB0 (F := F) c (grid0.coords t) (ms0_0 t) (hs0_0 t) (ms0_1 t) (hs0_1 t) (ms0_2 t) (hs0_2 t) (ms0_3 t) (hs0_3 t)
      (fun h => h0 ((hcond0_0 t).mp h)) (fun h => h1 ((hcond0_1 t).mp h)) (iblk0 V c 0 t) (iblk0 V c 1 t) (iblk0 V c 2 t) (prevAcc0 V c t)
      (scover0_B V c t (fun h => h0 ((hcond0_0 t).mp h)) (fun h => h1 ((hcond0_1 t).mp h)) (prevAcc0 V c t))
    rw [outsAt0_B V c t h0 h1]
    dsimp only
    exact key

/-- and at the last block of a row the output block receives the accumulator, in the output's format. -/
theorem out0_last (t : Fin cfg0.N) (h1 : t.val % 49 = 48) :
    (outsAt0 V c t.val t.isLt).1 = k0_pay3 (outsAt0 V c t.val t.isLt).2 := by
  have h0 : ¬t.val % 49 = 0 := by omega
  have key := outC0 (F := F) c (grid0.coords t) (ms0_0 t) (hs0_0 t) (ms0_1 t) (hs0_1 t) (ms0_2 t) (hs0_2 t) (ms0_3 t) (hs0_3 t)
    (fun h => h0 ((hcond0_0 t).mp h)) ((hcond0_1 t).mpr h1) (iblk0 V c 0 t) (iblk0 V c 1 t) (iblk0 V c 2 t) (prevAcc0 V c t)
    (cover0_C V c t (fun h => h0 ((hcond0_0 t).mp h)) ((hcond0_1 t).mpr h1) (prevAcc0 V c t))
  rw [acc0_next V c t h0, outsAt0_C V c t h0 h1]
  dsimp only
  exact key

theorem outs0_congr (n n' : ℕ) (h : n = n') (hn : n < cfg0.N) (hn' : n' < cfg0.N) : outsAt0 V c n hn = outsAt0 V c n' hn' := by
  subst h; rfl

end Steps

section Value
variable (V : (c : Dev nD) → (b : Ref sig .tc) → Buf (Elt Ideal) ((c : Thread nD τ).loc b)) (c : Dev nD)

/-- Node `k`'s contribution to entry `q` of edge `e`'s message: the indicator that the edge's source is `k`, times the
    edge's weight, times the node's feature (zero past the padded node range, which no sum below reaches). -/
def term0 (e : Fin 850944) (q : Fin 128) (k : ℕ) : EReal :=
  if hk : k < 50176 then
    Cert.Spec.ind ((V c main_v38 : S850944x1.Idx → BitVec 32) (ix2 e (0 : Fin 1))) (BitVec.ofNat 32 k)
      * (V c main_v39 : S850944x1.Idx → EReal) (ix2 e (0 : Fin 1)) * (V c main_v44 : S50176x128.Idx → EReal) (ix2 (⟨k, hk⟩ : Fin 50176) q)
  else 0

/-- One point's body adds to the accumulator the contributions of the 1024 nodes of its node block. -/
theorem step0 (t : Fin cfg0.N) (acc : Vec Ideal S1024x128 .f32) (p : Fin 1024) (q : Fin 128) (e : Fin 850944)
    (he : e.val = t.val / 49 * 1024 + p.val) :
    (k0_pay2 (F := Ideal) (grid0.coords t) (iblk0 V c 0 t) (iblk0 V c 1 t) acc (iblk0 V c 2 t) (ix2 p q) : EReal)
      = acc (ix2 p q) + ∑ k ∈ Finset.range 1024, term0 V c e q (t.val % 49 * 1024 + k) := by
  refine (pay0_2_apply (grid0.coords t) (iblk0 V c 0 t) (iblk0 V c 1 t) acc (iblk0 V c 2 t) p q).trans ?_
  refine congrArg (acc (ix2 p q) + ·) ?_
  rw [Finset.sum_range]
  refine Finset.sum_congr rfl fun k _ => ?_
  have hk := k.isLt
  have ht : t.val % 49 < 49 := Nat.mod_lt _ (by norm_num)
  have hlt : t.val % 49 * 1024 + k.val < 50176 := by omega
  rw [coord0_1 t, rd0_0 V c t p e he, rd0_1 V c t p e he, rd0_2 V c t k q ⟨_, hlt⟩ rfl]
  unfold term0
  rw [dif_pos hlt]

/-- After the `j`-th node block of a row the accumulator holds, for each edge of the row's edge block, the contributions of
    the nodes `0 … 1024 (j + 1) - 1`. -/
theorem acc0_eq : ∀ (n : ℕ) (hn : n < cfg0.N) (p : Fin 1024) (q : Fin 128) (e : Fin 850944) (he : e.val = n / 49 * 1024 + p.val),
    ((outsAt0 V c n hn).2 (ix2 p q) : EReal) = ∑ k ∈ Finset.range ((n % 49 + 1) * 1024), term0 V c e q k := by
  intro n
  induction n with
  | zero =>
    intro hn p q e he
    rw [acc0_first V c ⟨0, hn⟩ rfl, step0 V c ⟨0, hn⟩ _ p q e he, pay0_1_apply, zero_add]
    refine Finset.sum_congr rfl fun k _ => ?_
    show term0 V c e q (0 % 49 * 1024 + k) = _
    rw [show 0 % 49 * 1024 + k = k from by omega]
  | succ m ih =>
    intro hn p q e he
    by_cases h0 : (m + 1) % 49 = 0
    · rw [acc0_first V c ⟨m + 1, hn⟩ h0, step0 V c ⟨m + 1, hn⟩ _ p q e he, pay0_1_apply, zero_add]
      show ∑ k ∈ Finset.range 1024, term0 V c e q ((m + 1) % 49 * 1024 + k) = _
      rw [h0]
      refine Finset.sum_congr rfl fun k _ => ?_
      rw [show 0 * 1024 + k = k from by omega]
    · have hm : m < cfg0.N := Nat.lt_of_succ_lt hn
      have e1 : (m + 1) / 49 = m / 49 := by omega
      have e2 : (m + 1) % 49 = m % 49 + 1 := by omega
      rw [acc0_next V c ⟨m + 1, hn⟩ h0, step0 V c ⟨m + 1, hn⟩ _ p q e he]
      show (outsAt0 V c (m + 1 - 1) _).2 (ix2 p q) + ∑ k ∈ Finset.range 1024, term0 V c e q ((m + 1) % 49 * 1024 + k) = _
      rw [outs0_congr V c (m + 1 - 1) m (by omega) _ hm, ih hm p q e (by rw [he, e1]), e2,
        show (m % 49 + 1 + 1) * 1024 = (m % 49 + 1) * 1024 + 1024 from by ring, Finset.sum_range_add]

/-- The spec's sum over the 50176 padded node rows is the sum of the contributions over that range. -/
theorem gather0_eq_sum (e : Fin 850944) (q : Fin 128) :
    Cert.Spec.gatherOut (V c main_v38) (V c main_v39) (V c main_v44) (ix2 e q) = ∑ k ∈ Finset.range 50176, term0 V c e q k := by
  rw [Finset.sum_range]
  unfold Cert.Spec.gatherOut
  refine Finset.sum_congr rfl fun k _ => ?_
  unfold term0
  rw [dif_pos k.isLt]

/-- Reading an array through the output window's block at point `t` reads it at the block's entries. -/
theorem read_blk0_3 (t : Fin cfg0.N) (G : S850944x128.Idx → EReal) (j : ((cfg0.win 3).xblock (grid0.coords t)).Idx) :
    ((cfg0.win 3).blk t).view.read (Elt Ideal) G j = G (((cfg0.win 3).blk t).view.emb j) := rfl

/-- What a write-back writes: the edge block's rows of the spec. -/
theorem flushed0_eq (t : Fin cfg0.N) (hf : (cfg0.win 3).flush t = true) :
    (dat0 V c).flushed 3 t = ((cfg0.win 3).blk t).view.read (Elt Ideal) (Cert.Spec.gatherOut (V c main_v38) (V c main_v39) (V c main_v44)) := by
  have h48 : t.val % 49 = 48 := (flush0_3_iff t).mp hf
  have hN : t.val < 40719 := lt_of_lt_of_eq t.isLt N_0
  show (cfg0.win 3).cut (grid0.coords t) ((dat0 V c).after 3 t) = _
  rw [after0_3, out0_last V c t h48]
  funext j
  have hj0 : (j 0).val < 1024 := (j 0).isLt
  have hj1 : (j 1).val < 128 := (j 1).isLt
  have hlt : t.val / 49 * 1024 + (j 0).val < 850944 := by omega
  have hx : (win0_3.xinj (grid0.coords t) j : S1024x128.Idx) = ix2 (⟨(j 0).val, hj0⟩ : Fin 1024) (⟨(j 1).val, hj1⟩ : Fin 128) := by
    funext a; apply Fin.ext
    match a with
    | ⟨0, _⟩ => rfl
    | ⟨1, _⟩ => rfl
  refine Eq.trans ?_ (read_blk0_3 t (Cert.Spec.gatherOut (V c main_v38) (V c main_v39) (V c main_v44)) j).symm
  refine Eq.trans (b := ((outsAt0 V c t.val t.isLt).2 (ix2 (⟨(j 0).val, hj0⟩ : Fin 1024) (⟨(j 1).val, hj1⟩ : Fin 128)) : EReal)) ?_ ?_
  · exact congrArg (outsAt0 V c t.val t.isLt).2 hx
  rw [acc0_eq V c t.val t.isLt ⟨(j 0).val, hj0⟩ ⟨(j 1).val, hj1⟩ ⟨t.val / 49 * 1024 + (j 0).val, hlt⟩ rfl, h48]
  have hemb : ((cfg0.win 3).blk t).view.emb j = ix2 (⟨t.val / 49 * 1024 + (j 0).val, hlt⟩ : Fin 850944) (⟨(j 1).val, hj1⟩ : Fin 128) := by
    funext a; apply Fin.ext
    match a with
    | ⟨0, _⟩ => show win0_3.index t 0 * 1024 + 1 * (j 0).val = t.val / 49 * 1024 + (j 0).val; rw [(idx0_3 t).1]; omega
    | ⟨1, _⟩ => show win0_3.index t 1 * 128 + 1 * (j 1).val = (j 1).val; rw [(idx0_3 t).2]; omega
  rw [hemb, gather0_eq_sum]

/-- The gather call leaves the spec's array: every edge block is written back once, after the last node block of its row. -/
theorem final0 : ((dat0 (F := Ideal) V c).arrAt 3 cfg0.N : S850944x128.Idx → EReal)
    = Cert.Spec.gatherOut (V c main_v38) (V c main_v39) (V c main_v44) :=
  (dat0 V c).arrAt_eq_of_cover 3 (Cert.Spec.gatherOut (V c main_v38) (V c main_v39) (V c main_v44)) (flushed0_eq V c) fun i => by
    have hi0 : (i 0).val < 850944 := (i 0).isLt
    have hi1 : (i 1).val < 128 := (i 1).isLt
    have hN : cfg0.N = 40719 := N_0
    have hlt : (i 0).val / 1024 * 49 + 48 < cfg0.N := by rw [hN]; omega
    refine ⟨⟨(i 0).val / 1024 * 49 + 48, hlt⟩, (flush0_3_iff _).mpr (by show ((i 0).val / 1024 * 49 + 48) % 49 = 48; omega), ?_⟩
    show i ∈ ((View.whole main_v45).slice (win0_3.rect ⟨(i 0).val / 1024 * 49 + 48, hlt⟩)).set
    rw [View.set_slice_whole, Rect.mem_set_unit]
    intro a
    have hq := (idx0_3 ⟨(i 0).val / 1024 * 49 + 48, hlt⟩)
    match a with
    | ⟨0, _⟩ =>
      show win0_3.index ⟨(i 0).val / 1024 * 49 + 48, hlt⟩ 0 * 1024 ≤ (i 0).val ∧ (i 0).val < win0_3.index ⟨(i 0).val / 1024 * 49 + 48, hlt⟩ 0 * 1024 + 1024
      rw [hq.1]; show ((i 0).val / 1024 * 49 + 48) / 49 * 1024 ≤ (i 0).val ∧ (i 0).val < ((i 0).val / 1024 * 49 + 48) / 49 * 1024 + 1024
      omega
    | ⟨1, _⟩ =>
      show win0_3.index ⟨(i 0).val / 1024 * 49 + 48, hlt⟩ 1 * 128 ≤ (i 1).val ∧ (i 1).val < win0_3.index ⟨(i 0).val / 1024 * 49 + 48, hlt⟩ 1 * 128 + 128
      rw [hq.2]; omega

end Value

end Cert.KernelIdeal.Gen

end
-- ==== Proof.KI.Val1A.lean ====
/-
  The scatter call (pipeline 1), its arithmetic. What each control case leaves in the accumulator and in the output
  block, as the kernel's own expressions of the blocks it is given; and those expressions at an index over the extended
  reals: the one-hot matrix product is the sum, over the block's 1024 edges, of the indicator "the edge's destination
  is this node" times the edge's message (a matrix product into a zero accumulator is a plain sum there, and the
  conversions of a 0/1 word are 0 and 1); the final store adds the bias and replaces negative entries by zero.
-/
import proofs.«179232_j88021059764774_1_alg».proof.Proof.KI.R1Dat
import proofs.«179232_j88021059764774_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace Val1

/-! ## What each case's stores leave, as the kernel's expressions -/

section Pieces
variable {F : FTy → Type} [FloatOps F]

theorem hz1 : (![0, 0] : Fin 2 → Nat) = fun _ => 0 := funext fun a => by fin_cases a <;> rfl

theorem accC (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1x1024 .i32) (x1 : Vec F S1024x128 .bf16) (x2 : Vec F S1x128 .f32) (xs0 : Vec F S1024x128 .f32) :
    View.canon (kernelRun1_C (F := F) c i arg2 harg2 arg3 harg3 arg4 harg4 arg5 harg5 arg6 harg6 hc0 hc1 x0 x1 x2 xs0).2.1 = k1_pay2 i x0 xs0 x1 := by
  unfold kernelRun1_C
  dsimp only
  sl_unfold_words
  rw [View.canon_unit_zero hz1]
  simp only [View.readAt_eq_ld, harg2.read_unread, harg3.read_unread, harg4.read_unread, harg6.read_unread, View.ld_unit_zero (S := S1024x128) hz1, View.ld_unit_zero (S := S1x1024) hz1, View.ld_unit_zero (S := S1x128) hz1]

theorem outC (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1x1024 .i32) (x1 : Vec F S1024x128 .bf16) (x2 : Vec F S1x128 .f32) (xs0 : Vec F S1024x128 .f32) :
    View.canon (kernelRun1_C (F := F) c i arg2 harg2 arg3 harg3 arg4 harg4 arg5 harg5 arg6 harg6 hc0 hc1 x0 x1 x2 xs0).1 = k1_pay3 (k1_pay2 i x0 xs0 x1) x2 := by
  unfold kernelRun1_C
  dsimp only
  sl_unfold_words
  rw [View.canon_unit_zero hz1, View.readCov_unit_zero (S := S1024x128) _ hz1]
  simp only [View.readAt_eq_ld, harg2.read_unread, harg3.read_unread, harg4.read_unread, harg6.read_unread, View.ld_unit_zero (S := S1024x128) hz1, View.ld_unit_zero (S := S1x1024) hz1, View.ld_unit_zero (S := S1x128) hz1]

theorem accB (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1x1024 .i32) (x1 : Vec F S1024x128 .bf16) (x2 : Vec F S1x128 .f32) (xs0 : Vec F S1024x128 .f32) :
    View.canon (kernelRun1_B (F := F) c i arg2 harg2 arg3 harg3 arg4 harg4 arg5 harg5 arg6 harg6 hc0 hc1 x0 x1 x2 xs0).2.1 = k1_pay2 i x0 xs0 x1 := by
  unfold kernelRun1_B
  dsimp only
  sl_unfold_words
  rw [View.canon_unit_zero hz1]
  simp only [View.readAt_eq_ld, harg2.read_unread, harg3.read_unread, harg4.read_unread, harg6.read_unread, View.ld_unit_zero (S := S1024x128) hz1, View.ld_unit_zero (S := S1x1024) hz1, View.ld_unit_zero (S := S1x128) hz1]

theorem accA (c : Dev nD) (i : grid1.Coords) (arg2 : Memref sig .tc .vmem S1x1024 .i32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1x1024 .i32) (x1 : Vec F S1024x128 .bf16) (x2 : Vec F S1x128 .f32) :
    View.canon (kernelRun1_A (F := F) c i arg2 harg2 arg3 harg3 arg4 harg4 arg5 harg5 arg6 harg6 hc0 hc1 x0 x1 x2).2.1 = k1_pay2 i x0 (k1_pay1 (F := F)) x1 := by
  unfold kernelRun1_A
  dsimp only
  sl_unfold_words
  rw [View.canon_cons_unit_zero (S := S1024x128) hz1, View.readCov_unit_zero (S := S1024x128) _ hz1]
  simp only [View.readAt_eq_ld, harg2.read_unread, harg3.read_unread, harg4.read_unread, harg6.read_unread, View.ld_unit_zero (S := S1024x128) hz1, View.ld_unit_zero (S := S1x1024) hz1, View.ld_unit_zero (S := S1x128) hz1]

end Pieces

/-! ## The kernel's expressions at an index, over the extended reals -/

section Payloads

abbrev dotK : DotDims S1024x1024 S1024x128 S1024x128 := dot_S1024x1024_S1024x128_S1024x128_1_0_0_1_n_n

theorem dot_lhs0 (j : S1024x128.Idx) (q : dotK.contr.Idx) : (dotK.lhsIdx j q 0).val = (j 0).val := by
  unfold DotDims.lhsIdx
  rw [dif_neg (show ¬(0 : Fin S1024x1024.rank) ∈ dotK.lhsBatch by decide), dif_pos (show (0 : Fin S1024x1024.rank) ∈ dotK.lhsNonContracting by decide)]
  rfl
theorem dot_lhs1 (j : S1024x128.Idx) (q : dotK.contr.Idx) : (dotK.lhsIdx j q 1).val = (q ⟨0, by decide⟩).val :=
  dotK.lhsIdx_val_of_single rfl j q
theorem dot_rhs0 (j : S1024x128.Idx) (q : dotK.contr.Idx) : (dotK.rhsIdx j q 0).val = (q ⟨0, by decide⟩).val :=
  dotK.rhsIdx_val_of_single rfl j q
theorem dot_rhs1 (j : S1024x128.Idx) (q : dotK.contr.Idx) : (dotK.rhsIdx j q 1).val = (j 1).val := by
  unfold DotDims.rhsIdx
  rw [dif_neg (show ¬(1 : Fin S1024x128.rank) ∈ dotK.rhsBatch by decide), dif_pos (show (1 : Fin S1024x128.rank) ∈ dotK.rhsNonContracting by decide)]
  rfl

/-- The 0/1 word of an integer comparison, converted to a float, is the indicator of the equality. -/
theorem onehot_val (a b : BitVec 32) :
    (FloatOps.sitofp (F := Ideal) .f32 ((IntOp.cmpi .eq a b).setWidth 32) : EReal) = Cert.Spec.ind a b := by
  show (((BitVec.setWidth 32 (BitVec.ofBool (a == b))).toInt : ℝ) : EReal) = if a = b then 1 else 0
  by_cases h : a = b
  · rw [if_pos h, beq_iff_eq.mpr h]
    have e : (BitVec.setWidth 32 (BitVec.ofBool true)).toInt = 1 := by decide
    rw [e]; simp
  · rw [if_neg h, beq_eq_false_iff_ne.mpr h]
    have e : (BitVec.setWidth 32 (BitVec.ofBool false)).toInt = 0 := by decide
    rw [e]; simp

theorem nodeId_eq (a p : ℕ) : IntOp.addi (Scalar.muli (BitVec.ofNat 32 a) 1024#32) (BitVec.ofNat 32 p) = BitVec.ofNat 32 (a * 1024 + p) := by
  show BitVec.ofNat 32 a * BitVec.ofNat 32 1024 + BitVec.ofNat 32 p = _
  rw [← BitVec.ofNat_mul, ← BitVec.ofNat_add]

theorem pay1_apply (j : S1024x128.Idx) : k1_pay1 (F := Ideal) j = 0 := by
  unfold k1_pay1
  simp only [shapeCast_self]
  exact Ideal.ofBits_zero_f32

theorem pay2_apply (i : grid1.Coords) (v7 : Vec Ideal S1x1024 .i32) (v14 : Vec Ideal S1024x128 .f32) (v15 : Vec Ideal S1024x128 .bf16) (p : Fin 1024) (q : Fin 128) :
    k1_pay2 (F := Ideal) i v7 v14 v15 (ix2 p q) = v14 (ix2 p q) + ∑ k : Fin 1024, Cert.Spec.ind (BitVec.ofNat 32 ((i 0).val * 1024 + p.val)) (v7 (ix2 (0 : Fin 1) k)) * v15 (ix2 k q) := by
  unfold k1_pay2
  simp only [shapeCast_self]
  rw [addf_apply]
  refine congrArg (v14 (ix2 p q) + ·) ?_
  refine (Ideal.matmul_constant_zero_apply (φ₁ := .bf16) (φ₂ := .bf16) dotK none _ v15 (ix2 p q)).trans ?_
  rw [← Equiv.sum_comp (contrEquiv1 dotK 1024 rfl rfl).symm]
  refine Finset.sum_congr rfl fun k _ => ?_
  have hk := contrEquiv1_symm_val dotK 1024 rfl rfl k
  have el : dotK.lhsIdx (ix2 p q) ((contrEquiv1 dotK 1024 rfl rfl).symm k) = ix2 p k := funext fun a => Fin.ext (by
    match a with
    | ⟨0, _⟩ => exact dot_lhs0 _ _
    | ⟨1, _⟩ => exact (dot_lhs1 _ _).trans hk)
  have er : dotK.rhsIdx (ix2 p q) ((contrEquiv1 dotK 1024 rfl rfl).symm k) = ix2 k q := funext fun a => Fin.ext (by
    match a with
    | ⟨0, _⟩ => exact (dot_rhs0 _ _).trans hk
    | ⟨1, _⟩ => exact dot_rhs1 _ _)
  rw [el, er]
  refine congrArg (· * v15 (ix2 k q)) ?_
  rw [truncf_apply, sitofp_apply, extui_apply]
  show FloatOps.sitofp .f32 ((IntOp.cmpi .eq (IntOp.addi (Scalar.muli (BitVec.ofNat 32 (i 0).val) 1024#32) (iota .tc S1024x1024 32 [0] iota_S1024x1024_d0_w32 (ix2 p k))) (broadcastTo S1024x1024 v7 broadcasts_S1x1024_S1024x1024 (ix2 p k))).setWidth 32) = _
  rw [iota_single_apply, broadcastTo_apply v7 broadcasts_S1x1024_S1024x1024 (ix2 p k) (ix2 (0 : Fin 1) k) (fun a => by
    match a with
    | ⟨0, _⟩ => rfl
    | ⟨1, _⟩ => rfl), onehot_val]
  exact congrArg (Cert.Spec.ind · _) (nodeId_eq _ _)

theorem pay3_apply (v25 : Vec Ideal S1024x128 .f32) (v26 : Vec Ideal S1x128 .f32) (p : Fin 1024) (q : Fin 128) :
    k1_pay3 (F := Ideal) v25 v26 (ix2 p q) = max (v25 (ix2 p q) + v26 (ix2 (0 : Fin 1) q)) 0 := by
  unfold k1_pay3
  simp only [shapeCast_self]
  rw [maximumf_apply, addf_apply, broadcast_apply, broadcastTo_apply v26 broadcasts_S1x128_S1024x128 (ix2 p q) (ix2 (0 : Fin 1) q) (fun a => by
    match a with
    | ⟨0, _⟩ => rfl
    | ⟨1, _⟩ => rfl)]
  show max _ (Ideal.ofBits .f32 0x00000000#32) = _
  rw [Ideal.ofBits_zero_f32]

end Payloads

/-! ## The accumulator and the output block after a point, by the point's case -/

section Reads
variable {F : FTy → Type} [FloatOps F]
variable (V : (c : Dev nD) → (b : Ref sig .tc) → Buf (Elt F) ((c : Thread nD τ).loc b)) (c : Dev nD)

/-- At the first block of a row the accumulator ends at the one-hot product added to the zero block. -/
theorem acc_A (t : Fin cfg1.N) (h0 : t.val % 831 = 0) :
    (outsAt1 V c t.val t.isLt).2 = k1_pay2 (grid1.coords t) (iblk1 V c 0 t) (k1_pay1 (F := F)) (iblk1 V c 1 t) := by
  have h1 : ¬t.val % 831 = 830 := by omega
  rw [outsAt1_A V c t h0 h1]
  dsimp only
  refine (View.read_writes_eq_canon (Val := Elt F) VS1_0 VS1_0.junk _ (scover1_A V c t ((hcond1_0 t).mpr h0) (fun h => h1 ((hcond1_1 t).mp h)))).trans ?_
  exact accA (F := F) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)

/-- At every later block it ends at the one-hot product added to what the block before left. -/
theorem acc_B (t : Fin cfg1.N) (h0 : ¬t.val % 831 = 0) :
    (outsAt1 V c t.val t.isLt).2 = k1_pay2 (grid1.coords t) (iblk1 V c 0 t) (prevAcc1 V c t) (iblk1 V c 1 t) := by
  by_cases h1 : t.val % 831 = 830
  · rw [outsAt1_C V c t h0 h1]
    dsimp only
    refine (View.read_writes_eq_canon (Val := Elt F) VS1_0 VS1_0.junk _ (scover1_C V c t (fun h => h0 ((hcond1_0 t).mp h)) ((hcond1_1 t).mpr h1) (prevAcc1 V c t))).trans ?_
    exact accC (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (prevAcc1 V c t)
  · rw [outsAt1_B V c t h0 h1]
    dsimp only
    refine (View.read_writes_eq_canon (Val := Elt F) VS1_0 VS1_0.junk _ (scover1_B V c t (fun h => h0 ((hcond1_0 t).mp h)) (fun h => h1 ((hcond1_1 t).mp h)) (prevAcc1 V c t))).trans ?_
    exact accB (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (prevAcc1 V c t)

/-- At the last block of a row the output block is that accumulator plus the bias, negative entries replaced by zero. -/
theorem out_C (t : Fin cfg1.N) (h0 : ¬t.val % 831 = 0) (h1 : t.val % 831 = 830) :
    (outsAt1 V c t.val t.isLt).1 = k1_pay3 (k1_pay2 (grid1.coords t) (iblk1 V c 0 t) (prevAcc1 V c t) (iblk1 V c 1 t)) (iblk1 V c 2 t) := by
  rw [outsAt1_C V c t h0 h1]
  dsimp only
  refine (View.read_writes_eq_canon (Val := Elt F) VO1_3 VO1_3.junk _ (cover1_C V c t (fun h => h0 ((hcond1_0 t).mp h)) ((hcond1_1 t).mpr h1) (prevAcc1 V c t))).trans ?_
  exact outC (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (prevAcc1 V c t)

end Reads

end Val1

end Cert.KernelIdeal.Gen
end
-- ==== Proof.KI.Val1.lean ====
/-
  The scatter call (pipeline 1), its value. Within a row of the grid (the node block fixed) the accumulator after the
  j-th edge block is the sum of the one-hot products of the edge blocks 0..j, so after the last of the 831 blocks it is
  the sum over all 850944 = 831·1024 edges; the output block stored at the last point of the row is that sum plus the
  bias with negative entries replaced by zero; each output block is written back exactly once, at the last point of its
  row, and the 49 blocks tile the output array. Hence the output array is the scatter specification of the three
  arrays the call is given. Only associativity of the sum of extended reals is used, and no finiteness.
-/
import proofs.«179232_j88021059764774_1_alg».proof.Proof.KI.Val1A

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace Val1

section Value

variable (V : (c : Dev nD) → (b : Ref sig .tc) → Buf (Elt Ideal) ((c : Thread nD τ).loc b)) (c : Dev nD)

/-- Edge `k` of edge block `s`: edge `1024·s + k`. -/
def edgeAt (s : ℕ) (k : Fin 1024) : Fin 850944 := ⟨(s * 1024 + k.val) % 850944, Nat.mod_lt _ (by norm_num)⟩

/-- The destination row, the message matrix and the bias row the call is given. -/
abbrev dstA : S1x850944.Idx → BitVec 32 := V c main_v40
abbrev msgA : S850944x128.Idx → EReal := V c main_v45
abbrev biasA : S1x128.Idx → EReal := V c main_v46

theorem ofNat_toNat_lt (x : ℕ) (h : x < 4294967296) : (BitVec.ofNat 32 x).toNat = x := by
  rw [BitVec.toNat_ofNat]; exact Nat.mod_eq_of_lt (by norm_num; exact h)

theorem lt_N1 (t : Fin cfg1.N) : t.val < 40719 := lt_of_lt_of_eq t.isLt (show cfg1.N = 40719 from N_1)

/-- The block indices of the four windows at point `t`: the edge block is `t mod 831`, the node block `t / 831`. -/
theorem index1_0 (t : Fin cfg1.N) : win1_0.index t 0 = 0 ∧ win1_0.index t 1 = t.val % 831 := by
  refine ⟨rfl, ?_⟩
  show (BitVec.ofNat 32 ((grid1.coords t) 1).val).toNat = _
  rw [coord1_1, ofNat_toNat_lt _ (by omega)]
theorem index1_1 (t : Fin cfg1.N) : win1_1.index t 0 = t.val % 831 ∧ win1_1.index t 1 = 0 := by
  refine ⟨?_, rfl⟩
  show (BitVec.ofNat 32 ((grid1.coords t) 1).val).toNat = _
  rw [coord1_1, ofNat_toNat_lt _ (by omega)]
theorem index1_2 (t : Fin cfg1.N) : win1_2.index t 0 = 0 ∧ win1_2.index t 1 = 0 := ⟨rfl, rfl⟩
theorem index1_3 (t : Fin cfg1.N) : win1_3.index t 0 = t.val / 831 ∧ win1_3.index t 1 = 0 := by
  refine ⟨?_, rfl⟩
  show (BitVec.ofNat 32 ((grid1.coords t) 0).val).toNat = _
  have := lt_N1 t
  rw [coord1_0, ofNat_toNat_lt _ (by omega)]; omega

/-- The three input blocks at point `t`, read off the arrays. -/
theorem iblk0_apply (t : Fin cfg1.N) (k : Fin 1024) :
    (iblk1 V c 0 t : Vec Ideal S1x1024 .i32) (ix2 (0 : Fin 1) k) = dstA V c (ix2 (0 : Fin 1) (edgeAt (t.val % 831) k)) := by
  unfold iblk1
  rw [View.read_apply]
  show V c main_v40 (((cfg1.win 0).blk t).view.emb (ix2 (0 : Fin 1) k)) = V c main_v40 _
  refine congrArg (V c main_v40) (funext fun a => Fin.ext ?_)
  match a with
  | ⟨0, _⟩ => show win1_0.index t 0 * 1 + 1 * 0 = 0; rw [(index1_0 t).1]
  | ⟨1, _⟩ => show win1_0.index t 1 * 1024 + 1 * k.val = (t.val % 831 * 1024 + k.val) % 850944; rw [(index1_0 t).2]; omega
theorem iblk1_apply (t : Fin cfg1.N) (k : Fin 1024) (q : Fin 128) :
    (iblk1 V c 1 t : Vec Ideal S1024x128 .bf16) (ix2 k q) = msgA V c (ix2 (edgeAt (t.val % 831) k) q) := by
  unfold iblk1
  rw [View.read_apply]
  show V c main_v45 (((cfg1.win 1).blk t).view.emb (ix2 k q)) = V c main_v45 _
  refine congrArg (V c main_v45) (funext fun a => Fin.ext ?_)
  match a with
  | ⟨0, _⟩ => show win1_1.index t 0 * 1024 + 1 * k.val = (t.val % 831 * 1024 + k.val) % 850944; rw [(index1_1 t).1]; omega
  | ⟨1, _⟩ => show win1_1.index t 1 * 128 + 1 * q.val = q.val; rw [(index1_1 t).2]; omega
theorem iblk2_apply (t : Fin cfg1.N) (q : Fin 128) :
    (iblk1 V c 2 t : Vec Ideal S1x128 .f32) (ix2 (0 : Fin 1) q) = biasA V c (ix2 (0 : Fin 1) q) := by
  unfold iblk1
  rw [View.read_apply]
  show V c main_v46 (((cfg1.win 2).blk t).view.emb (ix2 (0 : Fin 1) q)) = V c main_v46 _
  refine congrArg (V c main_v46) (funext fun a => Fin.ext ?_)
  match a with
  | ⟨0, _⟩ => show win1_2.index t 0 * 1 + 1 * 0 = 0; rw [(index1_2 t).1]
  | ⟨1, _⟩ => show win1_2.index t 1 * 128 + 1 * q.val = q.val; rw [(index1_2 t).2]; omega

/-- What edge block `s` adds to the accumulator of node block `r`, at row `p` and column `q`: the sum over the block's
    1024 edges of the indicator "the edge's destination is node `1024·r + p`" times the edge's message. -/
def blockTerm (r s : ℕ) (p : Fin 1024) (q : Fin 128) : EReal :=
  ∑ k : Fin 1024, Cert.Spec.ind (BitVec.ofNat 32 (r * 1024 + p.val)) (dstA V c (ix2 (0 : Fin 1) (edgeAt s k))) * msgA V c (ix2 (edgeAt s k) q)

/-- The one-hot product at point `t`, added to any accumulator. -/
theorem pay2_at (t : Fin cfg1.N) (acc : Vec Ideal S1024x128 .f32) (p : Fin 1024) (q : Fin 128) :
    k1_pay2 (F := Ideal) (grid1.coords t) (iblk1 V c 0 t) acc (iblk1 V c 1 t) (ix2 p q)
      = acc (ix2 p q) + blockTerm V c (t.val / 831) (t.val % 831) p q := by
  refine (pay2_apply (grid1.coords t) (iblk1 V c 0 t) acc (iblk1 V c 1 t) p q).trans ?_
  unfold blockTerm
  have h0 : ((grid1.coords t) 0).val = t.val / 831 := by rw [coord1_0]; have := lt_N1 t; omega
  rw [h0]
  refine congrArg (acc (ix2 p q) + ·) (Finset.sum_congr rfl fun k _ => ?_)
  rw [iblk0_apply, iblk1_apply]

/-- THE ACCUMULATOR after point `n`: the sum of the terms of the edge blocks of the row met so far. -/
theorem acc_eq : ∀ (n : ℕ) (hn : n < cfg1.N) (p : Fin 1024) (q : Fin 128),
    (outsAt1 V c n hn).2 (ix2 p q) = ∑ s ∈ Finset.range (n % 831 + 1), blockTerm V c (n / 831) s p q
  | 0, hn, p, q => by
    refine (congrFun (acc_A V c ⟨0, hn⟩ (Nat.zero_mod _)) (ix2 p q)).trans ?_
    refine (pay2_at V c ⟨0, hn⟩ _ p q).trans ?_
    rw [pay1_apply, zero_add]
    show blockTerm V c (0 / 831) (0 % 831) p q = _
    rw [Nat.zero_mod, Finset.sum_range_one]
  | n + 1, hn, p, q => by
    by_cases h0 : (n + 1) % 831 = 0
    · refine (congrFun (acc_A V c ⟨n + 1, hn⟩ h0) (ix2 p q)).trans ?_
      refine (pay2_at V c ⟨n + 1, hn⟩ _ p q).trans ?_
      rw [pay1_apply, zero_add]
      show blockTerm V c ((n + 1) / 831) ((n + 1) % 831) p q = _
      rw [h0, Finset.sum_range_one]
    · have hd : (n + 1) / 831 = n / 831 := by omega
      have hm : (n + 1) % 831 = n % 831 + 1 := by omega
      refine (congrFun (acc_B V c ⟨n + 1, hn⟩ h0) (ix2 p q)).trans ?_
      refine (pay2_at V c ⟨n + 1, hn⟩ _ p q).trans ?_
      show (outsAt1 V c n (Nat.lt_of_succ_lt hn)).2 (ix2 p q) + blockTerm V c ((n + 1) / 831) ((n + 1) % 831) p q = _
      rw [acc_eq n (Nat.lt_of_succ_lt hn) p q, hd, hm, Finset.sum_range_succ _ (n % 831 + 1)]

/-- THE OUTPUT BLOCK at the last point of a row: the whole row's sum plus the bias, negative entries replaced by zero. -/
theorem out_eq (t : Fin cfg1.N) (h1 : t.val % 831 = 830) (p : Fin 1024) (q : Fin 128) :
    (outsAt1 V c t.val t.isLt).1 (ix2 p q)
      = max ((∑ s ∈ Finset.range 831, blockTerm V c (t.val / 831) s p q) + biasA V c (ix2 (0 : Fin 1) q)) 0 := by
  have h0 : ¬t.val % 831 = 0 := by omega
  refine (congrFun (out_C V c t h0 h1) (ix2 p q)).trans ?_
  refine (pay3_apply _ (iblk1 V c 2 t) p q).trans ?_
  rw [iblk2_apply, ← acc_B V c t h0, acc_eq V c t.val t.isLt p q, h1]

/-- The 850944 edges are the 831 blocks of 1024. -/
theorem sum_blocks (f : Fin 850944 → EReal) : ∑ s ∈ Finset.range 831, ∑ k : Fin 1024, f (edgeAt s k) = ∑ e : Fin 850944, f e := by
  rw [Finset.sum_range (fun s => ∑ k : Fin 1024, f (edgeAt s k))]
  refine (Fintype.sum_prod_type' (fun (s : Fin 831) (k : Fin 1024) => f (edgeAt s.val k))).symm.trans ?_
  refine Fintype.sum_equiv (finProdFinEquiv : Fin 831 × Fin 1024 ≃ Fin 850944) _ _ (fun x => congrArg f (Fin.ext ?_))
  have h1 := x.1.isLt
  have h2 := x.2.isLt
  show (x.1.val * 1024 + x.2.val) % 850944 = x.2.val + 1024 * x.1.val
  omega

/-- The specification at the entry in row `p` of node block `r`. -/
theorem scatterOut_at (j : S50176x128.Idx) (r : ℕ) (p : Fin 1024) (q : Fin 128) (h0 : (j 0).val = r * 1024 + p.val) (h1 : (j 1).val = q.val) :
    Cert.Spec.scatterOut (dstA V c) (msgA V c) (biasA V c) j
      = max ((∑ s ∈ Finset.range 831, blockTerm V c r s p q) + biasA V c (ix2 (0 : Fin 1) q)) 0 := by
  have e1 : j 1 = q := Fin.ext h1
  unfold Cert.Spec.scatterOut blockTerm
  rw [sum_blocks (fun e => Cert.Spec.ind (BitVec.ofNat 32 (r * 1024 + p.val)) (dstA V c (ix2 (0 : Fin 1) e)) * msgA V c (ix2 e q)), h0, e1]

/-- The output block is written back exactly at the last point of each row. -/
theorem flush1_3_to (t : Fin cfg1.N) (hf : (cfg1.win 3).flush t = true) : t.val % 831 = 830 := by
  by_contra h
  have := noFlush1_3 t (fun hc => h ((hcond1_1 t).mp hc))
  rw [this] at hf
  exact Bool.false_ne_true hf
theorem flush1_3_of (t : Fin cfg1.N) (h : t.val % 831 = 830) : (cfg1.win 3).flush t = true := by
  have hN := lt_N1 t
  show (win1_3.isOut && (decide (t.val + 1 = grid1.N) || decide (∃ h : t.val + 1 < grid1.N, win1_3.index ⟨t.val + 1, h⟩ ≠ win1_3.index t))) = true
  have ho : win1_3.isOut = true := rfl
  rw [ho, Bool.true_and, Bool.or_eq_true]
  by_cases hl : t.val + 1 = grid1.N
  · exact Or.inl (decide_eq_true hl)
  · have h1 : t.val + 1 < grid1.N := by rw [N_1] at hl ⊢; omega
    refine Or.inr (decide_eq_true ⟨h1, fun e => ?_⟩)
    have e0 := congrFun e 0
    rw [(index1_3 ⟨t.val + 1, h1⟩).1, (index1_3 t).1] at e0
    have e0' : (t.val + 1) / 831 = t.val / 831 := e0
    omega

/-- A block of an array, read back, is the array at the block's indices. -/
theorem cut_eq_read_of (G : S50176x128.Idx → EReal) (t : Fin cfg1.N) (X : Vec Ideal S1024x128 .f32)
    (h : ∀ y : ((cfg1.win 3).xblock (grid1.coords t)).Idx, X ((cfg1.win 3).xinj (grid1.coords t) y) = G (((cfg1.win 3).blk t).view.emb y)) :
    (cfg1.win 3).cut (grid1.coords t) X = ((cfg1.win 3).blk t).view.read (Elt Ideal) G := funext h

attribute [local irreducible] Cert.Spec.scatterOut blockTerm

/-- WHAT THE LAST POINT OF A ROW WRITES BACK is its block of the specification. -/
theorem flushed_eq (t : Fin cfg1.N) (hf : (cfg1.win 3).flush t = true) :
    (dat1 V c).flushed 3 t = ((cfg1.win 3).blk t).view.read (Elt Ideal) (Cert.Spec.scatterOut (dstA V c) (msgA V c) (biasA V c)) := by
  have h1 : t.val % 831 = 830 := flush1_3_to t hf
  refine (congrArg ((cfg1.win 3).cut (grid1.coords t)) (after1_3 V c t)).trans ?_
  refine cut_eq_read_of (Cert.Spec.scatterOut (dstA V c) (msgA V c) (biasA V c)) t (outsAt1 V c t.val t.isLt).1 (fun y => ?_)
  have hy0 : (y 0).val < 1024 := (y 0).isLt
  have hy1 : (y 1).val < 128 := (y 1).isLt
  have hb0 : ((((cfg1.win 3).blk t).view.emb y) 0).val = win1_3.index t 0 * 1024 + 1 * (y 0).val := rfl
  have hb1 : ((((cfg1.win 3).blk t).view.emb y) 1).val = win1_3.index t 1 * 128 + 1 * (y 1).val := rfl
  have hx : (cfg1.win 3).xinj (grid1.coords t) y = ix2 (⟨(y 0).val, hy0⟩ : Fin 1024) (⟨(y 1).val, hy1⟩ : Fin 128) :=
    funext fun a => Fin.ext (by
      match a with
      | ⟨0, _⟩ => rfl
      | ⟨1, _⟩ => rfl)
  rw [hx]
  refine (out_eq V c t h1 ⟨(y 0).val, hy0⟩ ⟨(y 1).val, hy1⟩).trans
    (scatterOut_at V c (((cfg1.win 3).blk t).view.emb y) (t.val / 831) ⟨(y 0).val, hy0⟩ ⟨(y 1).val, hy1⟩ ?_ ?_).symm
  · rw [hb0, (index1_3 t).1]; show _ = t.val / 831 * 1024 + (y 0).val; omega
  · rw [hb1, (index1_3 t).2]; show _ = (y 1).val; omega

/-- An index of the output array is in point `t`'s block iff each coordinate is in the block's range on its axis. -/
theorem mem_blk3 (t : Fin cfg1.N) (i : S50176x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v47).slice (win1_3.rect t)).set ↔ _
  rw [View.set_slice_whole, Rect.mem_set_unit]
  exact Iff.rfl

/-- The blocks written back tile the output array: row `n` is in the block of the last point of row block `n / 1024`. -/
theorem cover3 (i : S50176x128.Idx) : ∃ t : Fin cfg1.N, (cfg1.win 3).flush t = true ∧ i ∈ ((cfg1.win 3).blk t).view.set := by
  have hi0 : (i 0).val < 50176 := (i 0).isLt
  have hi1 : (i 1).val < 128 := (i 1).isLt
  have hlt : 831 * ((i 0).val / 1024) + 830 < cfg1.N := by rw [show cfg1.N = 40719 from N_1]; omega
  have hm : (831 * ((i 0).val / 1024) + 830) % 831 = 830 := by omega
  have hd : (831 * ((i 0).val / 1024) + 830) / 831 = (i 0).val / 1024 := by omega
  refine ⟨⟨831 * ((i 0).val / 1024) + 830, hlt⟩, flush1_3_of _ hm, ?_⟩
  rw [mem_blk3]
  intro a
  match a with
  | ⟨0, _⟩ =>
    show win1_3.index ⟨831 * ((i 0).val / 1024) + 830, hlt⟩ 0 * 1024 ≤ (i 0).val ∧ (i 0).val < win1_3.index ⟨831 * ((i 0).val / 1024) + 830, hlt⟩ 0 * 1024 + 1024
    rw [(index1_3 _).1]
    show (831 * ((i 0).val / 1024) + 830) / 831 * 1024 ≤ (i 0).val ∧ (i 0).val < (831 * ((i 0).val / 1024) + 830) / 831 * 1024 + 1024
    rw [hd]; omega
  | ⟨1, _⟩ =>
    show win1_3.index ⟨831 * ((i 0).val / 1024) + 830, hlt⟩ 1 * 128 ≤ (i 1).val ∧ (i 1).val < win1_3.index ⟨831 * ((i 0).val / 1024) + 830, hlt⟩ 1 * 128 + 128
    rw [(index1_3 _).2]; omega

/-- THE OUTPUT ARRAY after the call is the specification of the scatter call at the three arrays it is given. -/
theorem final : ((dat1 (F := Ideal) V c).arrAt 3 cfg1.N : S50176x128.Idx → EReal)
    = Cert.Spec.scatterOut (V c main_v40) (V c main_v45) (V c main_v46) :=
  (dat1 V c).arrAt_eq_of_cover 3 (Cert.Spec.scatterOut (dstA V c) (msgA V c) (biasA V c)) (fun t hf => flushed_eq V c t hf) cover3

end Value

end Val1

/-- The output array of the first scatter call is the scatter specification of its destination row, message matrix and bias. -/
theorem final1 (V : (c : Dev nD) → (b : Ref sig .tc) → Buf (Elt Ideal) ((c : Thread nD τ).loc b)) (c : Dev nD) :
    ((dat1 (F := Ideal) V c).arrAt 3 cfg1.N : S50176x128.Idx → EReal)
      = Cert.Spec.scatterOut (V c main_v40) (V c main_v45) (V c main_v46) := Val1.final V c

end Cert.KernelIdeal.Gen
end
-- ==== Proof.KI.Val2.lean ====
/-
  The value of the second layer's gather call (pipeline 2): the array it leaves is the specification's
  `msgs[e, d] = Σ_k [src e = k] · w e · h[k, d]`, the sum over all 50176 padded node rows.

  The grid is 831 rows of 49 points; point `t` works on edge block `t / 49` (1024 edges) and node block `t mod 49`
  (1024 nodes). At each point the body adds to the accumulator the product of the block's one-hot matrix
  `[src e = 1024 (t mod 49) + k] · w e` with the node block's features: into a zero accumulator this product is the plain sum
  over the 1024 contracted nodes, the integer 0/1 of the comparison converts to the reals 0 and 1, and changes of float format
  are the identity. The accumulator starts from zero at the first node block of a row, so after the `j`-th block it holds the
  sum over the nodes `0 … 1024 (j + 1) - 1` (induction on the point), and after the last one the sum over all 50176. That
  is what the output block receives and what is written back — once per edge block, after the last node block of its row —
  and the edge blocks tile the output array. Only associativity of `+` on the extended reals is used; no entry is
  assumed finite.
-/
import proofs.«179232_j88021059764774_1_alg».proof.Proof.KI.R2Dat
import proofs.«179232_j88021059764774_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat Cfg Window)

section Pieces
variable {F : FTy → Type} [FloatOps F]

/-- The zero offsets of a whole-block access. -/
theorem hz2 : (![0, 0] : Fin 2 → Nat) = fun _ => 0 := funext fun a => by fin_cases a <;> rfl

/-- In the middle of a row the accumulator, found at `xs0`, is left at the body's sum payload of the three blocks and `xs0`. -/
theorem accB2 (c : Dev nD) (i : grid2.Coords) (a2 : Memref sig .tc .vmem S1024x1 .i32) (h2 : a2.IsWhole) (a3 : Memref sig .tc .vmem S1024x1 .f32) (h3 : a3.IsWhole)
    (a4 : Memref sig .tc .vmem S1024x128 .bf16) (h4 : a4.IsWhole) (a5 : Memref sig .tc .vmem S1024x128 .bf16) (h5 : a5.IsWhole)
    (hc0 : ¬cond2_0 i) (hc1 : ¬cond2_1 i) (x0 : Vec F S1024x1 .i32) (x1 : Vec F S1024x1 .f32) (x2 : Vec F S1024x128 .bf16) (xs0 : Vec F S1024x128 .f32)
    (hcov : ∀ y : S1024x128.Idx, ∃ pc ∈ (kernelRun2_B (F := F) c i a2 h2 a3 h3 a4 h4 a5 h5 scM2_0 (Memref.isWhole_whole _) hc0 hc1 x0 x1 x2 xs0).2.1, y ∈ pc.1.set) :
    sRead2 (kernelRun2_B (F := F) c i a2 h2 a3 h3 a4 h4 a5 h5 scM2_0 (Memref.isWhole_whole _) hc0 hc1 x0 x1 x2 xs0).2.1 = k2_pay2 i x0 x1 xs0 x2 := by
  unfold sRead2
  rw [View.read_writes_eq_canon _ _ _ hcov]
  unfold kernelRun2_B
  dsimp only
  rw [View.canon_unit_zero hz2]
  simp only [View.readAt_eq_ld, h2.read_unread, h3.read_unread, h4.read_unread, (Memref.isWhole_whole cc2_scratch0).read_unread,
    View.ld_unit_zero (S := S1024x128) hz2, View.ld_unit_zero (S := S1024x1) hz2]

/-- At the first block of a row it is left at the sum payload over the zero accumulator. -/
theorem accA2 (c : Dev nD) (i : grid2.Coords) (a2 : Memref sig .tc .vmem S1024x1 .i32) (h2 : a2.IsWhole) (a3 : Memref sig .tc .vmem S1024x1 .f32) (h3 : a3.IsWhole)
    (a4 : Memref sig .tc .vmem S1024x128 .bf16) (h4 : a4.IsWhole) (a5 : Memref sig .tc .vmem S1024x128 .bf16) (h5 : a5.IsWhole)
    (hc0 : cond2_0 i) (hc1 : ¬cond2_1 i) (x0 : Vec F S1024x1 .i32) (x1 : Vec F S1024x1 .f32) (x2 : Vec F S1024x128 .bf16)
    (hcov : ∀ y : S1024x128.Idx, ∃ pc ∈ (kernelRun2_A (F := F) c i a2 h2 a3 h3 a4 h4 a5 h5 scM2_0 (Memref.isWhole_whole _) hc0 hc1 x0 x1 x2).2.1, y ∈ pc.1.set) :
    sRead2 (kernelRun2_A (F := F) c i a2 h2 a3 h3 a4 h4 a5 h5 scM2_0 (Memref.isWhole_whole _) hc0 hc1 x0 x1 x2).2.1 = k2_pay2 i x0 x1 k2_pay1 x2 := by
  unfold sRead2
  rw [View.read_writes_eq_canon _ _ _ hcov]
  unfold kernelRun2_A
  dsimp only
  sl_unfold_words
  rw [View.canon_cons_unit_zero (S := S1024x128) hz2, View.readCov_unit_zero (S := S1024x128) _ hz2]
  simp only [View.readAt_eq_ld, h2.read_unread, h3.read_unread, h4.read_unread,
    View.ld_unit_zero (S := S1024x128) hz2, View.ld_unit_zero (S := S1024x1) hz2]

/-- At the last block of a row the accumulator is left as in the middle, -/
theorem accC2 (c : Dev nD) (i : grid2.Coords) (a2 : Memref sig .tc .vmem S1024x1 .i32) (h2 : a2.IsWhole) (a3 : Memref sig .tc .vmem S1024x1 .f32) (h3 : a3.IsWhole)
    (a4 : Memref sig .tc .vmem S1024x128 .bf16) (h4 : a4.IsWhole) (a5 : Memref sig .tc .vmem S1024x128 .bf16) (h5 : a5.IsWhole)
    (hc0 : ¬cond2_0 i) (hc1 : cond2_1 i) (x0 : Vec F S1024x1 .i32) (x1 : Vec F S1024x1 .f32) (x2 : Vec F S1024x128 .bf16) (xs0 : Vec F S1024x128 .f32)
    (hcov : ∀ y : S1024x128.Idx, ∃ pc ∈ (kernelRun2_C (F := F) c i a2 h2 a3 h3 a4 h4 a5 h5 scM2_0 (Memref.isWhole_whole _) hc0 hc1 x0 x1 x2 xs0).2.1, y ∈ pc.1.set) :
    sRead2 (kernelRun2_C (F := F) c i a2 h2 a3 h3 a4 h4 a5 h5 scM2_0 (Memref.isWhole_whole _) hc0 hc1 x0 x1 x2 xs0).2.1 = k2_pay2 i x0 x1 xs0 x2 := by
  unfold sRead2
  rw [View.read_writes_eq_canon _ _ _ hcov]
  unfold kernelRun2_C
  dsimp only
  sl_unfold_words
  rw [View.canon_unit_zero hz2]
  simp only [View.readAt_eq_ld, h2.read_unread, h3.read_unread, h4.read_unread, (Memref.isWhole_whole cc2_scratch0).read_unread,
    View.ld_unit_zero (S := S1024x128) hz2, View.ld_unit_zero (S := S1024x1) hz2]

/-- and the output block is left at that accumulator in the output's format. -/
theorem outC2 (c : Dev nD) (i : grid2.Coords) (a2 : Memref sig .tc .vmem S1024x1 .i32) (h2 : a2.IsWhole) (a3 : Memref sig .tc .vmem S1024x1 .f32) (h3 : a3.IsWhole)
    (a4 : Memref sig .tc .vmem S1024x128 .bf16) (h4 : a4.IsWhole) (a5 : Memref sig .tc .vmem S1024x128 .bf16) (h5 : a5.IsWhole)
    (hc0 : ¬cond2_0 i) (hc1 : cond2_1 i) (x0 : Vec F S1024x1 .i32) (x1 : Vec F S1024x1 .f32) (x2 : Vec F S1024x128 .bf16) (xs0 : Vec F S1024x128 .f32)
    (hcov : ∀ y : S1024x128.Idx, ∃ pc ∈ (kernelRun2_C (F := F) c i a2 h2 a3 h3 a4 h4 a5 h5 scM2_0 (Memref.isWhole_whole _) hc0 hc1 x0 x1 x2 xs0).1, y ∈ pc.1.set) :
    oRead2 (kernelRun2_C (F := F) c i a2 h2 a3 h3 a4 h4 a5 h5 scM2_0 (Memref.isWhole_whole _) hc0 hc1 x0 x1 x2 xs0).1 = k2_pay3 (k2_pay2 i x0 x1 xs0 x2) := by
  unfold oRead2
  rw [View.read_writes_eq_canon _ _ _ hcov]
  unfold kernelRun2_C
  dsimp only
  sl_unfold_words
  rw [View.canon_unit_zero hz2, View.readCov_unit_zero (S := S1024x128) _ hz2]
  simp only [View.readAt_eq_ld, h2.read_unread, h3.read_unread, h4.read_unread, (Memref.isWhole_whole cc2_scratch0).read_unread,
    View.ld_unit_zero (S := S1024x128) hz2, View.ld_unit_zero (S := S1024x1) hz2]

end Pieces

section Pay

/-- The 0/1 word of an integer equality, widened and converted, is the indicator of the equality. -/
theorem ind_cmpi2 (a b : BitVec 32) :
    (FloatOps.sitofp (F := Ideal) .f32 ((IntOp.cmpi .eq a b).setWidth 32) : EReal) = Cert.Spec.ind a b := by
  unfold Cert.Spec.ind
  by_cases h : a = b
  · rw [if_pos h, show (IntOp.cmpi .eq a b).setWidth 32 = 1#32 from by subst h; simp [IntOp.cmpi]]
    show (((1#32 : BitVec 32).toInt : ℝ) : EReal) = 1
    rw [show (1#32 : BitVec 32).toInt = 1 from by decide]; simp
  · rw [if_neg h, show (IntOp.cmpi .eq a b).setWidth 32 = 0#32 from by
      have hb : (a == b) = false := by simpa using h
      simp [IntOp.cmpi, hb]]
    show (((0#32 : BitVec 32).toInt : ℝ) : EReal) = 0
    rw [show (0#32 : BitVec 32).toInt = 0 from by decide]; simp

/-- Node block `j`'s `k`-th node id, as the kernel computes it in 32-bit words, is the word of `1024 j + k`. -/
theorem node_id2 (j : ℕ) (hj : j < 49) (k : Fin 1024) :
    IntOp.addi (Scalar.muli (BitVec.ofNat 32 j) 1024#32) (BitVec.ofNat 32 k.val) = BitVec.ofNat 32 (j * 1024 + k.val) := by
  apply BitVec.eq_of_toNat_eq
  have hk := k.isLt
  show ((BitVec.ofNat 32 j * 1024#32 + BitVec.ofNat 32 k.val : BitVec 32)).toNat = _
  simp only [BitVec.toNat_add, BitVec.toNat_mul, BitVec.toNat_ofNat]
  omega

/-- The contraction of the body's matrix product: [1024, 1024] by [1024, 128] over the shared axis. -/
abbrev Dmm2 := dot_S1024x1024_S1024x128_S1024x128_1_0_0_1_n_n

/-- The sum payload at an entry: the accumulator's entry plus, over the 1024 nodes of the node block, the indicator that the
    edge's source is the node, times the edge's weight, times the node's feature. -/
theorem pay2_2_apply (i : grid2.Coords) (v7 : Vec Ideal S1024x1 .i32) (v14 : Vec Ideal S1024x1 .f32) (v19 : Vec Ideal S1024x128 .f32)
    (v20 : Vec Ideal S1024x128 .bf16) (p : Fin 1024) (q : Fin 128) :
    (k2_pay2 (F := Ideal) i v7 v14 v19 v20 (ix2 p q) : EReal)
      = v19 (ix2 p q) + ∑ k : Fin 1024, Cert.Spec.ind (v7 (ix2 p (0 : Fin 1))) (BitVec.ofNat 32 ((i 1).val * 1024 + k.val)) * v14 (ix2 p (0 : Fin 1)) * v20 (ix2 k q) := by
  unfold k2_pay2
  simp only [shapeCast_self]
  refine (addf_apply _ _ _).trans ?_
  refine congrArg (v19 (ix2 p q) + ·) ?_
  refine (Ideal.matmul_constant_zero_apply (φ₁ := .bf16) (φ₂ := .bf16) Dmm2 none _ v20 (ix2 p q)).trans ?_
  rw [← Equiv.sum_comp (contrEquiv1 Dmm2 1024 rfl rfl).symm]
  refine Finset.sum_congr rfl fun k _ => ?_
  have c2 := contrEquiv1_symm_val Dmm2 1024 rfl rfl k
  have l2 : Dmm2.lhsIdx (ix2 p q) ((contrEquiv1 Dmm2 1024 rfl rfl).symm k) = ix2 p k := by
    funext ax; apply Fin.ext
    match ax with
    | ⟨0, _⟩ => simp [DotDims.lhsIdx, Dmm2, dot_S1024x1024_S1024x128_S1024x128_1_0_0_1_n_n]; rfl
    | ⟨1, _⟩ => simp [DotDims.lhsIdx, Dmm2, dot_S1024x1024_S1024x128_S1024x128_1_0_0_1_n_n]; exact c2
  have r2 : Dmm2.rhsIdx (ix2 p q) ((contrEquiv1 Dmm2 1024 rfl rfl).symm k) = ix2 k q := by
    funext ax; apply Fin.ext
    match ax with
    | ⟨0, _⟩ => simp [DotDims.rhsIdx, Dmm2, dot_S1024x1024_S1024x128_S1024x128_1_0_0_1_n_n]; exact c2
    | ⟨1, _⟩ => simp [DotDims.rhsIdx, Dmm2, dot_S1024x1024_S1024x128_S1024x128_1_0_0_1_n_n]; rfl
  rw [l2, r2]
  refine congrArg (· * v20 (ix2 k q)) ?_
  have hi : (i 1).val < 49 := (i 1).isLt
  have hb7 : broadcastTo S1024x1024 v7 broadcasts_S1024x1_S1024x1024 (ix2 p k) = v7 (ix2 p (0 : Fin 1)) :=
    broadcastTo_apply v7 _ (ix2 p k) (ix2 p (0 : Fin 1)) (fun a => by match a with | ⟨0, _⟩ => rfl | ⟨1, _⟩ => rfl)
  have hb14 : broadcastTo S1024x1024 (truncf (F := Ideal) (φ := .f32) .bf16 v14 bitsLt_bf16_f32) broadcasts_S1024x1_S1024x1024 (ix2 p k) = v14 (ix2 p (0 : Fin 1)) :=
    broadcastTo_apply (truncf (F := Ideal) (φ := .f32) .bf16 v14 bitsLt_bf16_f32) _ (ix2 p k) (ix2 p (0 : Fin 1)) (fun a => by match a with | ⟨0, _⟩ => rfl | ⟨1, _⟩ => rfl)
  have hio : iota .tc S1024x1024 32 [1] iota_S1024x1024_d1_w32 (ix2 p k) = BitVec.ofNat 32 k.val :=
    iota_single_apply .tc S1024x1024 32 1 _ (ix2 p k)
  show FloatOps.sitofp (F := Ideal) .f32 ((IntOp.cmpi .eq (broadcastTo S1024x1024 v7 broadcasts_S1024x1_S1024x1024 (ix2 p k))
      (IntOp.addi (Scalar.muli (BitVec.ofNat 32 (i 1).val) 1024#32) (iota .tc S1024x1024 32 [1] iota_S1024x1024_d1_w32 (ix2 p k)))).setWidth 32)
    * (broadcastTo S1024x1024 (truncf (F := Ideal) (φ := .f32) .bf16 v14 bitsLt_bf16_f32) broadcasts_S1024x1_S1024x1024 (ix2 p k)) = _
  rw [hb7, hb14, hio, node_id2 _ hi k, ind_cmpi2]

/-- The zeroed accumulator is zero. -/
theorem pay2_1_apply (j : S1024x128.Idx) : (k2_pay1 (F := Ideal) j : EReal) = 0 := by
  unfold k2_pay1
  simp only [shapeCast_self]
  exact Ideal.ofBits_zero_f32

/-- Storing the accumulator in the output's format changes nothing. -/
theorem pay2_3_apply (v30 : Vec Ideal S1024x128 .f32) (j : S1024x128.Idx) : (k2_pay3 (F := Ideal) v30 j : EReal) = v30 j := rfl

end Pay

section Blocks

/-- Where each window's block sits at point `t`: the edge-side windows follow the row of blocks `t / 49`, the node-feature window
    the node block `t mod 49`; every window's second block coordinate is 0. -/
theorem idx2_0 (t : Fin cfg2.N) : win2_0.index t 0 = t.val / 49 ∧ win2_0.index t 1 = 0 := by
  have hN : t.val < 40719 := lt_of_lt_of_eq t.isLt N_2
  refine ⟨?_, rfl⟩
  show (BitVec.ofNat 32 ((grid2.coords t) 0).val).toNat = _
  rw [BitVec.toNat_ofNat, coord2_0 t]; omega
theorem idx2_1 (t : Fin cfg2.N) : win2_1.index t 0 = t.val / 49 ∧ win2_1.index t 1 = 0 := by
  have hN : t.val < 40719 := lt_of_lt_of_eq t.isLt N_2
  refine ⟨?_, rfl⟩
  show (BitVec.ofNat 32 ((grid2.coords t) 0).val).toNat = _
  rw [BitVec.toNat_ofNat, coord2_0 t]; omega
theorem idx2_2 (t : Fin cfg2.N) : win2_2.index t 0 = t.val % 49 ∧ win2_2.index t 1 = 0 := by
  refine ⟨?_, rfl⟩
  show (BitVec.ofNat 32 ((grid2.coords t) 1).val).toNat = _
  rw [BitVec.toNat_ofNat, coord2_1 t]; omega
theorem idx2_3 (t : Fin cfg2.N) : win2_3.index t 0 = t.val / 49 ∧ win2_3.index t 1 = 0 := by
  have hN : t.val < 40719 := lt_of_lt_of_eq t.isLt N_2
  refine ⟨?_, rfl⟩
  show (BitVec.ofNat 32 ((grid2.coords t) 0).val).toNat = _
  rw [BitVec.toNat_ofNat, coord2_0 t]; omega

/-- The output block is written back exactly after the last node block of its row. -/
theorem flush2_3_iff (t : Fin cfg2.N) : (cfg2.win 3).flush t = true ↔ t.val % 49 = 48 := by
  have hN : t.val < 40719 := lt_of_lt_of_eq t.isLt N_2
  constructor
  · intro hf
    by_contra h
    have := noFlush2_3 t (fun hc => h ((hcond2_1 t).mp hc))
    rw [this] at hf; exact Bool.noConfusion hf
  · intro h
    show (win2_3.isOut && (decide (t.val + 1 = grid2.N) || decide (∃ h : t.val + 1 < grid2.N, win2_3.index ⟨t.val + 1, h⟩ ≠ win2_3.index t))) = true
    by_cases hl : t.val + 1 = grid2.N
    · simp [hl]
    · have h1 : t.val + 1 < grid2.N := by rw [N_2] at hl ⊢; omega
      have hne : win2_3.index ⟨t.val + 1, h1⟩ ≠ win2_3.index t := fun e => by
        have e0 := congrFun e 0
        rw [(idx2_3 ⟨t.val + 1, h1⟩).1, (idx2_3 t).1] at e0
        simp only at e0; omega
      have hex : ∃ h : t.val + 1 < grid2.N, win2_3.index ⟨t.val + 1, h⟩ ≠ win2_3.index t := ⟨h1, hne⟩
      simp only [hex, decide_true, Bool.or_true, Bool.and_true]

variable (V : (c : Dev nD) → (b : Ref sig .tc) → Buf (Elt Ideal) ((c : Thread nD τ).loc b)) (c : Dev nD)

/-- The blocks the body reads at point `t`, as entries of the whole arrays. -/
theorem rd2_0 (t : Fin cfg2.N) (p : Fin 1024) (e : Fin 850944) (he : e.val = t.val / 49 * 1024 + p.val) :
    (iblk2 V c 0 t : S1024x1.Idx → BitVec 32) (ix2 p (0 : Fin 1)) = (V c main_v38 : S850944x1.Idx → BitVec 32) (ix2 e (0 : Fin 1)) := by
  unfold iblk2
  rw [View.read_apply]
  show V c main_v38 _ = V c main_v38 _
  congr 1
  funext a; apply Fin.ext
  match a with
  | ⟨0, _⟩ => show win2_0.index t 0 * 1024 + 1 * p.val = e.val; rw [(idx2_0 t).1, he]; omega
  | ⟨1, _⟩ => show win2_0.index t 1 * 1 + 1 * 0 = 0; rw [(idx2_0 t).2]
theorem rd2_1 (t : Fin cfg2.N) (p : Fin 1024) (e : Fin 850944) (he : e.val = t.val / 49 * 1024 + p.val) :
    (iblk2 V c 1 t : S1024x1.Idx → EReal) (ix2 p (0 : Fin 1)) = (V c main_v39 : S850944x1.Idx → EReal) (ix2 e (0 : Fin 1)) := by
  unfold iblk2
  rw [View.read_apply]
  show V c main_v39 _ = V c main_v39 _
  congr 1
  funext a; apply Fin.ext
  match a with
  | ⟨0, _⟩ => show win2_1.index t 0 * 1024 + 1 * p.val = e.val; rw [(idx2_1 t).1, he]; omega
  | ⟨1, _⟩ => show win2_1.index t 1 * 1 + 1 * 0 = 0; rw [(idx2_1 t).2]
theorem rd2_2 (t : Fin cfg2.N) (k : Fin 1024) (q : Fin 128) (n : Fin 50176) (hn : n.val = t.val % 49 * 1024 + k.val) :
    (iblk2 V c 2 t : S1024x128.Idx → EReal) (ix2 k q) = (V c main_v52 : S50176x128.Idx → EReal) (ix2 n q) := by
  unfold iblk2
  rw [View.read_apply]
  show V c main_v52 _ = V c main_v52 _
  congr 1
  funext a; apply Fin.ext
  match a with
  | ⟨0, _⟩ => show win2_2.index t 0 * 1024 + 1 * k.val = n.val; rw [(idx2_2 t).1, hn]; omega
  | ⟨1, _⟩ => show win2_2.index t 1 * 128 + 1 * q.val = q.val; rw [(idx2_2 t).2]; omega

end Blocks

section Steps
variable {F : FTy → Type} [FloatOps F]
variable (V : (c : Dev nD) → (b : Ref sig .tc) → Buf (Elt F) ((c : Thread nD τ).loc b)) (c : Dev nD)

/-- At the first node block of a row the accumulator is the block's one-hot product added to zero; -/
theorem acc2_first (t : Fin cfg2.N) (h0 : t.val % 49 = 0) :
    (outsAt2 V c t.val t.isLt).2 = k2_pay2 (grid2.coords t) (iblk2 V c 0 t) (iblk2 V c 1 t) k2_pay1 (iblk2 V c 2 t) := by
  have h1 : ¬t.val % 49 = 48 := by omega
  have key := accA2 (F := F) c (grid2.coords t) (ms2_0 t) (hs2_0 t) (ms2_1 t) (hs2_1 t) (ms2_2 t) (hs2_2 t) (ms2_3 t) (hs2_3 t)
    ((hcond2_0 t).mpr h0) (fun h => h1 ((hcond2_1 t).mp h)) (iblk2 V c 0 t) (iblk2 V c 1 t) (iblk2 V c 2 t)
    (scover2_A V c t ((hcond2_0 t).mpr h0) (fun h => h1 ((hcond2_1 t).mp h)))
  rw [outsAt2_A V c t h0 h1]
  dsimp only
  exact key

/-- at every later block it is the block's one-hot product added to what the block before left; -/
theorem acc2_next (t : Fin cfg2.N) (h0 : ¬t.val % 49 = 0) :
    (outsAt2 V c t.val t.isLt).2 = k2_pay2 (grid2.coords t) (iblk2 V c 0 t) (iblk2 V c 1 t) (prevAcc2 V c t) (iblk2 V c 2 t) := by
  by_cases h1 : t.val % 49 = 48
  · have key := accC2 (F := F) c (grid2.coords t) (ms2_0 t) (hs2_0 t) (ms2_1 t) (hs2_1 t) (ms2_2 t) (hs2_2 t) (ms2_3 t) (hs2_3 t)
      (fun h => h0 ((hcond2_0 t).mp h)) ((hcond2_1 t).mpr h1) (iblk2 V c 0 t) (iblk2 V c 1 t) (iblk2 V c 2 t) (prevAcc2 V c t)
      (scover2_C V c t (fun h => h0 ((hcond2_0 t).mp h)) ((hcond2_1 t).mpr h1) (prevAcc2 V c t))
    rw [outsAt2_C V c t h0 h1]
    dsimp only
    exact key
  · have key := accB2 (F := F) c (grid2.coords t) (ms2_0 t) (hs2_0 t) (ms2_1 t) (hs2_1 t) (ms2_2 t) (hs2_2 t) (ms2_3 t) (hs2_3 t)
      (fun h => h0 ((hcond2_0 t).mp h)) (fun h => h1 ((hcond2_1 t).mp h)) (iblk2 V c 0 t) (iblk2 V c 1 t) (iblk2 V c 2 t) (prevAcc2 V c t)
      (scover2_B V c t (fun h => h0 ((hcond2_0 t).mp h)) (fun h => h1 ((hcond2_1 t).mp h)) (prevAcc2 V c t))
    rw [outsAt2_B V c t h0 h1]
    dsimp only
    exact key

/-- and at the last block of a row the output block receives the accumulator, in the output's format. -/
theorem out2_last (t : Fin cfg2.N) (h1 : t.val % 49 = 48) :
    (outsAt2 V c t.val t.isLt).1 = k2_pay3 (outsAt2 V c t.val t.isLt).2 := by
  have h0 : ¬t.val % 49 = 0 := by omega
  have key := outC2 (F := F) c (grid2.coords t) (ms2_0 t) (hs2_0 t) (ms2_1 t) (hs2_1 t) (ms2_2 t) (hs2_2 t) (ms2_3 t) (hs2_3 t)
    (fun h => h0 ((hcond2_0 t).mp h)) ((hcond2_1 t).mpr h1) (iblk2 V c 0 t) (iblk2 V c 1 t) (iblk2 V c 2 t) (prevAcc2 V c t)
    (cover2_C V c t (fun h => h0 ((hcond2_0 t).mp h)) ((hcond2_1 t).mpr h1) (prevAcc2 V c t))
  rw [acc2_next V c t h0, outsAt2_C V c t h0 h1]
  dsimp only
  exact key

theorem outs2_congr (n n' : ℕ) (h : n = n') (hn : n < cfg2.N) (hn' : n' < cfg2.N) : outsAt2 V c n hn = outsAt2 V c n' hn' := by
  subst h; rfl

end Steps

section Value
variable (V : (c : Dev nD) → (b : Ref sig .tc) → Buf (Elt Ideal) ((c : Thread nD τ).loc b)) (c : Dev nD)

/-- Node `k`'s contribution to entry `q` of edge `e`'s message: the indicator that the edge's source is `k`, times the
    edge's weight, times the node's feature (zero past the padded node range, which no sum below reaches). -/
def term2 (e : Fin 850944) (q : Fin 128) (k : ℕ) : EReal :=
  if hk : k < 50176 then
    Cert.Spec.ind ((V c main_v38 : S850944x1.Idx → BitVec 32) (ix2 e (0 : Fin 1))) (BitVec.ofNat 32 k)
      * (V c main_v39 : S850944x1.Idx → EReal) (ix2 e (0 : Fin 1)) * (V c main_v52 : S50176x128.Idx → EReal) (ix2 (⟨k, hk⟩ : Fin 50176) q)
  else 0

/-- One point's body adds to the accumulator the contributions of the 1024 nodes of its node block. -/
theorem step2 (t : Fin cfg2.N) (acc : Vec Ideal S1024x128 .f32) (p : Fin 1024) (q : Fin 128) (e : Fin 850944)
    (he : e.val = t.val / 49 * 1024 + p.val) :
    (k2_pay2 (F := Ideal) (grid2.coords t) (iblk2 V c 0 t) (iblk2 V c 1 t) acc (iblk2 V c 2 t) (ix2 p q) : EReal)
      = acc (ix2 p q) + ∑ k ∈ Finset.range 1024, term2 V c e q (t.val % 49 * 1024 + k) := by
  refine (pay2_2_apply (grid2.coords t) (iblk2 V c 0 t) (iblk2 V c 1 t) acc (iblk2 V c 2 t) p q).trans ?_
  refine congrArg (acc (ix2 p q) + ·) ?_
  rw [Finset.sum_range]
  refine Finset.sum_congr rfl fun k _ => ?_
  have hk := k.isLt
  have ht : t.val % 49 < 49 := Nat.mod_lt _ (by norm_num)
  have hlt : t.val % 49 * 1024 + k.val < 50176 := by omega
  rw [coord2_1 t, rd2_0 V c t p e he, rd2_1 V c t p e he, rd2_2 V c t k q ⟨_, hlt⟩ rfl]
  unfold term2
  rw [dif_pos hlt]

/-- After the `j`-th node block of a row the accumulator holds, for each edge of the row's edge block, the contributions of
    the nodes `0 … 1024 (j + 1) - 1`. -/
theorem acc2_eq : ∀ (n : ℕ) (hn : n < cfg2.N) (p : Fin 1024) (q : Fin 128) (e : Fin 850944) (he : e.val = n / 49 * 1024 + p.val),
    ((outsAt2 V c n hn).2 (ix2 p q) : EReal) = ∑ k ∈ Finset.range ((n % 49 + 1) * 1024), term2 V c e q k := by
  intro n
  induction n with
  | zero =>
    intro hn p q e he
    rw [acc2_first V c ⟨0, hn⟩ rfl, step2 V c ⟨0, hn⟩ _ p q e he, pay2_1_apply, zero_add]
    refine Finset.sum_congr rfl fun k _ => ?_
    show term2 V c e q (0 % 49 * 1024 + k) = _
    rw [show 0 % 49 * 1024 + k = k from by omega]
  | succ m ih =>
    intro hn p q e he
    by_cases h0 : (m + 1) % 49 = 0
    · rw [acc2_first V c ⟨m + 1, hn⟩ h0, step2 V c ⟨m + 1, hn⟩ _ p q e he, pay2_1_apply, zero_add]
      show ∑ k ∈ Finset.range 1024, term2 V c e q ((m + 1) % 49 * 1024 + k) = _
      rw [h0]
      refine Finset.sum_congr rfl fun k _ => ?_
      rw [show 0 * 1024 + k = k from by omega]
    · have hm : m < cfg2.N := Nat.lt_of_succ_lt hn
      have e1 : (m + 1) / 49 = m / 49 := by omega
      have e2 : (m + 1) % 49 = m % 49 + 1 := by omega
      rw [acc2_next V c ⟨m + 1, hn⟩ h0, step2 V c ⟨m + 1, hn⟩ _ p q e he]
      show (outsAt2 V c (m + 1 - 1) _).2 (ix2 p q) + ∑ k ∈ Finset.range 1024, term2 V c e q ((m + 1) % 49 * 1024 + k) = _
      rw [outs2_congr V c (m + 1 - 1) m (by omega) _ hm, ih hm p q e (by rw [he, e1]), e2,
        show (m % 49 + 1 + 1) * 1024 = (m % 49 + 1) * 1024 + 1024 from by ring, Finset.sum_range_add]

/-- The spec's sum over the 50176 padded node rows is the sum of the contributions over that range. -/
theorem gather2_eq_sum (e : Fin 850944) (q : Fin 128) :
    Cert.Spec.gatherOut (V c main_v38) (V c main_v39) (V c main_v52) (ix2 e q) = ∑ k ∈ Finset.range 50176, term2 V c e q k := by
  rw [Finset.sum_range]
  unfold Cert.Spec.gatherOut
  refine Finset.sum_congr rfl fun k _ => ?_
  unfold term2
  rw [dif_pos k.isLt]

/-- Reading an array through the output window's block at point `t` reads it at the block's entries. -/
theorem read_blk2_3 (t : Fin cfg2.N) (G : S850944x128.Idx → EReal) (j : ((cfg2.win 3).xblock (grid2.coords t)).Idx) :
    ((cfg2.win 3).blk t).view.read (Elt Ideal) G j = G (((cfg2.win 3).blk t).view.emb j) := rfl

/-- What a write-back writes: the edge block's rows of the spec. -/
theorem flushed2_eq (t : Fin cfg2.N) (hf : (cfg2.win 3).flush t = true) :
    (dat2 V c).flushed 3 t = ((cfg2.win 3).blk t).view.read (Elt Ideal) (Cert.Spec.gatherOut (V c main_v38) (V c main_v39) (V c main_v52)) := by
  have h48 : t.val % 49 = 48 := (flush2_3_iff t).mp hf
  have hN : t.val < 40719 := lt_of_lt_of_eq t.isLt N_2
  show (cfg2.win 3).cut (grid2.coords t) ((dat2 V c).after 3 t) = _
  rw [after2_3, out2_last V c t h48]
  funext j
  have hj0 : (j 0).val < 1024 := (j 0).isLt
  have hj1 : (j 1).val < 128 := (j 1).isLt
  have hlt : t.val / 49 * 1024 + (j 0).val < 850944 := by omega
  have hx : (win2_3.xinj (grid2.coords t) j : S1024x128.Idx) = ix2 (⟨(j 0).val, hj0⟩ : Fin 1024) (⟨(j 1).val, hj1⟩ : Fin 128) := by
    funext a; apply Fin.ext
    match a with
    | ⟨0, _⟩ => rfl
    | ⟨1, _⟩ => rfl
  refine Eq.trans ?_ (read_blk2_3 t (Cert.Spec.gatherOut (V c main_v38) (V c main_v39) (V c main_v52)) j).symm
  refine Eq.trans (b := ((outsAt2 V c t.val t.isLt).2 (ix2 (⟨(j 0).val, hj0⟩ : Fin 1024) (⟨(j 1).val, hj1⟩ : Fin 128)) : EReal)) ?_ ?_
  · exact congrArg (outsAt2 V c t.val t.isLt).2 hx
  rw [acc2_eq V c t.val t.isLt ⟨(j 0).val, hj0⟩ ⟨(j 1).val, hj1⟩ ⟨t.val / 49 * 1024 + (j 0).val, hlt⟩ rfl, h48]
  have hemb : ((cfg2.win 3).blk t).view.emb j = ix2 (⟨t.val / 49 * 1024 + (j 0).val, hlt⟩ : Fin 850944) (⟨(j 1).val, hj1⟩ : Fin 128) := by
    funext a; apply Fin.ext
    match a with
    | ⟨0, _⟩ => show win2_3.index t 0 * 1024 + 1 * (j 0).val = t.val / 49 * 1024 + (j 0).val; rw [(idx2_3 t).1]; omega
    | ⟨1, _⟩ => show win2_3.index t 1 * 128 + 1 * (j 1).val = (j 1).val; rw [(idx2_3 t).2]; omega
  rw [hemb, gather2_eq_sum]

/-- The gather call leaves the spec's array: every edge block is written back once, after the last node block of its row. -/
theorem final2 : ((dat2 (F := Ideal) V c).arrAt 3 cfg2.N : S850944x128.Idx → EReal)
    = Cert.Spec.gatherOut (V c main_v38) (V c main_v39) (V c main_v52) :=
  (dat2 V c).arrAt_eq_of_cover 3 (Cert.Spec.gatherOut (V c main_v38) (V c main_v39) (V c main_v52)) (flushed2_eq V c) fun i => by
    have hi0 : (i 0).val < 850944 := (i 0).isLt
    have hi1 : (i 1).val < 128 := (i 1).isLt
    have hN : cfg2.N = 40719 := N_2
    have hlt : (i 0).val / 1024 * 49 + 48 < cfg2.N := by rw [hN]; omega
    refine ⟨⟨(i 0).val / 1024 * 49 + 48, hlt⟩, (flush2_3_iff _).mpr (by show ((i 0).val / 1024 * 49 + 48) % 49 = 48; omega), ?_⟩
    show i ∈ ((View.whole main_v53).slice (win2_3.rect ⟨(i 0).val / 1024 * 49 + 48, hlt⟩)).set
    rw [View.set_slice_whole, Rect.mem_set_unit]
    intro a
    have hq := (idx2_3 ⟨(i 0).val / 1024 * 49 + 48, hlt⟩)
    match a with
    | ⟨0, _⟩ =>
      show win2_3.index ⟨(i 0).val / 1024 * 49 + 48, hlt⟩ 0 * 1024 ≤ (i 0).val ∧ (i 0).val < win2_3.index ⟨(i 0).val / 1024 * 49 + 48, hlt⟩ 0 * 1024 + 1024
      rw [hq.1]; show ((i 0).val / 1024 * 49 + 48) / 49 * 1024 ≤ (i 0).val ∧ (i 0).val < ((i 0).val / 1024 * 49 + 48) / 49 * 1024 + 1024
      omega
    | ⟨1, _⟩ =>
      show win2_3.index ⟨(i 0).val / 1024 * 49 + 48, hlt⟩ 1 * 128 ≤ (i 1).val ∧ (i 1).val < win2_3.index ⟨(i 0).val / 1024 * 49 + 48, hlt⟩ 1 * 128 + 128
      rw [hq.2]; omega

end Value

end Cert.KernelIdeal.Gen

end
-- ==== Proof.KI.Val3A.lean ====
/-
  The scatter call (pipeline 3), its arithmetic. What each control case leaves in the accumulator and in the output
  block, as the kernel's own expressions of the blocks it is given; and those expressions at an index over the extended
  reals: the one-hot matrix product is the sum, over the block's 1024 edges, of the indicator "the edge's destination
  is this node" times the edge's message (a matrix product into a zero accumulator is a plain sum there, and the
  conversions of a 0/1 word are 0 and 1); the final store adds the bias and replaces negative entries by zero.
-/
import proofs.«179232_j88021059764774_1_alg».proof.Proof.KI.R3Dat
import proofs.«179232_j88021059764774_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace Val3

/-! ## What each case's stores leave, as the kernel's expressions -/

section Pieces
variable {F : FTy → Type} [FloatOps F]

theorem hz3 : (![0, 0] : Fin 2 → Nat) = fun _ => 0 := funext fun a => by fin_cases a <;> rfl

theorem accC (c : Dev nD) (i : grid3.Coords) (arg2 : Memref sig .tc .vmem S1x1024 .i32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1x1024 .i32) (x1 : Vec F S1024x128 .bf16) (x2 : Vec F S1x128 .f32) (xs0 : Vec F S1024x128 .f32) :
    View.canon (kernelRun3_C (F := F) c i arg2 harg2 arg3 harg3 arg4 harg4 arg5 harg5 arg6 harg6 hc0 hc1 x0 x1 x2 xs0).2.1 = k3_pay2 i x0 xs0 x1 := by
  unfold kernelRun3_C
  dsimp only
  sl_unfold_words
  rw [View.canon_unit_zero hz3]
  simp only [View.readAt_eq_ld, harg2.read_unread, harg3.read_unread, harg4.read_unread, harg6.read_unread, View.ld_unit_zero (S := S1024x128) hz3, View.ld_unit_zero (S := S1x1024) hz3, View.ld_unit_zero (S := S1x128) hz3]

theorem outC (c : Dev nD) (i : grid3.Coords) (arg2 : Memref sig .tc .vmem S1x1024 .i32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1x1024 .i32) (x1 : Vec F S1024x128 .bf16) (x2 : Vec F S1x128 .f32) (xs0 : Vec F S1024x128 .f32) :
    View.canon (kernelRun3_C (F := F) c i arg2 harg2 arg3 harg3 arg4 harg4 arg5 harg5 arg6 harg6 hc0 hc1 x0 x1 x2 xs0).1 = k3_pay3 (k3_pay2 i x0 xs0 x1) x2 := by
  unfold kernelRun3_C
  dsimp only
  sl_unfold_words
  rw [View.canon_unit_zero hz3, View.readCov_unit_zero (S := S1024x128) _ hz3]
  simp only [View.readAt_eq_ld, harg2.read_unread, harg3.read_unread, harg4.read_unread, harg6.read_unread, View.ld_unit_zero (S := S1024x128) hz3, View.ld_unit_zero (S := S1x1024) hz3, View.ld_unit_zero (S := S1x128) hz3]

theorem accB (c : Dev nD) (i : grid3.Coords) (arg2 : Memref sig .tc .vmem S1x1024 .i32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1x1024 .i32) (x1 : Vec F S1024x128 .bf16) (x2 : Vec F S1x128 .f32) (xs0 : Vec F S1024x128 .f32) :
    View.canon (kernelRun3_B (F := F) c i arg2 harg2 arg3 harg3 arg4 harg4 arg5 harg5 arg6 harg6 hc0 hc1 x0 x1 x2 xs0).2.1 = k3_pay2 i x0 xs0 x1 := by
  unfold kernelRun3_B
  dsimp only
  sl_unfold_words
  rw [View.canon_unit_zero hz3]
  simp only [View.readAt_eq_ld, harg2.read_unread, harg3.read_unread, harg4.read_unread, harg6.read_unread, View.ld_unit_zero (S := S1024x128) hz3, View.ld_unit_zero (S := S1x1024) hz3, View.ld_unit_zero (S := S1x128) hz3]

theorem accA (c : Dev nD) (i : grid3.Coords) (arg2 : Memref sig .tc .vmem S1x1024 .i32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1x1024 .i32) (x1 : Vec F S1024x128 .bf16) (x2 : Vec F S1x128 .f32) :
    View.canon (kernelRun3_A (F := F) c i arg2 harg2 arg3 harg3 arg4 harg4 arg5 harg5 arg6 harg6 hc0 hc1 x0 x1 x2).2.1 = k3_pay2 i x0 (k3_pay1 (F := F)) x1 := by
  unfold kernelRun3_A
  dsimp only
  sl_unfold_words
  rw [View.canon_cons_unit_zero (S := S1024x128) hz3, View.readCov_unit_zero (S := S1024x128) _ hz3]
  simp only [View.readAt_eq_ld, harg2.read_unread, harg3.read_unread, harg4.read_unread, harg6.read_unread, View.ld_unit_zero (S := S1024x128) hz3, View.ld_unit_zero (S := S1x1024) hz3, View.ld_unit_zero (S := S1x128) hz3]

end Pieces

/-! ## The kernel's expressions at an index, over the extended reals -/

section Payloads

abbrev dotK : DotDims S1024x1024 S1024x128 S1024x128 := dot_S1024x1024_S1024x128_S1024x128_1_0_0_1_n_n

theorem dot_lhs0 (j : S1024x128.Idx) (q : dotK.contr.Idx) : (dotK.lhsIdx j q 0).val = (j 0).val := by
  unfold DotDims.lhsIdx
  rw [dif_neg (show ¬(0 : Fin S1024x1024.rank) ∈ dotK.lhsBatch by decide), dif_pos (show (0 : Fin S1024x1024.rank) ∈ dotK.lhsNonContracting by decide)]
  rfl
theorem dot_lhs1 (j : S1024x128.Idx) (q : dotK.contr.Idx) : (dotK.lhsIdx j q 1).val = (q ⟨0, by decide⟩).val :=
  dotK.lhsIdx_val_of_single rfl j q
theorem dot_rhs0 (j : S1024x128.Idx) (q : dotK.contr.Idx) : (dotK.rhsIdx j q 0).val = (q ⟨0, by decide⟩).val :=
  dotK.rhsIdx_val_of_single rfl j q
theorem dot_rhs1 (j : S1024x128.Idx) (q : dotK.contr.Idx) : (dotK.rhsIdx j q 1).val = (j 1).val := by
  unfold DotDims.rhsIdx
  rw [dif_neg (show ¬(1 : Fin S1024x128.rank) ∈ dotK.rhsBatch by decide), dif_pos (show (1 : Fin S1024x128.rank) ∈ dotK.rhsNonContracting by decide)]
  rfl

/-- The 0/1 word of an integer comparison, converted to a float, is the indicator of the equality. -/
theorem onehot_val (a b : BitVec 32) :
    (FloatOps.sitofp (F := Ideal) .f32 ((IntOp.cmpi .eq a b).setWidth 32) : EReal) = Cert.Spec.ind a b := by
  show (((BitVec.setWidth 32 (BitVec.ofBool (a == b))).toInt : ℝ) : EReal) = if a = b then 1 else 0
  by_cases h : a = b
  · rw [if_pos h, beq_iff_eq.mpr h]
    have e : (BitVec.setWidth 32 (BitVec.ofBool true)).toInt = 1 := by decide
    rw [e]; simp
  · rw [if_neg h, beq_eq_false_iff_ne.mpr h]
    have e : (BitVec.setWidth 32 (BitVec.ofBool false)).toInt = 0 := by decide
    rw [e]; simp

theorem nodeId_eq (a p : ℕ) : IntOp.addi (Scalar.muli (BitVec.ofNat 32 a) 1024#32) (BitVec.ofNat 32 p) = BitVec.ofNat 32 (a * 1024 + p) := by
  show BitVec.ofNat 32 a * BitVec.ofNat 32 1024 + BitVec.ofNat 32 p = _
  rw [← BitVec.ofNat_mul, ← BitVec.ofNat_add]

theorem pay1_apply (j : S1024x128.Idx) : k3_pay1 (F := Ideal) j = 0 := by
  unfold k3_pay1
  simp only [shapeCast_self]
  exact Ideal.ofBits_zero_f32

theorem pay2_apply (i : grid3.Coords) (v7 : Vec Ideal S1x1024 .i32) (v14 : Vec Ideal S1024x128 .f32) (v15 : Vec Ideal S1024x128 .bf16) (p : Fin 1024) (q : Fin 128) :
    k3_pay2 (F := Ideal) i v7 v14 v15 (ix2 p q) = v14 (ix2 p q) + ∑ k : Fin 1024, Cert.Spec.ind (BitVec.ofNat 32 ((i 0).val * 1024 + p.val)) (v7 (ix2 (0 : Fin 1) k)) * v15 (ix2 k q) := by
  unfold k3_pay2
  simp only [shapeCast_self]
  rw [addf_apply]
  refine congrArg (v14 (ix2 p q) + ·) ?_
  refine (Ideal.matmul_constant_zero_apply (φ₁ := .bf16) (φ₂ := .bf16) dotK none _ v15 (ix2 p q)).trans ?_
  rw [← Equiv.sum_comp (contrEquiv1 dotK 1024 rfl rfl).symm]
  refine Finset.sum_congr rfl fun k _ => ?_
  have hk := contrEquiv1_symm_val dotK 1024 rfl rfl k
  have el : dotK.lhsIdx (ix2 p q) ((contrEquiv1 dotK 1024 rfl rfl).symm k) = ix2 p k := funext fun a => Fin.ext (by
    match a with
    | ⟨0, _⟩ => exact dot_lhs0 _ _
    | ⟨1, _⟩ => exact (dot_lhs1 _ _).trans hk)
  have er : dotK.rhsIdx (ix2 p q) ((contrEquiv1 dotK 1024 rfl rfl).symm k) = ix2 k q := funext fun a => Fin.ext (by
    match a with
    | ⟨0, _⟩ => exact (dot_rhs0 _ _).trans hk
    | ⟨1, _⟩ => exact dot_rhs1 _ _)
  rw [el, er]
  refine congrArg (· * v15 (ix2 k q)) ?_
  rw [truncf_apply, sitofp_apply, extui_apply]
  show FloatOps.sitofp .f32 ((IntOp.cmpi .eq (IntOp.addi (Scalar.muli (BitVec.ofNat 32 (i 0).val) 1024#32) (iota .tc S1024x1024 32 [0] iota_S1024x1024_d0_w32 (ix2 p k))) (broadcastTo S1024x1024 v7 broadcasts_S1x1024_S1024x1024 (ix2 p k))).setWidth 32) = _
  rw [iota_single_apply, broadcastTo_apply v7 broadcasts_S1x1024_S1024x1024 (ix2 p k) (ix2 (0 : Fin 1) k) (fun a => by
    match a with
    | ⟨0, _⟩ => rfl
    | ⟨1, _⟩ => rfl), onehot_val]
  exact congrArg (Cert.Spec.ind · _) (nodeId_eq _ _)

theorem pay3_apply (v25 : Vec Ideal S1024x128 .f32) (v26 : Vec Ideal S1x128 .f32) (p : Fin 1024) (q : Fin 128) :
    k3_pay3 (F := Ideal) v25 v26 (ix2 p q) = max (v25 (ix2 p q) + v26 (ix2 (0 : Fin 1) q)) 0 := by
  unfold k3_pay3
  simp only [shapeCast_self]
  rw [maximumf_apply, addf_apply, broadcast_apply, broadcastTo_apply v26 broadcasts_S1x128_S1024x128 (ix2 p q) (ix2 (0 : Fin 1) q) (fun a => by
    match a with
    | ⟨0, _⟩ => rfl
    | ⟨1, _⟩ => rfl)]
  show max _ (Ideal.ofBits .f32 0x00000000#32) = _
  rw [Ideal.ofBits_zero_f32]

end Payloads

/-! ## The accumulator and the output block after a point, by the point's case -/

section Reads
variable {F : FTy → Type} [FloatOps F]
variable (V : (c : Dev nD) → (b : Ref sig .tc) → Buf (Elt F) ((c : Thread nD τ).loc b)) (c : Dev nD)

/-- At the first block of a row the accumulator ends at the one-hot product added to the zero block. -/
theorem acc_A (t : Fin cfg3.N) (h0 : t.val % 831 = 0) :
    (outsAt3 V c t.val t.isLt).2 = k3_pay2 (grid3.coords t) (iblk3 V c 0 t) (k3_pay1 (F := F)) (iblk3 V c 1 t) := by
  have h1 : ¬t.val % 831 = 830 := by omega
  rw [outsAt3_A V c t h0 h1]
  dsimp only
  refine (View.read_writes_eq_canon (Val := Elt F) VS3_0 VS3_0.junk _ (scover3_A V c t ((hcond3_0 t).mpr h0) (fun h => h1 ((hcond3_1 t).mp h)))).trans ?_
  exact accA (F := F) c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)

/-- At every later block it ends at the one-hot product added to what the block before left. -/
theorem acc_B (t : Fin cfg3.N) (h0 : ¬t.val % 831 = 0) :
    (outsAt3 V c t.val t.isLt).2 = k3_pay2 (grid3.coords t) (iblk3 V c 0 t) (prevAcc3 V c t) (iblk3 V c 1 t) := by
  by_cases h1 : t.val % 831 = 830
  · rw [outsAt3_C V c t h0 h1]
    dsimp only
    refine (View.read_writes_eq_canon (Val := Elt F) VS3_0 VS3_0.junk _ (scover3_C V c t (fun h => h0 ((hcond3_0 t).mp h)) ((hcond3_1 t).mpr h1) (prevAcc3 V c t))).trans ?_
    exact accC (F := F) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (prevAcc3 V c t)
  · rw [outsAt3_B V c t h0 h1]
    dsimp only
    refine (View.read_writes_eq_canon (Val := Elt F) VS3_0 VS3_0.junk _ (scover3_B V c t (fun h => h0 ((hcond3_0 t).mp h)) (fun h => h1 ((hcond3_1 t).mp h)) (prevAcc3 V c t))).trans ?_
    exact accB (F := F) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (prevAcc3 V c t)

/-- At the last block of a row the output block is that accumulator plus the bias, negative entries replaced by zero. -/
theorem out_C (t : Fin cfg3.N) (h0 : ¬t.val % 831 = 0) (h1 : t.val % 831 = 830) :
    (outsAt3 V c t.val t.isLt).1 = k3_pay3 (k3_pay2 (grid3.coords t) (iblk3 V c 0 t) (prevAcc3 V c t) (iblk3 V c 1 t)) (iblk3 V c 2 t) := by
  rw [outsAt3_C V c t h0 h1]
  dsimp only
  refine (View.read_writes_eq_canon (Val := Elt F) VO3_3 VO3_3.junk _ (cover3_C V c t (fun h => h0 ((hcond3_0 t).mp h)) ((hcond3_1 t).mpr h1) (prevAcc3 V c t))).trans ?_
  exact outC (F := F) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (prevAcc3 V c t)

end Reads

end Val3

end Cert.KernelIdeal.Gen
end
-- ==== Proof.KI.Val3.lean ====
/-
  The scatter call (pipeline 3), its value. Within a row of the grid (the node block fixed) the accumulator after the
  j-th edge block is the sum of the one-hot products of the edge blocks 0..j, so after the last of the 831 blocks it is
  the sum over all 850944 = 831·1024 edges; the output block stored at the last point of the row is that sum plus the
  bias with negative entries replaced by zero; each output block is written back exactly once, at the last point of its
  row, and the 49 blocks tile the output array. Hence the output array is the scatter specification of the three
  arrays the call is given. Only associativity of the sum of extended reals is used, and no finiteness.
-/
import proofs.«179232_j88021059764774_1_alg».proof.Proof.KI.Val3A

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace Val3

section Value

variable (V : (c : Dev nD) → (b : Ref sig .tc) → Buf (Elt Ideal) ((c : Thread nD τ).loc b)) (c : Dev nD)

/-- Edge `k` of edge block `s`: edge `1024·s + k`. -/
def edgeAt (s : ℕ) (k : Fin 1024) : Fin 850944 := ⟨(s * 1024 + k.val) % 850944, Nat.mod_lt _ (by norm_num)⟩

/-- The destination row, the message matrix and the bias row the call is given. -/
abbrev dstA : S1x850944.Idx → BitVec 32 := V c main_v40
abbrev msgA : S850944x128.Idx → EReal := V c main_v53
abbrev biasA : S1x128.Idx → EReal := V c main_v54

theorem ofNat_toNat_lt (x : ℕ) (h : x < 4294967296) : (BitVec.ofNat 32 x).toNat = x := by
  rw [BitVec.toNat_ofNat]; exact Nat.mod_eq_of_lt (by norm_num; exact h)

theorem lt_N3 (t : Fin cfg3.N) : t.val < 40719 := lt_of_lt_of_eq t.isLt (show cfg3.N = 40719 from N_3)

/-- The block indices of the four windows at point `t`: the edge block is `t mod 831`, the node block `t / 831`. -/
theorem index3_0 (t : Fin cfg3.N) : win3_0.index t 0 = 0 ∧ win3_0.index t 1 = t.val % 831 := by
  refine ⟨rfl, ?_⟩
  show (BitVec.ofNat 32 ((grid3.coords t) 1).val).toNat = _
  rw [coord3_1, ofNat_toNat_lt _ (by omega)]
theorem index3_1 (t : Fin cfg3.N) : win3_1.index t 0 = t.val % 831 ∧ win3_1.index t 1 = 0 := by
  refine ⟨?_, rfl⟩
  show (BitVec.ofNat 32 ((grid3.coords t) 1).val).toNat = _
  rw [coord3_1, ofNat_toNat_lt _ (by omega)]
theorem index3_2 (t : Fin cfg3.N) : win3_2.index t 0 = 0 ∧ win3_2.index t 1 = 0 := ⟨rfl, rfl⟩
theorem index3_3 (t : Fin cfg3.N) : win3_3.index t 0 = t.val / 831 ∧ win3_3.index t 1 = 0 := by
  refine ⟨?_, rfl⟩
  show (BitVec.ofNat 32 ((grid3.coords t) 0).val).toNat = _
  have := lt_N3 t
  rw [coord3_0, ofNat_toNat_lt _ (by omega)]; omega

/-- The three input blocks at point `t`, read off the arrays. -/
theorem iblk0_apply (t : Fin cfg3.N) (k : Fin 1024) :
    (iblk3 V c 0 t : Vec Ideal S1x1024 .i32) (ix2 (0 : Fin 1) k) = dstA V c (ix2 (0 : Fin 1) (edgeAt (t.val % 831) k)) := by
  unfold iblk3
  rw [View.read_apply]
  show V c main_v40 (((cfg3.win 0).blk t).view.emb (ix2 (0 : Fin 1) k)) = V c main_v40 _
  refine congrArg (V c main_v40) (funext fun a => Fin.ext ?_)
  match a with
  | ⟨0, _⟩ => show win3_0.index t 0 * 1 + 1 * 0 = 0; rw [(index3_0 t).1]
  | ⟨1, _⟩ => show win3_0.index t 1 * 1024 + 1 * k.val = (t.val % 831 * 1024 + k.val) % 850944; rw [(index3_0 t).2]; omega
theorem iblk1_apply (t : Fin cfg3.N) (k : Fin 1024) (q : Fin 128) :
    (iblk3 V c 1 t : Vec Ideal S1024x128 .bf16) (ix2 k q) = msgA V c (ix2 (edgeAt (t.val % 831) k) q) := by
  unfold iblk3
  rw [View.read_apply]
  show V c main_v53 (((cfg3.win 1).blk t).view.emb (ix2 k q)) = V c main_v53 _
  refine congrArg (V c main_v53) (funext fun a => Fin.ext ?_)
  match a with
  | ⟨0, _⟩ => show win3_1.index t 0 * 1024 + 1 * k.val = (t.val % 831 * 1024 + k.val) % 850944; rw [(index3_1 t).1]; omega
  | ⟨1, _⟩ => show win3_1.index t 1 * 128 + 1 * q.val = q.val; rw [(index3_1 t).2]; omega
theorem iblk2_apply (t : Fin cfg3.N) (q : Fin 128) :
    (iblk3 V c 2 t : Vec Ideal S1x128 .f32) (ix2 (0 : Fin 1) q) = biasA V c (ix2 (0 : Fin 1) q) := by
  unfold iblk3
  rw [View.read_apply]
  show V c main_v54 (((cfg3.win 2).blk t).view.emb (ix2 (0 : Fin 1) q)) = V c main_v54 _
  refine congrArg (V c main_v54) (funext fun a => Fin.ext ?_)
  match a with
  | ⟨0, _⟩ => show win3_2.index t 0 * 1 + 1 * 0 = 0; rw [(index3_2 t).1]
  | ⟨1, _⟩ => show win3_2.index t 1 * 128 + 1 * q.val = q.val; rw [(index3_2 t).2]; omega

/-- What edge block `s` adds to the accumulator of node block `r`, at row `p` and column `q`: the sum over the block's
    1024 edges of the indicator "the edge's destination is node `1024·r + p`" times the edge's message. -/
def blockTerm (r s : ℕ) (p : Fin 1024) (q : Fin 128) : EReal :=
  ∑ k : Fin 1024, Cert.Spec.ind (BitVec.ofNat 32 (r * 1024 + p.val)) (dstA V c (ix2 (0 : Fin 1) (edgeAt s k))) * msgA V c (ix2 (edgeAt s k) q)

/-- The one-hot product at point `t`, added to any accumulator. -/
theorem pay2_at (t : Fin cfg3.N) (acc : Vec Ideal S1024x128 .f32) (p : Fin 1024) (q : Fin 128) :
    k3_pay2 (F := Ideal) (grid3.coords t) (iblk3 V c 0 t) acc (iblk3 V c 1 t) (ix2 p q)
      = acc (ix2 p q) + blockTerm V c (t.val / 831) (t.val % 831) p q := by
  refine (pay2_apply (grid3.coords t) (iblk3 V c 0 t) acc (iblk3 V c 1 t) p q).trans ?_
  unfold blockTerm
  have h0 : ((grid3.coords t) 0).val = t.val / 831 := by rw [coord3_0]; have := lt_N3 t; omega
  rw [h0]
  refine congrArg (acc (ix2 p q) + ·) (Finset.sum_congr rfl fun k _ => ?_)
  rw [iblk0_apply, iblk1_apply]

/-- THE ACCUMULATOR after point `n`: the sum of the terms of the edge blocks of the row met so far. -/
theorem acc_eq : ∀ (n : ℕ) (hn : n < cfg3.N) (p : Fin 1024) (q : Fin 128),
    (outsAt3 V c n hn).2 (ix2 p q) = ∑ s ∈ Finset.range (n % 831 + 1), blockTerm V c (n / 831) s p q
  | 0, hn, p, q => by
    refine (congrFun (acc_A V c ⟨0, hn⟩ (Nat.zero_mod _)) (ix2 p q)).trans ?_
    refine (pay2_at V c ⟨0, hn⟩ _ p q).trans ?_
    rw [pay1_apply, zero_add]
    show blockTerm V c (0 / 831) (0 % 831) p q = _
    rw [Nat.zero_mod, Finset.sum_range_one]
  | n + 1, hn, p, q => by
    by_cases h0 : (n + 1) % 831 = 0
    · refine (congrFun (acc_A V c ⟨n + 1, hn⟩ h0) (ix2 p q)).trans ?_
      refine (pay2_at V c ⟨n + 1, hn⟩ _ p q).trans ?_
      rw [pay1_apply, zero_add]
      show blockTerm V c ((n + 1) / 831) ((n + 1) % 831) p q = _
      rw [h0, Finset.sum_range_one]
    · have hd : (n + 1) / 831 = n / 831 := by omega
      have hm : (n + 1) % 831 = n % 831 + 1 := by omega
      refine (congrFun (acc_B V c ⟨n + 1, hn⟩ h0) (ix2 p q)).trans ?_
      refine (pay2_at V c ⟨n + 1, hn⟩ _ p q).trans ?_
      show (outsAt3 V c n (Nat.lt_of_succ_lt hn)).2 (ix2 p q) + blockTerm V c ((n + 1) / 831) ((n + 1) % 831) p q = _
      rw [acc_eq n (Nat.lt_of_succ_lt hn) p q, hd, hm, Finset.sum_range_succ _ (n % 831 + 1)]

/-- THE OUTPUT BLOCK at the last point of a row: the whole row's sum plus the bias, negative entries replaced by zero. -/
theorem out_eq (t : Fin cfg3.N) (h1 : t.val % 831 = 830) (p : Fin 1024) (q : Fin 128) :
    (outsAt3 V c t.val t.isLt).1 (ix2 p q)
      = max ((∑ s ∈ Finset.range 831, blockTerm V c (t.val / 831) s p q) + biasA V c (ix2 (0 : Fin 1) q)) 0 := by
  have h0 : ¬t.val % 831 = 0 := by omega
  refine (congrFun (out_C V c t h0 h1) (ix2 p q)).trans ?_
  refine (pay3_apply _ (iblk3 V c 2 t) p q).trans ?_
  rw [iblk2_apply, ← acc_B V c t h0, acc_eq V c t.val t.isLt p q, h1]

/-- The 850944 edges are the 831 blocks of 1024. -/
theorem sum_blocks (f : Fin 850944 → EReal) : ∑ s ∈ Finset.range 831, ∑ k : Fin 1024, f (edgeAt s k) = ∑ e : Fin 850944, f e := by
  rw [Finset.sum_range (fun s => ∑ k : Fin 1024, f (edgeAt s k))]
  refine (Fintype.sum_prod_type' (fun (s : Fin 831) (k : Fin 1024) => f (edgeAt s.val k))).symm.trans ?_
  refine Fintype.sum_equiv (finProdFinEquiv : Fin 831 × Fin 1024 ≃ Fin 850944) _ _ (fun x => congrArg f (Fin.ext ?_))
  have h1 := x.1.isLt
  have h2 := x.2.isLt
  show (x.1.val * 1024 + x.2.val) % 850944 = x.2.val + 1024 * x.1.val
  omega

/-- The specification at the entry in row `p` of node block `r`. -/
theorem scatterOut_at (j : S50176x128.Idx) (r : ℕ) (p : Fin 1024) (q : Fin 128) (h0 : (j 0).val = r * 1024 + p.val) (h1 : (j 1).val = q.val) :
    Cert.Spec.scatterOut (dstA V c) (msgA V c) (biasA V c) j
      = max ((∑ s ∈ Finset.range 831, blockTerm V c r s p q) + biasA V c (ix2 (0 : Fin 1) q)) 0 := by
  have e1 : j 1 = q := Fin.ext h1
  unfold Cert.Spec.scatterOut blockTerm
  rw [sum_blocks (fun e => Cert.Spec.ind (BitVec.ofNat 32 (r * 1024 + p.val)) (dstA V c (ix2 (0 : Fin 1) e)) * msgA V c (ix2 e q)), h0, e1]

/-- The output block is written back exactly at the last point of each row. -/
theorem flush3_3_to (t : Fin cfg3.N) (hf : (cfg3.win 3).flush t = true) : t.val % 831 = 830 := by
  by_contra h
  have := noFlush3_3 t (fun hc => h ((hcond3_1 t).mp hc))
  rw [this] at hf
  exact Bool.false_ne_true hf
theorem flush3_3_of (t : Fin cfg3.N) (h : t.val % 831 = 830) : (cfg3.win 3).flush t = true := by
  have hN := lt_N3 t
  show (win3_3.isOut && (decide (t.val + 1 = grid3.N) || decide (∃ h : t.val + 1 < grid3.N, win3_3.index ⟨t.val + 1, h⟩ ≠ win3_3.index t))) = true
  have ho : win3_3.isOut = true := rfl
  rw [ho, Bool.true_and, Bool.or_eq_true]
  by_cases hl : t.val + 1 = grid3.N
  · exact Or.inl (decide_eq_true hl)
  · have h1 : t.val + 1 < grid3.N := by rw [N_3] at hl ⊢; omega
    refine Or.inr (decide_eq_true ⟨h1, fun e => ?_⟩)
    have e0 := congrFun e 0
    rw [(index3_3 ⟨t.val + 1, h1⟩).1, (index3_3 t).1] at e0
    have e0' : (t.val + 1) / 831 = t.val / 831 := e0
    omega

/-- A block of an array, read back, is the array at the block's indices. -/
theorem cut_eq_read_of (G : S50176x128.Idx → EReal) (t : Fin cfg3.N) (X : Vec Ideal S1024x128 .f32)
    (h : ∀ y : ((cfg3.win 3).xblock (grid3.coords t)).Idx, X ((cfg3.win 3).xinj (grid3.coords t) y) = G (((cfg3.win 3).blk t).view.emb y)) :
    (cfg3.win 3).cut (grid3.coords t) X = ((cfg3.win 3).blk t).view.read (Elt Ideal) G := funext h

attribute [local irreducible] Cert.Spec.scatterOut blockTerm

/-- WHAT THE LAST POINT OF A ROW WRITES BACK is its block of the specification. -/
theorem flushed_eq (t : Fin cfg3.N) (hf : (cfg3.win 3).flush t = true) :
    (dat3 V c).flushed 3 t = ((cfg3.win 3).blk t).view.read (Elt Ideal) (Cert.Spec.scatterOut (dstA V c) (msgA V c) (biasA V c)) := by
  have h1 : t.val % 831 = 830 := flush3_3_to t hf
  refine (congrArg ((cfg3.win 3).cut (grid3.coords t)) (after3_3 V c t)).trans ?_
  refine cut_eq_read_of (Cert.Spec.scatterOut (dstA V c) (msgA V c) (biasA V c)) t (outsAt3 V c t.val t.isLt).1 (fun y => ?_)
  have hy0 : (y 0).val < 1024 := (y 0).isLt
  have hy1 : (y 1).val < 128 := (y 1).isLt
  have hb0 : ((((cfg3.win 3).blk t).view.emb y) 0).val = win3_3.index t 0 * 1024 + 1 * (y 0).val := rfl
  have hb1 : ((((cfg3.win 3).blk t).view.emb y) 1).val = win3_3.index t 1 * 128 + 1 * (y 1).val := rfl
  have hx : (cfg3.win 3).xinj (grid3.coords t) y = ix2 (⟨(y 0).val, hy0⟩ : Fin 1024) (⟨(y 1).val, hy1⟩ : Fin 128) :=
    funext fun a => Fin.ext (by
      match a with
      | ⟨0, _⟩ => rfl
      | ⟨1, _⟩ => rfl)
  rw [hx]
  refine (out_eq V c t h1 ⟨(y 0).val, hy0⟩ ⟨(y 1).val, hy1⟩).trans
    (scatterOut_at V c (((cfg3.win 3).blk t).view.emb y) (t.val / 831) ⟨(y 0).val, hy0⟩ ⟨(y 1).val, hy1⟩ ?_ ?_).symm
  · rw [hb0, (index3_3 t).1]; show _ = t.val / 831 * 1024 + (y 0).val; omega
  · rw [hb1, (index3_3 t).2]; show _ = (y 1).val; omega

/-- An index of the output array is in point `t`'s block iff each coordinate is in the block's range on its axis. -/
theorem mem_blk3 (t : Fin cfg3.N) (i : S50176x128.Idx) :
    i ∈ ((cfg3.win 3).blk t).view.set ↔ ∀ a : Fin 2, win3_3.index t a * S1024x128.size a ≤ (i a).val ∧ (i a).val < win3_3.index t a * S1024x128.size a + S1024x128.size a := by
  show i ∈ ((View.whole main_v55).slice (win3_3.rect t)).set ↔ _
  rw [View.set_slice_whole, Rect.mem_set_unit]
  exact Iff.rfl

/-- The blocks written back tile the output array: row `n` is in the block of the last point of row block `n / 1024`. -/
theorem cover3 (i : S50176x128.Idx) : ∃ t : Fin cfg3.N, (cfg3.win 3).flush t = true ∧ i ∈ ((cfg3.win 3).blk t).view.set := by
  have hi0 : (i 0).val < 50176 := (i 0).isLt
  have hi1 : (i 1).val < 128 := (i 1).isLt
  have hlt : 831 * ((i 0).val / 1024) + 830 < cfg3.N := by rw [show cfg3.N = 40719 from N_3]; omega
  have hm : (831 * ((i 0).val / 1024) + 830) % 831 = 830 := by omega
  have hd : (831 * ((i 0).val / 1024) + 830) / 831 = (i 0).val / 1024 := by omega
  refine ⟨⟨831 * ((i 0).val / 1024) + 830, hlt⟩, flush3_3_of _ hm, ?_⟩
  rw [mem_blk3]
  intro a
  match a with
  | ⟨0, _⟩ =>
    show win3_3.index ⟨831 * ((i 0).val / 1024) + 830, hlt⟩ 0 * 1024 ≤ (i 0).val ∧ (i 0).val < win3_3.index ⟨831 * ((i 0).val / 1024) + 830, hlt⟩ 0 * 1024 + 1024
    rw [(index3_3 _).1]
    show (831 * ((i 0).val / 1024) + 830) / 831 * 1024 ≤ (i 0).val ∧ (i 0).val < (831 * ((i 0).val / 1024) + 830) / 831 * 1024 + 1024
    rw [hd]; omega
  | ⟨1, _⟩ =>
    show win3_3.index ⟨831 * ((i 0).val / 1024) + 830, hlt⟩ 1 * 128 ≤ (i 1).val ∧ (i 1).val < win3_3.index ⟨831 * ((i 0).val / 1024) + 830, hlt⟩ 1 * 128 + 128
    rw [(index3_3 _).2]; omega

/-- THE OUTPUT ARRAY after the call is the specification of the scatter call at the three arrays it is given. -/
theorem final : ((dat3 (F := Ideal) V c).arrAt 3 cfg3.N : S50176x128.Idx → EReal)
    = Cert.Spec.scatterOut (V c main_v40) (V c main_v53) (V c main_v54) :=
  (dat3 V c).arrAt_eq_of_cover 3 (Cert.Spec.scatterOut (dstA V c) (msgA V c) (biasA V c)) (fun t hf => flushed_eq V c t hf) cover3

end Value

end Val3

/-- The output array of the second scatter call is the scatter specification of its destination row, message matrix and bias. -/
theorem final3 (V : (c : Dev nD) → (b : Ref sig .tc) → Buf (Elt Ideal) ((c : Thread nD τ).loc b)) (c : Dev nD) :
    ((dat3 (F := Ideal) V c).arrAt 3 cfg3.N : S50176x128.Idx → EReal)
      = Cert.Spec.scatterOut (V c main_v40) (V c main_v53) (V c main_v54) := Val3.final V c

end Cert.KernelIdeal.Gen
end
-- ==== Proof.ConvLaw.lean ====
/-
  One graph-convolution layer from its two calls, as mathematics over the extended reals.

  The scatter call sums over all 850944 padded edges, and each edge's row is itself a sum over all
  50176 padded node rows. A padding edge has weight 0, so every term of its row is
  (indicator) * 0 * (entry) = 0 and the row contributes (indicator) * 0 = 0: in the extended reals
  0 * x = x * 0 = 0 for every x, the infinities included. For a real edge e exactly one node row
  has a non-zero indicator, the row numbered by the source of e, so the row is 1 * w e * h[src e, d].
  Only commutativity of the product, the absorbing zero, the unit, and re-indexing of finite sums
  are used; no finiteness of any entry is needed.
-/
import proofs.«179232_j88021059764774_1_alg».proof.Proof.Spec

noncomputable section

namespace Cert.Spec

open Idealize.ShloMosaic Idealize.ShloMosaic.ValueIdx
open scoped BigOperators

/-- A sum over M indices whose terms vanish from index N on is the sum over the first N indices. -/
theorem sum_pad {N M : ℕ} (hNM : N ≤ M) (f : Fin M → EReal) (hz : ∀ e : Fin M, N ≤ e.val → f e = 0) :
    ∑ e, f e = ∑ e : Fin N, f (Fin.castLE hNM e) := by
  obtain ⟨k, rfl⟩ := Nat.exists_eq_add_of_le hNM
  have h2 : ∑ i : Fin k, f (Fin.natAdd N i) = 0 :=
    Finset.sum_eq_zero (fun i _ => hz _ (by simp))
  rw [Fin.sum_univ_add, h2, add_zero]
  rfl

/-- The indicator against a small natural number: 1 exactly at the number the bit pattern encodes. -/
theorem ind_ofNat (a : BitVec 32) (k : ℕ) (hk : k < 2 ^ 32) :
    ind a (BitVec.ofNat 32 k) = if k = a.toNat then 1 else 0 := by
  unfold ind
  by_cases hka : k = a.toNat
  · subst hka
    simp
  · rw [if_neg hka, if_neg]
    intro hab
    apply hka
    rw [hab, BitVec.toNat_ofNat, Nat.mod_eq_of_lt hk]

/-- A real edge's gathered row is its source row times its weight. -/
theorem gather_real (src : Fin 850000 → BitVec 32) (w : Fin 850000 → EReal)
    (h : (⟨2, ![50000, 128]⟩ : Shape).Idx → EReal) (hsrc : ∀ e, (src e).toNat < 50000)
    (e : Fin 850000) (d : Fin 128) :
    gatherOut (padCol 0#32 src) (padCol (0 : EReal) w) (padRows h)
        (ix2 (Fin.castLE (by norm_num) e : Fin 850944) d)
      = h (ix2 (⟨(src e).toNat % 50000, Nat.mod_lt _ (by norm_num)⟩ : Fin 50000) d) * w e := by
  have hs := hsrc e
  have hlt : (Fin.castLE (by norm_num : 850000 ≤ 850944) e).val < 850000 := e.isLt
  have hsrcE : padCol 0#32 src (ix2 (Fin.castLE (by norm_num : 850000 ≤ 850944) e) (0 : Fin 1)) = src e := by
    unfold padCol
    exact dif_pos hlt
  have hwE : padCol (0 : EReal) w (ix2 (Fin.castLE (by norm_num : 850000 ≤ 850944) e) (0 : Fin 1)) = w e := by
    unfold padCol
    exact dif_pos hlt
  show ∑ k : Fin 50176, ind (padCol 0#32 src (ix2 (Fin.castLE (by norm_num : 850000 ≤ 850944) e) (0 : Fin 1))) (BitVec.ofNat 32 k.val)
      * padCol (0 : EReal) w (ix2 (Fin.castLE (by norm_num : 850000 ≤ 850944) e) (0 : Fin 1)) * padRows h (ix2 k d) = _
  rw [hsrcE, hwE]
  rw [Finset.sum_eq_single (⟨(src e).toNat, by omega⟩ : Fin 50176)]
  · rw [ind_ofNat _ _ (by show (src e).toNat < 2 ^ 32; omega), if_pos rfl, one_mul, mul_comm]
    congr 1
    unfold padRows
    rw [dif_pos (show ((ix2 (⟨(src e).toNat, by omega⟩ : Fin 50176) d) 0).val < 50000 from hs)]
    congr 2
    apply Fin.ext
    show (src e).toNat = (src e).toNat % 50000
    rw [Nat.mod_eq_of_lt hs]
  · intro k _ hk
    rw [ind_ofNat _ _ (by have := k.isLt; omega), if_neg, zero_mul, zero_mul]
    intro hk'
    apply hk
    apply Fin.ext
    exact hk'
  · intro hk
    exact absurd (Finset.mem_univ _) hk

/-- A padding edge's gathered row is zero: its weight is zero. -/
theorem gather_pad (src : Fin 850000 → BitVec 32) (w : Fin 850000 → EReal)
    (H : (⟨2, ![50176, 128]⟩ : Shape).Idx → EReal) (e : Fin 850944) (he : 850000 ≤ e.val) (d : Fin 128) :
    gatherOut (padCol 0#32 src) (padCol (0 : EReal) w) H (ix2 e d) = 0 := by
  have hwE : padCol (0 : EReal) w (ix2 e (0 : Fin 1)) = 0 := by
    unfold padCol
    exact dif_neg (by show ¬ e.val < 850000; omega)
  show ∑ k : Fin 50176, ind (padCol 0#32 src (ix2 e (0 : Fin 1))) (BitVec.ofNat 32 k.val)
      * padCol (0 : EReal) w (ix2 e (0 : Fin 1)) * H (ix2 k d) = 0
  rw [hwE]
  apply Finset.sum_eq_zero
  intro k _
  rw [mul_zero, zero_mul]

/-- One padded gather call followed by one padded scatter call is one graph-convolution layer. -/
theorem conv_law (src dst : Fin 850000 → BitVec 32) (w : Fin 850000 → EReal)
    (h : (⟨2, ![50000, 128]⟩ : Shape).Idx → EReal) (b : Fin 128 → EReal)
    (hsrc : ∀ e, (src e).toNat < 50000) (j : (⟨2, ![50000, 128]⟩ : Shape).Idx) :
    scatterOut (padRow 0#32 dst) (gatherOut (padCol 0#32 src) (padCol (0 : EReal) w) (padRows h)) (fun i => b (i 1))
        (ix2 (⟨(j 0).val, by have := idx2_lt0 j; omega⟩ : Fin 50176) (j 1))
      = convSpec src dst w h b j := by
  show max ((∑ e : Fin 850944, ind (BitVec.ofNat 32 (j 0).val) (padRow 0#32 dst (ix2 (0 : Fin 1) e))
        * gatherOut (padCol 0#32 src) (padCol (0 : EReal) w) (padRows h) (ix2 e (j 1))) + b (j 1)) 0
      = max ((∑ e : Fin 850000, ind (BitVec.ofNat 32 (j 0).val) (dst e)
        * (h (ix2 (⟨(src e).toNat % 50000, Nat.mod_lt _ (by norm_num)⟩ : Fin 50000) (j 1)) * w e)) + b (j 1)) 0
  refine congrArg (fun x => max (x + b (j 1)) 0) ?_
  rw [sum_pad (by norm_num : 850000 ≤ 850944)]
  · apply Finset.sum_congr rfl
    intro e _
    rw [gather_real src w h hsrc e (j 1)]
    congr 2
    unfold padRow
    exact dif_pos e.isLt
  · intro e he
    rw [gather_pad src w _ e he (j 1), mul_zero]

end Cert.Spec

end
-- ==== Proof.Alg.lean ====
/-
  The idealized kernel program's result as one term of the specification: each layer's two calls, with the host
  operations that pad their operands, compute `convSpec` of the edge lists, the edge weights, the projected
  features and the bias (the law joining the padded one-hot sums to one sum over the real edges); the second
  layer is fed the first's rows multiplied by the second weight matrix; the pooled head is applied last.
-/
import proofs.«179232_j88021059764774_1_alg».proof.Proof.KI.Outs2
import proofs.«179232_j88021059764774_1_alg».proof.Proof.KI.Val0
import proofs.«179232_j88021059764774_1_alg».proof.Proof.KI.Val1
import proofs.«179232_j88021059764774_1_alg».proof.Proof.KI.Val2
import proofs.«179232_j88021059764774_1_alg».proof.Proof.KI.Val3
import proofs.«179232_j88021059764774_1_alg».proof.Proof.KHost
import proofs.«179232_j88021059764774_1_alg».proof.Proof.ConvLaw

set_option maxRecDepth 16384

noncomputable section

namespace Cert.Alg

open Idealize.ShloMosaic Idealize.ShloMosaic.TcCoe Idealize.ShloMosaic.ValueIdx Idealize.SL.Sem
open Cert.KernelIdeal Cert.KernelIdeal.Gen Cert.KHost Cert.Spec

variable (m : (ℓ : Loc nD τ sig) → Buf (Elt Ideal) ℓ) (c : Dev nD)

/-- The kernel's layer as the specification states it, from the padded forms. -/
theorem layer_eq (src dst : Fin 850000 → BitVec 32) (w : Fin 850000 → EReal) (h : S50000x128.Idx → EReal) (b : S128.Idx → EReal)
    (hsrc : ∀ e, (src e).toNat < 50000) :
    rows50000 (scatterOut (padRow 0#32 dst) (gatherOut (padCol 0#32 src) (padCol (0 : EReal) w) (padRows h)) (fun i => b (ix1 (i 1))))
      = convSpec src dst w h (fun d => b (ix1 d)) := by
  funext j
  exact conv_law src dst w h (fun d => b (ix1 d)) hsrc j

/-- What the first gather call leaves. -/
theorem out4_eq : outs4 m 4 main_v45 c
    = gatherOut (padCol 0#32 (srcK (m ((c : Thread nD τ).loc main_arg1)))) (padCol (0 : EReal) (nrmK (m ((c : Thread nD τ).loc main_arg1)))) (padRows (h0K (m ((c : Thread nD τ).loc main_arg0)) (m ((c : Thread nD τ).loc main_arg3)))) := by
  have h := (O4_arr m c 3).trans (final0 (VV3 m) c)
  rw [show VV3 m c main_v38 = V3 m c main_v38 from rfl, show VV3 m c main_v39 = V3 m c main_v39 from rfl,
    show VV3 m c main_v44 = V3 m c main_v44 from rfl, V3_v38 m c, V3_v39 m c, V3_v44 m c] at h
  exact h

/-- What the first scatter call leaves. -/
theorem out6_eq : outs6 m 6 main_v47 c
    = scatterOut (padRow 0#32 (dstK (m ((c : Thread nD τ).loc main_arg1)))) (outs4 m 4 main_v45 c) (fun i => (m ((c : Thread nD τ).loc main_arg4)) (ix1 (i 1))) := by
  have h := (O6_arr m c 3).trans (final1 (VV5 m) c)
  rw [show VV5 m c main_v40 = V5 m (outs4 m) c main_v40 from rfl, show VV5 m c main_v45 = V5 m (outs4 m) c main_v45 from rfl,
    show VV5 m c main_v46 = V5 m (outs4 m) c main_v46 from rfl, V5_v40 m (outs4 m) c, V5_v45 m (outs4 m) c, V5_v46 m (outs4 m) c, V3_v40 m c] at h
  exact h

/-- What the second gather call leaves. -/
theorem out8_eq : outs8 m 8 main_v53 c
    = gatherOut (padCol 0#32 (srcK (m ((c : Thread nD τ).loc main_arg1)))) (padCol (0 : EReal) (nrmK (m ((c : Thread nD τ).loc main_arg1))))
        (padRows (h1K (rows50000 (outs6 m 6 main_v47 c)) (m ((c : Thread nD τ).loc main_arg5)))) := by
  have h := (O8_arr m c 3).trans (final2 (VV7 m) c)
  rw [show VV7 m c main_v38 = V7 m (outs6 m) c main_v38 from rfl, show VV7 m c main_v39 = V7 m (outs6 m) c main_v39 from rfl,
    show VV7 m c main_v52 = V7 m (outs6 m) c main_v52 from rfl, V7_v38 m (outs6 m) c, V7_v39 m (outs6 m) c, V7_v52 m (outs6 m) c,
    V3_v38 m c, V3_v39 m c] at h
  exact h

/-- What the second scatter call leaves. -/
theorem out10_eq : outs m 10 main_v55 c
    = scatterOut (padRow 0#32 (dstK (m ((c : Thread nD τ).loc main_arg1)))) (outs8 m 8 main_v53 c) (fun i => (m ((c : Thread nD τ).loc main_arg6)) (ix1 (i 1))) := by
  have h := (O10_arr m c 3).trans (final3 (VV9 m) c)
  rw [show VV9 m c main_v40 = V9 m (outs8 m) c main_v40 from rfl, show VV9 m c main_v53 = V9 m (outs8 m) c main_v53 from rfl,
    show VV9 m c main_v54 = V9 m (outs8 m) c main_v54 from rfl, V9_v40 m (outs8 m) c, V9_v53 m (outs8 m) c, V9_v54 m (outs8 m) c, V3_v40 m c] at h
  exact h

/-- The idealized kernel program's result, as the specification's term of the arguments. -/
theorem kernel_result (hsrc : ∀ e, (srcK (m ((c : Thread nD τ).loc main_arg1)) e).toNat < 50000) :
    (V11 m (outs m) c main_v72 : S64x10.Idx → EReal)
      = tailK (m ((c : Thread nD τ).loc main_arg2))
          (convSpec (srcK (m ((c : Thread nD τ).loc main_arg1))) (dstK (m ((c : Thread nD τ).loc main_arg1))) (nrmK (m ((c : Thread nD τ).loc main_arg1)))
            (h1K (convSpec (srcK (m ((c : Thread nD τ).loc main_arg1))) (dstK (m ((c : Thread nD τ).loc main_arg1))) (nrmK (m ((c : Thread nD τ).loc main_arg1))) (h0K (m ((c : Thread nD τ).loc main_arg0)) (m ((c : Thread nD τ).loc main_arg3))) (fun d => (m ((c : Thread nD τ).loc main_arg4)) (ix1 d))) (m ((c : Thread nD τ).loc main_arg5)))
            (fun d => (m ((c : Thread nD τ).loc main_arg6)) (ix1 d)))
          (m ((c : Thread nD τ).loc main_arg7)) (m ((c : Thread nD τ).loc main_arg8)) := by
  rw [V11_v72 m (outs m) c, out10_eq m c, out8_eq m c, out6_eq m c, out4_eq m c,
    layer_eq _ _ _ _ _ hsrc, layer_eq _ _ _ _ _ hsrc]

end Cert.Alg

end
-- ==== Proof.PreDecode.lean ====
/-
  The precondition decoded: the source row of the edge list names nodes.

  The precondition is a conjunction, one bit, of "every entry is finite" for each float argument and, last,
  "every entry x of row 0 of the edge list has 0 ≤ x and x < 50000", both comparisons signed. The claim states that
  the bit is 1. A conjunction that is 1 has both conjuncts 1; a reduction by "and" over all entries that is 1 met a 1
  at every entry; the entry at position e of the reshaped row-0 slice is the edge list's entry (0, e). A 32-bit word
  that is nonnegative read signed has its top bit clear, so it reads the same unsigned, and then "below 50000 signed"
  is "below 50000 unsigned".
-/
import proofs.«179232_j88021059764774_1_alg».proof.Pre_finite_inputs
import Idealize.ShloMosaic.Lib.ReduceAll
import Idealize.ShloMosaic.Lib.ValueLayout

noncomputable section

namespace Cert.PreDecode

open Idealize.ShloMosaic Cert.Pre_finite_inputs

/-- The rank-0 shape has one index. -/
instance : Subsingleton S_.Idx := ⟨fun a b => funext fun d => d.elim0⟩

/-- A 32-bit word in [0, n) read signed (n below 2³¹) is below n read unsigned. -/
theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  rw [IntOp.cmpi_sge, show (0#32 : BitVec 32).toInt = 0 from by decide] at h0
  rw [IntOp.cmpi_slt, BitVec.toInt_ofNat', Int.bmod_eq_of_le (by omega) (by omega)] at h1
  have hc := BitVec.toInt_eq_toNat_cond w
  split at hc <;> omega

/-- THE PRECONDITION DECODED: every entry of row 0 of the edge list, read unsigned, is a node number below 50000. -/
theorem src_row_in_range [Facts] (a0 : FVec Ideal S50000x64 .f32) (a1 : IVec S2x800000 32) (a2 : IVec S50000 32)
    (a3 : FVec Ideal S64x128 .f32) (a4 : FVec Ideal S128 .f32) (a5 : FVec Ideal S128x128 .f32) (a6 : FVec Ideal S128 .f32)
    (a7 : FVec Ideal S128x10 .f32) (a8 : FVec Ideal S10 .f32)
    (h : Cert.Pre_finite_inputs.fn (F := Ideal) a0 a1 a2 a3 a4 a5 a6 a7 a8 = fun _ => 1#1) (e : Fin 800000) :
    (a1 (ValueIdx.ix2 (0 : Fin 2) e)).toNat < 50000 := by
  have h0 := congrFun h ValueIdx.ix0
  dsimp only [fn, fn_part1, fn_part2] at h0
  obtain ⟨-, hr⟩ := IntOp.andi_eq_one.1 h0
  have hp := Host.reduce_andi_all _ _ _ _ _ hr (ValueIdx.ix1 e)
  obtain ⟨hge, hlt⟩ := IntOp.andi_eq_one.1 hp
  -- position e of the reshaped row-0 slice is entry (0, e) of the edge list
  have hx : shapeCast S800000 (extractStridedSlice S1x800000 ![0, 0] a1 Facts.slices_S2x800000_S1x800000_0_0)
      Facts.shapeCasts_S1x800000_S800000 (ValueIdx.ix1 e) = a1 (ValueIdx.ix2 (0 : Fin 2) e) := by
    rw [ValueIdx.shapeCast_1a_a_apply]
    exact extractStridedSlice_apply _ _ _ _ _ fun a => by
      match a with
      | ⟨0, _⟩ => rfl
      | ⟨1, _⟩ => exact (Nat.zero_add _).symm
  rw [← hx]
  exact toNat_lt_of_signed _ 50000 (by decide) hge hlt

end Cert.PreDecode

end
-- ==== Proof.lean ====
/-
  The certificate of a two-layer graph convolution computed by four kernel calls — per layer a gather call
  (row e of its result is the source row of edge e scaled by the edge's weight, as a one-hot matrix product
  accumulated over blocks of node rows) and a scatter call (row n of its result is the rectified sum of the
  rows of the edges arriving at n, plus the bias, as a one-hot matrix product accumulated over blocks of edges) —
  against a reference that gathers rows by index and sums them by segment.

  Frames: the word-level program and its idealization run to the end, fault nowhere and leave their arguments
  unchanged (each call entered and left through its segment record, its accumulator carried in the invariant
  between grid points); the reference's frame is its run with the result dropped.
  Values: over the extended reals both programs compute, layer by layer, one sum over the 850000 edges,
  `max (Σ_e [n = dst e] · (h[src e, d] · w e) + b d) 0`. The kernel's padded one-hot sums collapse to it because
  a padded edge has weight 0 and the indicator of a source index selects exactly one node row — which needs the
  source indices to lie in the range of the node rows, the one domain condition added to the precondition; no
  finiteness is used. Edge lists, weights, the dense projections and the pooled head are the same host
  operations in both programs.
-/
import proofs.«179232_j88021059764774_1_alg».proof.Defs
import proofs.«179232_j88021059764774_1_alg».proof.Proof.Gen.Kernel
import proofs.«179232_j88021059764774_1_alg».proof.Proof.Gen.KernelIdeal
import proofs.«179232_j88021059764774_1_alg».proof.Proof.Gen.ReferenceIdeal
import proofs.«179232_j88021059764774_1_alg».proof.Proof.Gen.Pre_finite_inputs
import proofs.«179232_j88021059764774_1_alg».proof.Proof.KB.Frame
import proofs.«179232_j88021059764774_1_alg».proof.Proof.KI.Frame
import proofs.«179232_j88021059764774_1_alg».proof.Proof.KI.RunVal
import proofs.«179232_j88021059764774_1_alg».proof.Proof.RefRunP
import proofs.«179232_j88021059764774_1_alg».proof.Proof.RefLayer
import proofs.«179232_j88021059764774_1_alg».proof.Proof.RefEdges
import proofs.«179232_j88021059764774_1_alg».proof.Proof.Meet
import proofs.«179232_j88021059764774_1_alg».proof.Proof.Alg
import proofs.«179232_j88021059764774_1_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem

set_option maxHeartbeats 4000000 in
theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frameH (F := Bits) m ρ, fun m ρ _ => Cert.KernelIdeal.Gen.frameH (F := Ideal) m ρ,
    fun m ρ _ => (θ_run Cert.ReferenceIdeal.defs _ _).mono (fun _ h c => (h c).2) (Cert.ReferenceIdeal.ValueP.run (F := Ideal) m ρ),
    trivial, ?_⟩
  intro m ρ m' ρ' hpre hagree
  refine ⟨fun c => Cert.KernelIdeal.Gen.V11 m (Cert.KernelIdeal.Gen.outs m) c Cert.KernelIdeal.main_v72,
    Cert.KernelIdeal.Gen.runH (F := Ideal) m ρ, ?_⟩
  refine (θ_run Cert.ReferenceIdeal.defs _ _).mono (fun r h c => ⟨(h c).1.trans ?_, (h c).2⟩)
    (Cert.ReferenceIdeal.ValueP.run (F := Ideal) m' ρ')
  -- the source indices are node rows: the precondition's domain conjunct, then the self loops
  have hs : ∀ e, (Cert.KHost.srcK (m ((c.tc : Thread Cert.KernelIdeal.nD Cert.KernelIdeal.τ).loc Cert.KernelIdeal.main_arg1)) e).toNat < 50000 :=
    Cert.KHost.srcK_lt _ (fun e => Cert.PreDecode.src_row_in_range _ _ _ _ _ _ _ _ _ (hpre c) e)
  obtain ⟨h0, h1, h2, h3, h4, h5, h6, h7, h8⟩ := hagree c
  have hs' : ∀ e, (Cert.RefSide.srcR (m' ((c.tc : Thread Cert.ReferenceIdeal.nD Cert.ReferenceIdeal.τ).loc Cert.ReferenceIdeal.main_arg1)) e).toNat < 50000 := by
    rw [h1, ← Cert.Meet.src_eq]; exact hs
  rw [Cert.RefSide.ref_result m' c hs', h0, h1, h2, h3, h4, h5, h6, h7, h8]
  exact ((Cert.Alg.kernel_result m c hs).trans (by
    rw [Cert.Meet.src_eq, Cert.Meet.dst_eq, Cert.Meet.nrm_eq, Cert.Meet.h0_eq, Cert.Meet.h1_eq, Cert.Meet.tail_eq])).symm⟩

end Cert.Proof

end
